-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x256 : Shape := ⟨3, ![64, 256, 256]⟩
abbrev S2048x256 : Shape := ⟨2, ![2048, 256]⟩
abbrev S2048x512 : Shape := ⟨2, ![2048, 512]⟩
abbrev S2048 : Shape := ⟨1, ![2048]⟩
abbrev S128x512 : Shape := ⟨2, ![128, 512]⟩
abbrev S128 : Shape := ⟨1, ![128]⟩
abbrev S_ : Shape := ⟨0, ![]⟩

class Facts : Prop where
  bcast_S_S64x256x256 : S_.BroadcastsInDim S64x256x256 (![] : Fin 0 → Fin S64x256x256.rank)
  reducesTo_S64x256x256_S_d0_1_2 : S64x256x256.ReducesTo [0, 1, 2] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S2048 .f32) (main_arg8 : FVec F S2048 .f32) (main_arg9 : FVec F S128x512 .f32) (main_arg10 : FVec F S128 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S128x512 .f32 := Host.absf main_arg9
  let main_cst_16 : FVec F S_ .f32 := constant S_ .f32 0x7F800000#32
  let main_v45 : FVec F S128x512 .f32 := broadcastInDim S128x512 ![] bcast_S_S128x512 main_cst_16
  let main_v46 : IVec S128x512 1 := cmpf .olt main_v44 main_v45
  let main_c_17 : IVec S_ 1 := constantI S_ 1 1#1
  let main_v47 : IVec S_ 1 := (fun x v => Host.reduce IntOp.andi x v reducesTo_S128x512_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S2048 .f32) (main_arg5 : FVec F S2048x512 .f32) (main_arg6 : FVec F S2048x512 .f32) (main_arg7 : FVec F S2048 .f32) (main_arg8 : FVec F S2048 .f32) (main_arg9 : FVec F S128x512 .f32) (main_arg10 : FVec F S128 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048x512 .f32 := Host.absf main_arg6
  let main_cst_10 : FVec F S_ .f32 := constant S_ .f32 0x7F800000#32
  let main_v30 : FVec F S2048x512 .f32 := broadcastInDim S2048x512 ![] bcast_S_S2048x512 main_cst_10
  let main_v31 : IVec S2048x512 1 := cmpf .olt main_v29 main_v30
  let main_c_11 : IVec S_ 1 := constantI S_ 1 1#1
  let main_v32 : IVec S_ 1 := (fun x v => Host.reduce IntOp.andi x v reducesTo_S2048x512_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S64x256x256 .f32) (main_arg1 : FVec F S2048x256 .f32) (main_arg2 : FVec F S2048x512 .f32) (main_arg3 : FVec F S2048 .f32) (main_arg4 : FVec F S2048 .f32) (main_arg5 : FVec F S2048x512 .f32) (main_arg6 : FVec F S2048x512 .f32) (main_arg7 : FVec F S2048 .f32) (main_arg8 : FVec F S2048 .f32) (main_arg9 : FVec F S128x512 .f32) (main_arg10 : FVec F S128 .f32) : IVec S_ 1 :=
  let main_v0 : FVec F S64x256x256 .f32 := Host.absf main_arg0
  let main_cst : FVec F S_ .f32 := constant S_ .f32 0x7F800000#32
  let main_v1 : FVec F S64x256x256 .f32 := broadcastInDim S64x256x256 ![] bcast_S_S64x256x256 main_cst
  let main_v2 : IVec S64x256x256 1 := cmpf .olt main_v0 main_v1
  let main_c : IVec S_ 1 := constantI S_ 1 1#1
  let main_v3 : IVec S_ 1 := (fun x v => Host.reduce IntOp.andi x v reducesTo_S64x256x256_S_d0_1_2 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_v13 main_v16
-- ==== Kernel.lean ====
abbrev S64x256x256 : Shape := ⟨3, ![64, 256, 256]⟩
abbrev S2048x256 : Shape := ⟨2, ![2048, 256]⟩
abbrev S2048x512 : Shape := ⟨2, ![2048, 512]⟩
abbrev S2048 : Shape := ⟨1, ![2048]⟩
abbrev S128x512 : Shape := ⟨2, ![128, 512]⟩
abbrev S128 : Shape := ⟨1, ![128]⟩
abbrev S256x64x256 : Shape := ⟨3, ![256, 64, 256]⟩
abbrev S16384x256 : Shape := ⟨2, ![16384, 256]⟩
abbrev S256x2048 : Shape := ⟨2, ![256, 2048]⟩
abbrev S512x2048 : Shape := ⟨2, ![512, 2048]⟩
abbrev S1x2048 : Shape := ⟨2, ![1, 2048]⟩
abbrev S512x128 : Shape := ⟨2, ![512, 128]⟩
abbrev S1x128 : Shape := ⟨2, ![1, 128]⟩
abbrev S64x128 : Shape := ⟨2, ![64, 128]⟩
abbrev S128x128 : Shape := ⟨2, ![128, 128]⟩
abbrev S1024x256 : Shape := ⟨2, ![1024, 256]⟩
abbrev S64x512 : Shape := ⟨2, ![64, 512]⟩
abbrev S1024x2048 : Shape := ⟨2, ![1024, 2048]⟩
abbrev S64x2048 : Shape := ⟨2, ![64, 2048]⟩
abbrev S64x1024 : Shape := ⟨2, ![64, 1024]⟩
abbrev S1024x512 : Shape := ⟨2, ![1024, 512]⟩

abbrev nBuf : Space → Nat
  | .hbm => 32
  | .vmem => 17
  | .smem => 0
  | _ => 0

abbrev bufTy : (tb : Table) → Fin (tcTables nBuf tb) → BufTy
  | .hbm, ⟨0, _⟩ => ⟨S64x256x256, .f32⟩
  | .hbm, ⟨1, _⟩ => ⟨S2048x256, .f32⟩
  | .hbm, ⟨2, _⟩ => ⟨S2048x512, .f32⟩
  | .hbm, ⟨3, _⟩ => ⟨S2048, .f32⟩
  | .hbm, ⟨4, _⟩ => ⟨S2048, .f32⟩
  | .hbm, ⟨5, _⟩ => ⟨S2048x512, .f32⟩
  | .hbm, ⟨6, _⟩ => ⟨S2048x512, .f32⟩
  | .hbm, ⟨7, _⟩ => ⟨S2048, .f32⟩
  | .hbm, ⟨8, _⟩ => ⟨S2048, .f32⟩
  | .hbm, ⟨9, _⟩ => ⟨S128x512, .f32⟩
  | .hbm, ⟨10, _⟩ => ⟨S128, .f32⟩
  | .hbm, ⟨11, _⟩ => ⟨S256x64x256, .f32⟩
  | .hbm, ⟨12, _⟩ => ⟨S16384x256, .f32⟩
  | .hbm, ⟨13, _⟩ => ⟨S16384x256, .bf16⟩
  | .hbm, ⟨14, _⟩ => ⟨S256x2048, .f32⟩
  | .hbm, ⟨15, _⟩ => ⟨S256x2048, .bf16⟩
  | .hbm, ⟨16, _⟩ => ⟨S512x2048, .f32⟩
  | .hbm, ⟨17, _⟩ => ⟨S512x2048, .bf16⟩
  | .hbm, ⟨18, _⟩ => ⟨S2048, .f32⟩
  | .hbm, ⟨19, _⟩ => ⟨S1x2048, .f32⟩
  | .hbm, ⟨20, _⟩ => ⟨S512x2048, .f32⟩
  | .hbm, ⟨21, _⟩ => ⟨S512x2048, .bf16⟩
  | .hbm, ⟨22, _⟩ => ⟨S512x2048, .f32⟩
  | .hbm, ⟨23, _⟩ => ⟨S512x2048, .bf16⟩
  | .hbm, ⟨24, _⟩ => ⟨S2048, .f32⟩
  | .hbm, ⟨25, _⟩ => ⟨S1x2048, .f32⟩
  | .hbm, ⟨26, _⟩ => ⟨S512x128, .f32⟩
  | .hbm, ⟨27, _⟩ => ⟨S512x128, .bf16⟩
  | .hbm, ⟨28, _⟩ => ⟨S1x128, .f32⟩
  | .hbm, ⟨29, _⟩ => ⟨S64x128, .f32⟩
  | .hbm, ⟨30, _⟩ => ⟨S64x128, .f32⟩
  | .hbm, ⟨31, _⟩ => ⟨S128x128, .f32⟩
  | .local _ .vmem, ⟨0, _⟩ => ⟨S1024x256, .bf16⟩
  | .local _ .vmem, ⟨1, _⟩ => ⟨S1024x256, .bf16⟩
  | .local _ .vmem, ⟨2, _⟩ => ⟨S256x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S512x128, .bf16⟩
  | .local _ .vmem, ⟨9, _⟩ => ⟨S1x128, .f32⟩
  | .local _ .vmem, ⟨10, _⟩ => ⟨S64x128, .f32⟩
  | .local _ .vmem, ⟨11, _⟩ => ⟨S64x128, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S1024x2048, .bf16⟩
  | _, _ => ⟨S64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18_0 : Ref sig .tc := ⟨.hbm, 29, rfl⟩
abbrev main_call0_v18_1 : Ref sig .tc := ⟨.hbm, 30, rfl⟩
abbrev main_v0 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v998 : BitVec 1 := Scalar.cmpi .eq arg0 c16_i32
  let v999 : BitVec 32 := Scalar.extui v998
  let c0_i32_280 : BitVec 32 := 0#32
  let v1000 : BitVec 1 := Scalar.cmpi .ne v999 c0_i32_280
  v1000

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

class Facts₀ : Prop where
  transposes_S64x256x256_S256x64x256_1_0_2 : S64x256x256.Transposes [1, 0, 2] S256x64x256
  shapeCasts_S256x64x256_S16384x256 : S256x64x256.ShapeCasts S16384x256
  bitsLt_bf16_f32 : FTy.bits .bf16 < FTy.bits .f32
  transposes_S2048x256_S256x2048_1_0 : S2048x256.Transposes [1, 0] S256x2048
  transposes_S2048x512_S512x2048_1_0 : S2048x512.Transposes [1, 0] S512x2048
  shapeCasts_S2048_S1x2048 : S2048.ShapeCasts S1x2048
  transposes_S128x512_S512x128_1_0 : S128x512.Transposes [1, 0] S512x128
  shapeCasts_S128_S1x128 : S128.ShapeCasts S1x128
  concatenates_S64x128_S64x128_S128x128_d0 : Shape.Concatenates [S64x128, S64x128] S128x128 0
  inb_S64x512_S64x512_0_0 : ∀ a, (![0, 0] : Fin 2 → Nat) a + S64x512.size a ≤ S64x512.size a
  h_S64x512 : 0 < S64x512.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  slices_S1024x2048_o0_0_S64x2048 : S1024x2048.Slices ![0, 0] S64x2048
  inb_S1024x2048_S64x2048_0_0 : ∀ a, (![0, 0] : Fin 2 → Nat) a + S64x2048.size a ≤ S1024x2048.size a
  h_S64x2048 : 0 < S64x2048.numel
  slices_S64x2048_o0_0_S64x1024 : S64x2048.Slices ![0, 0] S64x1024
  slices_S64x2048_o0_1024_S64x512 : S64x2048.Slices ![0, 1024] S64x512
  slices_S64x2048_o0_1536_S64x512 : S64x2048.Slices ![0, 1536] S64x512
  slices_S64x1024_o0_512_S64x512 : S64x1024.Slices ![0, 512] S64x512
  slices_S64x1024_o0_0_S64x512 : S64x1024.Slices ![0, 0] S64x512
  slices_S1024x2048_o64_0_S64x2048 : S1024x2048.Slices ![64, 0] S64x2048
  inb_S1024x2048_S64x2048_64_0 : ∀ a, (![64, 0] : Fin 2 → Nat) a + S64x2048.size a ≤ S1024x2048.size a
  slices_S1024x2048_o128_0_S64x2048 : S1024x2048.Slices ![128, 0] S64x2048
  inb_S1024x2048_S64x2048_128_0 : ∀ a, (![128, 0] : Fin 2 → Nat) a + S64x2048.size a ≤ S1024x2048.size a
  slices_S1024x2048_o192_0_S64x2048 : S1024x2048.Slices ![192, 0] S64x2048
  inb_S1024x2048_S64x2048_192_0 : ∀ a, (![192, 0] : Fin 2 → Nat) a + S64x2048.size a ≤ S1024x2048.size a
  slices_S1024x2048_o256_0_S64x2048 : S1024x2048.Slices ![256, 0] S64x2048
  inb_S1024x2048_S64x2048_256_0 : ∀ a, (![256, 0] : Fin 2 → Nat) a + S64x2048.size a ≤ S1024x2048.size a
  slices_S1024x2048_o320_0_S64x2048 : S1024x2048.Slices ![320, 0] S64x2048
  inb_S1024x2048_S64x2048_320_0 : ∀ a, (![320, 0] : Fin 2 → Nat) a + S64x2048.size a ≤ S1024x2048.size a
  slices_S1024x2048_o384_0_S64x2048 : S1024x2048.Slices ![384, 0] S64x2048
  inb_S1024x2048_S64x2048_384_0 : ∀ a, (![384, 0] : Fin 2 → Nat) a + S64x2048.size a ≤ S1024x2048.size a
  slices_S1024x2048_o448_0_S64x2048 : S1024x2048.Slices ![448, 0] S64x2048
  inb_S1024x2048_S64x2048_448_0 : ∀ a, (![448, 0] : Fin 2 → Nat) a + S64x2048.size a ≤ S1024x2048.size a
  slices_S1024x2048_o512_0_S64x2048 : S1024x2048.Slices ![512, 0] S64x2048
  inb_S1024x2048_S64x2048_512_0 : ∀ a, (![512, 0] : Fin 2 → Nat) a + S64x2048.size a ≤ S1024x2048.size a
  slices_S1024x2048_o576_0_S64x2048 : S1024x2048.Slices ![576, 0] S64x2048
  inb_S1024x2048_S64x2048_576_0 : ∀ a, (![576, 0] : Fin 2 → Nat) a + S64x2048.size a ≤ S1024x2048.size a
  slices_S1024x2048_o640_0_S64x2048 : S1024x2048.Slices ![640, 0] S64x2048
  inb_S1024x2048_S64x2048_640_0 : ∀ a, (![640, 0] : Fin 2 → Nat) a + S64x2048.size a ≤ S1024x2048.size a
  slices_S1024x2048_o704_0_S64x2048 : S1024x2048.Slices ![704, 0] S64x2048
  inb_S1024x2048_S64x2048_704_0 : ∀ a, (![704, 0] : Fin 2 → Nat) a + S64x2048.size a ≤ S1024x2048.size a
  slices_S1024x2048_o768_0_S64x2048 : S1024x2048.Slices ![768, 0] S64x2048
  inb_S1024x2048_S64x2048_768_0 : ∀ a, (![768, 0] : Fin 2 → Nat) a + S64x2048.size a ≤ S1024x2048.size a
  slices_S1024x2048_o832_0_S64x2048 : S1024x2048.Slices ![832, 0] S64x2048
  inb_S1024x2048_S64x2048_832_0 : ∀ a, (![832, 0] : Fin 2 → Nat) a + S64x2048.size a ≤ S1024x2048.size a
  slices_S1024x2048_o896_0_S64x2048 : S1024x2048.Slices ![896, 0] S64x2048
  inb_S1024x2048_S64x2048_896_0 : ∀ a, (![896, 0] : Fin 2 → Nat) a + S64x2048.size a ≤ S1024x2048.size a
  slices_S1024x2048_o960_0_S64x2048 : S1024x2048.Slices ![960, 0] S64x2048
  inb_S1024x2048_S64x2048_960_0 : ∀ a, (![960, 0] : Fin 2 → Nat) a + S64x2048.size a ≤ S1024x2048.size a
  concatenates_S64x512_S64x512_S64x512_S64x512_S64x512_S64x512_S64x512_S64x512_S64x512_S64x512_S64x512_S64x512_S64x512_S64x512_S64x512_S64x512_S1024x512_d0 : Shape.Concatenates [S64x512, S64x512, S64x512, S64x512, S64x512, S64x512, S64x512, S64x512, S64x512, S64x512, S64x512, S64x512, S64x512, S64x512, S64x512, S64x512] S1024x512 0
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  packedbf16_S1024x2048_S1024x2048_0_0 : (Rect.unit (s := S1024x2048) ![0, 0] S1024x2048.size inb_S1024x2048_S1024x2048_0_0).PackedRows (EltTy.packing .bf16)
  shapeCasts_S64x512_S64x512 : S64x512.ShapeCasts S64x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S64x128_S64x128_0_0 : ∀ a, (![0, 0] : Fin 2 → Nat) a + S64x128.size a ≤ S64x128.size a
  h_S64x128 : 0 < S64x128.numel
  dot_S1024x256_S256x2048_S1024x2048_1_0_0_1_n_n_wf : DotDims.WF S1024x256 S256x2048 S1024x2048 [1] [0] [0] [1] [] []
  dot_S64x512_S512x2048_S64x2048_1_0_0_1_n_n_wf : DotDims.WF S64x512 S512x2048 S64x2048 [1] [0] [0] [1] [] []
  dot_S1024x512_S512x2048_S1024x2048_1_0_0_1_n_n_wf : DotDims.WF S1024x512 S512x2048 S1024x2048 [1] [0] [0] [1] [] []
  dot_S64x512_S512x128_S64x128_1_0_0_1_n_n_wf : DotDims.WF S64x512 S512x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .bf16 = 32 ∨ (Rect.block (s := S16384x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .bf16 = 32 ∨ (Rect.block (s := S256x2048) S256x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .bf16 = 32 ∨ (Rect.block (s := S512x2048) S512x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S512x128.size a
  hwx0_7 : ∀ i : grid0.Coords, EltTy.bits .bf16 = 32 ∨ (Rect.block (s := S512x128) S512x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S64x128.size a
  hwx0_9 : ∀ i : grid0.Coords, EltTy.bits .f32 = 32 ∨ (Rect.block (s := S64x128) S64x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x128.size a ≤ S64x128.size a
  hwx0_10 : ∀ i : grid0.Coords, EltTy.bits .f32 = 32 ∨ (Rect.block (s := S64x128) S64x128.size (cc0_transform_10 i) (hinb0_10 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf
def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf

abbrev win0_0 : Pipeline.Window sig grid0 :=
  Pipeline.Window.ofSpec (Memref.whole main_call0_v2) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v10) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v12) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v14) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v16) S512x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v17) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v18_0) S64x128.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v18_1) S64x128.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond1 i == 1#1) | 10 => fun i => !(k0_cond1 i == 1#1) | ⟨_ + 11, h⟩ => absurd h (Nat.not_lt.2 (Nat.le_add_left _ _))

class Facts : Prop extends Facts₀ where

variable [Facts]
-- ==== ReferenceIdeal.lean ====
abbrev S64x256x256 : Shape := ⟨3, ![64, 256, 256]⟩
abbrev S2048x256 : Shape := ⟨2, ![2048, 256]⟩
abbrev S2048x512 : Shape := ⟨2, ![2048, 512]⟩
abbrev S2048 : Shape := ⟨1, ![2048]⟩
abbrev S128x512 : Shape := ⟨2, ![128, 512]⟩
abbrev S128 : Shape := ⟨1, ![128]⟩
abbrev S512x128 : Shape := ⟨2, ![512, 128]⟩
abbrev S1x128 : Shape := ⟨2, ![1, 128]⟩
abbrev S256x64x256 : Shape := ⟨3, ![256, 64, 256]⟩
abbrev S256x2048 : Shape := ⟨2, ![256, 2048]⟩
abbrev S512x2048 : Shape := ⟨2, ![512, 2048]⟩
abbrev S1x2048 : Shape := ⟨2, ![1, 2048]⟩
abbrev S16384x256 : Shape := ⟨2, ![16384, 256]⟩
abbrev S16384x2048 : Shape := ⟨2, ![16384, 2048]⟩
abbrev S256x64x2048 : Shape := ⟨3, ![256, 64, 2048]⟩
abbrev S256x64x512 : Shape := ⟨3, ![256, 64, 512]⟩
abbrev S64x128 : Shape := ⟨2, ![64, 128]⟩
abbrev S16384x512 : Shape := ⟨2, ![16384, 512]⟩
abbrev S128x128 : Shape := ⟨2, ![128, 128]⟩
abbrev S512x256 : Shape := ⟨2, ![512, 256]⟩
abbrev S16x64x2048 : Shape := ⟨3, ![16, 64, 2048]⟩
abbrev S16x64x512 : Shape := ⟨3, ![16, 64, 512]⟩
abbrev S64x512 : Shape := ⟨2, ![64, 512]⟩
abbrev S1x64x2048 : Shape := ⟨3, ![1, 64, 2048]⟩
abbrev S64x2048 : Shape := ⟨2, ![64, 2048]⟩
abbrev S1x64x512 : Shape := ⟨3, ![1, 64, 512]⟩
abbrev S512x512 : Shape := ⟨2, ![512, 512]⟩

abbrev nBuf : Space → Nat
  | .hbm => 33
  | .vmem => 32
  | .smem => 0
  | _ => 0

abbrev bufTy : (tb : Table) → Fin (tcTables nBuf tb) → BufTy
  | .hbm, ⟨0, _⟩ => ⟨S64x256x256, .f32⟩
  | .hbm, ⟨1, _⟩ => ⟨S2048x256, .f32⟩
  | .hbm, ⟨2, _⟩ => ⟨S2048x512, .f32⟩
  | .hbm, ⟨3, _⟩ => ⟨S2048, .f32⟩
  | .hbm, ⟨4, _⟩ => ⟨S2048, .f32⟩
  | .hbm, ⟨5, _⟩ => ⟨S2048x512, .f32⟩
  | .hbm, ⟨6, _⟩ => ⟨S2048x512, .f32⟩
  | .hbm, ⟨7, _⟩ => ⟨S2048, .f32⟩
  | .hbm, ⟨8, _⟩ => ⟨S2048, .f32⟩
  | .hbm, ⟨9, _⟩ => ⟨S128x512, .f32⟩
  | .hbm, ⟨10, _⟩ => ⟨S128, .f32⟩
  | .hbm, ⟨11, _⟩ => ⟨S512x128, .f32⟩
  | .hbm, ⟨12, _⟩ => ⟨S1x128, .f32⟩
  | .hbm, ⟨13, _⟩ => ⟨S256x64x256, .f32⟩
  | .hbm, ⟨14, _⟩ => ⟨S256x2048, .f32⟩
  | .hbm, ⟨15, _⟩ => ⟨S512x2048, .f32⟩
  | .hbm, ⟨16, _⟩ => ⟨S2048, .f32⟩
  | .hbm, ⟨17, _⟩ => ⟨S1x2048, .f32⟩
  | .hbm, ⟨18, _⟩ => ⟨S16384x256, .f32⟩
  | .hbm, ⟨19, _⟩ => ⟨S16384x2048, .f32⟩
  | .hbm, ⟨20, _⟩ => ⟨S256x64x2048, .f32⟩
  | .hbm, ⟨21, _⟩ => ⟨S256x64x512, .f32⟩
  | .hbm, ⟨22, _⟩ => ⟨S64x128, .f32⟩
  | .hbm, ⟨23, _⟩ => ⟨S512x2048, .f32⟩
  | .hbm, ⟨24, _⟩ => ⟨S512x2048, .f32⟩
  | .hbm, ⟨25, _⟩ => ⟨S2048, .f32⟩
  | .hbm, ⟨26, _⟩ => ⟨S1x2048, .f32⟩
  | .hbm, ⟨27, _⟩ => ⟨S16384x512, .f32⟩
  | .hbm, ⟨28, _⟩ => ⟨S16384x2048, .f32⟩
  | .hbm, ⟨29, _⟩ => ⟨S256x64x2048, .f32⟩
  | .hbm, ⟨30, _⟩ => ⟨S256x64x512, .f32⟩
  | .hbm, ⟨31, _⟩ => ⟨S64x128, .f32⟩
  | .hbm, ⟨32, _⟩ => ⟨S128x128, .f32⟩
  | .local _ .vmem, ⟨0, _⟩ => ⟨S512x256, .f32⟩
  | .local _ .vmem, ⟨1, _⟩ => ⟨S512x256, .f32⟩
  | .local _ .vmem, ⟨2, _⟩ => ⟨S256x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S16x64x2048, .f32⟩
  | .local _ .vmem, ⟨7, _⟩ => ⟨S16x64x2048, .f32⟩
  | .local _ .vmem, ⟨8, _⟩ => ⟨S512x2048, .f32⟩
  | .local _ .vmem, ⟨9, _⟩ => ⟨S512x128, .f32⟩
  | .local _ .vmem, ⟨10, _⟩ => ⟨S1x128, .f32⟩
  | .local _ .vmem, ⟨11, _⟩ => ⟨S16x64x512, .f32⟩
  | .local _ .vmem, ⟨12, _⟩ => ⟨S16x64x512, .f32⟩
  | .local _ .vmem, ⟨13, _⟩ => ⟨S64x128, .f32⟩
  | .local _ .vmem, ⟨14, _⟩ => ⟨S64x512, .f32⟩
  | .local _ .vmem, ⟨15, _⟩ => ⟨S64x512, .f32⟩
  | .local _ .vmem, ⟨16, _⟩ => ⟨S512x512, .f32⟩
  | .local _ .vmem, ⟨17, _⟩ => ⟨S512x512, .f32⟩
  | .local _ .vmem, ⟨18, _⟩ => ⟨S512x2048, .f32⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S16x64x2048, .f32⟩
  | .local _ .vmem, ⟨23, _⟩ => ⟨S16x64x2048, .f32⟩
  | .local _ .vmem, ⟨24, _⟩ => ⟨S512x2048, .f32⟩
  | .local _ .vmem, ⟨25, _⟩ => ⟨S512x128, .f32⟩
  | .local _ .vmem, ⟨26, _⟩ => ⟨S1x128, .f32⟩
  | .local _ .vmem, ⟨27, _⟩ => ⟨S16x64x512, .f32⟩
  | .local _ .vmem, ⟨28, _⟩ => ⟨S16x64x512, .f32⟩
  | .local _ .vmem, ⟨29, _⟩ => ⟨S64x128, .f32⟩
  | .local _ .vmem, ⟨30, _⟩ => ⟨S64x512, .f32⟩
  | .local _ .vmem, ⟨31, _⟩ => ⟨S64x512, .f32⟩
  | _, _ => ⟨S64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10_0 : Ref sig .tc := ⟨.hbm, 21, rfl⟩
abbrev main_call0_v10_1 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18_0 : Ref sig .tc := ⟨.hbm, 30, rfl⟩
abbrev main_call0_v18_1 : Ref sig .tc := ⟨.hbm, 31, rfl⟩
abbrev main_v0 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc3_stg5_0 : Ref sig .tc := ⟨.vmem, 29, rfl⟩
abbrev cc3_scratch0 : Ref sig .tc := ⟨.vmem, 30, rfl⟩
abbrev cc3_scratch1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem4_1 : DmaSem sig := 26
abbrev cc3_sem5_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v271 : BitVec 1 := Scalar.cmpi .eq arg0 c15_i32
  let v272 : BitVec 32 := Scalar.extui v271
  let c0_i32_61 : BitVec 32 := 0#32
  let v273 : BitVec 1 := Scalar.cmpi .ne v272 c0_i32_61
  v273

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S16x64x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def k3_cond2 (i : grid3.Coords) : BitVec 1 :=
  let arg0 : BitVec 32 := BitVec.ofNat 32 (i 0).val
  let c15_i32 : BitVec 32 := 15#32
  let v271 : BitVec 1 := Scalar.cmpi .eq arg0 c15_i32
  let v272 : BitVec 32 := Scalar.extui v271
  let c0_i32_61 : BitVec 32 := 0#32
  let v273 : BitVec 1 := Scalar.cmpi .ne v272 c0_i32_61
  v273

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S16x64x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S512x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S16x64x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S64x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  transposes_S128x512_S512x128_1_0 : S128x512.Transposes [1, 0] S512x128
  shapeCasts_S128_S1x128 : S128.ShapeCasts S1x128
  transposes_S64x256x256_S256x64x256_1_0_2 : S64x256x256.Transposes [1, 0, 2] S256x64x256
  transposes_S2048x256_S256x2048_1_0 : S2048x256.Transposes [1, 0] S256x2048
  transposes_S2048x512_S512x2048_1_0 : S2048x512.Transposes [1, 0] S512x2048
  shapeCasts_S2048_S1x2048 : S2048.ShapeCasts S1x2048
  shapeCasts_S256x64x256_S16384x256 : S256x64x256.ShapeCasts S16384x256
  shapeCasts_S16384x2048_S256x64x2048 : S16384x2048.ShapeCasts S256x64x2048
  shapeCasts_S256x64x512_S16384x512 : S256x64x512.ShapeCasts S16384x512
  concatenates_S64x128_S64x128_S128x128_d0 : Shape.Concatenates [S64x128, S64x128] S128x128 0
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  shapeCasts_S512x2048_S512x2048 : S512x2048.ShapeCasts S512x2048
  inb_S16x64x2048_S1x64x2048_0_0_0 : ∀ a, (![0, 0, 0] : Fin 3 → Nat) a + S1x64x2048.size a ≤ S16x64x2048.size a
  h_S1x64x2048 : 0 < S1x64x2048.numel
  shapeCasts_S1x64x2048_S64x2048 : S1x64x2048.ShapeCasts S64x2048
  slices_S64x2048_o0_0_S64x512 : S64x2048.Slices ![0, 0] S64x512
  slices_S64x2048_o0_512_S64x512 : S64x2048.Slices ![0, 512] S64x512
  slices_S64x2048_o0_1024_S64x512 : S64x2048.Slices ![0, 1024] S64x512
  slices_S64x2048_o0_1536_S64x512 : S64x2048.Slices ![0, 1536] S64x512
  inb_S16x64x2048_S1x64x2048_1_0_0 : ∀ a, (![1, 0, 0] : Fin 3 → Nat) a + S1x64x2048.size a ≤ S16x64x2048.size a
  inb_S16x64x2048_S1x64x2048_2_0_0 : ∀ a, (![2, 0, 0] : Fin 3 → Nat) a + S1x64x2048.size a ≤ S16x64x2048.size a
  inb_S16x64x2048_S1x64x2048_3_0_0 : ∀ a, (![3, 0, 0] : Fin 3 → Nat) a + S1x64x2048.size a ≤ S16x64x2048.size a
  inb_S16x64x2048_S1x64x2048_4_0_0 : ∀ a, (![4, 0, 0] : Fin 3 → Nat) a + S1x64x2048.size a ≤ S16x64x2048.size a
  inb_S16x64x2048_S1x64x2048_5_0_0 : ∀ a, (![5, 0, 0] : Fin 3 → Nat) a + S1x64x2048.size a ≤ S16x64x2048.size a
  inb_S16x64x2048_S1x64x2048_6_0_0 : ∀ a, (![6, 0, 0] : Fin 3 → Nat) a + S1x64x2048.size a ≤ S16x64x2048.size a
  inb_S16x64x2048_S1x64x2048_7_0_0 : ∀ a, (![7, 0, 0] : Fin 3 → Nat) a + S1x64x2048.size a ≤ S16x64x2048.size a
  inb_S16x64x2048_S1x64x2048_8_0_0 : ∀ a, (![8, 0, 0] : Fin 3 → Nat) a + S1x64x2048.size a ≤ S16x64x2048.size a
  inb_S16x64x2048_S1x64x2048_9_0_0 : ∀ a, (![9, 0, 0] : Fin 3 → Nat) a + S1x64x2048.size a ≤ S16x64x2048.size a
  inb_S16x64x2048_S1x64x2048_10_0_0 : ∀ a, (![10, 0, 0] : Fin 3 → Nat) a + S1x64x2048.size a ≤ S16x64x2048.size a
  inb_S16x64x2048_S1x64x2048_11_0_0 : ∀ a, (![11, 0, 0] : Fin 3 → Nat) a + S1x64x2048.size a ≤ S16x64x2048.size a
  inb_S16x64x2048_S1x64x2048_12_0_0 : ∀ a, (![12, 0, 0] : Fin 3 → Nat) a + S1x64x2048.size a ≤ S16x64x2048.size a
  inb_S16x64x2048_S1x64x2048_13_0_0 : ∀ a, (![13, 0, 0] : Fin 3 → Nat) a + S1x64x2048.size a ≤ S16x64x2048.size a
  inb_S16x64x2048_S1x64x2048_14_0_0 : ∀ a, (![14, 0, 0] : Fin 3 → Nat) a + S1x64x2048.size a ≤ S16x64x2048.size a
  inb_S16x64x2048_S1x64x2048_15_0_0 : ∀ a, (![15, 0, 0] : Fin 3 → Nat) a + S1x64x2048.size a ≤ S16x64x2048.size a
  shapeCasts_S64x512_S1x64x512 : S64x512.ShapeCasts S1x64x512
  concatenates_S1x64x512_S1x64x512_S1x64x512_S1x64x512_S1x64x512_S1x64x512_S1x64x512_S1x64x512_S1x64x512_S1x64x512_S1x64x512_S1x64x512_S1x64x512_S1x64x512_S1x64x512_S1x64x512_S16x64x512_d0 : Shape.Concatenates [S1x64x512, S1x64x512, S1x64x512, S1x64x512, S1x64x512, S1x64x512, S1x64x512, S1x64x512, S1x64x512, S1x64x512, S1x64x512, S1x64x512, S1x64x512, S1x64x512, S1x64x512, S1x64x512] S16x64x512 0
  inb_S16x64x512_S16x64x512_0_0_0 : ∀ a, (![0, 0, 0] : Fin 3 → Nat) a + S16x64x512.size a ≤ S16x64x512.size a
  h_S16x64x512 : 0 < S16x64x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S64x128_S64x128_0_0 : ∀ a, (![0, 0] : Fin 2 → Nat) a + S64x128.size a ≤ S64x128.size a
  h_S64x128 : 0 < S64x128.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S512x256_S256x2048_S512x2048_1_0_0_1_n_n_wf : DotDims.WF S512x256 S256x2048 S512x2048 [1] [0] [0] [1] [] []
  dot_S64x512_S512x2048_S64x2048_1_0_0_1_n_n_wf : DotDims.WF S64x512 S512x2048 S64x2048 [1] [0] [0] [1] [] []
  dot_S64x512_S512x128_S64x128_1_0_0_1_n_n_wf : DotDims.WF S64x512 S512x128 S64x128 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .f32 = 32 ∨ (Rect.block (s := S256x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x64x2048.size a ≤ S256x64x2048.size a
  hwx1_0 : ∀ i : grid1.Coords, EltTy.bits .f32 = 32 ∨ (Rect.block (s := S256x64x2048) S16x64x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S512x2048.size a
  hwx1_1 : ∀ i : grid1.Coords, EltTy.bits .f32 = 32 ∨ (Rect.block (s := S512x2048) S512x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S512x128.size a
  hwx1_2 : ∀ i : grid1.Coords, EltTy.bits .f32 = 32 ∨ (Rect.block (s := S512x128) S512x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x64x512.size a ≤ S256x64x512.size a
  hwx1_4 : ∀ i : grid1.Coords, EltTy.bits .f32 = 32 ∨ (Rect.block (s := S256x64x512) S16x64x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S16384x512.size a
  hwx2_0 : ∀ i : grid2.Coords, EltTy.bits .f32 = 32 ∨ (Rect.block (s := S16384x512) S512x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S512x2048.size a
  hwx2_1 : ∀ i : grid2.Coords, EltTy.bits .f32 = 32 ∨ (Rect.block (s := S512x2048) S512x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S16384x2048.size a
  hwx2_3 : ∀ i : grid2.Coords, EltTy.bits .f32 = 32 ∨ (Rect.block (s := S16384x2048) S512x2048.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16x64x2048.size a ≤ S256x64x2048.size a
  hwx3_0 : ∀ i : grid3.Coords, EltTy.bits .f32 = 32 ∨ (Rect.block (s := S256x64x2048) S16x64x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x2048.size a ≤ S512x2048.size a
  hwx3_1 : ∀ i : grid3.Coords, EltTy.bits .f32 = 32 ∨ (Rect.block (s := S512x2048) S512x2048.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x128.size a ≤ S512x128.size a
  hwx3_2 : ∀ i : grid3.Coords, EltTy.bits .f32 = 32 ∨ (Rect.block (s := S512x128) S512x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S16x64x512.size a ≤ S256x64x512.size a
  hwx3_4 : ∀ i : grid3.Coords, EltTy.bits .f32 = 32 ∨ (Rect.block (s := S256x64x512) S16x64x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x128.size a ≤ S64x128.size a
  hwx3_5 : ∀ i : grid3.Coords, EltTy.bits .f32 = 32 ∨ (Rect.block (s := S64x128) S64x128.size (cc3_transform_5 i) (hinb3_5 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_call0_v7) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v9) S16x64x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v4) S512x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0) S512x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v10_0) S16x64x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v10_1) S64x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_call0_v15) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v11) S512x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v14) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v16) S512x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_call0_v17) S16x64x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v12) S512x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v0) S512x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v1) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v18_0) S16x64x512.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_call0_v18_1) S64x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== Proof.K.Runs.lean ====
import proofs.«114155_g2000202467955933_pallasbulk_1200_31_alg».proof.Proof.Gen.Kernel.Frame
import proofs.«114155_g2000202467955933_pallasbulk_1200_31_alg».proof.Proof.Gen.Kernel.Skeleton

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's one branch and the first point's mask, decided over the grid -/

/-- The condition of the body's one `scf.if` (the grid coordinate is 16: the last point). -/
abbrev condB (i : grid0.Coords) : Prop := k0_cond1 i = 1#1
/-- It holds at the last point only. -/
theorem hcondB : ∀ t : Fin cfg0.N, condB (grid0.coords t) ↔ t.val = 16 :=
  (by decide +kernel : ∀ t : Fin grid0.N, condB (grid0.coords t) ↔ t.val = 16)

/-- The mask the body selects its carried state under (the grid coordinate is 0: the first point). -/
abbrev condZ (i : grid0.Coords) : Prop := Scalar.cmpi .eq (BitVec.ofNat 32 (i 0).val) 0#32 = 1#1
/-- It holds at the first point only. -/
theorem hcondZ : ∀ t : Fin cfg0.N, condZ (grid0.coords t) ↔ t.val = 0 :=
  (by decide +kernel : ∀ t : Fin grid0.N, condZ (grid0.coords t) ↔ t.val = 0)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
theorem liveAt_6 : ∀ t : Fin cfg0.N, cfg0.idle 6 (grid0.coords t) = false := by decide +kernel
theorem liveAt_7 : ∀ t : Fin cfg0.N, cfg0.idle 7 (grid0.coords t) = false := by decide +kernel
theorem liveAt_8 : ∀ t : Fin cfg0.N, cfg0.idle 8 (grid0.coords t) = false := by decide +kernel
/-- Away from the last point output 9 is idle and not written back. -/
theorem idleAt_9 : ∀ t : Fin cfg0.N, ¬condB (grid0.coords t) → cfg0.idle 9 (grid0.coords t) = true := by decide +kernel
theorem noFlush_9 : ∀ t : Fin cfg0.N, ¬condB (grid0.coords t) → (cfg0.win 9).flush t = false := by decide +kernel
/-- At the last point it is live. -/
theorem liveAt_9 : ∀ t : Fin cfg0.N, condB (grid0.coords t) → cfg0.idle 9 (grid0.coords t) = false := by decide +kernel
/-- Away from the last point output 10 is idle and not written back. -/
theorem idleAt_10 : ∀ t : Fin cfg0.N, ¬condB (grid0.coords t) → cfg0.idle 10 (grid0.coords t) = true := by decide +kernel
theorem noFlush_10 : ∀ t : Fin cfg0.N, ¬condB (grid0.coords t) → (cfg0.win 10).flush t = false := by decide +kernel
/-- At the last point it is live. -/
theorem liveAt_10 : ∀ t : Fin cfg0.N, condB (grid0.coords t) → cfg0.idle 10 (grid0.coords t) = false := by decide +kernel

/-! ## The memrefs the body is called with -/

abbrev ms_0 (t : Fin cfg0.N) : Memref sig .tc .vmem S1024x256 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S256x2048 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x2048 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x2048 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S512x2048 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S512x2048 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x2048 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S512x128 .bf16 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1x128 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S64x128 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S64x128 .f32 := win0_10.stage (cfg0.slots t 10)
abbrev hs_10 (t : Fin cfg0.N) : (ms_10 t).IsWhole := hstage0_10 ((cfg0.slots t 10).cast nbuf0_10)
abbrev scM_0 : Memref sig .tc .vmem S64x512 .f32 := Memref.whole cc0_scratch0
abbrev VS_0 : View sig .tc .vmem S64x512 .f32 := scM_0.view
abbrev scM_1 : Memref sig .tc .vmem S64x512 .f32 := Memref.whole cc0_scratch1
abbrev VS_1 : View sig .tc .vmem S64x512 .f32 := scM_1.view
abbrev scM_2 : Memref sig .tc .vmem S64x512 .f32 := Memref.whole cc0_scratch2
abbrev VS_2 : View sig .tc .vmem S64x512 .f32 := scM_2.view
abbrev scM_3 : Memref sig .tc .vmem S64x512 .f32 := Memref.whole cc0_scratch3
abbrev VS_3 : View sig .tc .vmem S64x512 .f32 := scM_3.view
abbrev scM_4 : Memref sig .tc .vmem S1024x2048 .bf16 := Memref.whole cc0_scratch4
abbrev VS_4 : View sig .tc .vmem S1024x2048 .bf16 := scM_4.view
abbrev VO_9 : View sig .tc .vmem S64x128 .f32 := (Memref.whole cc0_stg9_0 : Memref sig .tc .vmem S64x128 .f32).view
abbrev VO_10 : View sig .tc .vmem S64x128 .f32 := (Memref.whole cc0_stg10_0 : Memref sig .tc .vmem S64x128 .f32).view

/-- The frame kit's invariant with the five scratch operands as memrefs owned at some contents. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d) ∗ (∃ d, owns (c : Thread nD τ) scM_4 fullShare d)) ∗ (∃ r, prngReg c r)) := by
  unfold Pipeline.ΦA; rw [scopedRest0_eq]; simp only [scM_0, scM_1, scM_2, scM_3, scM_4, owns_whole]; try rfl

/-! ## The first point's masks -/

/-- The zero state both layers start from. -/
def zero512 : FVec F S64x512 .f32 := broadcast S64x512 (Scalar.ofBits .f32 0x00000000#32)

theorem pay6_Z (i : grid0.Coords) (hz : condZ i) (v : Vec F S64x512 .f32) : k0_pay6 i v = zero512 := by
  unfold k0_pay6 zero512 Scalar.select; exact if_pos hz
theorem pay7_Z (i : grid0.Coords) (hz : condZ i) (v : Vec F S64x512 .f32) : k0_pay7 i v = zero512 := by
  unfold k0_pay7 zero512 Scalar.select; exact if_pos hz
/-- The first step's layer-0 gates at the first point: the carried hidden state is masked to zero. -/
def pay11_0 (v10 : Vec F S1024x256 .bf16) (v12 : Vec F S256x2048 .bf16) (v15 : Vec F S1x2048 .f32) (v19 : Vec F S512x2048 .bf16) : FVec F S64x2048 .f32 :=
  addf (extractStridedSlice S64x2048 ![0, 0] (k0_pay8 v10 v12 v15) slices_S1024x2048_o0_0_S64x2048)
    (matmul dot_S64x512_S512x2048_S64x2048_1_0_0_1_n_n none (truncf .bf16 (zero512 (F := F)) bitsLt_bf16_f32) (k0_pay9 v19) (constant S64x2048 .f32 0x00000000#32))
theorem pay11_Z (i : grid0.Coords) (hz : condZ i) (v1 : Vec F S64x512 .f32) (v10 : Vec F S1024x256 .bf16) (v12 : Vec F S256x2048 .bf16) (v15 : Vec F S1x2048 .f32) (v19 : Vec F S512x2048 .bf16) :
    k0_pay11 i v1 v10 v12 v15 v19 = pay11_0 v10 v12 v15 v19 := by
  unfold k0_pay11 pay11_0; rw [pay6_Z i hz v1]
theorem pay133_Z (i : grid0.Coords) (hz : condZ i) (v : FVec F S64x512 .f32) :
    k0_pay133 (BitVec.ofNat 32 (i 0).val) v = shapeCast S64x512 (zero512 (F := F)) shapeCasts_S64x512_S64x512 := by
  unfold k0_pay133 zero512 Scalar.select
  exact congrArg (fun v : FVec F S64x512 .f32 => shapeCast S64x512 v shapeCasts_S64x512_S64x512) (if_pos hz)
theorem pay134_Z (i : grid0.Coords) (hz : condZ i) (v : FVec F S64x512 .f32) :
    k0_pay134 (BitVec.ofNat 32 (i 0).val) v = zero512 := by
  unfold k0_pay134 zero512 Scalar.select; exact if_pos hz

end Cert.Kernel.Hand

end
-- ==== Proof.K.RunA.lean ====
import proofs.«114155_g2000202467955933_pallasbulk_1200_31_alg».proof.Proof.K.Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's whole run in case A: on whole memrefs — the inputs' at their blocks, the idle outputs' at contents handed back untouched, the five carried scratch buffers at the contents the point before left — the body runs to a continuation holding the inputs' as they were and every buffer it stored into with its pieces written; the pieces are the witness the run finds. -/
noncomputable def kernelRun_A (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (xs12 : Vec F S64x512 .f32) (xs13 : Vec F S64x512 .f32) (xs14 : Vec F S64x512 .f32) (xs15 : Vec F S64x512 .f32) (xs16 : Vec F S1024x2048 .bf16) :
    Σ' (LS12 : List (View.Piece (Elt F) S64x512 .f32)) (LS13 : List (View.Piece (Elt F) S64x512 .f32)) (LS14 : List (View.Piece (Elt F) S64x512 .f32)) (LS15 : List (View.Piece (Elt F) S64x512 .f32)), { LS16 : List (View.Piece (Elt F) S1024x2048 .bf16) //
      ∀ (xi10 xi11 : Vec F S64x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ owns (c : Thread nD τ) arg11 fullShare xi11 ∗ owns (c : Thread nD τ) arg12 fullShare xs12 ∗ owns (c : Thread nD τ) arg13 fullShare xs13 ∗ owns (c : Thread nD τ) arg14 fullShare xs14 ∗ owns (c : Thread nD τ) arg15 fullShare xs15 ∗ owns (c : Thread nD τ) arg16 fullShare xs16
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ owns (c : Thread nD τ) arg11 fullShare xi11 ∗ (∃ f, arg12.view.loc (c : Thread nD τ) ↦[arg12.view.set]{fullShare} arg12.view.writes (Elt F) f LS12) ∗ (∃ f, arg13.view.loc (c : Thread nD τ) ↦[arg13.view.set]{fullShare} arg13.view.writes (Elt F) f LS13) ∗ (∃ f, arg14.view.loc (c : Thread nD τ) ↦[arg14.view.set]{fullShare} arg14.view.writes (Elt F) f LS14) ∗ (∃ f, arg15.view.loc (c : Thread nD τ) ↦[arg15.view.set]{fullShare} arg15.view.writes (Elt F) f LS15) ∗ (∃ f, arg16.view.loc (c : Thread nD τ) ↦[arg16.view.set]{fullShare} arg16.view.writes (Elt F) f LS16)) -∗ K ⟨⟩))
          ⊢ wp frame (wpE (defs₀ (F := F)) Variants.none c none) E (cc0__pipelined_lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun xi10 xi11 E K => ?run⟩
  case run =>
    simp only [cc0__pipelined_lstm_kernel_eq_skeleton]; unfold cc0__pipelined_lstm_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]; · iexists _; iexact H13
    isplitl [H14]; · iexists _; iexact H14
    isplitl [H15]; · iexists _; iexact H15
    iexists _; iexact H16

end Cert.Kernel.Hand

end
-- ==== Proof.K.RunB.lean ====
import proofs.«114155_g2000202467955933_pallasbulk_1200_31_alg».proof.Proof.K.Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's whole run in case B: on whole memrefs — the inputs' at their blocks, the outputs' at anything, the five carried scratch buffers at the contents the point before left — the body runs to a continuation holding the inputs' as they were and every buffer it stored into with its pieces written; the pieces are the witness the run finds. -/
noncomputable def kernelRun_B (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i)
    (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (xs12 : Vec F S64x512 .f32) (xs13 : Vec F S64x512 .f32) (xs14 : Vec F S64x512 .f32) (xs15 : Vec F S64x512 .f32) (xs16 : Vec F S1024x2048 .bf16) :
    Σ' (L10 : List (View.Piece (Elt F) S64x128 .f32)) (L11 : List (View.Piece (Elt F) S64x128 .f32)) (LS12 : List (View.Piece (Elt F) S64x512 .f32)) (LS13 : List (View.Piece (Elt F) S64x512 .f32)) (LS14 : List (View.Piece (Elt F) S64x512 .f32)) (LS15 : List (View.Piece (Elt F) S64x512 .f32)), { LS16 : List (View.Piece (Elt F) S1024x2048 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare xs12 ∗ owns (c : Thread nD τ) arg13 fullShare xs13 ∗ owns (c : Thread nD τ) arg14 fullShare xs14 ∗ owns (c : Thread nD τ) arg15 fullShare xs15 ∗ owns (c : Thread nD τ) arg16 fullShare xs16
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f LS12) ∗ (∃ f, arg13.view.loc (c : Thread nD τ) ↦[arg13.view.set]{fullShare} arg13.view.writes (Elt F) f LS13) ∗ (∃ f, arg14.view.loc (c : Thread nD τ) ↦[arg14.view.set]{fullShare} arg14.view.writes (Elt F) f LS14) ∗ (∃ f, arg15.view.loc (c : Thread nD τ) ↦[arg15.view.set]{fullShare} arg15.view.writes (Elt F) f LS15) ∗ (∃ f, arg16.view.loc (c : Thread nD τ) ↦[arg16.view.set]{fullShare} arg16.view.writes (Elt F) f LS16)) -∗ K ⟨⟩))
          ⊢ wp frame (wpE (defs₀ (F := F)) Variants.none c none) E (cc0__pipelined_lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc0__pipelined_lstm_kernel_eq_skeleton]; unfold cc0__pipelined_lstm_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg13.eq_unread hf13; obtain rfl := harg14.eq_unread hf14; obtain rfl := harg15.eq_unread hf15; obtain rfl := harg16.eq_unread hf16
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.Kernel.Hand

end
-- ==== Proof.K.State.lean ====
import proofs.«114155_g2000202467955933_pallasbulk_1200_31_alg».proof.Proof.K.RunA
import proofs.«114155_g2000202467955933_pallasbulk_1200_31_alg».proof.Proof.K.RunB

set_option maxRecDepth 16384
set_option pp.maxSteps 3000
set_option pp.deepTerms false
set_option pp.proofs false

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five buffers the body carries between points: the two layers' hidden and cell states and the second layer's input gates of the block. -/
structure St (F : FTy → Type) where
  h0 : Vec F S64x512 .f32
  c0 : Vec F S64x512 .f32
  h1 : Vec F S64x512 .f32
  c1 : Vec F S64x512 .f32
  ig : Vec F S1024x2048 .bf16

/-! ## What each case leaves: covers and contents -/

/-- Case A's pieces for carried buffer 0 tile it. -/
theorem scover_A_0 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x512.Idx) :
    ∃ pc ∈ (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).1 S64x512.size (by sl_kernel_rfl) y

/-- Case A's pieces for carried buffer 1 tile it. -/
theorem scover_A_1 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x512.Idx) :
    ∃ pc ∈ (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.1 S64x512.size (by sl_kernel_rfl) y

/-- Case A's pieces for carried buffer 2 tile it. -/
theorem scover_A_2 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x512.Idx) :
    ∃ pc ∈ (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.1 S64x512.size (by sl_kernel_rfl) y

/-- Case A's pieces for carried buffer 3 tile it. -/
theorem scover_A_3 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x512.Idx) :
    ∃ pc ∈ (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.1 S64x512.size (by sl_kernel_rfl) y

/-- Case A's pieces for carried buffer 4 tile it. -/
theorem scover_A_4 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S1024x2048.Idx) :
    ∃ pc ∈ (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.1 S1024x2048.size (by sl_kernel_rfl) y

/-- What case A leaves in the five carried buffers: its pieces read back. -/
def sout_A (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) : St F :=
  ⟨VS_0.read (Elt F) (VS_0.writes (Elt F) VS_0.junk (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).1),
   VS_1.read (Elt F) (VS_1.writes (Elt F) VS_1.junk (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.1),
   VS_2.read (Elt F) (VS_2.writes (Elt F) VS_2.junk (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.1),
   VS_3.read (Elt F) (VS_3.writes (Elt F) VS_3.junk (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.1),
   VS_4.read (Elt F) (VS_4.writes (Elt F) VS_4.junk (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.1)⟩

/-- Case B's pieces for carried buffer 0 tile it. -/
theorem scover_B_0 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x512.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.1 S64x512.size (by sl_kernel_rfl) y

/-- Case B's pieces for carried buffer 1 tile it. -/
theorem scover_B_1 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x512.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.1 S64x512.size (by sl_kernel_rfl) y

/-- Case B's pieces for carried buffer 2 tile it. -/
theorem scover_B_2 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x512.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.1 S64x512.size (by sl_kernel_rfl) y

/-- Case B's pieces for carried buffer 3 tile it. -/
theorem scover_B_3 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x512.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.2.1 S64x512.size (by sl_kernel_rfl) y

/-- Case B's pieces for carried buffer 4 tile it. -/
theorem scover_B_4 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S1024x2048.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.2.2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.2.2.1 S1024x2048.size (by sl_kernel_rfl) y

/-- What case B leaves in the five carried buffers: its pieces read back. -/
def sout_B (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) : St F :=
  ⟨VS_0.read (Elt F) (VS_0.writes (Elt F) VS_0.junk (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.1),
   VS_1.read (Elt F) (VS_1.writes (Elt F) VS_1.junk (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.1),
   VS_2.read (Elt F) (VS_2.writes (Elt F) VS_2.junk (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.1),
   VS_3.read (Elt F) (VS_3.writes (Elt F) VS_3.junk (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.2.1),
   VS_4.read (Elt F) (VS_4.writes (Elt F) VS_4.junk (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.2.2.1)⟩

/-- Case B's pieces for output 9 tile its block. -/
theorem cover_B_9 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x128.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).1 S64x128.size (by sl_kernel_rfl) y
/-- What case B leaves in output 9's staging buffer. -/
def out_B_9 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) : Vec F S64x128 .f32 :=
  VO_9.read (Elt F) (VO_9.writes (Elt F) VO_9.junk (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).1)

/-- Case B's pieces for output 10 tile its block. -/
theorem cover_B_10 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x128.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.1 S64x128.size (by sl_kernel_rfl) y
/-- What case B leaves in output 10's staging buffer. -/
def out_B_10 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) : Vec F S64x128 .f32 :=
  VO_10.read (Elt F) (VO_10.writes (Elt F) VO_10.junk (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.1)

/-! ## The first point: every read of the carried buffers is masked -/

set_option maxHeartbeats 4000000 in
/-- At the first point what the body leaves in carried buffer 0 does not depend on what the five buffers held: every read of them is masked. -/
theorem mask_A_0 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : condZ i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (d12 : Vec F S64x512 .f32) (d13 : Vec F S64x512 .f32) (d14 : Vec F S64x512 .f32) (d15 : Vec F S64x512 .f32) (d16 : Vec F S1024x2048 .bf16) (e12 : Vec F S64x512 .f32) (e13 : Vec F S64x512 .f32) (e14 : Vec F S64x512 .f32) (e15 : Vec F S64x512 .f32) (e16 : Vec F S1024x2048 .bf16) :
    (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 d12 d13 d14 d15 d16).1 = (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 e12 e13 e14 e15 e16).1 := by
  delta kernelRun_A; dsimp only
  sl_unfold_run_names
  simp only [↓pay133_Z i hz, ↓pay134_Z i hz, pay6_Z i hz, pay7_Z i hz, pay11_Z i hz]

set_option maxHeartbeats 4000000 in
/-- At the first point what the body leaves in carried buffer 1 does not depend on what the five buffers held: every read of them is masked. -/
theorem mask_A_1 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : condZ i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (d12 : Vec F S64x512 .f32) (d13 : Vec F S64x512 .f32) (d14 : Vec F S64x512 .f32) (d15 : Vec F S64x512 .f32) (d16 : Vec F S1024x2048 .bf16) (e12 : Vec F S64x512 .f32) (e13 : Vec F S64x512 .f32) (e14 : Vec F S64x512 .f32) (e15 : Vec F S64x512 .f32) (e16 : Vec F S1024x2048 .bf16) :
    (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 d12 d13 d14 d15 d16).2.1 = (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 e12 e13 e14 e15 e16).2.1 := by
  delta kernelRun_A; dsimp only
  sl_unfold_run_names
  simp only [↓pay133_Z i hz, ↓pay134_Z i hz, pay6_Z i hz, pay7_Z i hz, pay11_Z i hz]

set_option maxHeartbeats 4000000 in
/-- At the first point what the body leaves in carried buffer 2 does not depend on what the five buffers held: every read of them is masked. -/
theorem mask_A_2 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : condZ i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (d12 : Vec F S64x512 .f32) (d13 : Vec F S64x512 .f32) (d14 : Vec F S64x512 .f32) (d15 : Vec F S64x512 .f32) (d16 : Vec F S1024x2048 .bf16) (e12 : Vec F S64x512 .f32) (e13 : Vec F S64x512 .f32) (e14 : Vec F S64x512 .f32) (e15 : Vec F S64x512 .f32) (e16 : Vec F S1024x2048 .bf16) :
    (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 d12 d13 d14 d15 d16).2.2.1 = (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 e12 e13 e14 e15 e16).2.2.1 := by
  delta kernelRun_A; dsimp only
  sl_unfold_run_names
  simp only [↓pay133_Z i hz, ↓pay134_Z i hz, pay6_Z i hz, pay7_Z i hz, pay11_Z i hz]

set_option maxHeartbeats 4000000 in
/-- At the first point what the body leaves in carried buffer 3 does not depend on what the five buffers held: every read of them is masked. -/
theorem mask_A_3 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : condZ i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (d12 : Vec F S64x512 .f32) (d13 : Vec F S64x512 .f32) (d14 : Vec F S64x512 .f32) (d15 : Vec F S64x512 .f32) (d16 : Vec F S1024x2048 .bf16) (e12 : Vec F S64x512 .f32) (e13 : Vec F S64x512 .f32) (e14 : Vec F S64x512 .f32) (e15 : Vec F S64x512 .f32) (e16 : Vec F S1024x2048 .bf16) :
    (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 d12 d13 d14 d15 d16).2.2.2.1 = (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 e12 e13 e14 e15 e16).2.2.2.1 := by
  delta kernelRun_A; dsimp only
  sl_unfold_run_names
  simp only [↓pay133_Z i hz, ↓pay134_Z i hz, pay6_Z i hz, pay7_Z i hz, pay11_Z i hz]

set_option maxHeartbeats 4000000 in
/-- At the first point what the body leaves in carried buffer 4 does not depend on what the five buffers held: every read of them is masked. -/
theorem mask_A_4 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : condZ i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (d12 : Vec F S64x512 .f32) (d13 : Vec F S64x512 .f32) (d14 : Vec F S64x512 .f32) (d15 : Vec F S64x512 .f32) (d16 : Vec F S1024x2048 .bf16) (e12 : Vec F S64x512 .f32) (e13 : Vec F S64x512 .f32) (e14 : Vec F S64x512 .f32) (e15 : Vec F S64x512 .f32) (e16 : Vec F S1024x2048 .bf16) :
    (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 d12 d13 d14 d15 d16).2.2.2.2.1 = (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 e12 e13 e14 e15 e16).2.2.2.2.1 := by
  delta kernelRun_A; dsimp only
  sl_unfold_run_names
  simp only [↓pay133_Z i hz, ↓pay134_Z i hz, pay6_Z i hz, pay7_Z i hz, pay11_Z i hz]

theorem St.mk_congr {a a' b b' c c' d d' : Vec F S64x512 .f32} {e e' : Vec F S1024x2048 .bf16}
    (ha : a = a') (hb : b = b') (hc : c = c') (hd : d = d') (he : e = e') : St.mk a b c d e = St.mk a' b' c' d' e' := by
  subst ha hb hc hd he; rfl

/-- At the first point what the body leaves does not depend on the state it starts from. -/
theorem sout_A_mask (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : condZ i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s s' : St F) :
    sout_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s = sout_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s' := by
  unfold sout_A
  exact St.mk_congr
    (congrArg (fun L => VS_0.read (Elt F) (VS_0.writes (Elt F) VS_0.junk L)) (mask_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 s.h0 s.c0 s.h1 s.c1 s.ig s'.h0 s'.c0 s'.h1 s'.c1 s'.ig))
    (congrArg (fun L => VS_1.read (Elt F) (VS_1.writes (Elt F) VS_1.junk L)) (mask_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 s.h0 s.c0 s.h1 s.c1 s.ig s'.h0 s'.c0 s'.h1 s'.c1 s'.ig))
    (congrArg (fun L => VS_2.read (Elt F) (VS_2.writes (Elt F) VS_2.junk L)) (mask_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 s.h0 s.c0 s.h1 s.c1 s.ig s'.h0 s'.c0 s'.h1 s'.c1 s'.ig))
    (congrArg (fun L => VS_3.read (Elt F) (VS_3.writes (Elt F) VS_3.junk L)) (mask_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 s.h0 s.c0 s.h1 s.c1 s.ig s'.h0 s'.c0 s'.h1 s'.c1 s'.ig))
    (congrArg (fun L => VS_4.read (Elt F) (VS_4.writes (Elt F) VS_4.junk L)) (mask_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 s.h0 s.c0 s.h1 s.c1 s.ig s'.h0 s'.c0 s'.h1 s'.c1 s'.ig))

/-- A state to start the recurrence from: at the first point the body's result does not depend on it (`mask_A_j`). -/
def st0 : St F :=
  ⟨VS_0.read (Elt F) VS_0.junk, VS_1.read (Elt F) VS_1.junk, VS_2.read (Elt F) VS_2.junk, VS_3.read (Elt F) VS_3.junk, VS_4.read (Elt F) VS_4.junk⟩

/-! ## The carried state point by point -/

theorem N17 : cfg0.N = 17 := N_0

/-- THE RECURRENCE. The five carried buffers after the body at point `n`: the first point's case needs nothing of what they held; every later point runs on what the point before left. -/
def stAfter (c : Dev nD) : (n : ℕ) → n < cfg0.N → St F
  | 0, hn => sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) scM_0 (Memref.isWhole_whole _) scM_1 (Memref.isWhole_whole _) scM_2 (Memref.isWhole_whole _) scM_3 (Memref.isWhole_whole _) scM_4 (Memref.isWhole_whole _) (fun h => absurd (show (0 : ℕ) = 16 from (hcondB ⟨0, hn⟩).mp h) (by decide)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) st0
  | n + 1, hn =>
    if h16 : n + 1 = 16 then
      sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) scM_0 (Memref.isWhole_whole _) scM_1 (Memref.isWhole_whole _) scM_2 (Memref.isWhole_whole _) scM_3 (Memref.isWhole_whole _) scM_4 (Memref.isWhole_whole _) ((hcondB ⟨n + 1, hn⟩).mpr h16) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (stAfter c n (Nat.lt_of_succ_lt hn))
    else
      sout_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) scM_0 (Memref.isWhole_whole _) scM_1 (Memref.isWhole_whole _) scM_2 (Memref.isWhole_whole _) scM_3 (Memref.isWhole_whole _) scM_4 (Memref.isWhole_whole _) (fun h => h16 ((hcondB ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (stAfter c n (Nat.lt_of_succ_lt hn))

theorem stAfter_Z (c : Dev nD) (t : Fin cfg0.N) (h0 : t.val = 0) (hc : ¬condB (grid0.coords t)) :
    stAfter m c t.val t.isLt = sout_A c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM_0 (Memref.isWhole_whole _) scM_1 (Memref.isWhole_whole _) scM_2 (Memref.isWhole_whole _) scM_3 (Memref.isWhole_whole _) scM_4 (Memref.isWhole_whole _) hc (iblk m c 0 t) (iblk m c 1 t) (iblk m c 2 t) (iblk m c 3 t) (iblk m c 4 t) (iblk m c 5 t) (iblk m c 6 t) (iblk m c 7 t) (iblk m c 8 t) st0 := by
  obtain ⟨n, hn⟩ := t
  cases n with
  | zero => rfl
  | succ n => exact absurd h0 (Nat.succ_ne_zero n)

theorem stAfter_A (c : Dev nD) (t : Fin cfg0.N) (h0 : t.val ≠ 0) (h16 : ¬t.val = 16) (hc : ¬condB (grid0.coords t)) :
    stAfter m c t.val t.isLt = sout_A c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM_0 (Memref.isWhole_whole _) scM_1 (Memref.isWhole_whole _) scM_2 (Memref.isWhole_whole _) scM_3 (Memref.isWhole_whole _) scM_4 (Memref.isWhole_whole _) hc (iblk m c 0 t) (iblk m c 1 t) (iblk m c 2 t) (iblk m c 3 t) (iblk m c 4 t) (iblk m c 5 t) (iblk m c 6 t) (iblk m c 7 t) (iblk m c 8 t) (stAfter m c (t.val - 1) (Nat.lt_of_le_of_lt (Nat.sub_le _ _) t.isLt)) := by
  obtain ⟨n, hn⟩ := t
  cases n with
  | zero => exact absurd rfl h0
  | succ n => exact (dif_neg h16).trans rfl

theorem stAfter_B (c : Dev nD) (t : Fin cfg0.N) (h16 : t.val = 16) (hc : condB (grid0.coords t)) :
    stAfter m c t.val t.isLt = sout_B c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM_0 (Memref.isWhole_whole _) scM_1 (Memref.isWhole_whole _) scM_2 (Memref.isWhole_whole _) scM_3 (Memref.isWhole_whole _) scM_4 (Memref.isWhole_whole _) hc (iblk m c 0 t) (iblk m c 1 t) (iblk m c 2 t) (iblk m c 3 t) (iblk m c 4 t) (iblk m c 5 t) (iblk m c 6 t) (iblk m c 7 t) (iblk m c 8 t) (stAfter m c (t.val - 1) (Nat.lt_of_le_of_lt (Nat.sub_le _ _) t.isLt)) := by
  obtain ⟨n, hn⟩ := t
  cases n with
  | zero => exact absurd (show (0 : ℕ) = 16 from h16) (by decide)
  | succ n => exact (dif_pos h16).trans rfl

/-- The five carried buffers BEFORE point `t`, for `1 ≤ t ≤ 17` (what the point before left). -/
def stAt (c : Dev nD) (t : ℕ) : St F :=
  if h : 0 < t ∧ t - 1 < cfg0.N then stAfter m c (t - 1) h.2
  else ⟨VS_0.read (Elt F) VS_0.junk, VS_1.read (Elt F) VS_1.junk, VS_2.read (Elt F) VS_2.junk, VS_3.read (Elt F) VS_3.junk, VS_4.read (Elt F) VS_4.junk⟩

/-- What the last point leaves in output 9's staging buffer (at a point `t` known to be the last). -/
def out9At (c : Dev nD) (t : Fin cfg0.N) (h : t.val = 16) : Vec F S64x128 .f32 :=
  out_B_9 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM_0 (Memref.isWhole_whole _) scM_1 (Memref.isWhole_whole _) scM_2 (Memref.isWhole_whole _) scM_3 (Memref.isWhole_whole _) scM_4 (Memref.isWhole_whole _) ((hcondB t).mpr h) (iblk m c 0 t) (iblk m c 1 t) (iblk m c 2 t) (iblk m c 3 t) (iblk m c 4 t) (iblk m c 5 t) (iblk m c 6 t) (iblk m c 7 t) (iblk m c 8 t) (stAfter m c (t.val - 1) (Nat.lt_of_le_of_lt (Nat.sub_le _ _) t.isLt))
/-- What the last point leaves in output 10's staging buffer (at a point `t` known to be the last). -/
def out10At (c : Dev nD) (t : Fin cfg0.N) (h : t.val = 16) : Vec F S64x128 .f32 :=
  out_B_10 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM_0 (Memref.isWhole_whole _) scM_1 (Memref.isWhole_whole _) scM_2 (Memref.isWhole_whole _) scM_3 (Memref.isWhole_whole _) scM_4 (Memref.isWhole_whole _) ((hcondB t).mpr h) (iblk m c 0 t) (iblk m c 1 t) (iblk m c 2 t) (iblk m c 3 t) (iblk m c 4 t) (iblk m c 5 t) (iblk m c 6 t) (iblk m c 7 t) (iblk m c 8 t) (stAfter m c (t.val - 1) (Nat.lt_of_le_of_lt (Nat.sub_le _ _) t.isLt))

/-- The last point. -/
def t16 : Fin cfg0.N := ⟨16, by decide⟩
/-- The first output of the kernel (the second layer's head) and the second (the first layer's). -/
def out9 (c : Dev nD) : Vec F S64x128 .f32 := out9At m c t16 rfl
def out10 (c : Dev nD) : Vec F S64x128 .f32 := out10At m c t16 rfl

/-- The region invariant before position `n`: before the first point the scratch at anything; afterwards at what the point before left. -/
def PhiS (c : Dev nD) : (n : ℕ) → n ≤ cfg0.N → sProp 𝕄
  | 0, _ => Pipeline.ΦA spec0 c
  | n + 1, hn => iprop(iprop(owns (c : Thread nD τ) scM_0 fullShare ((stAfter m c n hn).h0) ∗ owns (c : Thread nD τ) scM_1 fullShare ((stAfter m c n hn).c0) ∗ owns (c : Thread nD τ) scM_2 fullShare ((stAfter m c n hn).h1) ∗ owns (c : Thread nD τ) scM_3 fullShare ((stAfter m c n hn).c1) ∗ owns (c : Thread nD τ) scM_4 fullShare ((stAfter m c n hn).ig)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM_0 fullShare ((stAfter m c n hn).h0) ∗ owns (c : Thread nD τ) scM_1 fullShare ((stAfter m c n hn).c0) ∗ owns (c : Thread nD τ) scM_2 fullShare ((stAfter m c n hn).h1) ∗ owns (c : Thread nD τ) scM_3 fullShare ((stAfter m c n hn).c1) ∗ owns (c : Thread nD τ) scM_4 fullShare ((stAfter m c n hn).ig)) ∗ (∃ r, prngReg c r)) := rfl
theorem PhiS_pos (c : Dev nD) (n : ℕ) (h : n ≤ cfg0.N) (hz : n ≠ 0) :
    PhiS m c n h = iprop(iprop(owns (c : Thread nD τ) scM_0 fullShare ((stAfter m c (n - 1) (by omega)).h0) ∗ owns (c : Thread nD τ) scM_1 fullShare ((stAfter m c (n - 1) (by omega)).c0) ∗ owns (c : Thread nD τ) scM_2 fullShare ((stAfter m c (n - 1) (by omega)).h1) ∗ owns (c : Thread nD τ) scM_3 fullShare ((stAfter m c (n - 1) (by omega)).c1) ∗ owns (c : Thread nD τ) scM_4 fullShare ((stAfter m c (n - 1) (by omega)).ig)) ∗ (∃ r, prngReg c r)) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => if h : t.val = 16 then out9At m c t h else VO_9.read (Elt F) VO_9.junk
    | ⟨10, _⟩ => if h : t.val = 16 then out10At m c t h else VO_10.read (Elt F) VO_10.junk
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) (h : t.val = 16) : (dats m 0 c).after 9 t = out9At m c t h := by dsimp only [dats]; exact dif_pos h
theorem after_10 (c : Dev nD) (t : Fin cfg0.N) (h : t.val = 16) : (dats m 0 c).after 10 t = out10At m c t h := by dsimp only [dats]; exact dif_pos h

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

theorem leaves_0 (c : Dev nD) (t : Fin cfg0.N) : (dats m 0 c).leavesExact 0 t = owns (c : Thread nD τ) (ms_0 t) fullShare (iblk m c 0 t) := by
  unfold Dat.leavesExact; rw [liveAt_0 t, after_0]
theorem leaves_1 (c : Dev nD) (t : Fin cfg0.N) : (dats m 0 c).leavesExact 1 t = owns (c : Thread nD τ) (ms_1 t) fullShare (iblk m c 1 t) := by
  unfold Dat.leavesExact; rw [liveAt_1 t, after_1]
theorem leaves_2 (c : Dev nD) (t : Fin cfg0.N) : (dats m 0 c).leavesExact 2 t = owns (c : Thread nD τ) (ms_2 t) fullShare (iblk m c 2 t) := by
  unfold Dat.leavesExact; rw [liveAt_2 t, after_2]
theorem leaves_3 (c : Dev nD) (t : Fin cfg0.N) : (dats m 0 c).leavesExact 3 t = owns (c : Thread nD τ) (ms_3 t) fullShare (iblk m c 3 t) := by
  unfold Dat.leavesExact; rw [liveAt_3 t, after_3]
theorem leaves_4 (c : Dev nD) (t : Fin cfg0.N) : (dats m 0 c).leavesExact 4 t = owns (c : Thread nD τ) (ms_4 t) fullShare (iblk m c 4 t) := by
  unfold Dat.leavesExact; rw [liveAt_4 t, after_4]
theorem leaves_5 (c : Dev nD) (t : Fin cfg0.N) : (dats m 0 c).leavesExact 5 t = owns (c : Thread nD τ) (ms_5 t) fullShare (iblk m c 5 t) := by
  unfold Dat.leavesExact; rw [liveAt_5 t, after_5]
theorem leaves_6 (c : Dev nD) (t : Fin cfg0.N) : (dats m 0 c).leavesExact 6 t = owns (c : Thread nD τ) (ms_6 t) fullShare (iblk m c 6 t) := by
  unfold Dat.leavesExact; rw [liveAt_6 t, after_6]
theorem leaves_7 (c : Dev nD) (t : Fin cfg0.N) : (dats m 0 c).leavesExact 7 t = owns (c : Thread nD τ) (ms_7 t) fullShare (iblk m c 7 t) := by
  unfold Dat.leavesExact; rw [liveAt_7 t, after_7]
theorem leaves_8 (c : Dev nD) (t : Fin cfg0.N) : (dats m 0 c).leavesExact 8 t = owns (c : Thread nD τ) (ms_8 t) fullShare (iblk m c 8 t) := by
  unfold Dat.leavesExact; rw [liveAt_8 t, after_8]
theorem leaves_9 (c : Dev nD) (t : Fin cfg0.N) (h : t.val = 16) : (dats m 0 c).leavesExact 9 t = owns (c : Thread nD τ) (ms_9 t) fullShare (out9At m c t h) := by
  unfold Dat.leavesExact; rw [liveAt_9 t ((hcondB t).mpr h), after_9 m c t h]
theorem leaves_10 (c : Dev nD) (t : Fin cfg0.N) (h : t.val = 16) : (dats m 0 c).leavesExact 10 t = owns (c : Thread nD τ) (ms_10 t) fullShare (out10At m c t h) := by
  unfold Dat.leavesExact; rw [liveAt_10 t ((hcondB t).mpr h), after_10 m c t h]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

end Cert.Kernel.Hand

end
-- ==== Proof.K.BodyB.lean ====
import proofs.«114155_g2000202467955933_pallasbulk_1200_31_alg».proof.Proof.K.State

set_option maxRecDepth 16384
set_option pp.maxSteps 3000
set_option pp.deepTerms false
set_option pp.proofs false

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_body_B (c : Dev nD) (t : Fin cfg0.N) (hB : t.val = 16) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  have hN : t.val < 17 := lt_of_lt_of_eq t.isLt N17
  rw [leaves_0, leaves_1, leaves_2, leaves_3, leaves_4, leaves_5, leaves_6, leaves_7, leaves_8]
  have hZ : t.val ≠ 0 := by omega
  rw [leaves_9 m c t hB, leaves_10 m c t hB]
  rw [stAfter_B m c t hB ((hcondB t).mpr hB)]
  unfold sout_B out9At out10At out_B_9 out_B_10; (try dsimp only)
  rw [PhiS_castSucc m c t, PhiS_pos m c _ _ (by omega)]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun_B c (grid0.coords t) _ _ _ _ _ _ _ _ _ _ _ _ _ _ _ _ _ _ _ _ _ _ _ _ _ _ _ _ _ _ _ _ ((hcondB t).mpr hB) (iblk m c 0 t) (iblk m c 1 t) (iblk m c 2 t) (iblk m c 3 t) (iblk m c 4 t) (iblk m c 5 t) (iblk m c 6 t) (iblk m c 7 t) (iblk m c 8 t) _ _ _ _ _).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, ⟨%e9, H9⟩, ⟨%e10, H10⟩, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover_B_0 _ _ _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover_B_1 _ _ _ _ _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover_B_2 _ _ _ _ _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover_B_3 _ _ _ _ _ _ _ _ _ _ _ _ _ _ _ _ _ _ _ _ _ _ _ _ _ _ _ _ _ _ _ _ _ _ _ _ _ _ _ _ _ _ _ _ _)
      unfold owns; iexists _; isplitr
      swap; · iexact HS4
      ipureintro; exact View.read_writes_of_cover _ _ _ _ _ (scover_B_4 _ _ _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover_B_9 _ _ _ _ _ _ _ _ _ _ _ _ _ _ _ _ _ _ _ _ _ _ _ _ _ _ _ _ _ _ _ _ _ _ _ _ _ _ _ _ _ _ _ _ _)
  unfold owns; iexists _; isplitr
  swap; · iexact H10
  ipureintro; exact View.read_writes_of_cover _ _ _ _ _ (cover_B_10 _ _ _ _ _ _ _ _ _ _ _ _ _ _ _ _ _ _ _ _ _ _ _ _ _ _ _ _ _ _ _ _ _ _ _ _ _ _ _ _ _ _ _ _ _)

end Cert.Kernel.Hand

end
-- ==== Proof.K.BodyZ.lean ====
import proofs.«114155_g2000202467955933_pallasbulk_1200_31_alg».proof.Proof.K.State

set_option maxRecDepth 16384
set_option pp.maxSteps 3000
set_option pp.deepTerms false
set_option pp.proofs false

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_body_Z (c : Dev nD) (t : Fin cfg0.N) (hB : ¬t.val = 16) (hZ : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  have hN : t.val < 17 := lt_of_lt_of_eq t.isLt N17
  rw [leaves_0, leaves_1, leaves_2, leaves_3, leaves_4, leaves_5, leaves_6, leaves_7, leaves_8]
  have hnB : ¬condB (grid0.coords t) := fun h => hB ((hcondB t).mp h)
  rw [Dat.leavesExact_idle (dats m 0 c) 9 t (idleAt_9 t hnB) (noFlush_9 t hnB), Dat.leavesExact_idle (dats m 0 c) 10 t (idleAt_10 t hnB) (noFlush_10 t hnB)]
  rw [stAfter_Z m c t hZ hnB]
  rw [PhiS_castSucc m c t, PhiS_zero m c _ _ hZ, PhiA_eq]
  iintro ⟨⟨⟨⟨%d12, HS0⟩, ⟨%d13, HS1⟩, ⟨%d14, HS2⟩, ⟨%d15, HS3⟩, ⟨%d16, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [sout_A_mask c (grid0.coords t) _ _ _ _ _ _ _ _ _ _ _ _ _ _ _ _ _ _ _ _ _ _ _ _ _ _ _ _ _ _ _ _ hnB ((hcondZ t).mpr hZ) (iblk m c 0 t) (iblk m c 1 t) (iblk m c 2 t) (iblk m c 3 t) (iblk m c 4 t) (iblk m c 5 t) (iblk m c 6 t) (iblk m c 7 t) (iblk m c 8 t) st0 ⟨d12, d13, d14, d15, d16⟩]
  unfold sout_A; (try dsimp only)
  iapply ((kernelRun_A c (grid0.coords t) _ _ _ _ _ _ _ _ _ _ _ _ _ _ _ _ _ _ _ _ _ _ _ _ _ _ _ _ _ _ _ _ hnB (iblk m c 0 t) (iblk m c 1 t) (iblk m c 2 t) (iblk m c 3 t) (iblk m c 4 t) (iblk m c 5 t) (iblk m c 6 t) (iblk m c 7 t) (iblk m c 8 t) d12 d13 d14 d15 d16).2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover_A_0 _ _ _ _ _ _ _ _ _ _ _ _ _ _ _ _ _ _ _ _ _ _ _ _ _ _ _ _ _ _ _ _ _ _ _ _ _ _ _ _ _ _ _ _ ⟨d12, d13, d14, d15, d16⟩)
      isplitl [HS1]
      · unfold owns; iexists _; isplitr
        swap; · iexact HS1
        ipureintro; exact View.read_writes_of_cover _ _ _ _ _ (scover_A_1 _ _ _ _ _ _ _ _ _ _ _ _ _ _ _ _ _ _ _ _ _ _ _ _ _ _ _ _ _ _ _ _ _ _ _ _ _ _ _ _ _ _ _ _ ⟨d12, d13, d14, d15, d16⟩)
      isplitl [HS2]
      · unfold owns; iexists _; isplitr
        swap; · iexact HS2
        ipureintro; exact View.read_writes_of_cover _ _ _ _ _ (scover_A_2 _ _ _ _ _ _ _ _ _ _ _ _ _ _ _ _ _ _ _ _ _ _ _ _ _ _ _ _ _ _ _ _ _ _ _ _ _ _ _ _ _ _ _ _ ⟨d12, d13, d14, d15, d16⟩)
      isplitl [HS3]
      · unfold owns; iexists _; isplitr
        swap; · iexact HS3
        ipureintro; exact View.read_writes_of_cover _ _ _ _ _ (scover_A_3 _ _ _ _ _ _ _ _ _ _ _ _ _ _ _ _ _ _ _ _ _ _ _ _ _ _ _ _ _ _ _ _ _ _ _ _ _ _ _ _ _ _ _ _ ⟨d12, d13, d14, d15, d16⟩)
      unfold owns; iexists _; isplitr
      swap; · iexact HS4
      ipureintro; exact View.read_writes_of_cover _ _ _ _ _ (scover_A_4 _ _ _ _ _ _ _ _ _ _ _ _ _ _ _ _ _ _ _ _ _ _ _ _ _ _ _ _ _ _ _ _ _ _ _ _ _ _ _ _ _ _ _ _ ⟨d12, d13, d14, d15, d16⟩)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

end Cert.Kernel.Hand

end
-- ==== Proof.K.BodyA.lean ====
import proofs.«114155_g2000202467955933_pallasbulk_1200_31_alg».proof.Proof.K.State

set_option maxRecDepth 16384
set_option pp.maxSteps 3000
set_option pp.deepTerms false
set_option pp.proofs false

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_body_A (c : Dev nD) (t : Fin cfg0.N) (hB : ¬t.val = 16) (hZ : ¬t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  have hN : t.val < 17 := lt_of_lt_of_eq t.isLt N17
  rw [leaves_0, leaves_1, leaves_2, leaves_3, leaves_4, leaves_5, leaves_6, leaves_7, leaves_8]
  have hnB : ¬condB (grid0.coords t) := fun h => hB ((hcondB t).mp h)
  rw [Dat.leavesExact_idle (dats m 0 c) 9 t (idleAt_9 t hnB) (noFlush_9 t hnB), Dat.leavesExact_idle (dats m 0 c) 10 t (idleAt_10 t hnB) (noFlush_10 t hnB)]
  rw [stAfter_A m c t hZ hB hnB]
  unfold sout_A; (try dsimp only)
  rw [PhiS_castSucc m c t, PhiS_pos m c _ _ hZ]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun_A c (grid0.coords t) _ _ _ _ _ _ _ _ _ _ _ _ _ _ _ _ _ _ _ _ _ _ _ _ _ _ _ _ _ _ _ _ hnB (iblk m c 0 t) (iblk m c 1 t) (iblk m c 2 t) (iblk m c 3 t) (iblk m c 4 t) (iblk m c 5 t) (iblk m c 6 t) (iblk m c 7 t) (iblk m c 8 t) _ _ _ _ _).2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover_A_0 _ _ _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover_A_1 _ _ _ _ _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover_A_2 _ _ _ _ _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover_A_3 _ _ _ _ _ _ _ _ _ _ _ _ _ _ _ _ _ _ _ _ _ _ _ _ _ _ _ _ _ _ _ _ _ _ _ _ _ _ _ _ _ _ _ _ _)
      unfold owns; iexists _; isplitr
      swap; · iexact HS4
      ipureintro; exact View.read_writes_of_cover _ _ _ _ _ (scover_A_4 _ _ _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

end Cert.Kernel.Hand

end
-- ==== Proof.K.Frame.lean ====
import proofs.«114155_g2000202467955933_pallasbulk_1200_31_alg».proof.Proof.K.BodyB
import proofs.«114155_g2000202467955933_pallasbulk_1200_31_alg».proof.Proof.K.BodyZ
import proofs.«114155_g2000202467955933_pallasbulk_1200_31_alg».proof.Proof.K.BodyA

set_option maxRecDepth 16384
set_option pp.maxSteps 3000
set_option pp.deepTerms false
set_option pp.proofs false

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: the inputs' memrefs hold their blocks; the point is the first, the last or one between, and that case's run applies; the invariant hands the body the carried buffers at what the point before left (at anything at the first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  by_cases hB : t.val = 16
  · exact sound_body_B m c t hB
  · by_cases hZ : t.val = 0
    · exact sound_body_Z m c t hB hZ
    · exact sound_body_A m c t hB hZ

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 17 := N17; omega)

/-! ## The run and the frame -/

set_option backward.isDefEq.respectTransparency.types false in
/-- Every weakly fair execution of @main on the TensorCores terminates, and every final state has every array of the pipeline at what the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-! ## The recurrence's equations, spelt over the runs' piece lists -/

theorem stAfter_zero (c : Dev nD) (hn : 0 < cfg0.N) :
    stAfter m c 0 hn = sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) scM_0 (Memref.isWhole_whole _) scM_1 (Memref.isWhole_whole _) scM_2 (Memref.isWhole_whole _) scM_3 (Memref.isWhole_whole _) scM_4 (Memref.isWhole_whole _) (fun h => absurd (show (0 : ℕ) = 16 from (hcondB ⟨0, hn⟩).mp h) (by decide)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) st0 := rfl

theorem stAfter_succ (c : Dev nD) (n : ℕ) (hn : n + 1 < cfg0.N) (h16 : ¬(n + 1 = 16)) :
    stAfter m c (n + 1) hn = sout_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) scM_0 (Memref.isWhole_whole _) scM_1 (Memref.isWhole_whole _) scM_2 (Memref.isWhole_whole _) scM_3 (Memref.isWhole_whole _) scM_4 (Memref.isWhole_whole _) (fun h => h16 ((hcondB ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (stAfter m c n (Nat.lt_of_succ_lt hn)) :=
  (dif_neg h16).trans rfl

theorem stAfter_last (c : Dev nD) (n : ℕ) (hn : n + 1 < cfg0.N) (h16 : n + 1 = 16) :
    stAfter m c (n + 1) hn = sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) scM_0 (Memref.isWhole_whole _) scM_1 (Memref.isWhole_whole _) scM_2 (Memref.isWhole_whole _) scM_3 (Memref.isWhole_whole _) scM_4 (Memref.isWhole_whole _) ((hcondB ⟨n + 1, hn⟩).mpr h16) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (stAfter m c n (Nat.lt_of_succ_lt hn)) :=
  (dif_pos h16).trans rfl

theorem out9_eq (c : Dev nD) :
    out9 m c = out_B_9 c (grid0.coords t16) (ms_0 t16) (hs_0 t16) (ms_1 t16) (hs_1 t16) (ms_2 t16) (hs_2 t16) (ms_3 t16) (hs_3 t16) (ms_4 t16) (hs_4 t16) (ms_5 t16) (hs_5 t16) (ms_6 t16) (hs_6 t16) (ms_7 t16) (hs_7 t16) (ms_8 t16) (hs_8 t16) (ms_9 t16) (hs_9 t16) (ms_10 t16) (hs_10 t16) scM_0 (Memref.isWhole_whole _) scM_1 (Memref.isWhole_whole _) scM_2 (Memref.isWhole_whole _) scM_3 (Memref.isWhole_whole _) scM_4 (Memref.isWhole_whole _) ((hcondB t16).mpr rfl) (iblk m c 0 t16) (iblk m c 1 t16) (iblk m c 2 t16) (iblk m c 3 t16) (iblk m c 4 t16) (iblk m c 5 t16) (iblk m c 6 t16) (iblk m c 7 t16) (iblk m c 8 t16) (stAfter m c 15 (by decide)) := rfl
theorem out10_eq (c : Dev nD) :
    out10 m c = out_B_10 c (grid0.coords t16) (ms_0 t16) (hs_0 t16) (ms_1 t16) (hs_1 t16) (ms_2 t16) (hs_2 t16) (ms_3 t16) (hs_3 t16) (ms_4 t16) (hs_4 t16) (ms_5 t16) (hs_5 t16) (ms_6 t16) (hs_6 t16) (ms_7 t16) (hs_7 t16) (ms_8 t16) (hs_8 t16) (ms_9 t16) (hs_9 t16) (ms_10 t16) (hs_10 t16) scM_0 (Memref.isWhole_whole _) scM_1 (Memref.isWhole_whole _) scM_2 (Memref.isWhole_whole _) scM_3 (Memref.isWhole_whole _) scM_4 (Memref.isWhole_whole _) ((hcondB t16).mpr rfl) (iblk m c 0 t16) (iblk m c 1 t16) (iblk m c 2 t16) (iblk m c 3 t16) (iblk m c 4 t16) (iblk m c 5 t16) (iblk m c 6 t16) (iblk m c 7 t16) (iblk m c 8 t16) (stAfter m c 15 (by decide)) := rfl

/-! ## The outputs' values -/

theorem after9_last (c : Dev nD) : (dats m 0 c).after 9 t16 = out9 m c := after_9 m c t16 rfl
theorem after10_last (c : Dev nD) : (dats m 0 c).after 10 t16 = out10 m c := after_10 m c t16 rfl

end Cert.Kernel.Hand

end
-- ==== Proof.KI.Runs.lean ====
import proofs.«114155_g2000202467955933_pallasbulk_1200_31_alg».proof.Proof.Gen.KernelIdeal.Frame
import proofs.«114155_g2000202467955933_pallasbulk_1200_31_alg».proof.Proof.Gen.KernelIdeal.Skeleton

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's one branch and the first point's mask, decided over the grid -/

/-- The condition of the body's one `scf.if` (the grid coordinate is 16: the last point). -/
abbrev condB (i : grid0.Coords) : Prop := k0_cond1 i = 1#1
/-- It holds at the last point only. -/
theorem hcondB : ∀ t : Fin cfg0.N, condB (grid0.coords t) ↔ t.val = 16 :=
  (by decide +kernel : ∀ t : Fin grid0.N, condB (grid0.coords t) ↔ t.val = 16)

/-- The mask the body selects its carried state under (the grid coordinate is 0: the first point). -/
abbrev condZ (i : grid0.Coords) : Prop := Scalar.cmpi .eq (BitVec.ofNat 32 (i 0).val) 0#32 = 1#1
/-- It holds at the first point only. -/
theorem hcondZ : ∀ t : Fin cfg0.N, condZ (grid0.coords t) ↔ t.val = 0 :=
  (by decide +kernel : ∀ t : Fin grid0.N, condZ (grid0.coords t) ↔ t.val = 0)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
theorem liveAt_6 : ∀ t : Fin cfg0.N, cfg0.idle 6 (grid0.coords t) = false := by decide +kernel
theorem liveAt_7 : ∀ t : Fin cfg0.N, cfg0.idle 7 (grid0.coords t) = false := by decide +kernel
theorem liveAt_8 : ∀ t : Fin cfg0.N, cfg0.idle 8 (grid0.coords t) = false := by decide +kernel
/-- Away from the last point output 9 is idle and not written back. -/
theorem idleAt_9 : ∀ t : Fin cfg0.N, ¬condB (grid0.coords t) → cfg0.idle 9 (grid0.coords t) = true := by decide +kernel
theorem noFlush_9 : ∀ t : Fin cfg0.N, ¬condB (grid0.coords t) → (cfg0.win 9).flush t = false := by decide +kernel
/-- At the last point it is live. -/
theorem liveAt_9 : ∀ t : Fin cfg0.N, condB (grid0.coords t) → cfg0.idle 9 (grid0.coords t) = false := by decide +kernel
/-- Away from the last point output 10 is idle and not written back. -/
theorem idleAt_10 : ∀ t : Fin cfg0.N, ¬condB (grid0.coords t) → cfg0.idle 10 (grid0.coords t) = true := by decide +kernel
theorem noFlush_10 : ∀ t : Fin cfg0.N, ¬condB (grid0.coords t) → (cfg0.win 10).flush t = false := by decide +kernel
/-- At the last point it is live. -/
theorem liveAt_10 : ∀ t : Fin cfg0.N, condB (grid0.coords t) → cfg0.idle 10 (grid0.coords t) = false := by decide +kernel

/-! ## The memrefs the body is called with -/

abbrev ms_0 (t : Fin cfg0.N) : Memref sig .tc .vmem S1024x256 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S256x2048 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x2048 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x2048 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S512x2048 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S512x2048 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x2048 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S512x128 .bf16 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1x128 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S64x128 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S64x128 .f32 := win0_10.stage (cfg0.slots t 10)
abbrev hs_10 (t : Fin cfg0.N) : (ms_10 t).IsWhole := hstage0_10 ((cfg0.slots t 10).cast nbuf0_10)
abbrev scM_0 : Memref sig .tc .vmem S64x512 .f32 := Memref.whole cc0_scratch0
abbrev VS_0 : View sig .tc .vmem S64x512 .f32 := scM_0.view
abbrev scM_1 : Memref sig .tc .vmem S64x512 .f32 := Memref.whole cc0_scratch1
abbrev VS_1 : View sig .tc .vmem S64x512 .f32 := scM_1.view
abbrev scM_2 : Memref sig .tc .vmem S64x512 .f32 := Memref.whole cc0_scratch2
abbrev VS_2 : View sig .tc .vmem S64x512 .f32 := scM_2.view
abbrev scM_3 : Memref sig .tc .vmem S64x512 .f32 := Memref.whole cc0_scratch3
abbrev VS_3 : View sig .tc .vmem S64x512 .f32 := scM_3.view
abbrev scM_4 : Memref sig .tc .vmem S1024x2048 .bf16 := Memref.whole cc0_scratch4
abbrev VS_4 : View sig .tc .vmem S1024x2048 .bf16 := scM_4.view
abbrev VO_9 : View sig .tc .vmem S64x128 .f32 := (Memref.whole cc0_stg9_0 : Memref sig .tc .vmem S64x128 .f32).view
abbrev VO_10 : View sig .tc .vmem S64x128 .f32 := (Memref.whole cc0_stg10_0 : Memref sig .tc .vmem S64x128 .f32).view

/-- The frame kit's invariant with the five scratch operands as memrefs owned at some contents. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d) ∗ (∃ d, owns (c : Thread nD τ) scM_4 fullShare d)) ∗ (∃ r, prngReg c r)) := by
  unfold Pipeline.ΦA; rw [scopedRest0_eq]; simp only [scM_0, scM_1, scM_2, scM_3, scM_4, owns_whole]; try rfl

/-! ## The first point's masks -/

/-- The zero state both layers start from. -/
def zero512 : FVec F S64x512 .f32 := broadcast S64x512 (Scalar.ofBits .f32 0x00000000#32)

theorem pay6_Z (i : grid0.Coords) (hz : condZ i) (v : Vec F S64x512 .f32) : k0_pay6 i v = zero512 := by
  unfold k0_pay6 zero512 Scalar.select; exact if_pos hz
theorem pay7_Z (i : grid0.Coords) (hz : condZ i) (v : Vec F S64x512 .f32) : k0_pay7 i v = zero512 := by
  unfold k0_pay7 zero512 Scalar.select; exact if_pos hz
/-- The first step's layer-0 gates at the first point: the carried hidden state is masked to zero. -/
def pay11_0 (v10 : Vec F S1024x256 .bf16) (v12 : Vec F S256x2048 .bf16) (v15 : Vec F S1x2048 .f32) (v19 : Vec F S512x2048 .bf16) : FVec F S64x2048 .f32 :=
  addf (extractStridedSlice S64x2048 ![0, 0] (k0_pay8 v10 v12 v15) slices_S1024x2048_o0_0_S64x2048)
    (matmul dot_S64x512_S512x2048_S64x2048_1_0_0_1_n_n none (truncf .bf16 (zero512 (F := F)) bitsLt_bf16_f32) (k0_pay9 v19) (constant S64x2048 .f32 0x00000000#32))
theorem pay11_Z (i : grid0.Coords) (hz : condZ i) (v1 : Vec F S64x512 .f32) (v10 : Vec F S1024x256 .bf16) (v12 : Vec F S256x2048 .bf16) (v15 : Vec F S1x2048 .f32) (v19 : Vec F S512x2048 .bf16) :
    k0_pay11 i v1 v10 v12 v15 v19 = pay11_0 v10 v12 v15 v19 := by
  unfold k0_pay11 pay11_0; rw [pay6_Z i hz v1]
theorem pay133_Z (i : grid0.Coords) (hz : condZ i) (v : FVec F S64x512 .f32) :
    k0_pay133 (BitVec.ofNat 32 (i 0).val) v = shapeCast S64x512 (zero512 (F := F)) shapeCasts_S64x512_S64x512 := by
  unfold k0_pay133 zero512 Scalar.select
  exact congrArg (fun v : FVec F S64x512 .f32 => shapeCast S64x512 v shapeCasts_S64x512_S64x512) (if_pos hz)
theorem pay134_Z (i : grid0.Coords) (hz : condZ i) (v : FVec F S64x512 .f32) :
    k0_pay134 (BitVec.ofNat 32 (i 0).val) v = zero512 := by
  unfold k0_pay134 zero512 Scalar.select; exact if_pos hz

end Cert.KernelIdeal.Hand

end
-- ==== Proof.KI.RunA.lean ====
import proofs.«114155_g2000202467955933_pallasbulk_1200_31_alg».proof.Proof.KI.Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's whole run in case A: on whole memrefs — the inputs' at their blocks, the idle outputs' at contents handed back untouched, the five carried scratch buffers at the contents the point before left — the body runs to a continuation holding the inputs' as they were and every buffer it stored into with its pieces written; the pieces are the witness the run finds. -/
noncomputable def kernelRun_A (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (xs12 : Vec F S64x512 .f32) (xs13 : Vec F S64x512 .f32) (xs14 : Vec F S64x512 .f32) (xs15 : Vec F S64x512 .f32) (xs16 : Vec F S1024x2048 .bf16) :
    Σ' (LS12 : List (View.Piece (Elt F) S64x512 .f32)) (LS13 : List (View.Piece (Elt F) S64x512 .f32)) (LS14 : List (View.Piece (Elt F) S64x512 .f32)) (LS15 : List (View.Piece (Elt F) S64x512 .f32)), { LS16 : List (View.Piece (Elt F) S1024x2048 .bf16) //
      ∀ (xi10 xi11 : Vec F S64x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ owns (c : Thread nD τ) arg11 fullShare xi11 ∗ owns (c : Thread nD τ) arg12 fullShare xs12 ∗ owns (c : Thread nD τ) arg13 fullShare xs13 ∗ owns (c : Thread nD τ) arg14 fullShare xs14 ∗ owns (c : Thread nD τ) arg15 fullShare xs15 ∗ owns (c : Thread nD τ) arg16 fullShare xs16
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ owns (c : Thread nD τ) arg11 fullShare xi11 ∗ (∃ f, arg12.view.loc (c : Thread nD τ) ↦[arg12.view.set]{fullShare} arg12.view.writes (Elt F) f LS12) ∗ (∃ f, arg13.view.loc (c : Thread nD τ) ↦[arg13.view.set]{fullShare} arg13.view.writes (Elt F) f LS13) ∗ (∃ f, arg14.view.loc (c : Thread nD τ) ↦[arg14.view.set]{fullShare} arg14.view.writes (Elt F) f LS14) ∗ (∃ f, arg15.view.loc (c : Thread nD τ) ↦[arg15.view.set]{fullShare} arg15.view.writes (Elt F) f LS15) ∗ (∃ f, arg16.view.loc (c : Thread nD τ) ↦[arg16.view.set]{fullShare} arg16.view.writes (Elt F) f LS16)) -∗ K ⟨⟩))
          ⊢ wp frame (wpE (defs₀ (F := F)) Variants.none c none) E (cc0__pipelined_lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun xi10 xi11 E K => ?run⟩
  case run =>
    simp only [cc0__pipelined_lstm_kernel_eq_skeleton]; unfold cc0__pipelined_lstm_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]; · iexists _; iexact H13
    isplitl [H14]; · iexists _; iexact H14
    isplitl [H15]; · iexists _; iexact H15
    iexists _; iexact H16

end Cert.KernelIdeal.Hand

end
-- ==== Proof.KI.RunB.lean ====
import proofs.«114155_g2000202467955933_pallasbulk_1200_31_alg».proof.Proof.KI.Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's whole run in case B: on whole memrefs — the inputs' at their blocks, the outputs' at anything, the five carried scratch buffers at the contents the point before left — the body runs to a continuation holding the inputs' as they were and every buffer it stored into with its pieces written; the pieces are the witness the run finds. -/
noncomputable def kernelRun_B (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i)
    (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (xs12 : Vec F S64x512 .f32) (xs13 : Vec F S64x512 .f32) (xs14 : Vec F S64x512 .f32) (xs15 : Vec F S64x512 .f32) (xs16 : Vec F S1024x2048 .bf16) :
    Σ' (L10 : List (View.Piece (Elt F) S64x128 .f32)) (L11 : List (View.Piece (Elt F) S64x128 .f32)) (LS12 : List (View.Piece (Elt F) S64x512 .f32)) (LS13 : List (View.Piece (Elt F) S64x512 .f32)) (LS14 : List (View.Piece (Elt F) S64x512 .f32)) (LS15 : List (View.Piece (Elt F) S64x512 .f32)), { LS16 : List (View.Piece (Elt F) S1024x2048 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare xs12 ∗ owns (c : Thread nD τ) arg13 fullShare xs13 ∗ owns (c : Thread nD τ) arg14 fullShare xs14 ∗ owns (c : Thread nD τ) arg15 fullShare xs15 ∗ owns (c : Thread nD τ) arg16 fullShare xs16
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f LS12) ∗ (∃ f, arg13.view.loc (c : Thread nD τ) ↦[arg13.view.set]{fullShare} arg13.view.writes (Elt F) f LS13) ∗ (∃ f, arg14.view.loc (c : Thread nD τ) ↦[arg14.view.set]{fullShare} arg14.view.writes (Elt F) f LS14) ∗ (∃ f, arg15.view.loc (c : Thread nD τ) ↦[arg15.view.set]{fullShare} arg15.view.writes (Elt F) f LS15) ∗ (∃ f, arg16.view.loc (c : Thread nD τ) ↦[arg16.view.set]{fullShare} arg16.view.writes (Elt F) f LS16)) -∗ K ⟨⟩))
          ⊢ wp frame (wpE (defs₀ (F := F)) Variants.none c none) E (cc0__pipelined_lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc0__pipelined_lstm_kernel_eq_skeleton]; unfold cc0__pipelined_lstm_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg13.eq_unread hf13; obtain rfl := harg14.eq_unread hf14; obtain rfl := harg15.eq_unread hf15; obtain rfl := harg16.eq_unread hf16
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.KernelIdeal.Hand

end
-- ==== Proof.KI.State.lean ====
import proofs.«114155_g2000202467955933_pallasbulk_1200_31_alg».proof.Proof.KI.RunA
import proofs.«114155_g2000202467955933_pallasbulk_1200_31_alg».proof.Proof.KI.RunB

set_option maxRecDepth 16384
set_option pp.maxSteps 3000
set_option pp.deepTerms false
set_option pp.proofs false

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five buffers the body carries between points: the two layers' hidden and cell states and the second layer's input gates of the block. -/
structure St (F : FTy → Type) where
  h0 : Vec F S64x512 .f32
  c0 : Vec F S64x512 .f32
  h1 : Vec F S64x512 .f32
  c1 : Vec F S64x512 .f32
  ig : Vec F S1024x2048 .bf16

/-! ## What each case leaves: covers and contents -/

/-- Case A's pieces for carried buffer 0 tile it. -/
theorem scover_A_0 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x512.Idx) :
    ∃ pc ∈ (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).1 S64x512.size (by sl_kernel_rfl) y

/-- Case A's pieces for carried buffer 1 tile it. -/
theorem scover_A_1 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x512.Idx) :
    ∃ pc ∈ (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.1 S64x512.size (by sl_kernel_rfl) y

/-- Case A's pieces for carried buffer 2 tile it. -/
theorem scover_A_2 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x512.Idx) :
    ∃ pc ∈ (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.1 S64x512.size (by sl_kernel_rfl) y

/-- Case A's pieces for carried buffer 3 tile it. -/
theorem scover_A_3 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x512.Idx) :
    ∃ pc ∈ (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.1 S64x512.size (by sl_kernel_rfl) y

/-- Case A's pieces for carried buffer 4 tile it. -/
theorem scover_A_4 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S1024x2048.Idx) :
    ∃ pc ∈ (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.1 S1024x2048.size (by sl_kernel_rfl) y

/-- What case A leaves in the five carried buffers: its pieces read back. -/
def sout_A (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) : St F :=
  ⟨VS_0.read (Elt F) (VS_0.writes (Elt F) VS_0.junk (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).1),
   VS_1.read (Elt F) (VS_1.writes (Elt F) VS_1.junk (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.1),
   VS_2.read (Elt F) (VS_2.writes (Elt F) VS_2.junk (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.1),
   VS_3.read (Elt F) (VS_3.writes (Elt F) VS_3.junk (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.1),
   VS_4.read (Elt F) (VS_4.writes (Elt F) VS_4.junk (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.1)⟩

/-- Case B's pieces for carried buffer 0 tile it. -/
theorem scover_B_0 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x512.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.1 S64x512.size (by sl_kernel_rfl) y

/-- Case B's pieces for carried buffer 1 tile it. -/
theorem scover_B_1 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x512.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.1 S64x512.size (by sl_kernel_rfl) y

/-- Case B's pieces for carried buffer 2 tile it. -/
theorem scover_B_2 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x512.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.1 S64x512.size (by sl_kernel_rfl) y

/-- Case B's pieces for carried buffer 3 tile it. -/
theorem scover_B_3 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x512.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.2.1 S64x512.size (by sl_kernel_rfl) y

/-- Case B's pieces for carried buffer 4 tile it. -/
theorem scover_B_4 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S1024x2048.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.2.2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.2.2.1 S1024x2048.size (by sl_kernel_rfl) y

/-- What case B leaves in the five carried buffers: its pieces read back. -/
def sout_B (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) : St F :=
  ⟨VS_0.read (Elt F) (VS_0.writes (Elt F) VS_0.junk (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.1),
   VS_1.read (Elt F) (VS_1.writes (Elt F) VS_1.junk (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.1),
   VS_2.read (Elt F) (VS_2.writes (Elt F) VS_2.junk (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.1),
   VS_3.read (Elt F) (VS_3.writes (Elt F) VS_3.junk (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.2.1),
   VS_4.read (Elt F) (VS_4.writes (Elt F) VS_4.junk (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.2.2.2.2.2.1)⟩

/-- Case B's pieces for output 9 tile its block. -/
theorem cover_B_9 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x128.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).1 S64x128.size (by sl_kernel_rfl) y
/-- What case B leaves in output 9's staging buffer. -/
def out_B_9 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) : Vec F S64x128 .f32 :=
  VO_9.read (Elt F) (VO_9.writes (Elt F) VO_9.junk (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).1)

/-- Case B's pieces for output 10 tile its block. -/
theorem cover_B_10 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) (y : S64x128.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.1 S64x128.size (by sl_kernel_rfl) y
/-- What case B leaves in output 10's staging buffer. -/
def out_B_10 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s : St F) : Vec F S64x128 .f32 :=
  VO_10.read (Elt F) (VO_10.writes (Elt F) VO_10.junk (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig).2.1)

/-! ## The first point: every read of the carried buffers is masked -/

set_option maxHeartbeats 4000000 in
/-- At the first point what the body leaves in carried buffer 0 does not depend on what the five buffers held: every read of them is masked. -/
theorem mask_A_0 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : condZ i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (d12 : Vec F S64x512 .f32) (d13 : Vec F S64x512 .f32) (d14 : Vec F S64x512 .f32) (d15 : Vec F S64x512 .f32) (d16 : Vec F S1024x2048 .bf16) (e12 : Vec F S64x512 .f32) (e13 : Vec F S64x512 .f32) (e14 : Vec F S64x512 .f32) (e15 : Vec F S64x512 .f32) (e16 : Vec F S1024x2048 .bf16) :
    (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 d12 d13 d14 d15 d16).1 = (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 e12 e13 e14 e15 e16).1 := by
  delta kernelRun_A; dsimp only
  sl_unfold_run_names
  simp only [↓pay133_Z i hz, ↓pay134_Z i hz, pay6_Z i hz, pay7_Z i hz, pay11_Z i hz]

set_option maxHeartbeats 4000000 in
/-- At the first point what the body leaves in carried buffer 1 does not depend on what the five buffers held: every read of them is masked. -/
theorem mask_A_1 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : condZ i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (d12 : Vec F S64x512 .f32) (d13 : Vec F S64x512 .f32) (d14 : Vec F S64x512 .f32) (d15 : Vec F S64x512 .f32) (d16 : Vec F S1024x2048 .bf16) (e12 : Vec F S64x512 .f32) (e13 : Vec F S64x512 .f32) (e14 : Vec F S64x512 .f32) (e15 : Vec F S64x512 .f32) (e16 : Vec F S1024x2048 .bf16) :
    (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 d12 d13 d14 d15 d16).2.1 = (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 e12 e13 e14 e15 e16).2.1 := by
  delta kernelRun_A; dsimp only
  sl_unfold_run_names
  simp only [↓pay133_Z i hz, ↓pay134_Z i hz, pay6_Z i hz, pay7_Z i hz, pay11_Z i hz]

set_option maxHeartbeats 4000000 in
/-- At the first point what the body leaves in carried buffer 2 does not depend on what the five buffers held: every read of them is masked. -/
theorem mask_A_2 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : condZ i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (d12 : Vec F S64x512 .f32) (d13 : Vec F S64x512 .f32) (d14 : Vec F S64x512 .f32) (d15 : Vec F S64x512 .f32) (d16 : Vec F S1024x2048 .bf16) (e12 : Vec F S64x512 .f32) (e13 : Vec F S64x512 .f32) (e14 : Vec F S64x512 .f32) (e15 : Vec F S64x512 .f32) (e16 : Vec F S1024x2048 .bf16) :
    (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 d12 d13 d14 d15 d16).2.2.1 = (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 e12 e13 e14 e15 e16).2.2.1 := by
  delta kernelRun_A; dsimp only
  sl_unfold_run_names
  simp only [↓pay133_Z i hz, ↓pay134_Z i hz, pay6_Z i hz, pay7_Z i hz, pay11_Z i hz]

set_option maxHeartbeats 4000000 in
/-- At the first point what the body leaves in carried buffer 3 does not depend on what the five buffers held: every read of them is masked. -/
theorem mask_A_3 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : condZ i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (d12 : Vec F S64x512 .f32) (d13 : Vec F S64x512 .f32) (d14 : Vec F S64x512 .f32) (d15 : Vec F S64x512 .f32) (d16 : Vec F S1024x2048 .bf16) (e12 : Vec F S64x512 .f32) (e13 : Vec F S64x512 .f32) (e14 : Vec F S64x512 .f32) (e15 : Vec F S64x512 .f32) (e16 : Vec F S1024x2048 .bf16) :
    (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 d12 d13 d14 d15 d16).2.2.2.1 = (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 e12 e13 e14 e15 e16).2.2.2.1 := by
  delta kernelRun_A; dsimp only
  sl_unfold_run_names
  simp only [↓pay133_Z i hz, ↓pay134_Z i hz, pay6_Z i hz, pay7_Z i hz, pay11_Z i hz]

set_option maxHeartbeats 4000000 in
/-- At the first point what the body leaves in carried buffer 4 does not depend on what the five buffers held: every read of them is masked. -/
theorem mask_A_4 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : condZ i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (d12 : Vec F S64x512 .f32) (d13 : Vec F S64x512 .f32) (d14 : Vec F S64x512 .f32) (d15 : Vec F S64x512 .f32) (d16 : Vec F S1024x2048 .bf16) (e12 : Vec F S64x512 .f32) (e13 : Vec F S64x512 .f32) (e14 : Vec F S64x512 .f32) (e15 : Vec F S64x512 .f32) (e16 : Vec F S1024x2048 .bf16) :
    (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 d12 d13 d14 d15 d16).2.2.2.2.1 = (kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 e12 e13 e14 e15 e16).2.2.2.2.1 := by
  delta kernelRun_A; dsimp only
  sl_unfold_run_names
  simp only [↓pay133_Z i hz, ↓pay134_Z i hz, pay6_Z i hz, pay7_Z i hz, pay11_Z i hz]

theorem St.mk_congr {a a' b b' c c' d d' : Vec F S64x512 .f32} {e e' : Vec F S1024x2048 .bf16}
    (ha : a = a') (hb : b = b') (hc : c = c') (hd : d = d') (he : e = e') : St.mk a b c d e = St.mk a' b' c' d' e' := by
  subst ha hb hc hd he; rfl

/-- At the first point what the body leaves does not depend on the state it starts from. -/
theorem sout_A_mask (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : condZ i) (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (s s' : St F) :
    sout_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s = sout_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s' := by
  unfold sout_A
  exact St.mk_congr
    (congrArg (fun L => VS_0.read (Elt F) (VS_0.writes (Elt F) VS_0.junk L)) (mask_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 s.h0 s.c0 s.h1 s.c1 s.ig s'.h0 s'.c0 s'.h1 s'.c1 s'.ig))
    (congrArg (fun L => VS_1.read (Elt F) (VS_1.writes (Elt F) VS_1.junk L)) (mask_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 s.h0 s.c0 s.h1 s.c1 s.ig s'.h0 s'.c0 s'.h1 s'.c1 s'.ig))
    (congrArg (fun L => VS_2.read (Elt F) (VS_2.writes (Elt F) VS_2.junk L)) (mask_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 s.h0 s.c0 s.h1 s.c1 s.ig s'.h0 s'.c0 s'.h1 s'.c1 s'.ig))
    (congrArg (fun L => VS_3.read (Elt F) (VS_3.writes (Elt F) VS_3.junk L)) (mask_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 s.h0 s.c0 s.h1 s.c1 s.ig s'.h0 s'.c0 s'.h1 s'.c1 s'.ig))
    (congrArg (fun L => VS_4.read (Elt F) (VS_4.writes (Elt F) VS_4.junk L)) (mask_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 s.h0 s.c0 s.h1 s.c1 s.ig s'.h0 s'.c0 s'.h1 s'.c1 s'.ig))

/-- A state to start the recurrence from: at the first point the body's result does not depend on it (`mask_A_j`). -/
def st0 : St F :=
  ⟨VS_0.read (Elt F) VS_0.junk, VS_1.read (Elt F) VS_1.junk, VS_2.read (Elt F) VS_2.junk, VS_3.read (Elt F) VS_3.junk, VS_4.read (Elt F) VS_4.junk⟩

/-! ## The carried state point by point -/

theorem N17 : cfg0.N = 17 := N_0

/-- THE RECURRENCE. The five carried buffers after the body at point `n`: the first point's case needs nothing of what they held; every later point runs on what the point before left. -/
def stAfter (c : Dev nD) : (n : ℕ) → n < cfg0.N → St F
  | 0, hn => sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) scM_0 (Memref.isWhole_whole _) scM_1 (Memref.isWhole_whole _) scM_2 (Memref.isWhole_whole _) scM_3 (Memref.isWhole_whole _) scM_4 (Memref.isWhole_whole _) (fun h => absurd (show (0 : ℕ) = 16 from (hcondB ⟨0, hn⟩).mp h) (by decide)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) st0
  | n + 1, hn =>
    if h16 : n + 1 = 16 then
      sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) scM_0 (Memref.isWhole_whole _) scM_1 (Memref.isWhole_whole _) scM_2 (Memref.isWhole_whole _) scM_3 (Memref.isWhole_whole _) scM_4 (Memref.isWhole_whole _) ((hcondB ⟨n + 1, hn⟩).mpr h16) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (stAfter c n (Nat.lt_of_succ_lt hn))
    else
      sout_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) scM_0 (Memref.isWhole_whole _) scM_1 (Memref.isWhole_whole _) scM_2 (Memref.isWhole_whole _) scM_3 (Memref.isWhole_whole _) scM_4 (Memref.isWhole_whole _) (fun h => h16 ((hcondB ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (stAfter c n (Nat.lt_of_succ_lt hn))

theorem stAfter_Z (c : Dev nD) (t : Fin cfg0.N) (h0 : t.val = 0) (hc : ¬condB (grid0.coords t)) :
    stAfter m c t.val t.isLt = sout_A c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM_0 (Memref.isWhole_whole _) scM_1 (Memref.isWhole_whole _) scM_2 (Memref.isWhole_whole _) scM_3 (Memref.isWhole_whole _) scM_4 (Memref.isWhole_whole _) hc (iblk m c 0 t) (iblk m c 1 t) (iblk m c 2 t) (iblk m c 3 t) (iblk m c 4 t) (iblk m c 5 t) (iblk m c 6 t) (iblk m c 7 t) (iblk m c 8 t) st0 := by
  obtain ⟨n, hn⟩ := t
  cases n with
  | zero => rfl
  | succ n => exact absurd h0 (Nat.succ_ne_zero n)

theorem stAfter_A (c : Dev nD) (t : Fin cfg0.N) (h0 : t.val ≠ 0) (h16 : ¬t.val = 16) (hc : ¬condB (grid0.coords t)) :
    stAfter m c t.val t.isLt = sout_A c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM_0 (Memref.isWhole_whole _) scM_1 (Memref.isWhole_whole _) scM_2 (Memref.isWhole_whole _) scM_3 (Memref.isWhole_whole _) scM_4 (Memref.isWhole_whole _) hc (iblk m c 0 t) (iblk m c 1 t) (iblk m c 2 t) (iblk m c 3 t) (iblk m c 4 t) (iblk m c 5 t) (iblk m c 6 t) (iblk m c 7 t) (iblk m c 8 t) (stAfter m c (t.val - 1) (Nat.lt_of_le_of_lt (Nat.sub_le _ _) t.isLt)) := by
  obtain ⟨n, hn⟩ := t
  cases n with
  | zero => exact absurd rfl h0
  | succ n => exact (dif_neg h16).trans rfl

theorem stAfter_B (c : Dev nD) (t : Fin cfg0.N) (h16 : t.val = 16) (hc : condB (grid0.coords t)) :
    stAfter m c t.val t.isLt = sout_B c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM_0 (Memref.isWhole_whole _) scM_1 (Memref.isWhole_whole _) scM_2 (Memref.isWhole_whole _) scM_3 (Memref.isWhole_whole _) scM_4 (Memref.isWhole_whole _) hc (iblk m c 0 t) (iblk m c 1 t) (iblk m c 2 t) (iblk m c 3 t) (iblk m c 4 t) (iblk m c 5 t) (iblk m c 6 t) (iblk m c 7 t) (iblk m c 8 t) (stAfter m c (t.val - 1) (Nat.lt_of_le_of_lt (Nat.sub_le _ _) t.isLt)) := by
  obtain ⟨n, hn⟩ := t
  cases n with
  | zero => exact absurd (show (0 : ℕ) = 16 from h16) (by decide)
  | succ n => exact (dif_pos h16).trans rfl

/-- The five carried buffers BEFORE point `t`, for `1 ≤ t ≤ 17` (what the point before left). -/
def stAt (c : Dev nD) (t : ℕ) : St F :=
  if h : 0 < t ∧ t - 1 < cfg0.N then stAfter m c (t - 1) h.2
  else ⟨VS_0.read (Elt F) VS_0.junk, VS_1.read (Elt F) VS_1.junk, VS_2.read (Elt F) VS_2.junk, VS_3.read (Elt F) VS_3.junk, VS_4.read (Elt F) VS_4.junk⟩

/-- What the last point leaves in output 9's staging buffer (at a point `t` known to be the last). -/
def out9At (c : Dev nD) (t : Fin cfg0.N) (h : t.val = 16) : Vec F S64x128 .f32 :=
  out_B_9 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM_0 (Memref.isWhole_whole _) scM_1 (Memref.isWhole_whole _) scM_2 (Memref.isWhole_whole _) scM_3 (Memref.isWhole_whole _) scM_4 (Memref.isWhole_whole _) ((hcondB t).mpr h) (iblk m c 0 t) (iblk m c 1 t) (iblk m c 2 t) (iblk m c 3 t) (iblk m c 4 t) (iblk m c 5 t) (iblk m c 6 t) (iblk m c 7 t) (iblk m c 8 t) (stAfter m c (t.val - 1) (Nat.lt_of_le_of_lt (Nat.sub_le _ _) t.isLt))
/-- What the last point leaves in output 10's staging buffer (at a point `t` known to be the last). -/
def out10At (c : Dev nD) (t : Fin cfg0.N) (h : t.val = 16) : Vec F S64x128 .f32 :=
  out_B_10 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM_0 (Memref.isWhole_whole _) scM_1 (Memref.isWhole_whole _) scM_2 (Memref.isWhole_whole _) scM_3 (Memref.isWhole_whole _) scM_4 (Memref.isWhole_whole _) ((hcondB t).mpr h) (iblk m c 0 t) (iblk m c 1 t) (iblk m c 2 t) (iblk m c 3 t) (iblk m c 4 t) (iblk m c 5 t) (iblk m c 6 t) (iblk m c 7 t) (iblk m c 8 t) (stAfter m c (t.val - 1) (Nat.lt_of_le_of_lt (Nat.sub_le _ _) t.isLt))

/-- The last point. -/
def t16 : Fin cfg0.N := ⟨16, by decide⟩
/-- The first output of the kernel (the second layer's head) and the second (the first layer's). -/
def out9 (c : Dev nD) : Vec F S64x128 .f32 := out9At m c t16 rfl
def out10 (c : Dev nD) : Vec F S64x128 .f32 := out10At m c t16 rfl

/-- The region invariant before position `n`: before the first point the scratch at anything; afterwards at what the point before left. -/
def PhiS (c : Dev nD) : (n : ℕ) → n ≤ cfg0.N → sProp 𝕄
  | 0, _ => Pipeline.ΦA spec0 c
  | n + 1, hn => iprop(iprop(owns (c : Thread nD τ) scM_0 fullShare ((stAfter m c n hn).h0) ∗ owns (c : Thread nD τ) scM_1 fullShare ((stAfter m c n hn).c0) ∗ owns (c : Thread nD τ) scM_2 fullShare ((stAfter m c n hn).h1) ∗ owns (c : Thread nD τ) scM_3 fullShare ((stAfter m c n hn).c1) ∗ owns (c : Thread nD τ) scM_4 fullShare ((stAfter m c n hn).ig)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM_0 fullShare ((stAfter m c n hn).h0) ∗ owns (c : Thread nD τ) scM_1 fullShare ((stAfter m c n hn).c0) ∗ owns (c : Thread nD τ) scM_2 fullShare ((stAfter m c n hn).h1) ∗ owns (c : Thread nD τ) scM_3 fullShare ((stAfter m c n hn).c1) ∗ owns (c : Thread nD τ) scM_4 fullShare ((stAfter m c n hn).ig)) ∗ (∃ r, prngReg c r)) := rfl
theorem PhiS_pos (c : Dev nD) (n : ℕ) (h : n ≤ cfg0.N) (hz : n ≠ 0) :
    PhiS m c n h = iprop(iprop(owns (c : Thread nD τ) scM_0 fullShare ((stAfter m c (n - 1) (by omega)).h0) ∗ owns (c : Thread nD τ) scM_1 fullShare ((stAfter m c (n - 1) (by omega)).c0) ∗ owns (c : Thread nD τ) scM_2 fullShare ((stAfter m c (n - 1) (by omega)).h1) ∗ owns (c : Thread nD τ) scM_3 fullShare ((stAfter m c (n - 1) (by omega)).c1) ∗ owns (c : Thread nD τ) scM_4 fullShare ((stAfter m c (n - 1) (by omega)).ig)) ∗ (∃ r, prngReg c r)) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => if h : t.val = 16 then out9At m c t h else VO_9.read (Elt F) VO_9.junk
    | ⟨10, _⟩ => if h : t.val = 16 then out10At m c t h else VO_10.read (Elt F) VO_10.junk
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) (h : t.val = 16) : (dats m 0 c).after 9 t = out9At m c t h := by dsimp only [dats]; exact dif_pos h
theorem after_10 (c : Dev nD) (t : Fin cfg0.N) (h : t.val = 16) : (dats m 0 c).after 10 t = out10At m c t h := by dsimp only [dats]; exact dif_pos h

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

theorem leaves_0 (c : Dev nD) (t : Fin cfg0.N) : (dats m 0 c).leavesExact 0 t = owns (c : Thread nD τ) (ms_0 t) fullShare (iblk m c 0 t) := by
  unfold Dat.leavesExact; rw [liveAt_0 t, after_0]
theorem leaves_1 (c : Dev nD) (t : Fin cfg0.N) : (dats m 0 c).leavesExact 1 t = owns (c : Thread nD τ) (ms_1 t) fullShare (iblk m c 1 t) := by
  unfold Dat.leavesExact; rw [liveAt_1 t, after_1]
theorem leaves_2 (c : Dev nD) (t : Fin cfg0.N) : (dats m 0 c).leavesExact 2 t = owns (c : Thread nD τ) (ms_2 t) fullShare (iblk m c 2 t) := by
  unfold Dat.leavesExact; rw [liveAt_2 t, after_2]
theorem leaves_3 (c : Dev nD) (t : Fin cfg0.N) : (dats m 0 c).leavesExact 3 t = owns (c : Thread nD τ) (ms_3 t) fullShare (iblk m c 3 t) := by
  unfold Dat.leavesExact; rw [liveAt_3 t, after_3]
theorem leaves_4 (c : Dev nD) (t : Fin cfg0.N) : (dats m 0 c).leavesExact 4 t = owns (c : Thread nD τ) (ms_4 t) fullShare (iblk m c 4 t) := by
  unfold Dat.leavesExact; rw [liveAt_4 t, after_4]
theorem leaves_5 (c : Dev nD) (t : Fin cfg0.N) : (dats m 0 c).leavesExact 5 t = owns (c : Thread nD τ) (ms_5 t) fullShare (iblk m c 5 t) := by
  unfold Dat.leavesExact; rw [liveAt_5 t, after_5]
theorem leaves_6 (c : Dev nD) (t : Fin cfg0.N) : (dats m 0 c).leavesExact 6 t = owns (c : Thread nD τ) (ms_6 t) fullShare (iblk m c 6 t) := by
  unfold Dat.leavesExact; rw [liveAt_6 t, after_6]
theorem leaves_7 (c : Dev nD) (t : Fin cfg0.N) : (dats m 0 c).leavesExact 7 t = owns (c : Thread nD τ) (ms_7 t) fullShare (iblk m c 7 t) := by
  unfold Dat.leavesExact; rw [liveAt_7 t, after_7]
theorem leaves_8 (c : Dev nD) (t : Fin cfg0.N) : (dats m 0 c).leavesExact 8 t = owns (c : Thread nD τ) (ms_8 t) fullShare (iblk m c 8 t) := by
  unfold Dat.leavesExact; rw [liveAt_8 t, after_8]
theorem leaves_9 (c : Dev nD) (t : Fin cfg0.N) (h : t.val = 16) : (dats m 0 c).leavesExact 9 t = owns (c : Thread nD τ) (ms_9 t) fullShare (out9At m c t h) := by
  unfold Dat.leavesExact; rw [liveAt_9 t ((hcondB t).mpr h), after_9 m c t h]
theorem leaves_10 (c : Dev nD) (t : Fin cfg0.N) (h : t.val = 16) : (dats m 0 c).leavesExact 10 t = owns (c : Thread nD τ) (ms_10 t) fullShare (out10At m c t h) := by
  unfold Dat.leavesExact; rw [liveAt_10 t ((hcondB t).mpr h), after_10 m c t h]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

end Cert.KernelIdeal.Hand

end
-- ==== Proof.KI.BodyB.lean ====
import proofs.«114155_g2000202467955933_pallasbulk_1200_31_alg».proof.Proof.KI.State

set_option maxRecDepth 16384
set_option pp.maxSteps 3000
set_option pp.deepTerms false
set_option pp.proofs false

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_body_B (c : Dev nD) (t : Fin cfg0.N) (hB : t.val = 16) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  have hN : t.val < 17 := lt_of_lt_of_eq t.isLt N17
  rw [leaves_0, leaves_1, leaves_2, leaves_3, leaves_4, leaves_5, leaves_6, leaves_7, leaves_8]
  have hZ : t.val ≠ 0 := by omega
  rw [leaves_9 m c t hB, leaves_10 m c t hB]
  rw [stAfter_B m c t hB ((hcondB t).mpr hB)]
  unfold sout_B out9At out10At out_B_9 out_B_10; (try dsimp only)
  rw [PhiS_castSucc m c t, PhiS_pos m c _ _ (by omega)]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun_B c (grid0.coords t) _ _ _ _ _ _ _ _ _ _ _ _ _ _ _ _ _ _ _ _ _ _ _ _ _ _ _ _ _ _ _ _ ((hcondB t).mpr hB) (iblk m c 0 t) (iblk m c 1 t) (iblk m c 2 t) (iblk m c 3 t) (iblk m c 4 t) (iblk m c 5 t) (iblk m c 6 t) (iblk m c 7 t) (iblk m c 8 t) _ _ _ _ _).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, ⟨%e9, H9⟩, ⟨%e10, H10⟩, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover_B_0 _ _ _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover_B_1 _ _ _ _ _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover_B_2 _ _ _ _ _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover_B_3 _ _ _ _ _ _ _ _ _ _ _ _ _ _ _ _ _ _ _ _ _ _ _ _ _ _ _ _ _ _ _ _ _ _ _ _ _ _ _ _ _ _ _ _ _)
      unfold owns; iexists _; isplitr
      swap; · iexact HS4
      ipureintro; exact View.read_writes_of_cover _ _ _ _ _ (scover_B_4 _ _ _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover_B_9 _ _ _ _ _ _ _ _ _ _ _ _ _ _ _ _ _ _ _ _ _ _ _ _ _ _ _ _ _ _ _ _ _ _ _ _ _ _ _ _ _ _ _ _ _)
  unfold owns; iexists _; isplitr
  swap; · iexact H10
  ipureintro; exact View.read_writes_of_cover _ _ _ _ _ (cover_B_10 _ _ _ _ _ _ _ _ _ _ _ _ _ _ _ _ _ _ _ _ _ _ _ _ _ _ _ _ _ _ _ _ _ _ _ _ _ _ _ _ _ _ _ _ _)

end Cert.KernelIdeal.Hand

end
-- ==== Proof.KI.BodyZ.lean ====
import proofs.«114155_g2000202467955933_pallasbulk_1200_31_alg».proof.Proof.KI.State

set_option maxRecDepth 16384
set_option pp.maxSteps 3000
set_option pp.deepTerms false
set_option pp.proofs false

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_body_Z (c : Dev nD) (t : Fin cfg0.N) (hB : ¬t.val = 16) (hZ : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  have hN : t.val < 17 := lt_of_lt_of_eq t.isLt N17
  rw [leaves_0, leaves_1, leaves_2, leaves_3, leaves_4, leaves_5, leaves_6, leaves_7, leaves_8]
  have hnB : ¬condB (grid0.coords t) := fun h => hB ((hcondB t).mp h)
  rw [Dat.leavesExact_idle (dats m 0 c) 9 t (idleAt_9 t hnB) (noFlush_9 t hnB), Dat.leavesExact_idle (dats m 0 c) 10 t (idleAt_10 t hnB) (noFlush_10 t hnB)]
  rw [stAfter_Z m c t hZ hnB]
  rw [PhiS_castSucc m c t, PhiS_zero m c _ _ hZ, PhiA_eq]
  iintro ⟨⟨⟨⟨%d12, HS0⟩, ⟨%d13, HS1⟩, ⟨%d14, HS2⟩, ⟨%d15, HS3⟩, ⟨%d16, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [sout_A_mask c (grid0.coords t) _ _ _ _ _ _ _ _ _ _ _ _ _ _ _ _ _ _ _ _ _ _ _ _ _ _ _ _ _ _ _ _ hnB ((hcondZ t).mpr hZ) (iblk m c 0 t) (iblk m c 1 t) (iblk m c 2 t) (iblk m c 3 t) (iblk m c 4 t) (iblk m c 5 t) (iblk m c 6 t) (iblk m c 7 t) (iblk m c 8 t) st0 ⟨d12, d13, d14, d15, d16⟩]
  unfold sout_A; (try dsimp only)
  iapply ((kernelRun_A c (grid0.coords t) _ _ _ _ _ _ _ _ _ _ _ _ _ _ _ _ _ _ _ _ _ _ _ _ _ _ _ _ _ _ _ _ hnB (iblk m c 0 t) (iblk m c 1 t) (iblk m c 2 t) (iblk m c 3 t) (iblk m c 4 t) (iblk m c 5 t) (iblk m c 6 t) (iblk m c 7 t) (iblk m c 8 t) d12 d13 d14 d15 d16).2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover_A_0 _ _ _ _ _ _ _ _ _ _ _ _ _ _ _ _ _ _ _ _ _ _ _ _ _ _ _ _ _ _ _ _ _ _ _ _ _ _ _ _ _ _ _ _ ⟨d12, d13, d14, d15, d16⟩)
      isplitl [HS1]
      · unfold owns; iexists _; isplitr
        swap; · iexact HS1
        ipureintro; exact View.read_writes_of_cover _ _ _ _ _ (scover_A_1 _ _ _ _ _ _ _ _ _ _ _ _ _ _ _ _ _ _ _ _ _ _ _ _ _ _ _ _ _ _ _ _ _ _ _ _ _ _ _ _ _ _ _ _ ⟨d12, d13, d14, d15, d16⟩)
      isplitl [HS2]
      · unfold owns; iexists _; isplitr
        swap; · iexact HS2
        ipureintro; exact View.read_writes_of_cover _ _ _ _ _ (scover_A_2 _ _ _ _ _ _ _ _ _ _ _ _ _ _ _ _ _ _ _ _ _ _ _ _ _ _ _ _ _ _ _ _ _ _ _ _ _ _ _ _ _ _ _ _ ⟨d12, d13, d14, d15, d16⟩)
      isplitl [HS3]
      · unfold owns; iexists _; isplitr
        swap; · iexact HS3
        ipureintro; exact View.read_writes_of_cover _ _ _ _ _ (scover_A_3 _ _ _ _ _ _ _ _ _ _ _ _ _ _ _ _ _ _ _ _ _ _ _ _ _ _ _ _ _ _ _ _ _ _ _ _ _ _ _ _ _ _ _ _ ⟨d12, d13, d14, d15, d16⟩)
      unfold owns; iexists _; isplitr
      swap; · iexact HS4
      ipureintro; exact View.read_writes_of_cover _ _ _ _ _ (scover_A_4 _ _ _ _ _ _ _ _ _ _ _ _ _ _ _ _ _ _ _ _ _ _ _ _ _ _ _ _ _ _ _ _ _ _ _ _ _ _ _ _ _ _ _ _ ⟨d12, d13, d14, d15, d16⟩)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

end Cert.KernelIdeal.Hand

end
-- ==== Proof.KI.BodyA.lean ====
import proofs.«114155_g2000202467955933_pallasbulk_1200_31_alg».proof.Proof.KI.State

set_option maxRecDepth 16384
set_option pp.maxSteps 3000
set_option pp.deepTerms false
set_option pp.proofs false

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_body_A (c : Dev nD) (t : Fin cfg0.N) (hB : ¬t.val = 16) (hZ : ¬t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  have hN : t.val < 17 := lt_of_lt_of_eq t.isLt N17
  rw [leaves_0, leaves_1, leaves_2, leaves_3, leaves_4, leaves_5, leaves_6, leaves_7, leaves_8]
  have hnB : ¬condB (grid0.coords t) := fun h => hB ((hcondB t).mp h)
  rw [Dat.leavesExact_idle (dats m 0 c) 9 t (idleAt_9 t hnB) (noFlush_9 t hnB), Dat.leavesExact_idle (dats m 0 c) 10 t (idleAt_10 t hnB) (noFlush_10 t hnB)]
  rw [stAfter_A m c t hZ hB hnB]
  unfold sout_A; (try dsimp only)
  rw [PhiS_castSucc m c t, PhiS_pos m c _ _ hZ]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun_A c (grid0.coords t) _ _ _ _ _ _ _ _ _ _ _ _ _ _ _ _ _ _ _ _ _ _ _ _ _ _ _ _ _ _ _ _ hnB (iblk m c 0 t) (iblk m c 1 t) (iblk m c 2 t) (iblk m c 3 t) (iblk m c 4 t) (iblk m c 5 t) (iblk m c 6 t) (iblk m c 7 t) (iblk m c 8 t) _ _ _ _ _).2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (scover_A_0 _ _ _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover_A_1 _ _ _ _ _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover_A_2 _ _ _ _ _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover_A_3 _ _ _ _ _ _ _ _ _ _ _ _ _ _ _ _ _ _ _ _ _ _ _ _ _ _ _ _ _ _ _ _ _ _ _ _ _ _ _ _ _ _ _ _ _)
      unfold owns; iexists _; isplitr
      swap; · iexact HS4
      ipureintro; exact View.read_writes_of_cover _ _ _ _ _ (scover_A_4 _ _ _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

end Cert.KernelIdeal.Hand

end
-- ==== Proof.KI.Frame.lean ====
import proofs.«114155_g2000202467955933_pallasbulk_1200_31_alg».proof.Proof.KI.BodyB
import proofs.«114155_g2000202467955933_pallasbulk_1200_31_alg».proof.Proof.KI.BodyZ
import proofs.«114155_g2000202467955933_pallasbulk_1200_31_alg».proof.Proof.KI.BodyA

set_option maxRecDepth 16384
set_option pp.maxSteps 3000
set_option pp.deepTerms false
set_option pp.proofs false

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: the inputs' memrefs hold their blocks; the point is the first, the last or one between, and that case's run applies; the invariant hands the body the carried buffers at what the point before left (at anything at the first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  by_cases hB : t.val = 16
  · exact sound_body_B m c t hB
  · by_cases hZ : t.val = 0
    · exact sound_body_Z m c t hB hZ
    · exact sound_body_A m c t hB hZ

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 17 := N17; omega)

/-! ## The run and the frame -/

set_option backward.isDefEq.respectTransparency.types false in
/-- Every weakly fair execution of @main on the TensorCores terminates, and every final state has every array of the pipeline at what the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-! ## The recurrence's equations, spelt over the runs' piece lists -/

theorem stAfter_zero (c : Dev nD) (hn : 0 < cfg0.N) :
    stAfter m c 0 hn = sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) scM_0 (Memref.isWhole_whole _) scM_1 (Memref.isWhole_whole _) scM_2 (Memref.isWhole_whole _) scM_3 (Memref.isWhole_whole _) scM_4 (Memref.isWhole_whole _) (fun h => absurd (show (0 : ℕ) = 16 from (hcondB ⟨0, hn⟩).mp h) (by decide)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) st0 := rfl

theorem stAfter_succ (c : Dev nD) (n : ℕ) (hn : n + 1 < cfg0.N) (h16 : ¬(n + 1 = 16)) :
    stAfter m c (n + 1) hn = sout_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) scM_0 (Memref.isWhole_whole _) scM_1 (Memref.isWhole_whole _) scM_2 (Memref.isWhole_whole _) scM_3 (Memref.isWhole_whole _) scM_4 (Memref.isWhole_whole _) (fun h => h16 ((hcondB ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (stAfter m c n (Nat.lt_of_succ_lt hn)) :=
  (dif_neg h16).trans rfl

theorem stAfter_last (c : Dev nD) (n : ℕ) (hn : n + 1 < cfg0.N) (h16 : n + 1 = 16) :
    stAfter m c (n + 1) hn = sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) scM_0 (Memref.isWhole_whole _) scM_1 (Memref.isWhole_whole _) scM_2 (Memref.isWhole_whole _) scM_3 (Memref.isWhole_whole _) scM_4 (Memref.isWhole_whole _) ((hcondB ⟨n + 1, hn⟩).mpr h16) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (stAfter m c n (Nat.lt_of_succ_lt hn)) :=
  (dif_pos h16).trans rfl

theorem out9_eq (c : Dev nD) :
    out9 m c = out_B_9 c (grid0.coords t16) (ms_0 t16) (hs_0 t16) (ms_1 t16) (hs_1 t16) (ms_2 t16) (hs_2 t16) (ms_3 t16) (hs_3 t16) (ms_4 t16) (hs_4 t16) (ms_5 t16) (hs_5 t16) (ms_6 t16) (hs_6 t16) (ms_7 t16) (hs_7 t16) (ms_8 t16) (hs_8 t16) (ms_9 t16) (hs_9 t16) (ms_10 t16) (hs_10 t16) scM_0 (Memref.isWhole_whole _) scM_1 (Memref.isWhole_whole _) scM_2 (Memref.isWhole_whole _) scM_3 (Memref.isWhole_whole _) scM_4 (Memref.isWhole_whole _) ((hcondB t16).mpr rfl) (iblk m c 0 t16) (iblk m c 1 t16) (iblk m c 2 t16) (iblk m c 3 t16) (iblk m c 4 t16) (iblk m c 5 t16) (iblk m c 6 t16) (iblk m c 7 t16) (iblk m c 8 t16) (stAfter m c 15 (by decide)) := rfl
theorem out10_eq (c : Dev nD) :
    out10 m c = out_B_10 c (grid0.coords t16) (ms_0 t16) (hs_0 t16) (ms_1 t16) (hs_1 t16) (ms_2 t16) (hs_2 t16) (ms_3 t16) (hs_3 t16) (ms_4 t16) (hs_4 t16) (ms_5 t16) (hs_5 t16) (ms_6 t16) (hs_6 t16) (ms_7 t16) (hs_7 t16) (ms_8 t16) (hs_8 t16) (ms_9 t16) (hs_9 t16) (ms_10 t16) (hs_10 t16) scM_0 (Memref.isWhole_whole _) scM_1 (Memref.isWhole_whole _) scM_2 (Memref.isWhole_whole _) scM_3 (Memref.isWhole_whole _) scM_4 (Memref.isWhole_whole _) ((hcondB t16).mpr rfl) (iblk m c 0 t16) (iblk m c 1 t16) (iblk m c 2 t16) (iblk m c 3 t16) (iblk m c 4 t16) (iblk m c 5 t16) (iblk m c 6 t16) (iblk m c 7 t16) (iblk m c 8 t16) (stAfter m c 15 (by decide)) := rfl

/-! ## The outputs' values -/

theorem after9_last (c : Dev nD) : (dats m 0 c).after 9 t16 = out9 m c := after_9 m c t16 rfl
theorem after10_last (c : Dev nD) : (dats m 0 c).after 10 t16 = out10 m c := after_10 m c t16 rfl

end Cert.KernelIdeal.Hand

end
-- ==== Proof.SigmoidLaw.lean ====
/-
  The logistic function in its hyperbolic-tangent form, on the extended reals.

  For a real r,  1/(1 + e^(-r)) = 1/2 + (1/2)·tanh(r/2): with a = e^(r/2) both sides are a²/(a² + 1).
  At the two infinities the conventions agree as well: tanh(-∞) = -1 and tanh(+∞) = 1 give 0 and 1, the limits of the
  logistic function.  So the identity holds at EVERY extended real, and a proof that uses it needs no finiteness of
  the argument.
-/
import Idealize.ShloMosaic.PureOps.Ideal

noncomputable section

namespace Cert.Lstm

open Idealize.ShloMosaic

/-- The word of the float literal `0.5` denotes the real 1/2. -/
theorem ofBits_half : Ideal.ofBits .f32 0x3F000000#32 = ((1 / 2 : ℝ) : EReal) := by
  simp [Ideal.ofBits, Ideal.ieee, -EReal.coe_mul]; norm_num

/-- The identity over the reals. -/
theorem logistic_eq_tanh_real (r : ℝ) : (1 / 2 : ℝ) * Real.tanh ((1 / 2) * r) + 1 / 2 = (1 + Real.exp (-r))⁻¹ := by
  have ha : 0 < Real.exp ((1 / 2) * r) := Real.exp_pos _
  have h1 : Real.exp (-((1 / 2) * r)) = (Real.exp ((1 / 2) * r))⁻¹ := Real.exp_neg _
  have h2 : Real.exp (-r) = (Real.exp ((1 / 2) * r))⁻¹ * (Real.exp ((1 / 2) * r))⁻¹ := by
    rw [← h1, ← Real.exp_add]; congr 1; ring
  rw [Real.tanh_eq_sinh_div_cosh, Real.sinh_eq, Real.cosh_eq, h1, h2]
  generalize Real.exp ((1 / 2) * r) = a at ha
  have ha' : a ≠ 0 := ne_of_gt ha
  field_simp
  ring

/-- The identity at every extended real: the half-angle form of the logistic function. -/
theorem half_tanh_half (x : EReal) :
    ((1 / 2 : ℝ) : EReal) * Ideal.tanh (((1 / 2 : ℝ) : EReal) * x) + ((1 / 2 : ℝ) : EReal) = Ideal.logistic x := by
  induction x using EReal.rec with
  | bot =>
    rw [EReal.coe_mul_bot_of_pos (by norm_num : (0 : ℝ) < 1 / 2), Ideal.tanh_bot, Ideal.logistic_bot]
    rw [show (-1 : EReal) = ((-1 : ℝ) : EReal) from by norm_num, ← EReal.coe_mul, ← EReal.coe_add]
    norm_num
  | coe r =>
    rw [← EReal.coe_mul, Ideal.tanh_coe, ← EReal.coe_mul, ← EReal.coe_add, Ideal.logistic_coe, logistic_eq_tanh_real]
  | top =>
    rw [EReal.coe_mul_top_of_pos (by norm_num : (0 : ℝ) < 1 / 2), Ideal.tanh_top, Ideal.logistic_top, mul_one,
      ← EReal.coe_add]
    norm_num

end Cert.Lstm

end
-- ==== Proof.LstmCell.lean ====
/-
  One LSTM cell on the extended reals, in the two spellings the programs use.

  Both programs form the gate pre-activations g (64 rows, 2048 = 4·512 columns: input, forget, cell, output) and update
      c' = f·c + i·g̃ ,   h' = o·tanh c' .
  One spelling applies the logistic function and tanh to all of g and then cuts the four column blocks; the other cuts
  first and writes the logistic function as 1/2 + (1/2)·tanh(x/2).  Cutting commutes with a pointwise operation, a cut of
  a cut is a cut, and the two forms of the logistic function agree at every extended real, so the two cells are one
  function.
-/
import Idealize.ShloMosaic.PureOps.Ideal
import Idealize.ShloMosaic.Lib.ValueIdx
import Idealize.ShloMosaic.Lib.ValueLayout
import Idealize.ShloMosaic.Lib.Pipeline.Value
import proofs.«114155_g2000202467955933_pallasbulk_1200_31_alg».proof.Proof.SigmoidLaw

noncomputable section

namespace Cert.Lstm

open Idealize.ShloMosaic

/-- The half-angle form of the logistic function, on a vector of any shape. -/
def sigT (S : Shape) (v : FVec Ideal S .f32) : FVec Ideal S .f32 :=
  addf (mulf (broadcast S (Scalar.ofBits (F := Ideal) .f32 0x3F000000#32))
      (tanh (mulf (broadcast S (Scalar.ofBits (F := Ideal) .f32 0x3F000000#32)) v)))
    (broadcast S (Scalar.ofBits (F := Ideal) .f32 0x3F000000#32))

/-- It is the logistic function, entry by entry. -/
theorem sigT_eq (S : Shape) (v : FVec Ideal S .f32) : sigT S v = logistic v := by
  funext j
  simp only [sigT, addf, mulf, tanh, logistic, broadcast, Scalar.ofBits, Ideal.addf_def, Ideal.mulf_def, Ideal.tanh_def,
    Ideal.logistic_def, Ideal.ofBits_def, ofBits_half]
  exact half_tanh_half _

/-- The gate pre-activations' shape (64 rows, the four gates' 4·512 columns) and a gate's shape. -/
abbrev SG : Shape := ⟨2, ![64, 2048]⟩
abbrev SH : Shape := ⟨2, ![64, 512]⟩
abbrev SH2 : Shape := ⟨2, ![64, 1024]⟩

/-- The cell's new memory c' = f·c + i·g̃, the gates cut out of the logistic function and tanh of ALL of g. -/
def cellC (hi : SG.Slices ![0, 0] SH) (hf : SG.Slices ![0, 512] SH) (hg : SG.Slices ![0, 1024] SH)
    (c : FVec Ideal SH .f32) (g : FVec Ideal SG .f32) : FVec Ideal SH .f32 :=
  addf (mulf (extractStridedSlice SH ![0, 512] (logistic g) hf) c)
    (mulf (extractStridedSlice SH ![0, 0] (logistic g) hi) (extractStridedSlice SH ![0, 1024] (tanh g) hg))

/-- The cell's new hidden state h' = o·tanh c'. -/
def cellH (hi : SG.Slices ![0, 0] SH) (hf : SG.Slices ![0, 512] SH) (hg : SG.Slices ![0, 1024] SH) (ho : SG.Slices ![0, 1536] SH)
    (c : FVec Ideal SH .f32) (g : FVec Ideal SG .f32) : FVec Ideal SH .f32 :=
  mulf (extractStridedSlice SH ![0, 1536] (logistic g) ho) (tanh (cellC hi hf hg c g))

/-- The other spelling of c': the input and forget gates cut TOGETHER (columns 0–1023) and passed through the half-angle
    form, then cut apart; the cell gate cut before its tanh. -/
theorem cellC_cut_first (hi : SG.Slices ![0, 0] SH) (hf : SG.Slices ![0, 512] SH) (hg : SG.Slices ![0, 1024] SH)
    (h2 : SG.Slices ![0, 0] SH2) (h2i : SH2.Slices ![0, 0] SH) (h2f : SH2.Slices ![0, 512] SH)
    (c : FVec Ideal SH .f32) (g : FVec Ideal SG .f32) :
    addf (mulf (extractStridedSlice SH ![0, 512] (sigT SH2 (extractStridedSlice SH2 ![0, 0] g h2)) h2f) c)
      (mulf (extractStridedSlice SH ![0, 0] (sigT SH2 (extractStridedSlice SH2 ![0, 0] g h2)) h2i)
        (tanh (extractStridedSlice SH ![0, 1024] g hg)))
    = cellC hi hf hg c g := by
  funext j
  obtain ⟨a, b, rfl⟩ : ∃ (a : Fin 64) (b : Fin 512), j = ValueIdx.ix2 a b := ⟨j 0, j 1, ValueIdx.eq_ix2 j⟩
  rw [sigT_eq]
  simp only [cellC, addf, mulf, tanh, logistic]
  simp only [ValueIdx.slice2_axis1_eq, logistic, tanh, Nat.zero_add]

/-- The other spelling of h': the output gate cut first and passed through the half-angle form. -/
theorem cellH_cut_first (hi : SG.Slices ![0, 0] SH) (hf : SG.Slices ![0, 512] SH) (hg : SG.Slices ![0, 1024] SH) (ho : SG.Slices ![0, 1536] SH)
    (c' : FVec Ideal SH .f32) (c : FVec Ideal SH .f32) (g : FVec Ideal SG .f32) (hc : c' = cellC hi hf hg c g) :
    mulf (sigT SH (extractStridedSlice SH ![0, 1536] g ho)) (tanh c') = cellH hi hf hg ho c g := by
  subst hc
  funext j
  obtain ⟨a, b, rfl⟩ : ∃ (a : Fin 64) (b : Fin 512), j = ValueIdx.ix2 a b := ⟨j 0, j 1, ValueIdx.eq_ix2 j⟩
  rw [sigT_eq]
  simp only [cellH, mulf, tanh, logistic, ValueIdx.slice2_axis1_eq]

end Cert.Lstm

end
-- ==== Proof.MatmulPlain.lean ====
/-
  A plain matrix product (M×K by K×N into a zero accumulator) on the extended reals, read entry by entry.

  Entry (r, j) is the sum over k of X(r,k)·W(k,j).  It follows that rows o … o+M'-1 of the product are the product of
  rows o … o+M'-1 of X with the same W: a product computed on a block of rows, and a block of rows cut out of a larger
  product, are the same matrix.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Lstm

open Idealize.ShloMosaic Idealize.ShloMosaic.ValueIdx
open scoped BigOperators

/-- The left operand's index for output entry (r, j) and contraction index k is (r, k). -/
theorem plain_lhsIdx {M K N : Nat} (r : Fin M) (j : Fin N) (k : (DotDims.plain M K N).contr.Idx) :
    (DotDims.plain M K N).lhsIdx (ix2 r j) k = ix2 r ((contrEquiv1 (DotDims.plain M K N) K rfl rfl) k) := by
  funext a
  match a with
  | ⟨0, _⟩ =>
    apply Fin.ext
    simp only [DotDims.lhsIdx, DotDims.plain, List.mem_nil_iff, List.mem_singleton, dite_false, dite_true, Fin.val_cast]
    rfl
  | ⟨1, h1⟩ =>
    apply Fin.ext
    have := DotDims.lhsIdx_val_of_single (DotDims.plain M K N) (cl := (1 : Fin 2)) rfl (ix2 r j) k
    refine this.trans ?_
    rfl

/-- The right operand's index for output entry (r, j) and contraction index k is (k, j). -/
theorem plain_rhsIdx {M K N : Nat} (r : Fin M) (j : Fin N) (k : (DotDims.plain M K N).contr.Idx) :
    (DotDims.plain M K N).rhsIdx (ix2 r j) k = ix2 ((contrEquiv1 (DotDims.plain M K N) K rfl rfl) k) j := by
  funext a
  match a with
  | ⟨0, h0⟩ =>
    apply Fin.ext
    have := DotDims.rhsIdx_val_of_single (DotDims.plain M K N) (cr := (0 : Fin 2)) rfl (ix2 r j) k
    refine this.trans ?_
    rfl
  | ⟨1, _⟩ =>
    apply Fin.ext
    simp only [DotDims.rhsIdx, DotDims.plain, List.mem_nil_iff, List.mem_singleton, dite_false, dite_true, Fin.val_cast]
    rfl

/-- A plain matrix product into a zero accumulator, read at an entry: the sum over the contracted axis. -/
theorem plain_matmul_apply {M K N : Nat} {φ₁ φ₂ : FTy} (X : FVec Ideal ⟨2, ![M, K]⟩ φ₁) (W : FVec Ideal ⟨2, ![K, N]⟩ φ₂)
    (r : Fin M) (j : Fin N) :
    FloatOps.matmul (DotDims.plain M K N) none X W (constant ⟨2, ![M, N]⟩ .f32 0x00000000#32) (ix2 r j)
      = ∑ k : Fin K, X (ix2 r k) * W (ix2 k j) := by
  rw [Ideal.matmul_constant_zero_apply, ← Equiv.sum_comp (contrEquiv1 (DotDims.plain M K N) K rfl rfl)]
  refine Finset.sum_congr rfl fun k _ => ?_
  rw [plain_lhsIdx, plain_rhsIdx]

/-- Rows o … o+M'-1 of a product are the product of those rows of the left operand. -/
theorem plain_matmul_rows {M M' K N : Nat} {φ₁ φ₂ : FTy} (o : Nat)
    (hs : (⟨2, ![M, N]⟩ : Shape).Slices ![o, 0] ⟨2, ![M', N]⟩) (hx : (⟨2, ![M, K]⟩ : Shape).Slices ![o, 0] ⟨2, ![M', K]⟩)
    (X : FVec Ideal ⟨2, ![M, K]⟩ φ₁) (W : FVec Ideal ⟨2, ![K, N]⟩ φ₂) :
    extractStridedSlice ⟨2, ![M', N]⟩ ![o, 0]
        (matmul (DotDims.plain M K N) none X W (constant ⟨2, ![M, N]⟩ .f32 0x00000000#32)) hs
      = matmul (DotDims.plain M' K N) none (extractStridedSlice ⟨2, ![M', K]⟩ ![o, 0] X hx) W
          (constant ⟨2, ![M', N]⟩ .f32 0x00000000#32) := by
  funext j
  obtain ⟨a, b, rfl⟩ : ∃ (a : Fin M') (b : Fin N), j = ix2 a b := ⟨j 0, j 1, eq_ix2 j⟩
  rw [slice2_axis0_eq]
  show FloatOps.matmul _ _ _ _ _ _ = FloatOps.matmul _ _ _ _ _ _
  rw [plain_matmul_apply, plain_matmul_apply]
  refine Finset.sum_congr rfl fun k _ => ?_
  rw [slice2_axis0_eq]

end Cert.Lstm

end
-- ==== Proof.LstmBlock.lean ====
/-
  The LSTM recurrence on the extended reals, as both programs compute it.

  A step takes the gate inputs ig (the input projection of this time step, bias included), the hidden state h and the
  memory c:   g = ig + h·W_hh ,  c' = f·c + i·g̃ ,  h' = o·tanh c'   (the gates cut out of g: Cert.Lstm.cellC / cellH).
  A block of time steps is the steps run one after the other over the block's gate inputs; the classifier head is
  h·W_fc + b_fc on the last hidden state.
-/
import proofs.«114155_g2000202467955933_pallasbulk_1200_31_alg».proof.Proof.LstmCell
import proofs.«114155_g2000202467955933_pallasbulk_1200_31_alg».proof.Proof.MatmulPlain

noncomputable section

namespace Cert.Lstm

open Idealize.ShloMosaic Idealize.ShloMosaic.ValueIdx

/-- The recurrent weights' shape (512 hidden units by the four gates' 4·512 columns), the head's, a head output's. -/
abbrev SW : Shape := ⟨2, ![512, 2048]⟩
abbrev SF : Shape := ⟨2, ![512, 128]⟩
abbrev SO : Shape := ⟨2, ![64, 128]⟩
abbrev SB : Shape := ⟨2, ![1, 128]⟩

theorem hi : SG.Slices ![0, 0] SH := by decide
theorem hf : SG.Slices ![0, 512] SH := by decide
theorem hg : SG.Slices ![0, 1024] SH := by decide
theorem ho : SG.Slices ![0, 1536] SH := by decide

/-- The gate pre-activations of a step: the gate inputs plus the hidden state times the recurrent weights. -/
def gates (whh : FVec Ideal SW .f32) (ig : FVec Ideal SG .f32) (h : FVec Ideal SH .f32) : FVec Ideal SG .f32 :=
  addf ig (matmul (DotDims.plain 64 512 2048) none h whh (constant SG .f32 0x00000000#32))

/-- One step of the recurrence on the pair (hidden state, memory). -/
def step (whh : FVec Ideal SW .f32) (ig : FVec Ideal SG .f32) (s : FVec Ideal SH .f32 × FVec Ideal SH .f32) :
    FVec Ideal SH .f32 × FVec Ideal SH .f32 :=
  (cellH hi hf hg ho s.2 (gates whh ig s.1), cellC hi hf hg s.2 (gates whh ig s.1))

/-- The state after r steps from s₀, step k taking the gate inputs igs k. -/
def run (whh : FVec Ideal SW .f32) (igs : ℕ → FVec Ideal SG .f32) (s₀ : FVec Ideal SH .f32 × FVec Ideal SH .f32) :
    ℕ → FVec Ideal SH .f32 × FVec Ideal SH .f32
  | 0 => s₀
  | r + 1 => step whh (igs r) (run whh igs s₀ r)

theorem run_zero (whh : FVec Ideal SW .f32) (igs : ℕ → FVec Ideal SG .f32) (s₀) : run whh igs s₀ 0 = s₀ := rfl
theorem run_succ (whh : FVec Ideal SW .f32) (igs : ℕ → FVec Ideal SG .f32) (s₀) (r : ℕ) :
    run whh igs s₀ (r + 1) = step whh (igs r) (run whh igs s₀ r) := rfl

/-- Running r + r' steps is running r steps and then r' steps over the later gate inputs. -/
theorem run_add (whh : FVec Ideal SW .f32) (igs : ℕ → FVec Ideal SG .f32) (s₀) (r r' : ℕ) :
    run whh igs s₀ (r + r') = run whh (fun k => igs (r + k)) (run whh igs s₀ r) r' := by
  induction r' with
  | zero => rfl
  | succ n ih => rw [← Nat.add_assoc, run_succ, ih, run_succ]

/-- Runs over gate inputs that agree on the steps taken agree. -/
theorem run_congr (whh : FVec Ideal SW .f32) (igs igs' : ℕ → FVec Ideal SG .f32) (s₀) (r : ℕ)
    (h : ∀ k < r, igs k = igs' k) : run whh igs s₀ r = run whh igs' s₀ r := by
  induction r with
  | zero => rfl
  | succ n ih => rw [run_succ, run_succ, h n (Nat.lt_succ_self n), ih fun k hk => h k (Nat.lt_succ_of_lt hk)]

/-- Time step r of a block of 16 time steps' gate inputs (a 16 × 64 × 2048 array). -/
def slab (blk : FVec Ideal ⟨3, ![16, 64, 2048]⟩ .f32) (r : ℕ) : FVec Ideal SG .f32 :=
  fun i => blk (ix3 ⟨r % 16, Nat.mod_lt _ (by decide)⟩ (i 0) (i 1))

/-- The classifier head on a hidden state. -/
def head (wfc : FVec Ideal SF .f32) (bfc : FVec Ideal SB .f32) (hB : SB.Broadcasts SO) (h : FVec Ideal SH .f32) : FVec Ideal SO .f32 :=
  addf (matmul (DotDims.plain 64 512 128) none h wfc (constant SO .f32 0x00000000#32)) (broadcastTo SO bfc hB)

end Cert.Lstm

end
-- ==== Proof.LstmSpec.lean ====
/-
  The two-layer LSTM classifier as one function of its arrays, on the extended reals.

  Time-major input rows: row 64·s + b of X is batch element b at time step s.  Layer 0 runs the recurrence over the gate
  inputs X·W_ih0 + b0, 64 rows per time step, from the zero state; its hidden states, stacked the same way, are layer 1's
  input rows; each layer's last hidden state goes through the shared classifier head.  A program that processes the time
  steps in blocks of 16 — carrying the state from block to block, or running layer 1 one block behind layer 0 — computes
  the same runs: a run of 16·(n+1) steps is the run of 16·n steps followed by 16 more over the later gate inputs.
-/
import proofs.«114155_g2000202467955933_pallasbulk_1200_31_alg».proof.Proof.LstmBlock

noncomputable section

namespace Cert.Lstm

open Idealize.ShloMosaic Idealize.ShloMosaic.ValueIdx
open scoped BigOperators

/-- The gate inputs of time step s: rows 64·s … 64·s+63 of X·W + B (B one row, laid along every row). -/
def proj {K : Nat} (X : FVec Ideal ⟨2, ![16384, K]⟩ .f32) (W : FVec Ideal ⟨2, ![K, 2048]⟩ .f32) (B : FVec Ideal ⟨2, ![1, 2048]⟩ .f32)
    (s : ℕ) : FVec Ideal SG .f32 :=
  fun i => (∑ k : Fin K, X (ix2 ⟨(64 * s + (i 0).val) % 16384, Nat.mod_lt _ (by decide)⟩ k) * W (ix2 k (i 1)))
    + B (ix2 (0 : Fin 1) (i 1))

/-- The zero state. -/
def zeroSt : FVec Ideal SH .f32 × FVec Ideal SH .f32 := (fun _ => 0, fun _ => 0)

/-- A layer's state after n time steps. -/
def layer {K : Nat} (X : FVec Ideal ⟨2, ![16384, K]⟩ .f32) (wih : FVec Ideal ⟨2, ![K, 2048]⟩ .f32) (b : FVec Ideal ⟨2, ![1, 2048]⟩ .f32)
    (whh : FVec Ideal SW .f32) (n : ℕ) : FVec Ideal SH .f32 × FVec Ideal SH .f32 :=
  run whh (proj X wih b) zeroSt n

/-- A layer's hidden states stacked time-major: row 64·s + b is batch element b after time step s. -/
def hiddenRows {K : Nat} (X : FVec Ideal ⟨2, ![16384, K]⟩ .f32) (wih : FVec Ideal ⟨2, ![K, 2048]⟩ .f32) (b : FVec Ideal ⟨2, ![1, 2048]⟩ .f32)
    (whh : FVec Ideal SW .f32) : FVec Ideal ⟨2, ![16384, 512]⟩ .f32 :=
  fun i => (layer X wih b whh ((i 0).val / 64 + 1)).1 (ix2 ⟨(i 0).val % 64, Nat.mod_lt _ (by decide)⟩ (i 1))

/-- A block of 16 time steps continues the run: the state after 16·(n+1) steps is 16 steps from the state after 16·n. -/
theorem layer_block {K : Nat} (X : FVec Ideal ⟨2, ![16384, K]⟩ .f32) (wih : FVec Ideal ⟨2, ![K, 2048]⟩ .f32) (b : FVec Ideal ⟨2, ![1, 2048]⟩ .f32)
    (whh : FVec Ideal SW .f32) (n : ℕ) :
    layer X wih b whh (16 * (n + 1)) = run whh (fun k => proj X wih b (16 * n + k)) (layer X wih b whh (16 * n)) 16 := by
  unfold layer
  rw [show 16 * (n + 1) = 16 * n + 16 from by ring, run_add]

/-- Inside a block: the state after 16·n + r steps is r steps from the state after 16·n. -/
theorem layer_in_block {K : Nat} (X : FVec Ideal ⟨2, ![16384, K]⟩ .f32) (wih : FVec Ideal ⟨2, ![K, 2048]⟩ .f32) (b : FVec Ideal ⟨2, ![1, 2048]⟩ .f32)
    (whh : FVec Ideal SW .f32) (n r : ℕ) :
    layer X wih b whh (16 * n + r) = run whh (fun k => proj X wih b (16 * n + k)) (layer X wih b whh (16 * n)) r := by
  unfold layer
  rw [run_add]

end Cert.Lstm

end
-- ==== Proof.KernelGates.lean ====
/-
  The gate inputs a program forms on a block of 16 time steps at once are the specification's.

  A program may multiply the 1024 rows of a whole block (16 time steps of 64 batch rows) by the input weights in one
  product, add the bias row, and then cut the 64 rows of each time step out of the result.  Rows of a product depend
  only on the same rows of the left operand, so the cut for step k of block t is the specification's projection at time
  step 16·t + k.
-/
import proofs.«114155_g2000202467955933_pallasbulk_1200_31_alg».proof.Proof.LstmSpec

noncomputable section

namespace Cert.Lstm

open Idealize.ShloMosaic Idealize.ShloMosaic.ValueIdx
open scoped BigOperators

/-- Step k of block t, cut out of the whole block's projection. -/
theorem block_gate_inputs {K : Nat} {φ₁ φ₂ : FTy} (Xblk : FVec Ideal ⟨2, ![1024, K]⟩ φ₁) (W : FVec Ideal ⟨2, ![K, 2048]⟩ φ₂)
    (B : FVec Ideal ⟨2, ![1, 2048]⟩ .f32) (X : FVec Ideal ⟨2, ![16384, K]⟩ .f32) (Wf : FVec Ideal ⟨2, ![K, 2048]⟩ .f32)
    (t k : ℕ) (ht : t < 16) (hk : k < 16)
    (hX : ∀ (y : Fin 1024) (q : Fin K), Xblk (ix2 y q) = X (ix2 ⟨1024 * t + y.val, by omega⟩ q))
    (hW : ∀ i, W i = Wf i)
    (hs : (⟨2, ![1024, 2048]⟩ : Shape).Slices ![64 * k, 0] SG) (hB : (⟨2, ![1, 2048]⟩ : Shape).Broadcasts ⟨2, ![1024, 2048]⟩) :
    extractStridedSlice SG ![64 * k, 0]
        (addf (matmul (DotDims.plain 1024 K 2048) none Xblk W (constant ⟨2, ![1024, 2048]⟩ .f32 0x00000000#32))
          (broadcastTo ⟨2, ![1024, 2048]⟩ B hB)) hs
      = proj X Wf B (16 * t + k) := by
  funext i
  obtain ⟨a, b, rfl⟩ : ∃ (a : Fin 64) (b : Fin 2048), i = ix2 a b := ⟨i 0, i 1, eq_ix2 i⟩
  rw [slice2_axis0_eq]
  show FloatOps.addf (FloatOps.matmul _ _ _ _ _ _) (broadcastTo _ _ _ _) = _
  rw [plain_matmul_apply, broadcastTo_1b_ab_apply]
  unfold proj
  simp only [Ideal.addf_def]
  congr 1
  refine Finset.sum_congr rfl fun q _ => ?_
  rw [hX, hW]
  congr 2
  funext ax
  match ax with
  | ⟨0, _⟩ =>
    apply Fin.ext
    show 1024 * t + (64 * k + a.val) = (64 * (16 * t + k) + a.val) % 16384
    have := a.isLt
    omega
  | ⟨1, _⟩ => rfl

end Cert.Lstm

end
-- ==== Proof.KernelRows.lean ====
/-
  Rows 64·k … 64·k+63 of a 1024-row block: the 64 batch rows of time step k inside a block of 16 time steps.
-/
import proofs.«114155_g2000202467955933_pallasbulk_1200_31_alg».proof.Proof.KernelGates

noncomputable section

namespace Cert.Lstm

open Idealize.ShloMosaic Idealize.ShloMosaic.ValueIdx

/-- Time step k's rows of a block's 1024 rows. -/
def rows64 {φ : FTy} (M : FVec Ideal ⟨2, ![1024, 2048]⟩ φ) (k : ℕ) : FVec Ideal SG .f32 :=
  fun i => M (ix2 ⟨(64 * k + (i 0).val) % 1024, Nat.mod_lt _ (by decide)⟩ (i 1))

/-- They are the strided cut at row offset 64·k. -/
theorem rows64_eq_slice {φ : FTy} (M : FVec Ideal ⟨2, ![1024, 2048]⟩ φ) (k : ℕ) (hk : k < 16)
    (hs : (⟨2, ![1024, 2048]⟩ : Shape).Slices ![64 * k, 0] SG) :
    rows64 M k = extractStridedSlice SG ![64 * k, 0] M hs := by
  funext i
  obtain ⟨a, b, rfl⟩ : ∃ (a : Fin 64) (b : Fin 2048), i = ix2 a b := ⟨i 0, i 1, eq_ix2 i⟩
  rw [slice2_axis0_eq]
  unfold rows64
  refine congrArg M ?_
  funext ax
  match ax with
  | ⟨0, _⟩ =>
    apply Fin.ext
    show (64 * k + a.val) % 1024 = 64 * k + a.val
    have := a.isLt
    omega
  | ⟨1, _⟩ => rfl

/-- Time step k's rows of a whole block's projection are the specification's gate inputs of time step 16·t + k. -/
theorem rows64_block {K : Nat} {φ₁ φ₂ : FTy} (Xblk : FVec Ideal ⟨2, ![1024, K]⟩ φ₁) (W : FVec Ideal ⟨2, ![K, 2048]⟩ φ₂)
    (B : FVec Ideal ⟨2, ![1, 2048]⟩ .f32) (X : FVec Ideal ⟨2, ![16384, K]⟩ .f32) (Wf : FVec Ideal ⟨2, ![K, 2048]⟩ .f32)
    (t k : ℕ) (ht : t < 16) (hk : k < 16)
    (hX : ∀ (y : Fin 1024) (q : Fin K), Xblk (ix2 y q) = X (ix2 ⟨1024 * t + y.val, by omega⟩ q))
    (hW : ∀ i, W i = Wf i) (hB : (⟨2, ![1, 2048]⟩ : Shape).Broadcasts ⟨2, ![1024, 2048]⟩) :
    rows64 (addf (matmul (DotDims.plain 1024 K 2048) none Xblk W (constant ⟨2, ![1024, 2048]⟩ .f32 0x00000000#32))
        (broadcastTo ⟨2, ![1024, 2048]⟩ B hB)) k
      = proj X Wf B (16 * t + k) := by
  have hs : (⟨2, ![1024, 2048]⟩ : Shape).Slices ![64 * k, 0] SG := by
    refine ⟨rfl, fun a => ?_⟩
    match a with
    | ⟨0, _⟩ => show 64 * k + 64 ≤ 1024; omega
    | ⟨1, _⟩ => show 0 + 2048 ≤ 2048; omega
  rw [rows64_eq_slice _ k hk hs]
  exact block_gate_inputs Xblk W B X Wf t k ht hk hX hW hs hB

end Cert.Lstm

end
-- ==== Proof.KI.Stack.lean ====
/-
  Sixteen hidden states stacked by rows (64 rows each): row 64·r + b of the stack is row b of state r.
-/
import proofs.«114155_g2000202467955933_pallasbulk_1200_31_alg».proof.KernelIdeal
import proofs.«114155_g2000202467955933_pallasbulk_1200_31_alg».proof.Proof.Gen.KernelIdeal
import Idealize.ShloMosaic.Lib.Pipeline.Value
import Idealize.ShloMosaic.Lib.ValueIdx

set_option maxRecDepth 65536

noncomputable section

namespace Cert.KernelIdeal.Hand

open Cert.KernelIdeal.Gen
open Idealize.ShloMosaic

/-- The sixteen pieces of the stack. -/
abbrev stackL {α : Type} (H : ℕ → S64x512.Idx → α) : List ((s : Shape) × (s.Idx → α)) :=
  [⟨S64x512, H 0⟩, ⟨S64x512, H 1⟩, ⟨S64x512, H 2⟩, ⟨S64x512, H 3⟩, ⟨S64x512, H 4⟩, ⟨S64x512, H 5⟩, ⟨S64x512, H 6⟩, ⟨S64x512, H 7⟩, ⟨S64x512, H 8⟩, ⟨S64x512, H 9⟩, ⟨S64x512, H 10⟩, ⟨S64x512, H 11⟩, ⟨S64x512, H 12⟩, ⟨S64x512, H 13⟩, ⟨S64x512, H 14⟩, ⟨S64x512, H 15⟩]

set_option maxHeartbeats 4000000 in
/-- The stack read at row 64·r + b, column j: state r at (b, j). -/
theorem stack_apply {α : Type} (H : ℕ → S64x512.Idx → α) (r : Fin 16) (b : Fin 64) (j : Fin 512) :
    concatenate S1024x512 0 (stackL H) concatenates_S64x512_S64x512_S64x512_S64x512_S64x512_S64x512_S64x512_S64x512_S64x512_S64x512_S64x512_S64x512_S64x512_S64x512_S64x512_S64x512_S1024x512_d0 (ValueIdx.ix2 ⟨64 * r.val + b.val, by have := r.isLt; have := b.isLt; omega⟩ j)
      = H r.val (ValueIdx.ix2 b j) := by
  have hi : ∀ b' : Fin S64x512.rank, b'.cast (rfl : S64x512.rank = S1024x512.rank) ≠ (0 : Fin 2) → ∀ (y : Fin 1024),
      ((ValueIdx.ix2 b j : S64x512.Idx) b').val = ((ValueIdx.ix2 y j : S1024x512.Idx) (b'.cast rfl)).val := fun b' hb' y => by
    match b' with
    | ⟨0, _⟩ => exact absurd rfl hb'
    | ⟨1, _⟩ => rfl
  fin_cases r
  · exact concatenate_apply_piece (t := S1024x512) (0 : Fin 2) (stackL H) concatenates_S64x512_S64x512_S64x512_S64x512_S64x512_S64x512_S64x512_S64x512_S64x512_S64x512_S64x512_S64x512_S64x512_S64x512_S64x512_S64x512_S1024x512_d0 _ 0 (by show 0 < 16; decide) S64x512 _ rfl rfl 0 (by rfl) (ValueIdx.ix2 b j) (fun b' hb' => hi b' hb' _) (by rfl)
  · exact concatenate_apply_piece (t := S1024x512) (0 : Fin 2) (stackL H) concatenates_S64x512_S64x512_S64x512_S64x512_S64x512_S64x512_S64x512_S64x512_S64x512_S64x512_S64x512_S64x512_S64x512_S64x512_S64x512_S64x512_S1024x512_d0 _ 1 (by show 1 < 16; decide) S64x512 _ rfl rfl 64 (by rfl) (ValueIdx.ix2 b j) (fun b' hb' => hi b' hb' _) (by rfl)
  · exact concatenate_apply_piece (t := S1024x512) (0 : Fin 2) (stackL H) concatenates_S64x512_S64x512_S64x512_S64x512_S64x512_S64x512_S64x512_S64x512_S64x512_S64x512_S64x512_S64x512_S64x512_S64x512_S64x512_S64x512_S1024x512_d0 _ 2 (by show 2 < 16; decide) S64x512 _ rfl rfl 128 (by rfl) (ValueIdx.ix2 b j) (fun b' hb' => hi b' hb' _) (by rfl)
  · exact concatenate_apply_piece (t := S1024x512) (0 : Fin 2) (stackL H) concatenates_S64x512_S64x512_S64x512_S64x512_S64x512_S64x512_S64x512_S64x512_S64x512_S64x512_S64x512_S64x512_S64x512_S64x512_S64x512_S64x512_S1024x512_d0 _ 3 (by show 3 < 16; decide) S64x512 _ rfl rfl 192 (by rfl) (ValueIdx.ix2 b j) (fun b' hb' => hi b' hb' _) (by rfl)
  · exact concatenate_apply_piece (t := S1024x512) (0 : Fin 2) (stackL H) concatenates_S64x512_S64x512_S64x512_S64x512_S64x512_S64x512_S64x512_S64x512_S64x512_S64x512_S64x512_S64x512_S64x512_S64x512_S64x512_S64x512_S1024x512_d0 _ 4 (by show 4 < 16; decide) S64x512 _ rfl rfl 256 (by rfl) (ValueIdx.ix2 b j) (fun b' hb' => hi b' hb' _) (by rfl)
  · exact concatenate_apply_piece (t := S1024x512) (0 : Fin 2) (stackL H) concatenates_S64x512_S64x512_S64x512_S64x512_S64x512_S64x512_S64x512_S64x512_S64x512_S64x512_S64x512_S64x512_S64x512_S64x512_S64x512_S64x512_S1024x512_d0 _ 5 (by show 5 < 16; decide) S64x512 _ rfl rfl 320 (by rfl) (ValueIdx.ix2 b j) (fun b' hb' => hi b' hb' _) (by rfl)
  · exact concatenate_apply_piece (t := S1024x512) (0 : Fin 2) (stackL H) concatenates_S64x512_S64x512_S64x512_S64x512_S64x512_S64x512_S64x512_S64x512_S64x512_S64x512_S64x512_S64x512_S64x512_S64x512_S64x512_S64x512_S1024x512_d0 _ 6 (by show 6 < 16; decide) S64x512 _ rfl rfl 384 (by rfl) (ValueIdx.ix2 b j) (fun b' hb' => hi b' hb' _) (by rfl)
  · exact concatenate_apply_piece (t := S1024x512) (0 : Fin 2) (stackL H) concatenates_S64x512_S64x512_S64x512_S64x512_S64x512_S64x512_S64x512_S64x512_S64x512_S64x512_S64x512_S64x512_S64x512_S64x512_S64x512_S64x512_S1024x512_d0 _ 7 (by show 7 < 16; decide) S64x512 _ rfl rfl 448 (by rfl) (ValueIdx.ix2 b j) (fun b' hb' => hi b' hb' _) (by rfl)
  · exact concatenate_apply_piece (t := S1024x512) (0 : Fin 2) (stackL H) concatenates_S64x512_S64x512_S64x512_S64x512_S64x512_S64x512_S64x512_S64x512_S64x512_S64x512_S64x512_S64x512_S64x512_S64x512_S64x512_S64x512_S1024x512_d0 _ 8 (by show 8 < 16; decide) S64x512 _ rfl rfl 512 (by rfl) (ValueIdx.ix2 b j) (fun b' hb' => hi b' hb' _) (by rfl)
  · exact concatenate_apply_piece (t := S1024x512) (0 : Fin 2) (stackL H) concatenates_S64x512_S64x512_S64x512_S64x512_S64x512_S64x512_S64x512_S64x512_S64x512_S64x512_S64x512_S64x512_S64x512_S64x512_S64x512_S64x512_S1024x512_d0 _ 9 (by show 9 < 16; decide) S64x512 _ rfl rfl 576 (by rfl) (ValueIdx.ix2 b j) (fun b' hb' => hi b' hb' _) (by rfl)
  · exact concatenate_apply_piece (t := S1024x512) (0 : Fin 2) (stackL H) concatenates_S64x512_S64x512_S64x512_S64x512_S64x512_S64x512_S64x512_S64x512_S64x512_S64x512_S64x512_S64x512_S64x512_S64x512_S64x512_S64x512_S1024x512_d0 _ 10 (by show 10 < 16; decide) S64x512 _ rfl rfl 640 (by rfl) (ValueIdx.ix2 b j) (fun b' hb' => hi b' hb' _) (by rfl)
  · exact concatenate_apply_piece (t := S1024x512) (0 : Fin 2) (stackL H) concatenates_S64x512_S64x512_S64x512_S64x512_S64x512_S64x512_S64x512_S64x512_S64x512_S64x512_S64x512_S64x512_S64x512_S64x512_S64x512_S64x512_S1024x512_d0 _ 11 (by show 11 < 16; decide) S64x512 _ rfl rfl 704 (by rfl) (ValueIdx.ix2 b j) (fun b' hb' => hi b' hb' _) (by rfl)
  · exact concatenate_apply_piece (t := S1024x512) (0 : Fin 2) (stackL H) concatenates_S64x512_S64x512_S64x512_S64x512_S64x512_S64x512_S64x512_S64x512_S64x512_S64x512_S64x512_S64x512_S64x512_S64x512_S64x512_S64x512_S1024x512_d0 _ 12 (by show 12 < 16; decide) S64x512 _ rfl rfl 768 (by rfl) (ValueIdx.ix2 b j) (fun b' hb' => hi b' hb' _) (by rfl)
  · exact concatenate_apply_piece (t := S1024x512) (0 : Fin 2) (stackL H) concatenates_S64x512_S64x512_S64x512_S64x512_S64x512_S64x512_S64x512_S64x512_S64x512_S64x512_S64x512_S64x512_S64x512_S64x512_S64x512_S64x512_S1024x512_d0 _ 13 (by show 13 < 16; decide) S64x512 _ rfl rfl 832 (by rfl) (ValueIdx.ix2 b j) (fun b' hb' => hi b' hb' _) (by rfl)
  · exact concatenate_apply_piece (t := S1024x512) (0 : Fin 2) (stackL H) concatenates_S64x512_S64x512_S64x512_S64x512_S64x512_S64x512_S64x512_S64x512_S64x512_S64x512_S64x512_S64x512_S64x512_S64x512_S64x512_S64x512_S1024x512_d0 _ 14 (by show 14 < 16; decide) S64x512 _ rfl rfl 896 (by rfl) (ValueIdx.ix2 b j) (fun b' hb' => hi b' hb' _) (by rfl)
  · exact concatenate_apply_piece (t := S1024x512) (0 : Fin 2) (stackL H) concatenates_S64x512_S64x512_S64x512_S64x512_S64x512_S64x512_S64x512_S64x512_S64x512_S64x512_S64x512_S64x512_S64x512_S64x512_S64x512_S64x512_S1024x512_d0 _ 15 (by show 15 < 16; decide) S64x512 _ rfl rfl 960 (by rfl) (ValueIdx.ix2 b j) (fun b' hb' => hi b' hb' _) (by rfl)

end Cert.KernelIdeal.Hand

end
-- ==== Proof.KI.Val0.lean ====
import proofs.«114155_g2000202467955933_pallasbulk_1200_31_alg».proof.Proof.KI.Runs
import proofs.«114155_g2000202467955933_pallasbulk_1200_31_alg».proof.Proof.KernelRows
import proofs.«114155_g2000202467955933_pallasbulk_1200_31_alg».proof.Proof.KI.Stack
import Idealize.ShloMosaic.Lib.Pipeline.FrameBody
import Idealize.ShloMosaic.Lib.Pipeline.Value

set_option maxRecDepth 65536

noncomputable section

namespace Cert.KernelIdeal.Hand

open Cert.KernelIdeal.Gen
open Idealize.ShloMosaic Idealize.ShloMosaic.TcCoe Idealize.ShloMosaic.Tactic
open Idealize.SL Idealize.SL.Sem
open Idealize.ShloMosaic.Pipeline (Dat)

theorem hz2 : (![0, 0] : Fin 2 → Nat) = fun _ => 0 := funext fun a => by fin_cases a <;> rfl

/-- On the extended reals the narrowing and widening conversions are the identity. -/
theorem truncf_id {S : Shape} (v : FVec Ideal S .f32) (h : FTy.bits .bf16 < FTy.bits .f32) : truncf .bf16 v h = v := rfl
theorem extf_id {S : Shape} (v : FVec Ideal S .bf16) (h : FTy.bits .bf16 < FTy.bits .f32) : extf .f32 v h = v := rfl

/-- Away from the first point the mask on the carried state passes it through. -/
theorem sel_pos {α : Type} (i : grid0.Coords) (hz : ¬condZ i) (a b : α) :
    Scalar.select (Scalar.cmpi .eq (BitVec.ofNat 32 (i 0).val) 0#32) a b = b := by
  unfold Scalar.select; exact if_neg hz
/-- At the first point it replaces it. -/
theorem sel_zero {α : Type} (i : grid0.Coords) (hz : condZ i) (a b : α) :
    Scalar.select (Scalar.cmpi .eq (BitVec.ofNat 32 (i 0).val) 0#32) a b = a := by
  unfold Scalar.select; exact if_pos hz

/-- The printed half-angle form of the logistic function. -/
theorem sigT_fold (S : Shape) (v : FVec Ideal S .f32) :
    addf (mulf (broadcast S (Scalar.ofBits (F := Ideal) .f32 0x3F000000#32)) (tanh (mulf (broadcast S (Scalar.ofBits (F := Ideal) .f32 0x3F000000#32)) v))) (broadcast S (Scalar.ofBits (F := Ideal) .f32 0x3F000000#32))
      = Cert.Lstm.sigT S v := rfl

/-- The printed cell, cut first: the new memory and the new hidden state. -/
theorem cellC_fold (c : FVec Ideal S64x512 .f32) (g : FVec Ideal S64x2048 .f32) :
    addf (mulf (extractStridedSlice S64x512 ![0, 512] (Cert.Lstm.sigT S64x1024 (extractStridedSlice S64x1024 ![0, 0] g slices_S64x2048_o0_0_S64x1024)) slices_S64x1024_o0_512_S64x512) c)
      (mulf (extractStridedSlice S64x512 ![0, 0] (Cert.Lstm.sigT S64x1024 (extractStridedSlice S64x1024 ![0, 0] g slices_S64x2048_o0_0_S64x1024)) slices_S64x1024_o0_0_S64x512)
        (tanh (extractStridedSlice S64x512 ![0, 1024] g slices_S64x2048_o0_1024_S64x512)))
    = Cert.Lstm.cellC Cert.Lstm.hi Cert.Lstm.hf Cert.Lstm.hg c g :=
  Cert.Lstm.cellC_cut_first Cert.Lstm.hi Cert.Lstm.hf Cert.Lstm.hg _ _ _ c g
theorem cellH_fold (c : FVec Ideal S64x512 .f32) (g : FVec Ideal S64x2048 .f32) :
    mulf (Cert.Lstm.sigT S64x512 (extractStridedSlice S64x512 ![0, 1536] g slices_S64x2048_o0_1536_S64x512)) (tanh (Cert.Lstm.cellC Cert.Lstm.hi Cert.Lstm.hf Cert.Lstm.hg c g))
    = Cert.Lstm.cellH Cert.Lstm.hi Cert.Lstm.hf Cert.Lstm.hg Cert.Lstm.ho c g :=
  Cert.Lstm.cellH_cut_first Cert.Lstm.hi Cert.Lstm.hf Cert.Lstm.hg _ _ c g rfl

/-- The printed gate pre-activations, and a step of the recurrence. -/
theorem gates_fold {φ₁ φ₂ : FTy} (W : FVec Ideal S512x2048 φ₂) (ig : FVec Ideal S64x2048 .f32) (h : FVec Ideal S64x512 φ₁) :
    addf ig (matmul dot_S64x512_S512x2048_S64x2048_1_0_0_1_n_n none h W (constant S64x2048 .f32 0x00000000#32)) = Cert.Lstm.gates W ig h := rfl
theorem step_fold_c (W : FVec Ideal S512x2048 .f32) (ig : FVec Ideal S64x2048 .f32) (h c : FVec Ideal S64x512 .f32) :
    Cert.Lstm.cellC Cert.Lstm.hi Cert.Lstm.hf Cert.Lstm.hg c (Cert.Lstm.gates W ig h) = (Cert.Lstm.step W ig (h, c)).2 := rfl
theorem step_fold_h (W : FVec Ideal S512x2048 .f32) (ig : FVec Ideal S64x2048 .f32) (h c : FVec Ideal S64x512 .f32) :
    Cert.Lstm.cellH Cert.Lstm.hi Cert.Lstm.hf Cert.Lstm.hg Cert.Lstm.ho c (Cert.Lstm.gates W ig h) = (Cert.Lstm.step W ig (h, c)).1 := rfl

/-- Time step k's rows cut out of the block's layer-0 gate inputs. -/
theorem rows_cut_0 (M : FVec Ideal S1024x2048 .f32) : extractStridedSlice S64x2048 ![0, 0] M slices_S1024x2048_o0_0_S64x2048 = Cert.Lstm.rows64 M 0 :=
  (Cert.Lstm.rows64_eq_slice M 0 (by decide) slices_S1024x2048_o0_0_S64x2048).symm
theorem rows_cut_1 (M : FVec Ideal S1024x2048 .f32) : extractStridedSlice S64x2048 ![64, 0] M slices_S1024x2048_o64_0_S64x2048 = Cert.Lstm.rows64 M 1 :=
  (Cert.Lstm.rows64_eq_slice M 1 (by decide) slices_S1024x2048_o64_0_S64x2048).symm
theorem rows_cut_2 (M : FVec Ideal S1024x2048 .f32) : extractStridedSlice S64x2048 ![128, 0] M slices_S1024x2048_o128_0_S64x2048 = Cert.Lstm.rows64 M 2 :=
  (Cert.Lstm.rows64_eq_slice M 2 (by decide) slices_S1024x2048_o128_0_S64x2048).symm
theorem rows_cut_3 (M : FVec Ideal S1024x2048 .f32) : extractStridedSlice S64x2048 ![192, 0] M slices_S1024x2048_o192_0_S64x2048 = Cert.Lstm.rows64 M 3 :=
  (Cert.Lstm.rows64_eq_slice M 3 (by decide) slices_S1024x2048_o192_0_S64x2048).symm
theorem rows_cut_4 (M : FVec Ideal S1024x2048 .f32) : extractStridedSlice S64x2048 ![256, 0] M slices_S1024x2048_o256_0_S64x2048 = Cert.Lstm.rows64 M 4 :=
  (Cert.Lstm.rows64_eq_slice M 4 (by decide) slices_S1024x2048_o256_0_S64x2048).symm
theorem rows_cut_5 (M : FVec Ideal S1024x2048 .f32) : extractStridedSlice S64x2048 ![320, 0] M slices_S1024x2048_o320_0_S64x2048 = Cert.Lstm.rows64 M 5 :=
  (Cert.Lstm.rows64_eq_slice M 5 (by decide) slices_S1024x2048_o320_0_S64x2048).symm
theorem rows_cut_6 (M : FVec Ideal S1024x2048 .f32) : extractStridedSlice S64x2048 ![384, 0] M slices_S1024x2048_o384_0_S64x2048 = Cert.Lstm.rows64 M 6 :=
  (Cert.Lstm.rows64_eq_slice M 6 (by decide) slices_S1024x2048_o384_0_S64x2048).symm
theorem rows_cut_7 (M : FVec Ideal S1024x2048 .f32) : extractStridedSlice S64x2048 ![448, 0] M slices_S1024x2048_o448_0_S64x2048 = Cert.Lstm.rows64 M 7 :=
  (Cert.Lstm.rows64_eq_slice M 7 (by decide) slices_S1024x2048_o448_0_S64x2048).symm
theorem rows_cut_8 (M : FVec Ideal S1024x2048 .f32) : extractStridedSlice S64x2048 ![512, 0] M slices_S1024x2048_o512_0_S64x2048 = Cert.Lstm.rows64 M 8 :=
  (Cert.Lstm.rows64_eq_slice M 8 (by decide) slices_S1024x2048_o512_0_S64x2048).symm
theorem rows_cut_9 (M : FVec Ideal S1024x2048 .f32) : extractStridedSlice S64x2048 ![576, 0] M slices_S1024x2048_o576_0_S64x2048 = Cert.Lstm.rows64 M 9 :=
  (Cert.Lstm.rows64_eq_slice M 9 (by decide) slices_S1024x2048_o576_0_S64x2048).symm
theorem rows_cut_10 (M : FVec Ideal S1024x2048 .f32) : extractStridedSlice S64x2048 ![640, 0] M slices_S1024x2048_o640_0_S64x2048 = Cert.Lstm.rows64 M 10 :=
  (Cert.Lstm.rows64_eq_slice M 10 (by decide) slices_S1024x2048_o640_0_S64x2048).symm
theorem rows_cut_11 (M : FVec Ideal S1024x2048 .f32) : extractStridedSlice S64x2048 ![704, 0] M slices_S1024x2048_o704_0_S64x2048 = Cert.Lstm.rows64 M 11 :=
  (Cert.Lstm.rows64_eq_slice M 11 (by decide) slices_S1024x2048_o704_0_S64x2048).symm
theorem rows_cut_12 (M : FVec Ideal S1024x2048 .f32) : extractStridedSlice S64x2048 ![768, 0] M slices_S1024x2048_o768_0_S64x2048 = Cert.Lstm.rows64 M 12 :=
  (Cert.Lstm.rows64_eq_slice M 12 (by decide) slices_S1024x2048_o768_0_S64x2048).symm
theorem rows_cut_13 (M : FVec Ideal S1024x2048 .f32) : extractStridedSlice S64x2048 ![832, 0] M slices_S1024x2048_o832_0_S64x2048 = Cert.Lstm.rows64 M 13 :=
  (Cert.Lstm.rows64_eq_slice M 13 (by decide) slices_S1024x2048_o832_0_S64x2048).symm
theorem rows_cut_14 (M : FVec Ideal S1024x2048 .f32) : extractStridedSlice S64x2048 ![896, 0] M slices_S1024x2048_o896_0_S64x2048 = Cert.Lstm.rows64 M 14 :=
  (Cert.Lstm.rows64_eq_slice M 14 (by decide) slices_S1024x2048_o896_0_S64x2048).symm
theorem rows_cut_15 (M : FVec Ideal S1024x2048 .f32) : extractStridedSlice S64x2048 ![960, 0] M slices_S1024x2048_o960_0_S64x2048 = Cert.Lstm.rows64 M 15 :=
  (Cert.Lstm.rows64_eq_slice M 15 (by decide) slices_S1024x2048_o960_0_S64x2048).symm

/-- Time step k's rows loaded from the carried layer-1 gate inputs. -/
theorem rows_ld (X : Vec Ideal S1024x2048 .bf16) (k : ℕ) (inb : ∀ a, (![64 * k, 0] : Fin 2 → ℕ) a + S64x2048.size a ≤ S1024x2048.size a) :
    View.ld (Val := Elt Ideal) (e' := .bf16) X (Rect.unit (s := S1024x2048) ![64 * k, 0] S64x2048.size inb) = Cert.Lstm.rows64 (φ := .bf16) X k := by
  have hk : 64 * k + 64 ≤ 1024 := inb 0
  funext j
  unfold Cert.Lstm.rows64 View.ld
  refine congrArg X (funext fun a => Fin.ext ?_)
  match a with
  | ⟨0, _⟩ => show 64 * k + 1 * (j 0).val = (64 * k + (j 0).val) % 1024; have hj : (j 0).val < 64 := (j 0).isLt; omega
  | ⟨1, _⟩ => show 0 + 1 * (j 1).val = (j 1).val; omega

/-- The block's layer-0 gate inputs: the input block times the input weights plus the bias row. -/
def kIg0 (x1 : Vec Ideal S1024x256 .bf16) (x2 : Vec Ideal S256x2048 .bf16) (x4 : Vec Ideal S1x2048 .f32) : FVec Ideal S1024x2048 .f32 :=
  addf (matmul (φ₁ := .bf16) (φ₂ := .bf16) dot_S1024x256_S256x2048_S1024x2048_1_0_0_1_n_n none x1 x2 (constant S1024x2048 .f32 0x00000000#32)) (broadcastTo S1024x2048 x4 broadcasts_S1x2048_S1024x2048)
theorem kIg0_fold (x1 : Vec Ideal S1024x256 .bf16) (x2 : Vec Ideal S256x2048 .bf16) (x4 : Vec Ideal S1x2048 .f32) :
    addf (matmul (φ₁ := .bf16) (φ₂ := .bf16) dot_S1024x256_S256x2048_S1024x2048_1_0_0_1_n_n none x1 x2 (constant S1024x2048 .f32 0x00000000#32)) (broadcastTo S1024x2048 x4 broadcasts_S1x2048_S1024x2048) = kIg0 x1 x2 x4 := rfl

/-- Sixteen hidden states stacked by rows. -/
def stack16 (h0 h1 h2 h3 h4 h5 h6 h7 h8 h9 h10 h11 h12 h13 h14 h15 : FVec Ideal S64x512 .f32) : FVec Ideal S1024x512 .f32 :=
  concatenate S1024x512 0 [⟨S64x512, h0⟩, ⟨S64x512, h1⟩, ⟨S64x512, h2⟩, ⟨S64x512, h3⟩, ⟨S64x512, h4⟩, ⟨S64x512, h5⟩, ⟨S64x512, h6⟩, ⟨S64x512, h7⟩, ⟨S64x512, h8⟩, ⟨S64x512, h9⟩, ⟨S64x512, h10⟩, ⟨S64x512, h11⟩, ⟨S64x512, h12⟩, ⟨S64x512, h13⟩, ⟨S64x512, h14⟩, ⟨S64x512, h15⟩] concatenates_S64x512_S64x512_S64x512_S64x512_S64x512_S64x512_S64x512_S64x512_S64x512_S64x512_S64x512_S64x512_S64x512_S64x512_S64x512_S64x512_S1024x512_d0
theorem stack16_stackL (H : ℕ → FVec Ideal S64x512 .f32) :
    stack16 (H 0) (H 1) (H 2) (H 3) (H 4) (H 5) (H 6) (H 7) (H 8) (H 9) (H 10) (H 11) (H 12) (H 13) (H 14) (H 15) = concatenate S1024x512 0 (stackL H) concatenates_S64x512_S64x512_S64x512_S64x512_S64x512_S64x512_S64x512_S64x512_S64x512_S64x512_S64x512_S64x512_S64x512_S64x512_S64x512_S64x512_S1024x512_d0 := rfl

/-- The next block's layer-1 gate inputs: the stacked hidden states times the second layer's input weights plus its bias row. -/
def kIg1 (x5 : Vec Ideal S512x2048 .bf16) (x7 : Vec Ideal S1x2048 .f32) (H : FVec Ideal S1024x512 .f32) : FVec Ideal S1024x2048 .f32 :=
  addf (matmul (φ₁ := .f32) (φ₂ := .bf16) dot_S1024x512_S512x2048_S1024x2048_1_0_0_1_n_n none H x5 (constant S1024x2048 .f32 0x00000000#32)) (broadcastTo S1024x2048 x7 broadcasts_S1x2048_S1024x2048)
theorem kIg1_fold {φ₁ : FTy} (x5 : Vec Ideal S512x2048 .bf16) (x7 : Vec Ideal S1x2048 .f32) (H : FVec Ideal S1024x512 φ₁) :
    addf (matmul (φ₁ := φ₁) (φ₂ := .bf16) dot_S1024x512_S512x2048_S1024x2048_1_0_0_1_n_n none H x5 (constant S1024x2048 .f32 0x00000000#32)) (broadcastTo S1024x2048 x7 broadcasts_S1x2048_S1024x2048) = kIg1 x5 x7 H := rfl

/-- The printed product of the stacked hidden states: its sixteen pieces as arguments. -/
theorem k0_pay128_stack (v56 v115 v174 v233 v292 v351 v410 v469 v528 v587 v646 v705 v764 v823 v880 v882 : FVec Ideal S64x512 .f32) (v924 : FVec Ideal S64x1024 .f32) (v926 v927 : FVec Ideal S64x512 .f32) (cst_252 : Ideal .f32) (v969 : Vec Ideal S512x2048 .bf16) :
    k0_pay128 (F := Ideal) v56 v115 v174 v233 v292 v351 v410 v469 v528 v587 v646 v705 v764 v823 v880 v882 v924 v926 v927 cst_252 v969
      = matmul (φ₁ := .bf16) (φ₂ := .bf16) dot_S1024x512_S512x2048_S1024x2048_1_0_0_1_n_n none
          (truncf .bf16 (stack16 v56 v115 v174 v233 v292 v351 v410 v469 v528 v587 v646 v705 v764 v823 v882 (k0_pay125 v880 v924 v926 v927 cst_252)) bitsLt_bf16_f32)
          (shapeCast S512x2048 v969 shapeCasts_S512x2048_S512x2048 : FVec Ideal S512x2048 .bf16) (constant S1024x2048 .f32 0x00000000#32) := rfl

/-- The printed final projection is the classifier head. -/
theorem head_fold {φ₁ : FTy} (h : FVec Ideal S64x512 φ₁) (wfc : Vec Ideal S512x128 .bf16) (bfc : Vec Ideal S1x128 .f32) :
    addf (matmul (φ₁ := φ₁) (φ₂ := .bf16) dot_S64x512_S512x128_S64x128_1_0_0_1_n_n none h wfc (constant S64x128 .f32 0x00000000#32)) (broadcastTo S64x128 bfc broadcasts_S1x128_S64x128)
      = Cert.Lstm.head wfc bfc broadcasts_S1x128_S64x128 h := rfl

end Cert.KernelIdeal.Hand

end
-- ==== Proof.KI.ValA.lean ====
import proofs.«114155_g2000202467955933_pallasbulk_1200_31_alg».proof.Proof.KI.RunA
import proofs.«114155_g2000202467955933_pallasbulk_1200_31_alg».proof.Proof.KI.Val0

set_option maxRecDepth 65536

noncomputable section

namespace Cert.KernelIdeal.Hand

open Cert.KernelIdeal.Gen
open Idealize.ShloMosaic Idealize.ShloMosaic.TcCoe Idealize.ShloMosaic.Tactic
open Idealize.SL Idealize.SL.Sem
open Idealize.ShloMosaic.Pipeline (Dat)

/-! ## What case A of the body computes, on the extended reals -/

set_option maxHeartbeats 4000000 in
/-- The first layer's new hidden state: 16 steps of the recurrence over the block's gate inputs from the carried state. -/
theorem canonA_h0 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : ¬condZ i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) :
    View.canon (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).1 = (Cert.Lstm.run x3 (fun k => Cert.Lstm.rows64 (kIg0 x1 x2 x4) k) (xs12, xs13) 16).1 := by
  unfold kernelRun_A
  dsimp only
  first | sl_unfold_run_names | fail "names"
  first | rw [View.canon_unit_zero hz2] | fail "canon"
  first | simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x512) hz2, View.ld_unit_zero (S := S1024x256) hz2, View.ld_unit_zero (S := S256x2048) hz2, View.ld_unit_zero (S := S512x2048) hz2, View.ld_unit_zero (S := S1x2048) hz2, View.ld_unit_zero (S := S512x128) hz2, View.ld_unit_zero (S := S1x128) hz2] | fail "loads"
  first | simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128_stack, k0_pay129, k0_pay130, k0_pay131, k0_pay132, k0_pay133, k0_pay134] | fail "unfold payloads"
  first | simp only [shapeCast_self, truncf_id, extf_id, sel_pos i hz] | fail "casts"
  first | simp only [sigT_fold] | fail "sig"
  first | simp only [cellC_fold] | fail "cellC"
  first | simp only [cellH_fold] | fail "cellH"
  first | simp only [rows_cut_0, rows_cut_1, rows_cut_2, rows_cut_3, rows_cut_4, rows_cut_5, rows_cut_6, rows_cut_7, rows_cut_8, rows_cut_9, rows_cut_10, rows_cut_11, rows_cut_12, rows_cut_13, rows_cut_14, rows_cut_15, rows_ld xs16 0 inb_S1024x2048_S64x2048_0_0, rows_ld xs16 1 inb_S1024x2048_S64x2048_64_0, rows_ld xs16 2 inb_S1024x2048_S64x2048_128_0, rows_ld xs16 3 inb_S1024x2048_S64x2048_192_0, rows_ld xs16 4 inb_S1024x2048_S64x2048_256_0, rows_ld xs16 5 inb_S1024x2048_S64x2048_320_0, rows_ld xs16 6 inb_S1024x2048_S64x2048_384_0, rows_ld xs16 7 inb_S1024x2048_S64x2048_448_0, rows_ld xs16 8 inb_S1024x2048_S64x2048_512_0, rows_ld xs16 9 inb_S1024x2048_S64x2048_576_0, rows_ld xs16 10 inb_S1024x2048_S64x2048_640_0, rows_ld xs16 11 inb_S1024x2048_S64x2048_704_0, rows_ld xs16 12 inb_S1024x2048_S64x2048_768_0, rows_ld xs16 13 inb_S1024x2048_S64x2048_832_0, rows_ld xs16 14 inb_S1024x2048_S64x2048_896_0, rows_ld xs16 15 inb_S1024x2048_S64x2048_960_0, kIg0_fold] | fail "rows"
  first | simp only [gates_fold] | fail "gates"
  first | simp only [step_fold_c, step_fold_h] | fail "step"
  first | simp only [kIg1_fold, head_fold] | skip
  first | simp only [Prod.mk.eta] | skip
  first | rfl | fail "rfl"

set_option maxHeartbeats 4000000 in
/-- The first layer's new memory. -/
theorem canonA_c0 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : ¬condZ i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) :
    View.canon (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.1 = (Cert.Lstm.run x3 (fun k => Cert.Lstm.rows64 (kIg0 x1 x2 x4) k) (xs12, xs13) 16).2 := by
  unfold kernelRun_A
  dsimp only
  first | sl_unfold_run_names | fail "names"
  first | rw [View.canon_unit_zero hz2] | fail "canon"
  first | simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x512) hz2, View.ld_unit_zero (S := S1024x256) hz2, View.ld_unit_zero (S := S256x2048) hz2, View.ld_unit_zero (S := S512x2048) hz2, View.ld_unit_zero (S := S1x2048) hz2, View.ld_unit_zero (S := S512x128) hz2, View.ld_unit_zero (S := S1x128) hz2] | fail "loads"
  first | simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128_stack, k0_pay129, k0_pay130, k0_pay131, k0_pay132, k0_pay133, k0_pay134] | fail "unfold payloads"
  first | simp only [shapeCast_self, truncf_id, extf_id, sel_pos i hz] | fail "casts"
  first | simp only [sigT_fold] | fail "sig"
  first | simp only [cellC_fold] | fail "cellC"
  first | simp only [cellH_fold] | fail "cellH"
  first | simp only [rows_cut_0, rows_cut_1, rows_cut_2, rows_cut_3, rows_cut_4, rows_cut_5, rows_cut_6, rows_cut_7, rows_cut_8, rows_cut_9, rows_cut_10, rows_cut_11, rows_cut_12, rows_cut_13, rows_cut_14, rows_cut_15, rows_ld xs16 0 inb_S1024x2048_S64x2048_0_0, rows_ld xs16 1 inb_S1024x2048_S64x2048_64_0, rows_ld xs16 2 inb_S1024x2048_S64x2048_128_0, rows_ld xs16 3 inb_S1024x2048_S64x2048_192_0, rows_ld xs16 4 inb_S1024x2048_S64x2048_256_0, rows_ld xs16 5 inb_S1024x2048_S64x2048_320_0, rows_ld xs16 6 inb_S1024x2048_S64x2048_384_0, rows_ld xs16 7 inb_S1024x2048_S64x2048_448_0, rows_ld xs16 8 inb_S1024x2048_S64x2048_512_0, rows_ld xs16 9 inb_S1024x2048_S64x2048_576_0, rows_ld xs16 10 inb_S1024x2048_S64x2048_640_0, rows_ld xs16 11 inb_S1024x2048_S64x2048_704_0, rows_ld xs16 12 inb_S1024x2048_S64x2048_768_0, rows_ld xs16 13 inb_S1024x2048_S64x2048_832_0, rows_ld xs16 14 inb_S1024x2048_S64x2048_896_0, rows_ld xs16 15 inb_S1024x2048_S64x2048_960_0, kIg0_fold] | fail "rows"
  first | simp only [gates_fold] | fail "gates"
  first | simp only [step_fold_c, step_fold_h] | fail "step"
  first | simp only [kIg1_fold, head_fold] | skip
  first | simp only [Prod.mk.eta] | skip
  first | rfl | fail "rfl"

set_option maxHeartbeats 4000000 in
/-- The second layer's new hidden state: 16 steps over the carried gate inputs from the carried state. -/
theorem canonA_h1 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : ¬condZ i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) :
    View.canon (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.2.1 = (Cert.Lstm.run x6 (fun k => Cert.Lstm.rows64 (φ := .bf16) xs16 k) (xs14, xs15) 16).1 := by
  unfold kernelRun_A
  dsimp only
  first | sl_unfold_run_names | fail "names"
  first | rw [View.canon_unit_zero hz2] | fail "canon"
  first | simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x512) hz2, View.ld_unit_zero (S := S1024x256) hz2, View.ld_unit_zero (S := S256x2048) hz2, View.ld_unit_zero (S := S512x2048) hz2, View.ld_unit_zero (S := S1x2048) hz2, View.ld_unit_zero (S := S512x128) hz2, View.ld_unit_zero (S := S1x128) hz2] | fail "loads"
  first | simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128_stack, k0_pay129, k0_pay130, k0_pay131, k0_pay132, k0_pay133, k0_pay134] | fail "unfold payloads"
  first | simp only [shapeCast_self, truncf_id, extf_id, sel_pos i hz] | fail "casts"
  first | simp only [sigT_fold] | fail "sig"
  first | simp only [cellC_fold] | fail "cellC"
  first | simp only [cellH_fold] | fail "cellH"
  first | simp only [rows_cut_0, rows_cut_1, rows_cut_2, rows_cut_3, rows_cut_4, rows_cut_5, rows_cut_6, rows_cut_7, rows_cut_8, rows_cut_9, rows_cut_10, rows_cut_11, rows_cut_12, rows_cut_13, rows_cut_14, rows_cut_15, rows_ld xs16 0 inb_S1024x2048_S64x2048_0_0, rows_ld xs16 1 inb_S1024x2048_S64x2048_64_0, rows_ld xs16 2 inb_S1024x2048_S64x2048_128_0, rows_ld xs16 3 inb_S1024x2048_S64x2048_192_0, rows_ld xs16 4 inb_S1024x2048_S64x2048_256_0, rows_ld xs16 5 inb_S1024x2048_S64x2048_320_0, rows_ld xs16 6 inb_S1024x2048_S64x2048_384_0, rows_ld xs16 7 inb_S1024x2048_S64x2048_448_0, rows_ld xs16 8 inb_S1024x2048_S64x2048_512_0, rows_ld xs16 9 inb_S1024x2048_S64x2048_576_0, rows_ld xs16 10 inb_S1024x2048_S64x2048_640_0, rows_ld xs16 11 inb_S1024x2048_S64x2048_704_0, rows_ld xs16 12 inb_S1024x2048_S64x2048_768_0, rows_ld xs16 13 inb_S1024x2048_S64x2048_832_0, rows_ld xs16 14 inb_S1024x2048_S64x2048_896_0, rows_ld xs16 15 inb_S1024x2048_S64x2048_960_0, kIg0_fold] | fail "rows"
  first | simp only [gates_fold] | fail "gates"
  first | simp only [step_fold_c, step_fold_h] | fail "step"
  first | simp only [kIg1_fold, head_fold] | skip
  first | simp only [Prod.mk.eta] | skip
  first | rfl | fail "rfl"

set_option maxHeartbeats 4000000 in
/-- The second layer's new memory. -/
theorem canonA_c1 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : ¬condZ i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) :
    View.canon (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.2.2.1 = (Cert.Lstm.run x6 (fun k => Cert.Lstm.rows64 (φ := .bf16) xs16 k) (xs14, xs15) 16).2 := by
  unfold kernelRun_A
  dsimp only
  first | sl_unfold_run_names | fail "names"
  first | rw [View.canon_unit_zero hz2] | fail "canon"
  first | simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x512) hz2, View.ld_unit_zero (S := S1024x256) hz2, View.ld_unit_zero (S := S256x2048) hz2, View.ld_unit_zero (S := S512x2048) hz2, View.ld_unit_zero (S := S1x2048) hz2, View.ld_unit_zero (S := S512x128) hz2, View.ld_unit_zero (S := S1x128) hz2] | fail "loads"
  first | simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128_stack, k0_pay129, k0_pay130, k0_pay131, k0_pay132, k0_pay133, k0_pay134] | fail "unfold payloads"
  first | simp only [shapeCast_self, truncf_id, extf_id, sel_pos i hz] | fail "casts"
  first | simp only [sigT_fold] | fail "sig"
  first | simp only [cellC_fold] | fail "cellC"
  first | simp only [cellH_fold] | fail "cellH"
  first | simp only [rows_cut_0, rows_cut_1, rows_cut_2, rows_cut_3, rows_cut_4, rows_cut_5, rows_cut_6, rows_cut_7, rows_cut_8, rows_cut_9, rows_cut_10, rows_cut_11, rows_cut_12, rows_cut_13, rows_cut_14, rows_cut_15, rows_ld xs16 0 inb_S1024x2048_S64x2048_0_0, rows_ld xs16 1 inb_S1024x2048_S64x2048_64_0, rows_ld xs16 2 inb_S1024x2048_S64x2048_128_0, rows_ld xs16 3 inb_S1024x2048_S64x2048_192_0, rows_ld xs16 4 inb_S1024x2048_S64x2048_256_0, rows_ld xs16 5 inb_S1024x2048_S64x2048_320_0, rows_ld xs16 6 inb_S1024x2048_S64x2048_384_0, rows_ld xs16 7 inb_S1024x2048_S64x2048_448_0, rows_ld xs16 8 inb_S1024x2048_S64x2048_512_0, rows_ld xs16 9 inb_S1024x2048_S64x2048_576_0, rows_ld xs16 10 inb_S1024x2048_S64x2048_640_0, rows_ld xs16 11 inb_S1024x2048_S64x2048_704_0, rows_ld xs16 12 inb_S1024x2048_S64x2048_768_0, rows_ld xs16 13 inb_S1024x2048_S64x2048_832_0, rows_ld xs16 14 inb_S1024x2048_S64x2048_896_0, rows_ld xs16 15 inb_S1024x2048_S64x2048_960_0, kIg0_fold] | fail "rows"
  first | simp only [gates_fold] | fail "gates"
  first | simp only [step_fold_c, step_fold_h] | fail "step"
  first | simp only [kIg1_fold, head_fold] | skip
  first | simp only [Prod.mk.eta] | skip
  first | rfl | fail "rfl"

set_option maxHeartbeats 4000000 in
/-- The next block's second-layer gate inputs: from the sixteen hidden states of the first layer. -/
theorem canonA_ig (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : ¬condZ i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) :
    View.canon (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.2.2.2.1 = kIg1 x5 x7 (stack16 (Cert.Lstm.run x3 (fun k => Cert.Lstm.rows64 (kIg0 x1 x2 x4) k) (xs12, xs13) 1).1 (Cert.Lstm.run x3 (fun k => Cert.Lstm.rows64 (kIg0 x1 x2 x4) k) (xs12, xs13) 2).1 (Cert.Lstm.run x3 (fun k => Cert.Lstm.rows64 (kIg0 x1 x2 x4) k) (xs12, xs13) 3).1 (Cert.Lstm.run x3 (fun k => Cert.Lstm.rows64 (kIg0 x1 x2 x4) k) (xs12, xs13) 4).1 (Cert.Lstm.run x3 (fun k => Cert.Lstm.rows64 (kIg0 x1 x2 x4) k) (xs12, xs13) 5).1 (Cert.Lstm.run x3 (fun k => Cert.Lstm.rows64 (kIg0 x1 x2 x4) k) (xs12, xs13) 6).1 (Cert.Lstm.run x3 (fun k => Cert.Lstm.rows64 (kIg0 x1 x2 x4) k) (xs12, xs13) 7).1 (Cert.Lstm.run x3 (fun k => Cert.Lstm.rows64 (kIg0 x1 x2 x4) k) (xs12, xs13) 8).1 (Cert.Lstm.run x3 (fun k => Cert.Lstm.rows64 (kIg0 x1 x2 x4) k) (xs12, xs13) 9).1 (Cert.Lstm.run x3 (fun k => Cert.Lstm.rows64 (kIg0 x1 x2 x4) k) (xs12, xs13) 10).1 (Cert.Lstm.run x3 (fun k => Cert.Lstm.rows64 (kIg0 x1 x2 x4) k) (xs12, xs13) 11).1 (Cert.Lstm.run x3 (fun k => Cert.Lstm.rows64 (kIg0 x1 x2 x4) k) (xs12, xs13) 12).1 (Cert.Lstm.run x3 (fun k => Cert.Lstm.rows64 (kIg0 x1 x2 x4) k) (xs12, xs13) 13).1 (Cert.Lstm.run x3 (fun k => Cert.Lstm.rows64 (kIg0 x1 x2 x4) k) (xs12, xs13) 14).1 (Cert.Lstm.run x3 (fun k => Cert.Lstm.rows64 (kIg0 x1 x2 x4) k) (xs12, xs13) 15).1 (Cert.Lstm.run x3 (fun k => Cert.Lstm.rows64 (kIg0 x1 x2 x4) k) (xs12, xs13) 16).1) := by
  unfold kernelRun_A
  dsimp only
  first | sl_unfold_run_names | fail "names"
  first | rw [View.canon_unit_zero hz2] | fail "canon"
  first | simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x512) hz2, View.ld_unit_zero (S := S1024x256) hz2, View.ld_unit_zero (S := S256x2048) hz2, View.ld_unit_zero (S := S512x2048) hz2, View.ld_unit_zero (S := S1x2048) hz2, View.ld_unit_zero (S := S512x128) hz2, View.ld_unit_zero (S := S1x128) hz2] | fail "loads"
  first | simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128_stack, k0_pay129, k0_pay130, k0_pay131, k0_pay132, k0_pay133, k0_pay134] | fail "unfold payloads"
  first | simp only [shapeCast_self, truncf_id, extf_id, sel_pos i hz] | fail "casts"
  first | simp only [sigT_fold] | fail "sig"
  first | simp only [cellC_fold] | fail "cellC"
  first | simp only [cellH_fold] | fail "cellH"
  first | simp only [rows_cut_0, rows_cut_1, rows_cut_2, rows_cut_3, rows_cut_4, rows_cut_5, rows_cut_6, rows_cut_7, rows_cut_8, rows_cut_9, rows_cut_10, rows_cut_11, rows_cut_12, rows_cut_13, rows_cut_14, rows_cut_15, rows_ld xs16 0 inb_S1024x2048_S64x2048_0_0, rows_ld xs16 1 inb_S1024x2048_S64x2048_64_0, rows_ld xs16 2 inb_S1024x2048_S64x2048_128_0, rows_ld xs16 3 inb_S1024x2048_S64x2048_192_0, rows_ld xs16 4 inb_S1024x2048_S64x2048_256_0, rows_ld xs16 5 inb_S1024x2048_S64x2048_320_0, rows_ld xs16 6 inb_S1024x2048_S64x2048_384_0, rows_ld xs16 7 inb_S1024x2048_S64x2048_448_0, rows_ld xs16 8 inb_S1024x2048_S64x2048_512_0, rows_ld xs16 9 inb_S1024x2048_S64x2048_576_0, rows_ld xs16 10 inb_S1024x2048_S64x2048_640_0, rows_ld xs16 11 inb_S1024x2048_S64x2048_704_0, rows_ld xs16 12 inb_S1024x2048_S64x2048_768_0, rows_ld xs16 13 inb_S1024x2048_S64x2048_832_0, rows_ld xs16 14 inb_S1024x2048_S64x2048_896_0, rows_ld xs16 15 inb_S1024x2048_S64x2048_960_0, kIg0_fold] | fail "rows"
  first | simp only [gates_fold] | fail "gates"
  first | simp only [step_fold_c, step_fold_h] | fail "step"
  first | simp only [kIg1_fold, head_fold] | skip
  first | simp only [Prod.mk.eta] | skip
  first | rfl | fail "rfl"

end Cert.KernelIdeal.Hand

end
-- ==== Proof.KI.ValZ.lean ====
import proofs.«114155_g2000202467955933_pallasbulk_1200_31_alg».proof.Proof.KI.RunA
import proofs.«114155_g2000202467955933_pallasbulk_1200_31_alg».proof.Proof.KI.Val0

set_option maxRecDepth 65536

noncomputable section

namespace Cert.KernelIdeal.Hand

open Cert.KernelIdeal.Gen
open Idealize.ShloMosaic Idealize.ShloMosaic.TcCoe Idealize.ShloMosaic.Tactic
open Idealize.SL Idealize.SL.Sem
open Idealize.ShloMosaic.Pipeline (Dat)

/-! ## What the body computes at the first point (its masks taken), on the extended reals: whatever the carried buffers held -/

set_option maxHeartbeats 4000000 in
/-- The first layer's new hidden state: 16 steps from the zero state. -/
theorem canonZ_h0 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : condZ i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) :
    View.canon (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).1 = (Cert.Lstm.run x3 (fun k => Cert.Lstm.rows64 (kIg0 x1 x2 x4) k) (zero512 (F := Ideal), zero512 (F := Ideal)) 16).1 := by
  unfold kernelRun_A
  dsimp only
  first | sl_unfold_run_names | fail "names"
  first | rw [View.canon_unit_zero hz2] | fail "canon"
  first | simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x512) hz2, View.ld_unit_zero (S := S1024x256) hz2, View.ld_unit_zero (S := S256x2048) hz2, View.ld_unit_zero (S := S512x2048) hz2, View.ld_unit_zero (S := S1x2048) hz2, View.ld_unit_zero (S := S512x128) hz2, View.ld_unit_zero (S := S1x128) hz2] | fail "loads"
  first | simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128_stack, k0_pay129, k0_pay130, k0_pay131, k0_pay132, k0_pay133, k0_pay134] | fail "unfold payloads"
  first | simp only [shapeCast_self, truncf_id, extf_id, sel_zero i hz] | fail "casts"
  first | simp only [sigT_fold] | skip
  first | simp only [cellC_fold] | skip
  first | simp only [cellH_fold] | skip
  first | simp only [rows_cut_0, rows_cut_1, rows_cut_2, rows_cut_3, rows_cut_4, rows_cut_5, rows_cut_6, rows_cut_7, rows_cut_8, rows_cut_9, rows_cut_10, rows_cut_11, rows_cut_12, rows_cut_13, rows_cut_14, rows_cut_15, kIg0_fold] | skip
  first | simp only [gates_fold] | skip
  first | simp only [step_fold_c, step_fold_h] | skip
  first | simp only [kIg1_fold] | skip
  first | simp only [Prod.mk.eta] | skip
  first | rfl | fail "rfl"

set_option maxHeartbeats 4000000 in
/-- The first layer's new memory. -/
theorem canonZ_c0 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : condZ i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) :
    View.canon (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.1 = (Cert.Lstm.run x3 (fun k => Cert.Lstm.rows64 (kIg0 x1 x2 x4) k) (zero512 (F := Ideal), zero512 (F := Ideal)) 16).2 := by
  unfold kernelRun_A
  dsimp only
  first | sl_unfold_run_names | fail "names"
  first | rw [View.canon_unit_zero hz2] | fail "canon"
  first | simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x512) hz2, View.ld_unit_zero (S := S1024x256) hz2, View.ld_unit_zero (S := S256x2048) hz2, View.ld_unit_zero (S := S512x2048) hz2, View.ld_unit_zero (S := S1x2048) hz2, View.ld_unit_zero (S := S512x128) hz2, View.ld_unit_zero (S := S1x128) hz2] | fail "loads"
  first | simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128_stack, k0_pay129, k0_pay130, k0_pay131, k0_pay132, k0_pay133, k0_pay134] | fail "unfold payloads"
  first | simp only [shapeCast_self, truncf_id, extf_id, sel_zero i hz] | fail "casts"
  first | simp only [sigT_fold] | skip
  first | simp only [cellC_fold] | skip
  first | simp only [cellH_fold] | skip
  first | simp only [rows_cut_0, rows_cut_1, rows_cut_2, rows_cut_3, rows_cut_4, rows_cut_5, rows_cut_6, rows_cut_7, rows_cut_8, rows_cut_9, rows_cut_10, rows_cut_11, rows_cut_12, rows_cut_13, rows_cut_14, rows_cut_15, kIg0_fold] | skip
  first | simp only [gates_fold] | skip
  first | simp only [step_fold_c, step_fold_h] | skip
  first | simp only [kIg1_fold] | skip
  first | simp only [Prod.mk.eta] | skip
  first | rfl | fail "rfl"

set_option maxHeartbeats 4000000 in
/-- The second layer's hidden state is stored as zero. -/
theorem canonZ_h1 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : condZ i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) :
    View.canon (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.2.1 = zero512 (F := Ideal) := by
  unfold kernelRun_A
  dsimp only
  first | sl_unfold_run_names | fail "names"
  first | rw [View.canon_unit_zero hz2] | fail "canon"
  first | simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x512) hz2, View.ld_unit_zero (S := S1024x256) hz2, View.ld_unit_zero (S := S256x2048) hz2, View.ld_unit_zero (S := S512x2048) hz2, View.ld_unit_zero (S := S1x2048) hz2, View.ld_unit_zero (S := S512x128) hz2, View.ld_unit_zero (S := S1x128) hz2] | fail "loads"
  first | simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128_stack, k0_pay129, k0_pay130, k0_pay131, k0_pay132, k0_pay133, k0_pay134] | fail "unfold payloads"
  first | simp only [shapeCast_self, truncf_id, extf_id, sel_zero i hz] | fail "casts"
  first | simp only [sigT_fold] | skip
  first | simp only [cellC_fold] | skip
  first | simp only [cellH_fold] | skip
  first | simp only [rows_cut_0, rows_cut_1, rows_cut_2, rows_cut_3, rows_cut_4, rows_cut_5, rows_cut_6, rows_cut_7, rows_cut_8, rows_cut_9, rows_cut_10, rows_cut_11, rows_cut_12, rows_cut_13, rows_cut_14, rows_cut_15, kIg0_fold] | skip
  first | simp only [gates_fold] | skip
  first | simp only [step_fold_c, step_fold_h] | skip
  first | simp only [kIg1_fold] | skip
  first | simp only [Prod.mk.eta] | skip
  first | rfl | fail "rfl"

set_option maxHeartbeats 4000000 in
/-- The second layer's memory is stored as zero. -/
theorem canonZ_c1 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : condZ i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) :
    View.canon (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.2.2.1 = zero512 (F := Ideal) := by
  unfold kernelRun_A
  dsimp only
  first | sl_unfold_run_names | fail "names"
  first | rw [View.canon_unit_zero hz2] | fail "canon"
  first | simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x512) hz2, View.ld_unit_zero (S := S1024x256) hz2, View.ld_unit_zero (S := S256x2048) hz2, View.ld_unit_zero (S := S512x2048) hz2, View.ld_unit_zero (S := S1x2048) hz2, View.ld_unit_zero (S := S512x128) hz2, View.ld_unit_zero (S := S1x128) hz2] | fail "loads"
  first | simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128_stack, k0_pay129, k0_pay130, k0_pay131, k0_pay132, k0_pay133, k0_pay134] | fail "unfold payloads"
  first | simp only [shapeCast_self, truncf_id, extf_id, sel_zero i hz] | fail "casts"
  first | simp only [sigT_fold] | skip
  first | simp only [cellC_fold] | skip
  first | simp only [cellH_fold] | skip
  first | simp only [rows_cut_0, rows_cut_1, rows_cut_2, rows_cut_3, rows_cut_4, rows_cut_5, rows_cut_6, rows_cut_7, rows_cut_8, rows_cut_9, rows_cut_10, rows_cut_11, rows_cut_12, rows_cut_13, rows_cut_14, rows_cut_15, kIg0_fold] | skip
  first | simp only [gates_fold] | skip
  first | simp only [step_fold_c, step_fold_h] | skip
  first | simp only [kIg1_fold] | skip
  first | simp only [Prod.mk.eta] | skip
  first | rfl | fail "rfl"

set_option maxHeartbeats 4000000 in
/-- The next block's second-layer gate inputs, from the first layer's sixteen hidden states. -/
theorem canonZ_ig (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (hz : condZ i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) :
    View.canon (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.2.2.2.1 = kIg1 x5 x7 (stack16 (Cert.Lstm.run x3 (fun k => Cert.Lstm.rows64 (kIg0 x1 x2 x4) k) (zero512 (F := Ideal), zero512 (F := Ideal)) 1).1 (Cert.Lstm.run x3 (fun k => Cert.Lstm.rows64 (kIg0 x1 x2 x4) k) (zero512 (F := Ideal), zero512 (F := Ideal)) 2).1 (Cert.Lstm.run x3 (fun k => Cert.Lstm.rows64 (kIg0 x1 x2 x4) k) (zero512 (F := Ideal), zero512 (F := Ideal)) 3).1 (Cert.Lstm.run x3 (fun k => Cert.Lstm.rows64 (kIg0 x1 x2 x4) k) (zero512 (F := Ideal), zero512 (F := Ideal)) 4).1 (Cert.Lstm.run x3 (fun k => Cert.Lstm.rows64 (kIg0 x1 x2 x4) k) (zero512 (F := Ideal), zero512 (F := Ideal)) 5).1 (Cert.Lstm.run x3 (fun k => Cert.Lstm.rows64 (kIg0 x1 x2 x4) k) (zero512 (F := Ideal), zero512 (F := Ideal)) 6).1 (Cert.Lstm.run x3 (fun k => Cert.Lstm.rows64 (kIg0 x1 x2 x4) k) (zero512 (F := Ideal), zero512 (F := Ideal)) 7).1 (Cert.Lstm.run x3 (fun k => Cert.Lstm.rows64 (kIg0 x1 x2 x4) k) (zero512 (F := Ideal), zero512 (F := Ideal)) 8).1 (Cert.Lstm.run x3 (fun k => Cert.Lstm.rows64 (kIg0 x1 x2 x4) k) (zero512 (F := Ideal), zero512 (F := Ideal)) 9).1 (Cert.Lstm.run x3 (fun k => Cert.Lstm.rows64 (kIg0 x1 x2 x4) k) (zero512 (F := Ideal), zero512 (F := Ideal)) 10).1 (Cert.Lstm.run x3 (fun k => Cert.Lstm.rows64 (kIg0 x1 x2 x4) k) (zero512 (F := Ideal), zero512 (F := Ideal)) 11).1 (Cert.Lstm.run x3 (fun k => Cert.Lstm.rows64 (kIg0 x1 x2 x4) k) (zero512 (F := Ideal), zero512 (F := Ideal)) 12).1 (Cert.Lstm.run x3 (fun k => Cert.Lstm.rows64 (kIg0 x1 x2 x4) k) (zero512 (F := Ideal), zero512 (F := Ideal)) 13).1 (Cert.Lstm.run x3 (fun k => Cert.Lstm.rows64 (kIg0 x1 x2 x4) k) (zero512 (F := Ideal), zero512 (F := Ideal)) 14).1 (Cert.Lstm.run x3 (fun k => Cert.Lstm.rows64 (kIg0 x1 x2 x4) k) (zero512 (F := Ideal), zero512 (F := Ideal)) 15).1 (Cert.Lstm.run x3 (fun k => Cert.Lstm.rows64 (kIg0 x1 x2 x4) k) (zero512 (F := Ideal), zero512 (F := Ideal)) 16).1) := by
  unfold kernelRun_A
  dsimp only
  first | sl_unfold_run_names | fail "names"
  first | rw [View.canon_unit_zero hz2] | fail "canon"
  first | simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x512) hz2, View.ld_unit_zero (S := S1024x256) hz2, View.ld_unit_zero (S := S256x2048) hz2, View.ld_unit_zero (S := S512x2048) hz2, View.ld_unit_zero (S := S1x2048) hz2, View.ld_unit_zero (S := S512x128) hz2, View.ld_unit_zero (S := S1x128) hz2] | fail "loads"
  first | simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128_stack, k0_pay129, k0_pay130, k0_pay131, k0_pay132, k0_pay133, k0_pay134] | fail "unfold payloads"
  first | simp only [shapeCast_self, truncf_id, extf_id, sel_zero i hz] | fail "casts"
  first | simp only [sigT_fold] | skip
  first | simp only [cellC_fold] | skip
  first | simp only [cellH_fold] | skip
  first | simp only [rows_cut_0, rows_cut_1, rows_cut_2, rows_cut_3, rows_cut_4, rows_cut_5, rows_cut_6, rows_cut_7, rows_cut_8, rows_cut_9, rows_cut_10, rows_cut_11, rows_cut_12, rows_cut_13, rows_cut_14, rows_cut_15, kIg0_fold] | skip
  first | simp only [gates_fold] | skip
  first | simp only [step_fold_c, step_fold_h] | skip
  first | simp only [kIg1_fold] | skip
  first | simp only [Prod.mk.eta] | skip
  first | rfl | fail "rfl"

end Cert.KernelIdeal.Hand

end
-- ==== Proof.LstmBlocks.lean ====
/-
  Block-wise runs are the layer's run.

  A program that keeps the LSTM state between blocks of 16 time steps is described by a sequence of states, one per
  block, each 16 steps from the one before over that block's gate inputs.  If those gate inputs are the specification's
  (time step 16·t + k in block t at position k), the sequence is the layer's run sampled every 16 steps — started from
  the zero state either with the first block (state n is the run after 16·(n+1) steps) or one block late (after 16·n).
-/
import proofs.«114155_g2000202467955933_pallasbulk_1200_31_alg».proof.Proof.LstmSpec

noncomputable section

namespace Cert.Lstm

open Idealize.ShloMosaic Idealize.ShloMosaic.ValueIdx

variable {K : Nat} (X : FVec Ideal ⟨2, ![16384, K]⟩ .f32) (wih : FVec Ideal ⟨2, ![K, 2048]⟩ .f32) (b : FVec Ideal ⟨2, ![1, 2048]⟩ .f32)
  (whh : FVec Ideal SW .f32)

/-- States kept block by block from the first block on: state n is the run after 16·(n+1) time steps. -/
theorem layer_of_blocks (st : ℕ → FVec Ideal SH .f32 × FVec Ideal SH .f32) (ig : ℕ → ℕ → FVec Ideal SG .f32) (N : ℕ)
    (h0 : st 0 = run whh (ig 0) zeroSt 16)
    (hs : ∀ n, n + 1 < N → st (n + 1) = run whh (ig (n + 1)) (st n) 16)
    (hig : ∀ t k, t < N → k < 16 → ig t k = proj X wih b (16 * t + k)) :
    ∀ n, n < N → st n = layer X wih b whh (16 * (n + 1)) := by
  intro n
  induction n with
  | zero =>
    intro hn
    rw [h0, layer_block]
    exact run_congr whh _ _ _ 16 fun k hk => hig 0 k hn hk
  | succ n ih =>
    intro hn
    rw [hs n hn, ih (Nat.lt_of_succ_lt hn), layer_block X wih b whh (n + 1)]
    exact run_congr whh _ _ _ 16 fun k hk => hig (n + 1) k hn hk

/-- States kept block by block but started one block late (state 0 is the zero state): state n is the run after 16·n. -/
theorem layer_of_late_blocks (st : ℕ → FVec Ideal SH .f32 × FVec Ideal SH .f32) (ig : ℕ → ℕ → FVec Ideal SG .f32) (N : ℕ)
    (h0 : st 0 = zeroSt)
    (hs : ∀ n, n < N → st (n + 1) = run whh (ig n) (st n) 16)
    (hig : ∀ t k, t < N → k < 16 → ig t k = proj X wih b (16 * t + k)) :
    ∀ n, n ≤ N → st n = layer X wih b whh (16 * n) := by
  intro n
  induction n with
  | zero => intro _; rw [h0]; rfl
  | succ n ih =>
    intro hn
    rw [hs n hn, ih (Nat.le_of_succ_le hn), layer_block X wih b whh n]
    exact run_congr whh _ _ _ 16 fun k hk => hig n k hn hk

/-- The hidden state r+1 steps into block t is row-block 16·t + r of the layer's stacked hidden states. -/
theorem hidden_in_block (st : FVec Ideal SH .f32 × FVec Ideal SH .f32) (ig : ℕ → FVec Ideal SG .f32) (t r : ℕ)
    (hst : st = layer X wih b whh (16 * t)) (hr : r < 16) (ht : t < 16)
    (hig : ∀ k, k < 16 → ig k = proj X wih b (16 * t + k)) (bb : Fin 64) (j : Fin 512) :
    (run whh ig st (r + 1)).1 (ix2 bb j)
      = hiddenRows X wih b whh (ix2 ⟨64 * (16 * t + r) + bb.val, by omega⟩ j) := by
  unfold hiddenRows
  have e1 : (64 * (16 * t + r) + bb.val) / 64 = 16 * t + r := by omega
  have e2 : (64 * (16 * t + r) + bb.val) % 64 = bb.val := by omega
  simp only [e1]
  rw [show 16 * t + r + 1 = 16 * t + (r + 1) from by ring, layer_in_block, ← hst,
    run_congr whh (fun k => proj X wih b (16 * t + k)) ig st (r + 1) fun k hk => (hig k (by omega)).symm]
  refine congrArg (run whh ig st (r + 1)).1 ?_
  funext a
  match a with
  | ⟨0, _⟩ => exact Fin.ext e2.symm
  | ⟨1, _⟩ => rfl

end Cert.Lstm

end
-- ==== Proof.KI.Layers.lean ====
/-
  The kernel's layer-1 input for a block of 16 time steps: the sixteen hidden states layer 0 produced in that block,
  stacked by rows, are rows 1024·t … 1024·t+1023 of layer 0's stacked hidden states; so the gate inputs the kernel
  keeps for layer 1's next block are the specification's.
-/
import proofs.«114155_g2000202467955933_pallasbulk_1200_31_alg».proof.Proof.KI.Stack
import proofs.«114155_g2000202467955933_pallasbulk_1200_31_alg».proof.Proof.LstmBlocks
import proofs.«114155_g2000202467955933_pallasbulk_1200_31_alg».proof.Proof.KernelGates

set_option maxRecDepth 16384

noncomputable section

namespace Cert.KernelIdeal.Hand

open Cert.KernelIdeal.Gen
open Idealize.ShloMosaic Idealize.ShloMosaic.ValueIdx
open Cert.Lstm (SG SH SW run layer hiddenRows proj)

variable {K : Nat} (X : FVec Ideal ⟨2, ![16384, K]⟩ .f32) (wih : FVec Ideal ⟨2, ![K, 2048]⟩ .f32) (b : FVec Ideal ⟨2, ![1, 2048]⟩ .f32)
  (whh : FVec Ideal SW .f32)

/-- The stack of block t's sixteen hidden states, read at row y: row 1024·t + y of the layer's stacked hidden states. -/
theorem stack_rows (st : FVec Ideal SH .f32 × FVec Ideal SH .f32) (ig : ℕ → FVec Ideal SG .f32) (t : ℕ)
    (hst : st = layer X wih b whh (16 * t)) (ht : t < 16) (hig : ∀ k, k < 16 → ig k = proj X wih b (16 * t + k))
    (y : Fin 1024) (q : Fin 512) :
    concatenate S1024x512 0 (stackL fun r => (run whh ig st (r + 1)).1)
        concatenates_S64x512_S64x512_S64x512_S64x512_S64x512_S64x512_S64x512_S64x512_S64x512_S64x512_S64x512_S64x512_S64x512_S64x512_S64x512_S64x512_S1024x512_d0
        (ix2 y q)
      = hiddenRows X wih b whh (ix2 ⟨1024 * t + y.val, by have := y.isLt; omega⟩ q) := by
  have hy := y.isLt
  have e : (ix2 y q : S1024x512.Idx) = ix2 ⟨64 * (⟨y.val / 64, by omega⟩ : Fin 16).val + (⟨y.val % 64, Nat.mod_lt _ (by decide)⟩ : Fin 64).val, by
      show 64 * (y.val / 64) + y.val % 64 < 1024; omega⟩ q := by
    funext a
    match a with
    | ⟨0, _⟩ => exact Fin.ext (by show y.val = 64 * (y.val / 64) + y.val % 64; omega)
    | ⟨1, _⟩ => rfl
  rw [e, stack_apply]
  rw [Cert.Lstm.hidden_in_block X wih b whh st ig t (y.val / 64) hst (by omega) ht hig ⟨y.val % 64, Nat.mod_lt _ (by decide)⟩ q]
  refine congrArg (hiddenRows X wih b whh) ?_
  funext a
  match a with
  | ⟨0, _⟩ => exact Fin.ext (by show 64 * (16 * t + y.val / 64) + y.val % 64 = 1024 * t + y.val; omega)
  | ⟨1, _⟩ => rfl

end Cert.KernelIdeal.Hand

end
-- ==== Proof.KI.Pipelined.lean ====
/-
  The kernel's software pipeline computes the two layers.

  The kernel's one call has 17 grid points. Point n runs layer 0 over block min(n, 15) of the input rows, continuing from
  the state the point before left, and keeps layer 1's gate inputs for that block — the block's sixteen hidden states
  stacked, times layer 1's input weights, plus its bias. It also runs layer 1 over the gate inputs the PREVIOUS point
  kept; at the first point there are none, and layer 1's state stays zero. So layer 1 runs one block behind layer 0:
  after point 15 layer 0 has run all 256 time steps, after point 16 so has layer 1 — over layer 0's hidden states.
  Stated over variables: the arrays, and the sequences of states and kept gate inputs after each point.
-/
import proofs.«114155_g2000202467955933_pallasbulk_1200_31_alg».proof.Proof.KI.Layers
import proofs.«114155_g2000202467955933_pallasbulk_1200_31_alg».proof.Proof.KernelRows

set_option maxRecDepth 16384

noncomputable section

namespace Cert.KernelIdeal.Hand

open Cert.KernelIdeal.Gen
open Idealize.ShloMosaic Idealize.ShloMosaic.ValueIdx
open Cert.Lstm (SG SH SW run layer hiddenRows proj zeroSt rows64)

/-- A layer's state: hidden state and memory. -/
abbrev State : Type := FVec Ideal SH .f32 × FVec Ideal SH .f32
/-- A block's gate inputs: 16 time steps of 64 rows. -/
abbrev IG : Type := FVec Ideal ⟨2, ![1024, 2048]⟩ .f32

section Pipeline

variable (X : FVec Ideal ⟨2, ![16384, 256]⟩ .f32) (wih0 : FVec Ideal ⟨2, ![256, 2048]⟩ .f32) (b0 b1 : FVec Ideal ⟨2, ![1, 2048]⟩ .f32)
  (whh0 whh1 : FVec Ideal SW .f32) (wih1 : FVec Ideal ⟨2, ![512, 2048]⟩ .f32)
  (hB : (⟨2, ![1, 2048]⟩ : Shape).Broadcasts ⟨2, ![1024, 2048]⟩)

/-- Layer 0's gate inputs for a block of input rows. -/
abbrev ig0 (xb : FVec Ideal ⟨2, ![1024, 256]⟩ .f32) : IG :=
  addf (matmul (DotDims.plain 1024 256 2048) none xb wih0 (constant ⟨2, ![1024, 2048]⟩ .f32 0x00000000#32))
    (broadcastTo ⟨2, ![1024, 2048]⟩ b0 hB)

/-- Layer 1's gate inputs for a block: the block's sixteen hidden states of layer 0 (`R (r + 1)` the state after step `r`),
    stacked by rows, times layer 1's input weights, plus its bias. -/
abbrev ig1of (R : ℕ → State) : IG :=
  addf (matmul (DotDims.plain 1024 512 2048) none
      (concatenate S1024x512 0 (stackL fun r => (R (r + 1)).1) concatenates_S64x512_S64x512_S64x512_S64x512_S64x512_S64x512_S64x512_S64x512_S64x512_S64x512_S64x512_S64x512_S64x512_S64x512_S64x512_S64x512_S1024x512_d0)
      wih1 (constant ⟨2, ![1024, 2048]⟩ .f32 0x00000000#32))
    (broadcastTo ⟨2, ![1024, 2048]⟩ b1 hB)

/-- Layer 0 run over a block of input rows from a state. -/
abbrev L0 (xb : FVec Ideal ⟨2, ![1024, 256]⟩ .f32) (s : State) : ℕ → State :=
  run whh0 (fun k => rows64 (ig0 wih0 b0 hB xb) k) s
/-- Layer 1 run over a block's kept gate inputs from a state. -/
abbrev L1 (g : IG) (s : State) : ℕ → State :=
  run whh1 (fun k => rows64 g k) s

variable (xb : ℕ → FVec Ideal ⟨2, ![1024, 256]⟩ .f32) (s0 s1 : ℕ → State) (g : ℕ → IG)

/-- Layer 0's state after point `n` (`n ≤ 15`) is its run after `16 (n + 1)` time steps. -/
theorem pipelined_layer0
    (hx : ∀ n, n ≤ 16 → ∀ (y : Fin 1024) (q : Fin 256),
      xb n (ix2 y q) = X (ix2 ⟨1024 * min n 15 + y.val, by have := y.isLt; have := Nat.min_le_right n 15; omega⟩ q))
    (hZ0 : s0 0 = L0 wih0 b0 whh0 hB (xb 0) zeroSt 16)
    (hA0 : ∀ n, 1 ≤ n → n ≤ 15 → s0 n = L0 wih0 b0 whh0 hB (xb n) (s0 (n - 1)) 16) :
    (∀ n, n < 16 → s0 n = layer (K := 256) X wih0 b0 whh0 (16 * (n + 1)))
      ∧ ∀ t k, t < 16 → k < 16 → rows64 (ig0 wih0 b0 hB (xb t)) k = proj (K := 256) X wih0 b0 (16 * t + k) := by
  have hig : ∀ t k, t < 16 → k < 16 → rows64 (ig0 wih0 b0 hB (xb t)) k = proj (K := 256) X wih0 b0 (16 * t + k) := by
    intro t k ht hk
    refine Cert.Lstm.rows64_block (K := 256) (xb t) wih0 b0 X wih0 t k ht hk (fun y q => ?_) (fun _ => rfl) hB
    refine (hx t (by omega) y q).trans (congrArg X ?_)
    funext a
    match a with
    | ⟨0, _⟩ => exact Fin.ext (by show 1024 * min t 15 + y.val = 1024 * t + y.val; rw [Nat.min_eq_left (by omega)])
    | ⟨1, _⟩ => rfl
  refine ⟨?_, hig⟩
  refine Cert.Lstm.layer_of_blocks X wih0 b0 whh0 s0 (fun t k => rows64 (ig0 wih0 b0 hB (xb t)) k) 16 hZ0 ?_ hig
  intro n hn
  have h := hA0 (n + 1) (by omega) (by omega)
  rw [Nat.add_sub_cancel] at h
  exact h

/-- THE PIPELINE: after point 15 layer 0 has run its 256 time steps over the input rows; after point 16 layer 1 has run its
    256 time steps over layer 0's stacked hidden states. -/
theorem pipelined
    (hx : ∀ n, n ≤ 16 → ∀ (y : Fin 1024) (q : Fin 256),
      xb n (ix2 y q) = X (ix2 ⟨1024 * min n 15 + y.val, by have := y.isLt; have := Nat.min_le_right n 15; omega⟩ q))
    (hZ0 : s0 0 = L0 wih0 b0 whh0 hB (xb 0) zeroSt 16) (hZ1 : s1 0 = zeroSt)
    (hZg : g 0 = ig1of b1 wih1 hB (L0 wih0 b0 whh0 hB (xb 0) zeroSt))
    (hA0 : ∀ n, 1 ≤ n → n ≤ 15 → s0 n = L0 wih0 b0 whh0 hB (xb n) (s0 (n - 1)) 16)
    (hA1 : ∀ n, 1 ≤ n → n ≤ 16 → s1 n = L1 whh1 (g (n - 1)) (s1 (n - 1)) 16)
    (hAg : ∀ n, 1 ≤ n → n ≤ 15 → g n = ig1of b1 wih1 hB (L0 wih0 b0 whh0 hB (xb n) (s0 (n - 1)))) :
    s0 15 = layer (K := 256) X wih0 b0 whh0 256
      ∧ s1 16 = layer (K := 512) (hiddenRows (K := 256) X wih0 b0 whh0) wih1 b1 whh1 256 := by
  obtain ⟨hs0, hig0⟩ := pipelined_layer0 X wih0 b0 whh0 hB xb s0 hx hZ0 hA0
  -- layer 1's kept gate inputs are the specification's, over layer 0's hidden states
  have hig1 : ∀ t k, t < 16 → k < 16 →
      rows64 (g t) k = proj (K := 512) (hiddenRows (K := 256) X wih0 b0 whh0) wih1 b1 (16 * t + k) := by
    intro t k ht hk
    have key : ∀ (sp : State), sp = layer (K := 256) X wih0 b0 whh0 (16 * t) →
        rows64 (ig1of b1 wih1 hB (L0 wih0 b0 whh0 hB (xb t) sp)) k
          = proj (K := 512) (hiddenRows (K := 256) X wih0 b0 whh0) wih1 b1 (16 * t + k) := fun sp hsp =>
      Cert.Lstm.rows64_block (K := 512) _ wih1 b1 (hiddenRows (K := 256) X wih0 b0 whh0) wih1 t k ht hk
        (fun y q => stack_rows (K := 256) X wih0 b0 whh0 sp (fun k => rows64 (ig0 wih0 b0 hB (xb t)) k) t hsp ht
          (fun k hk => hig0 t k ht hk) y q)
        (fun _ => rfl) hB
    rcases Nat.eq_zero_or_pos t with h0 | hpos
    · subst h0
      rw [hZg]
      exact key zeroSt rfl
    · rw [hAg t hpos (by omega)]
      refine key (s0 (t - 1)) ?_
      rw [hs0 (t - 1) (by omega), show t - 1 + 1 = t from by omega]
  have hs1 : ∀ n, n ≤ 16 → s1 n = layer (K := 512) (hiddenRows (K := 256) X wih0 b0 whh0) wih1 b1 whh1 (16 * n) := by
    refine Cert.Lstm.layer_of_late_blocks (hiddenRows (K := 256) X wih0 b0 whh0) wih1 b1 whh1 s1 (fun t k => rows64 (g t) k) 16 hZ1 ?_ hig1
    intro n hn
    have h := hA1 (n + 1) (by omega) (by omega)
    rw [Nat.add_sub_cancel] at h
    exact h
  exact ⟨hs0 15 (by decide), hs1 16 (le_refl _)⟩

end Pipeline

end Cert.KernelIdeal.Hand

end
-- ==== Proof.KI.Pieces.lean ====
import proofs.«114155_g2000202467955933_pallasbulk_1200_31_alg».proof.Proof.KI.ValA
import proofs.«114155_g2000202467955933_pallasbulk_1200_31_alg».proof.Proof.KI.ValZ
import proofs.«114155_g2000202467955933_pallasbulk_1200_31_alg».proof.Proof.KI.Pipelined

set_option maxRecDepth 65536

noncomputable section

namespace Cert.KernelIdeal.Hand

open Cert.KernelIdeal.Gen
open Idealize.ShloMosaic Idealize.ShloMosaic.TcCoe Idealize.ShloMosaic.Tactic
open Idealize.SL Idealize.SL.Sem
open Idealize.ShloMosaic.Pipeline (Dat)

open Cert.Lstm (zeroSt)

/-! ## Case A's five carried buffers read back (on the extended reals), and what they hold -/

/-- The pieces the run leaves in carried buffer 12 tile it. -/
theorem coverA_12 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) (y : S64x512.Idx) :
    ∃ pc ∈ (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).1, y ∈ pc.1.set :=
  View.cover_of_tiledL (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).1 S64x512.size (by sl_kernel_rfl) y
/-- Carried buffer 12 after the body, read back. -/
def rbA_12 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) : Vec Ideal S64x512 .f32 :=
  VS_0.read (Elt Ideal) (VS_0.writes (Elt Ideal) VS_0.junk (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).1)
theorem rbA_12_canon (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) :
    rbA_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16 = View.canon (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).1 :=
  View.read_writes_eq_canon _ _ _ (coverA_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16)

/-- The pieces the run leaves in carried buffer 13 tile it. -/
theorem coverA_13 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) (y : S64x512.Idx) :
    ∃ pc ∈ (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.1, y ∈ pc.1.set :=
  View.cover_of_tiledL (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.1 S64x512.size (by sl_kernel_rfl) y
/-- Carried buffer 13 after the body, read back. -/
def rbA_13 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) : Vec Ideal S64x512 .f32 :=
  VS_1.read (Elt Ideal) (VS_1.writes (Elt Ideal) VS_1.junk (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.1)
theorem rbA_13_canon (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) :
    rbA_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16 = View.canon (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.1 :=
  View.read_writes_eq_canon _ _ _ (coverA_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16)

/-- The pieces the run leaves in carried buffer 14 tile it. -/
theorem coverA_14 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) (y : S64x512.Idx) :
    ∃ pc ∈ (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.2.1, y ∈ pc.1.set :=
  View.cover_of_tiledL (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.2.1 S64x512.size (by sl_kernel_rfl) y
/-- Carried buffer 14 after the body, read back. -/
def rbA_14 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) : Vec Ideal S64x512 .f32 :=
  VS_2.read (Elt Ideal) (VS_2.writes (Elt Ideal) VS_2.junk (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.2.1)
theorem rbA_14_canon (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) :
    rbA_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16 = View.canon (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.2.1 :=
  View.read_writes_eq_canon _ _ _ (coverA_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16)

/-- The pieces the run leaves in carried buffer 15 tile it. -/
theorem coverA_15 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) (y : S64x512.Idx) :
    ∃ pc ∈ (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.2.2.1, y ∈ pc.1.set :=
  View.cover_of_tiledL (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.2.2.1 S64x512.size (by sl_kernel_rfl) y
/-- Carried buffer 15 after the body, read back. -/
def rbA_15 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) : Vec Ideal S64x512 .f32 :=
  VS_3.read (Elt Ideal) (VS_3.writes (Elt Ideal) VS_3.junk (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.2.2.1)
theorem rbA_15_canon (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) :
    rbA_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16 = View.canon (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.2.2.1 :=
  View.read_writes_eq_canon _ _ _ (coverA_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16)

/-- The pieces the run leaves in carried buffer 16 tile it. -/
theorem coverA_16 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) (y : S1024x2048.Idx) :
    ∃ pc ∈ (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.2.2.2.1, y ∈ pc.1.set :=
  View.cover_of_tiledL (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.2.2.2.1 S1024x2048.size (by sl_kernel_rfl) y
/-- Carried buffer 16 after the body, read back. -/
def rbA_16 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) : Vec Ideal S1024x2048 .bf16 :=
  VS_4.read (Elt Ideal) (VS_4.writes (Elt Ideal) VS_4.junk (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.2.2.2.1)
theorem rbA_16_canon (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) :
    rbA_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16 = View.canon (kernelRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.2.2.2.1 :=
  View.read_writes_eq_canon _ _ _ (coverA_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16)

/-- The kernel's zero state is the specification's. -/
theorem zero512_pair : ((zero512 (F := Ideal), zero512 (F := Ideal)) : State) = zeroSt := by
  have h : (zero512 (F := Ideal) : FVec Ideal Cert.Lstm.SH .f32) = fun _ => 0 := by
    funext i
    show Ideal.ofBits .f32 0x00000000#32 = 0
    exact Ideal.ofBits_zero_f32
  unfold zeroSt
  rw [h]

/-- The body's spellings of the two gate-input blocks are the pipeline's. -/
theorem kIg0_eq (x1 : Vec Ideal S1024x256 .bf16) (x2 : Vec Ideal S256x2048 .bf16) (x4 : Vec Ideal S1x2048 .f32) :
    kIg0 x1 x2 x4 = ig0 x2 x4 broadcasts_S1x2048_S1024x2048 x1 := rfl
theorem kIg1_eq (x5 : Vec Ideal S512x2048 .bf16) (x7 : Vec Ideal S1x2048 .f32) (R : ℕ → State) :
    kIg1 x5 x7 (stack16 (R 1).1 (R 2).1 (R 3).1 (R 4).1 (R 5).1 (R 6).1 (R 7).1 (R 8).1 (R 9).1 (R 10).1 (R 11).1 (R 12).1 (R 13).1 (R 14).1 (R 15).1 (R 16).1) = ig1of x7 x5 broadcasts_S1x2048_S1024x2048 R := rfl

/-! ### Away from the first point -/

/-- Layer 0's state: 16 steps over the block's gate inputs from the carried state. -/
theorem valA_state0 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) (hz : ¬condZ i) :
    ((rbA_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16, rbA_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16) : State) = L0 x2 x4 x3 broadcasts_S1x2048_S1024x2048 x1 (xs12, xs13) 16 := by
  rw [rbA_12_canon, rbA_13_canon, canonA_h0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 xs12 xs13 xs14 xs15 xs16, canonA_c0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 xs12 xs13 xs14 xs15 xs16]
  rfl
/-- Layer 1's state: 16 steps over the carried gate inputs from the carried state. -/
theorem valA_state1 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) (hz : ¬condZ i) :
    ((rbA_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16, rbA_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16) : State) = L1 x6 xs16 (xs14, xs15) 16 := by
  rw [rbA_14_canon, rbA_15_canon, canonA_h1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 xs12 xs13 xs14 xs15 xs16, canonA_c1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 xs12 xs13 xs14 xs15 xs16]
  rfl
/-- The gate inputs kept for layer 1: from layer 0's sixteen hidden states of this block. -/
theorem valA_ig (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) (hz : ¬condZ i) :
    (rbA_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16 : IG) = ig1of x7 x5 broadcasts_S1x2048_S1024x2048 (L0 x2 x4 x3 broadcasts_S1x2048_S1024x2048 x1 (xs12, xs13)) := by
  rw [rbA_16_canon, canonA_ig c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 xs12 xs13 xs14 xs15 xs16]
  rfl

/-! ### At the first point, whatever the carried buffers held -/

theorem valZ_state0 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) (hz : condZ i) :
    ((rbA_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16, rbA_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16) : State) = L0 x2 x4 x3 broadcasts_S1x2048_S1024x2048 x1 zeroSt 16 := by
  rw [rbA_12_canon, rbA_13_canon, canonZ_h0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 xs12 xs13 xs14 xs15 xs16, canonZ_c0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 xs12 xs13 xs14 xs15 xs16, ← zero512_pair]
  rfl
theorem valZ_state1 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) (hz : condZ i) :
    ((rbA_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16, rbA_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16) : State) = zeroSt := by
  rw [rbA_14_canon, rbA_15_canon, canonZ_h1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 xs12 xs13 xs14 xs15 xs16, canonZ_c1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 xs12 xs13 xs14 xs15 xs16]
  exact zero512_pair
theorem valZ_ig (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) (hz : condZ i) :
    (rbA_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16 : IG) = ig1of x7 x5 broadcasts_S1x2048_S1024x2048 (L0 x2 x4 x3 broadcasts_S1x2048_S1024x2048 x1 zeroSt) := by
  rw [rbA_16_canon, canonZ_ig c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc hz x1 x2 x3 x4 x5 x6 x7 x8 x9 xs12 xs13 xs14 xs15 xs16, ← zero512_pair]
  rfl

end Cert.KernelIdeal.Hand

end
-- ==== Proof.KI.Blocks.lean ====
/-
  The kernel's windows' blocks, read off the arrays.

  The one pipelined call has 17 grid points. Its first window stages the time-major input rows in blocks of 1024 rows
  (16 time steps of 64 rows): at point t the block min(t, 15) — the last point stages the last block again. Each of the
  other eight input windows has ONE block, the whole array, at every point: the two layers' weights and bias rows and
  the head's weights and bias row.
-/
import proofs.«114155_g2000202467955933_pallasbulk_1200_31_alg».proof.Proof.Gen.KernelIdeal.Frame
import proofs.«114155_g2000202467955933_pallasbulk_1200_31_alg».proof.Proof.Gen.KernelIdeal.Points
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F]

/-- The printed index maps of the nine input windows, decided over the 17 grid points. -/
theorem idx_in : ∀ t : Fin cfg0.N, win0_0.index t (0 : Fin 2) = min t.val 15 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## Over any contents of the unscoped buffers -/

section AnyContents
variable (c : Dev nD) (Vv : (b : Ref sig .tc) → Buf (Elt F) ((c : Thread nD τ).loc b))

/-- Window 1's one block is its whole array (layer 0's input weights). -/
theorem blk_whole_1 (t : Fin cfg0.N) :
    (((cfg0.win 1).blk t).view.read (Elt F) (Vv (Pipeline.arrRef spec0 1)) : Vec F S256x2048 .bf16) = Vv main_call0_v4 := by
  obtain ⟨-, -, e0, e1, -, -, -, -, -, -, -, -, -, -, -, -, -, -⟩ := idx_in t
  funext y
  show Vv main_call0_v4 (((cfg0.win 1).blk t).view.emb y) = Vv main_call0_v4 y
  congr 1
  funext a; apply Fin.ext
  match a with
  | ⟨0, _⟩ => show win0_1.index t (0 : Fin 2) * 256 + 1 * (y 0).val = (y 0).val; omega
  | ⟨1, _⟩ => show win0_1.index t (1 : Fin 2) * 2048 + 1 * (y 1).val = (y 1).val; omega

/-- Window 2's one block is its whole array (layer 0's recurrent weights). -/
theorem blk_whole_2 (t : Fin cfg0.N) :
    (((cfg0.win 2).blk t).view.read (Elt F) (Vv (Pipeline.arrRef spec0 2)) : Vec F S512x2048 .bf16) = Vv main_call0_v6 := by
  obtain ⟨-, -, -, -, e0, e1, -, -, -, -, -, -, -, -, -, -, -, -⟩ := idx_in t
  funext y
  show Vv main_call0_v6 (((cfg0.win 2).blk t).view.emb y) = Vv main_call0_v6 y
  congr 1
  funext a; apply Fin.ext
  match a with
  | ⟨0, _⟩ => show win0_2.index t (0 : Fin 2) * 512 + 1 * (y 0).val = (y 0).val; omega
  | ⟨1, _⟩ => show win0_2.index t (1 : Fin 2) * 2048 + 1 * (y 1).val = (y 1).val; omega

/-- Window 3's one block is its whole array (layer 0's bias row). -/
theorem blk_whole_3 (t : Fin cfg0.N) :
    (((cfg0.win 3).blk t).view.read (Elt F) (Vv (Pipeline.arrRef spec0 3)) : Vec F S1x2048 .f32) = Vv main_call0_v8 := by
  obtain ⟨-, -, -, -, -, -, e0, e1, -, -, -, -, -, -, -, -, -, -⟩ := idx_in t
  funext y
  show Vv main_call0_v8 (((cfg0.win 3).blk t).view.emb y) = Vv main_call0_v8 y
  congr 1
  funext a; apply Fin.ext
  match a with
  | ⟨0, _⟩ => show win0_3.index t (0 : Fin 2) * 1 + 1 * (y 0).val = (y 0).val; omega
  | ⟨1, _⟩ => show win0_3.index t (1 : Fin 2) * 2048 + 1 * (y 1).val = (y 1).val; omega

/-- Window 4's one block is its whole array (layer 1's input weights). -/
theorem blk_whole_4 (t : Fin cfg0.N) :
    (((cfg0.win 4).blk t).view.read (Elt F) (Vv (Pipeline.arrRef spec0 4)) : Vec F S512x2048 .bf16) = Vv main_call0_v10 := by
  obtain ⟨-, -, -, -, -, -, -, -, e0, e1, -, -, -, -, -, -, -, -⟩ := idx_in t
  funext y
  show Vv main_call0_v10 (((cfg0.win 4).blk t).view.emb y) = Vv main_call0_v10 y
  congr 1
  funext a; apply Fin.ext
  match a with
  | ⟨0, _⟩ => show win0_4.index t (0 : Fin 2) * 512 + 1 * (y 0).val = (y 0).val; omega
  | ⟨1, _⟩ => show win0_4.index t (1 : Fin 2) * 2048 + 1 * (y 1).val = (y 1).val; omega

/-- Window 5's one block is its whole array (layer 1's recurrent weights). -/
theorem blk_whole_5 (t : Fin cfg0.N) :
    (((cfg0.win 5).blk t).view.read (Elt F) (Vv (Pipeline.arrRef spec0 5)) : Vec F S512x2048 .bf16) = Vv main_call0_v12 := by
  obtain ⟨-, -, -, -, -, -, -, -, -, -, e0, e1, -, -, -, -, -, -⟩ := idx_in t
  funext y
  show Vv main_call0_v12 (((cfg0.win 5).blk t).view.emb y) = Vv main_call0_v12 y
  congr 1
  funext a; apply Fin.ext
  match a with
  | ⟨0, _⟩ => show win0_5.index t (0 : Fin 2) * 512 + 1 * (y 0).val = (y 0).val; omega
  | ⟨1, _⟩ => show win0_5.index t (1 : Fin 2) * 2048 + 1 * (y 1).val = (y 1).val; omega

/-- Window 6's one block is its whole array (layer 1's bias row). -/
theorem blk_whole_6 (t : Fin cfg0.N) :
    (((cfg0.win 6).blk t).view.read (Elt F) (Vv (Pipeline.arrRef spec0 6)) : Vec F S1x2048 .f32) = Vv main_call0_v14 := by
  obtain ⟨-, -, -, -, -, -, -, -, -, -, -, -, e0, e1, -, -, -, -⟩ := idx_in t
  funext y
  show Vv main_call0_v14 (((cfg0.win 6).blk t).view.emb y) = Vv main_call0_v14 y
  congr 1
  funext a; apply Fin.ext
  match a with
  | ⟨0, _⟩ => show win0_6.index t (0 : Fin 2) * 1 + 1 * (y 0).val = (y 0).val; omega
  | ⟨1, _⟩ => show win0_6.index t (1 : Fin 2) * 2048 + 1 * (y 1).val = (y 1).val; omega

/-- Window 7's one block is its whole array (the head's weights). -/
theorem blk_whole_7 (t : Fin cfg0.N) :
    (((cfg0.win 7).blk t).view.read (Elt F) (Vv (Pipeline.arrRef spec0 7)) : Vec F S512x128 .bf16) = Vv main_call0_v16 := by
  obtain ⟨-, -, -, -, -, -, -, -, -, -, -, -, -, -, e0, e1, -, -⟩ := idx_in t
  funext y
  show Vv main_call0_v16 (((cfg0.win 7).blk t).view.emb y) = Vv main_call0_v16 y
  congr 1
  funext a; apply Fin.ext
  match a with
  | ⟨0, _⟩ => show win0_7.index t (0 : Fin 2) * 512 + 1 * (y 0).val = (y 0).val; omega
  | ⟨1, _⟩ => show win0_7.index t (1 : Fin 2) * 128 + 1 * (y 1).val = (y 1).val; omega

/-- Window 8's one block is its whole array (the head's bias row). -/
theorem blk_whole_8 (t : Fin cfg0.N) :
    (((cfg0.win 8).blk t).view.read (Elt F) (Vv (Pipeline.arrRef spec0 8)) : Vec F S1x128 .f32) = Vv main_call0_v17 := by
  obtain ⟨-, -, -, -, -, -, -, -, -, -, -, -, -, -, -, -, e0, e1⟩ := idx_in t
  funext y
  show Vv main_call0_v17 (((cfg0.win 8).blk t).view.emb y) = Vv main_call0_v17 y
  congr 1
  funext a; apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Window 0's block at point `t` is rows `1024 min(t, 15) …` of the time-major input. -/
theorem blk_x (t : Fin cfg0.N) (y : Fin 1024) (q : Fin 256) :
    (((cfg0.win 0).blk t).view.read (Elt F) (Vv (Pipeline.arrRef spec0 0)) : Vec F S1024x256 .bf16) (ix2 y q)
      = (Vv main_call0_v2 : Vec F S16384x256 .bf16) (ix2 ⟨1024 * min t.val 15 + y.val, by have := y.isLt; omega⟩ q) := by
  obtain ⟨e0, e1, -, -, -, -, -, -, -, -, -, -, -, -, -, -, -, -⟩ := idx_in t
  show Vv main_call0_v2 (((cfg0.win 0).blk t).view.emb (ix2 y q)) = Vv main_call0_v2 _
  congr 1
  funext a; apply Fin.ext
  match a with
  | ⟨0, _⟩ => show win0_0.index t (0 : Fin 2) * 1024 + 1 * y.val = 1024 * min t.val 15 + y.val; omega
  | ⟨1, _⟩ => show win0_0.index t (1 : Fin 2) * 256 + 1 * q.val = q.val; omega

end AnyContents

/-! ## At the contents the call is entered with -/

variable (m : (ℓ : Loc nD τ sig) → Buf (Elt F) ℓ)

theorem iblk_1 (c : Dev nD) (t : Fin cfg0.N) : (Gen.iblk m c 1 t : Vec F S256x2048 .bf16) = Gen.V m c main_call0_v4 :=
  blk_whole_1 c (Gen.V m c) t
theorem iblk_2 (c : Dev nD) (t : Fin cfg0.N) : (Gen.iblk m c 2 t : Vec F S512x2048 .bf16) = Gen.V m c main_call0_v6 :=
  blk_whole_2 c (Gen.V m c) t
theorem iblk_3 (c : Dev nD) (t : Fin cfg0.N) : (Gen.iblk m c 3 t : Vec F S1x2048 .f32) = Gen.V m c main_call0_v8 :=
  blk_whole_3 c (Gen.V m c) t
theorem iblk_4 (c : Dev nD) (t : Fin cfg0.N) : (Gen.iblk m c 4 t : Vec F S512x2048 .bf16) = Gen.V m c main_call0_v10 :=
  blk_whole_4 c (Gen.V m c) t
theorem iblk_5 (c : Dev nD) (t : Fin cfg0.N) : (Gen.iblk m c 5 t : Vec F S512x2048 .bf16) = Gen.V m c main_call0_v12 :=
  blk_whole_5 c (Gen.V m c) t
theorem iblk_6 (c : Dev nD) (t : Fin cfg0.N) : (Gen.iblk m c 6 t : Vec F S1x2048 .f32) = Gen.V m c main_call0_v14 :=
  blk_whole_6 c (Gen.V m c) t
theorem iblk_7 (c : Dev nD) (t : Fin cfg0.N) : (Gen.iblk m c 7 t : Vec F S512x128 .bf16) = Gen.V m c main_call0_v16 :=
  blk_whole_7 c (Gen.V m c) t
theorem iblk_8 (c : Dev nD) (t : Fin cfg0.N) : (Gen.iblk m c 8 t : Vec F S1x128 .f32) = Gen.V m c main_call0_v17 :=
  blk_whole_8 c (Gen.V m c) t

theorem iblk_x (c : Dev nD) (t : Fin cfg0.N) (y : Fin 1024) (q : Fin 256) :
    (Gen.iblk m c 0 t : Vec F S1024x256 .bf16) (ix2 y q)
      = (Gen.V m c main_call0_v2 : Vec F S16384x256 .bf16) (ix2 ⟨1024 * min t.val 15 + y.val, by have := y.isLt; omega⟩ q) :=
  blk_x c (Gen.V m c) t y q

end Cert.KernelIdeal.Hand

end
-- ==== Proof.KI.PiecesB.lean ====
/-
  The kernel's last grid point: what it stores into the two output windows.

  At the last point (grid coordinate 16) the body's one branch is taken: it stores, into output window 9, the classifier
  head on layer 0's hidden state as the point finds it in scratch, and, into output window 10, the head on layer 1's
  hidden state after the point's 16 time steps over the kept gate inputs. Read back from the pieces the body's run
  stores; first over the body's named payloads at any float instance, then on the extended reals, where narrowing to
  bf16 is the identity, the body's cut-first cells with the half-angle logistic function are the recurrence's cells,
  and a 64-row load of the kept gate inputs is that time step's rows.
-/
import proofs.«114155_g2000202467955933_pallasbulk_1200_31_alg».proof.Proof.KI.Runs
import proofs.«114155_g2000202467955933_pallasbulk_1200_31_alg».proof.Proof.KI.RunB
import proofs.«114155_g2000202467955933_pallasbulk_1200_31_alg».proof.Proof.LstmBlock
import proofs.«114155_g2000202467955933_pallasbulk_1200_31_alg».proof.Proof.KernelRows
import proofs.«114155_g2000202467955933_pallasbulk_1200_31_alg».proof.Proof.LstmCell
import proofs.«114155_g2000202467955933_pallasbulk_1200_31_alg».proof.Proof.KI.Pipelined
import Idealize.ShloMosaic.Lib.Pipeline.Value

set_option maxRecDepth 65536

noncomputable section

namespace Cert.KernelIdeal.Hand

open Cert.KernelIdeal.Gen
open Idealize.ShloMosaic Idealize.ShloMosaic.TcCoe Idealize.ShloMosaic.Tactic
open Idealize.SL Idealize.SL.Sem

variable {F : FTy → Type} [FloatOps F]

theorem hzB : (![0, 0] : Fin 2 → Nat) = fun _ => 0 := funext fun a => by fin_cases a <;> rfl

/-- Case B's pieces for output window 9 tile it, so they cover it. -/
theorem cover9B (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i)
    (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (xs12 : Vec F S64x512 .f32) (xs13 : Vec F S64x512 .f32) (xs14 : Vec F S64x512 .f32) (xs15 : Vec F S64x512 .f32) (xs16 : Vec F S1024x2048 .bf16) (y : S64x128.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).1 S64x128.size (by sl_kernel_rfl) y

/-- What the last point leaves in output window 9's staging buffer: its pieces read back. -/
def out9B (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i)
    (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (xs12 : Vec F S64x512 .f32) (xs13 : Vec F S64x512 .f32) (xs14 : Vec F S64x512 .f32) (xs15 : Vec F S64x512 .f32) (xs16 : Vec F S1024x2048 .bf16) : Vec F S64x128 .f32 :=
  VO_9.read (Elt F) (VO_9.writes (Elt F) VO_9.junk (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).1)

/-- Case B's pieces for output window 10 tile it, so they cover it. -/
theorem cover10B (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i)
    (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (xs12 : Vec F S64x512 .f32) (xs13 : Vec F S64x512 .f32) (xs14 : Vec F S64x512 .f32) (xs15 : Vec F S64x512 .f32) (xs16 : Vec F S1024x2048 .bf16) (y : S64x128.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.1 S64x128.size (by sl_kernel_rfl) y

/-- What the last point leaves in output window 10's staging buffer: its pieces read back. -/
def out10B (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i)
    (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (xs12 : Vec F S64x512 .f32) (xs13 : Vec F S64x512 .f32) (xs14 : Vec F S64x512 .f32) (xs15 : Vec F S64x512 .f32) (xs16 : Vec F S1024x2048 .bf16) : Vec F S64x128 .f32 :=
  VO_10.read (Elt F) (VO_10.writes (Elt F) VO_10.junk (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.1)

/-- The read-backs are the canonical contents of the pieces (the pieces cover the buffer). -/
theorem out9B_canon (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i)
    (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (xs12 : Vec F S64x512 .f32) (xs13 : Vec F S64x512 .f32) (xs14 : Vec F S64x512 .f32) (xs15 : Vec F S64x512 .f32) (xs16 : Vec F S1024x2048 .bf16) :
    out9B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16 = View.canon (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).1 := by
  unfold out9B
  exact View.read_writes_eq_canon _ _ _ (cover9B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16)
theorem out10B_canon (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i)
    (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (xs12 : Vec F S64x512 .f32) (xs13 : Vec F S64x512 .f32) (xs14 : Vec F S64x512 .f32) (xs15 : Vec F S64x512 .f32) (xs16 : Vec F S1024x2048 .bf16) :
    out10B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16 = View.canon (kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16).2.1 := by
  unfold out10B
  exact View.read_writes_eq_canon _ _ _ (cover10B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16)

/-! ## Output window 9: the head on layer 0's hidden state as the point finds it -/

set_option maxHeartbeats 2000000 in
/-- What the last point stores into output window 9, over the skeleton's payloads: the head's payload on the hidden
    state of layer 0 the point loads (under the first point's mask), the head's weights and bias. -/
theorem out9B_eq (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i)
    (x1 : Vec F S1024x256 .bf16) (x2 : Vec F S256x2048 .bf16) (x3 : Vec F S512x2048 .bf16) (x4 : Vec F S1x2048 .f32) (x5 : Vec F S512x2048 .bf16) (x6 : Vec F S512x2048 .bf16) (x7 : Vec F S1x2048 .f32) (x8 : Vec F S512x128 .bf16) (x9 : Vec F S1x128 .f32) (xs12 : Vec F S64x512 .f32) (xs13 : Vec F S64x512 .f32) (xs14 : Vec F S64x512 .f32) (xs15 : Vec F S64x512 .f32) (xs16 : Vec F S1024x2048 .bf16) :
    out9B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16 = k0_pay5 (k0_pay6 i xs12) x8 x9 := by
  unfold out9B
  rw [View.read_writes_eq_canon _ _ _ (cover9B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16)]
  unfold kernelRun_B
  dsimp only
  first | sl_unfold_run_names | fail "names"
  first | rw [View.canon_unit_zero hzB] | fail "canon"
  first | simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread, View.ld_unit_zero (S := S64x512) hzB, View.ld_unit_zero (S := S512x128) hzB, View.ld_unit_zero (S := S1x128) hzB, View.ld_unit_zero (S := S512x2048) hzB, View.ld_unit_zero (S := S256x2048) hzB, View.ld_unit_zero (S := S1x2048) hzB, View.ld_unit_zero (S := S1024x256) hzB] | fail "loads"

/-- The last point is not the first: the first point's mask lets the carried state through. -/
theorem condB_not_condZ : ∀ i : grid0.Coords, condB i → ¬condZ i := by decide +kernel

theorem pay6_B (i : grid0.Coords) (hc : condB i) (v : Vec F S64x512 .f32) : k0_pay6 i v = v := by
  unfold k0_pay6 Scalar.select; exact if_neg (condB_not_condZ i hc)
theorem pay7_B (i : grid0.Coords) (hc : condB i) (v : Vec F S64x512 .f32) : k0_pay7 i v = v := by
  unfold k0_pay7 Scalar.select; exact if_neg (condB_not_condZ i hc)

/-- The head's payload on the extended reals is the classifier head: narrowing to bf16 changes nothing there. -/
theorem pay5_head (h : FVec Ideal S64x512 .f32) (wfc : Vec Ideal S512x128 .bf16) (bfc : Vec Ideal S1x128 .f32) :
    k0_pay5 (F := Ideal) h wfc bfc = Cert.Lstm.head wfc bfc broadcasts_S1x128_S64x128 h := by
  unfold k0_pay5 k0_pay2 k0_pay3
  rw [shapeCast_self, shapeCast_self]
  rfl
theorem pay4_head (h : FVec Ideal S64x512 .f32) (wfc : Vec Ideal S512x128 .bf16) (bfc : Vec Ideal S1x128 .f32) :
    k0_pay4 (F := Ideal) h wfc bfc = Cert.Lstm.head wfc bfc broadcasts_S1x128_S64x128 h := by
  unfold k0_pay4 k0_pay2 k0_pay3
  rw [shapeCast_self, shapeCast_self]
  rfl

/-- OUTPUT WINDOW 9 at the last point, on the extended reals: the head on layer 0's hidden state as the point finds it. -/
theorem out9B_val (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) :
    out9B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16 = Cert.Lstm.head x8 x9 broadcasts_S1x128_S64x128 xs12 := by
  rw [out9B_eq, pay6_B i hc, pay5_head]

/-! ## The kernel's spelling of a cell, on the extended reals -/

/-- Narrowing to bf16 and widening back change nothing on the extended reals. -/
theorem truncf_ideal {S : Shape} (v : FVec Ideal S .f32) (h : FTy.bf16.bits < FTy.f32.bits) :
    (truncf .bf16 v h : FVec Ideal S .bf16) = v := rfl
theorem extf_ideal {S : Shape} (v : FVec Ideal S .bf16) (h : FTy.bf16.bits < FTy.f32.bits) :
    (extf .f32 v h : FVec Ideal S .f32) = v := rfl

/-- The half-angle form of the logistic function, as the body spells it. -/
theorem sig_fold (S : Shape) (v : FVec Ideal S .f32) :
    addf (mulf (broadcast S (Scalar.ofBits (F := Ideal) .f32 0x3F000000#32)) (tanh (mulf (broadcast S (Scalar.ofBits (F := Ideal) .f32 0x3F000000#32)) v)))
      (broadcast S (Scalar.ofBits (F := Ideal) .f32 0x3F000000#32)) = Cert.Lstm.sigT S v := rfl

/-- The 64 rows of time step `k` of a block's kept gate inputs, as the body loads them. -/
theorem ld_rows64 (xs : Vec Ideal S1024x2048 .bf16) (o k : ℕ) (ho : o = 64 * k) (hk : k < 16)
    (inb : ∀ a, (![o, 0] : Fin 2 → ℕ) a + S64x2048.size a ≤ S1024x2048.size a) (h : FTy.bf16.bits < FTy.f32.bits) :
    (extf .f32 (View.ld xs (Rect.unit (s := S1024x2048) ![o, 0] S64x2048.size inb)) h : FVec Ideal S64x2048 .f32)
      = Cert.Lstm.rows64 (φ := .bf16) xs k := by
  subst ho
  funext j
  show xs _ = xs _
  refine congrArg xs (funext fun a => Fin.ext ?_)
  have hj : (j 0).val < 64 := (j 0).isLt
  match a with
  | ⟨0, _⟩ => show 64 * k + 1 * (j 0).val = (64 * k + (j 0).val) % 1024; omega
  | ⟨1, _⟩ => show 0 + 1 * (j 1).val = (j 1).val; omega

/-- The body's new memory of a cell is the recurrence's. -/
theorem kcell_c (W : FVec Ideal S512x2048 .bf16) (ig : FVec Ideal S64x2048 .f32) (h c : FVec Ideal S64x512 .f32) :
    addf (mulf (extractStridedSlice S64x512 ![0, 512] (Cert.Lstm.sigT S64x1024 (extractStridedSlice S64x1024 ![0, 0] (addf ig (matmul dot_S64x512_S512x2048_S64x2048_1_0_0_1_n_n none (truncf .bf16 h bitsLt_bf16_f32) W (constant S64x2048 .f32 0x00000000#32))) slices_S64x2048_o0_0_S64x1024)) slices_S64x1024_o0_512_S64x512) c)
      (mulf (extractStridedSlice S64x512 ![0, 0] (Cert.Lstm.sigT S64x1024 (extractStridedSlice S64x1024 ![0, 0] (addf ig (matmul dot_S64x512_S512x2048_S64x2048_1_0_0_1_n_n none (truncf .bf16 h bitsLt_bf16_f32) W (constant S64x2048 .f32 0x00000000#32))) slices_S64x2048_o0_0_S64x1024)) slices_S64x1024_o0_0_S64x512)
        (tanh (extractStridedSlice S64x512 ![0, 1024] (addf ig (matmul dot_S64x512_S512x2048_S64x2048_1_0_0_1_n_n none (truncf .bf16 h bitsLt_bf16_f32) W (constant S64x2048 .f32 0x00000000#32))) slices_S64x2048_o0_1024_S64x512)))
    = (Cert.Lstm.step W ig (h, c)).2 :=
  Cert.Lstm.cellC_cut_first Cert.Lstm.hi Cert.Lstm.hf Cert.Lstm.hg _ _ _ c _

/-- The body's new hidden state of a cell is the recurrence's. -/
theorem kcell_h (W : FVec Ideal S512x2048 .bf16) (ig : FVec Ideal S64x2048 .f32) (h c : FVec Ideal S64x512 .f32) :
    mulf (Cert.Lstm.sigT S64x512 (extractStridedSlice S64x512 ![0, 1536] (addf ig (matmul dot_S64x512_S512x2048_S64x2048_1_0_0_1_n_n none (truncf .bf16 h bitsLt_bf16_f32) W (constant S64x2048 .f32 0x00000000#32))) slices_S64x2048_o0_1536_S64x512))
      (tanh (Cert.Lstm.step W ig (h, c)).2)
    = (Cert.Lstm.step W ig (h, c)).1 :=
  Cert.Lstm.cellH_cut_first Cert.Lstm.hi Cert.Lstm.hf Cert.Lstm.hg Cert.Lstm.ho _ c _ rfl

/-! ## Output window 10: the head on layer 1's hidden state after the point's 16 steps -/

set_option maxHeartbeats 4000000 in
/-- OUTPUT WINDOW 10 at the last point, on the extended reals: the head on layer 1's hidden state after its 16 time steps over
    the kept gate inputs, from the state the point finds. -/
theorem out10B_val (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) :
    out10B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16
      = Cert.Lstm.head x8 x9 broadcasts_S1x128_S64x128
          (Cert.Lstm.run x6 (fun k => Cert.Lstm.rows64 (φ := .bf16) xs16 k) (xs14, xs15) 16).1 := by
  unfold out10B
  rw [View.read_writes_eq_canon _ _ _ (cover10B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16)]
  unfold kernelRun_B
  dsimp only
  first | sl_unfold_run_names | fail "names"
  first | rw [View.canon_unit_zero hzB] | fail "canon"
  first | simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread, View.ld_unit_zero (S := S64x512) hzB, View.ld_unit_zero (S := S512x128) hzB, View.ld_unit_zero (S := S1x128) hzB, View.ld_unit_zero (S := S512x2048) hzB, View.ld_unit_zero (S := S256x2048) hzB, View.ld_unit_zero (S := S1x2048) hzB, View.ld_unit_zero (S := S1024x256) hzB] | fail "loads"
  rw [pay4_head]
  refine congrArg (Cert.Lstm.head x8 x9 broadcasts_S1x128_S64x128) ?_
  first | simp only [k0_pay1, k0_pay2, k0_pay3, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134] | fail "unfold payloads"
  first | simp only [ld_rows64 xs16 0 0 rfl (by decide) inb_S1024x2048_S64x2048_0_0, ld_rows64 xs16 64 1 rfl (by decide) inb_S1024x2048_S64x2048_64_0, ld_rows64 xs16 128 2 rfl (by decide) inb_S1024x2048_S64x2048_128_0, ld_rows64 xs16 192 3 rfl (by decide) inb_S1024x2048_S64x2048_192_0, ld_rows64 xs16 256 4 rfl (by decide) inb_S1024x2048_S64x2048_256_0, ld_rows64 xs16 320 5 rfl (by decide) inb_S1024x2048_S64x2048_320_0, ld_rows64 xs16 384 6 rfl (by decide) inb_S1024x2048_S64x2048_384_0, ld_rows64 xs16 448 7 rfl (by decide) inb_S1024x2048_S64x2048_448_0, ld_rows64 xs16 512 8 rfl (by decide) inb_S1024x2048_S64x2048_512_0, ld_rows64 xs16 576 9 rfl (by decide) inb_S1024x2048_S64x2048_576_0, ld_rows64 xs16 640 10 rfl (by decide) inb_S1024x2048_S64x2048_640_0, ld_rows64 xs16 704 11 rfl (by decide) inb_S1024x2048_S64x2048_704_0, ld_rows64 xs16 768 12 rfl (by decide) inb_S1024x2048_S64x2048_768_0, ld_rows64 xs16 832 13 rfl (by decide) inb_S1024x2048_S64x2048_832_0, ld_rows64 xs16 896 14 rfl (by decide) inb_S1024x2048_S64x2048_896_0, ld_rows64 xs16 960 15 rfl (by decide) inb_S1024x2048_S64x2048_960_0] | fail "rows"
  first | simp only [shapeCast_self] | fail "casts"
  first | simp only [sig_fold] | fail "sig"
  first | simp only [kcell_c, kcell_h] | fail "cells"
  first | simp only [Prod.mk.eta] | skip
  first | rfl | fail "rfl"

/-- The same, layer 1's 16 steps spelt as the pipeline's `L1`. -/
theorem out10B_val_L1 (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i)
    (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (xs12 : Vec Ideal S64x512 .f32) (xs13 : Vec Ideal S64x512 .f32) (xs14 : Vec Ideal S64x512 .f32) (xs15 : Vec Ideal S64x512 .f32) (xs16 : Vec Ideal S1024x2048 .bf16) :
    out10B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16
      = Cert.Lstm.head x8 x9 broadcasts_S1x128_S64x128 (L1 x6 xs16 (xs14, xs15) 16).1 :=
  out10B_val c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 xs12 xs13 xs14 xs15 xs16

end Cert.KernelIdeal.Hand

end
-- ==== Proof.KI.Result.lean ====
/-
  The kernel's carried state, point by point, is the specification's runs.

  After grid point n the five carried buffers hold: layer 0's state after 16·(n+1) time steps, layer 1's state after 16·n
  time steps (it runs one block behind, on the gate inputs the point before kept), and layer 1's gate inputs for block n.
  At the first point nothing is read from what the buffers held; at every later point the body continues from what the
  point before left.  So after point 15 layer 0 has run all 256 time steps, and after point 16 so has layer 1.
-/
import proofs.«114155_g2000202467955933_pallasbulk_1200_31_alg».proof.Proof.KI.Frame
import proofs.«114155_g2000202467955933_pallasbulk_1200_31_alg».proof.Proof.KI.Pieces
import proofs.«114155_g2000202467955933_pallasbulk_1200_31_alg».proof.Proof.KI.Blocks
import proofs.«114155_g2000202467955933_pallasbulk_1200_31_alg».proof.Proof.KI.PiecesB

set_option maxRecDepth 65536
-- a carried buffer's read-back is compared with its named value by unfolding the whole-body run's witness once
set_option maxHeartbeats 400000

noncomputable section

namespace Cert.KernelIdeal.Hand

open Cert.KernelIdeal.Gen
open Idealize.ShloMosaic Idealize.ShloMosaic.TcCoe Idealize.ShloMosaic.ValueIdx
open Cert.Lstm (zeroSt layer hiddenRows)

variable (m : (ℓ : Loc nD τ sig) → Buf (Elt Ideal) ℓ) (c : Dev nD)

/-- The arrays the windows stage, as functions on the extended reals. -/
abbrev aX : FVec Ideal ⟨2, ![16384, 256]⟩ .f32 := Gen.V m c main_call0_v2
abbrev aWih0 : FVec Ideal ⟨2, ![256, 2048]⟩ .f32 := Gen.V m c main_call0_v4
abbrev aWhh0 : FVec Ideal Cert.Lstm.SW .f32 := Gen.V m c main_call0_v6
abbrev aB0 : FVec Ideal ⟨2, ![1, 2048]⟩ .f32 := Gen.V m c main_call0_v8
abbrev aWih1 : FVec Ideal ⟨2, ![512, 2048]⟩ .f32 := Gen.V m c main_call0_v10
abbrev aWhh1 : FVec Ideal Cert.Lstm.SW .f32 := Gen.V m c main_call0_v12
abbrev aB1 : FVec Ideal ⟨2, ![1, 2048]⟩ .f32 := Gen.V m c main_call0_v14
abbrev hB2048 : (⟨2, ![1, 2048]⟩ : Shape).Broadcasts ⟨2, ![1024, 2048]⟩ := broadcasts_S1x2048_S1024x2048

/-! ## What a point leaves, over variable staging buffers -/

/-- What a point before the last leaves, buffer by buffer, is the read-backs of the run's pieces. -/
theorem soutA_eq (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (s : St Ideal) :
    sout_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s
      = ⟨rbA_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig, rbA_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig, rbA_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig, rbA_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig, rbA_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig⟩ := by
  unfold sout_A rbA_12 rbA_13 rbA_14 rbA_15 rbA_16
  rfl

theorem outB9_bridge (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (s : St Ideal) :
    out_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s = out9B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig := by
  unfold out_B_9 out9B
  rfl
theorem outB10_bridge (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (s : St Ideal) :
    out_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s = out10B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig := by
  unfold out_B_10 out10B
  rfl

/-- The first point's case: whatever the carried buffers held. -/
theorem soutA_first (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (s : St Ideal) (hz : condZ i) :
    (((sout_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s).h0, (sout_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s).c0) : State)
        = L0 x2 x4 x3 broadcasts_S1x2048_S1024x2048 x1 zeroSt 16
    ∧ (((sout_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s).h1, (sout_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s).c1) : State) = zeroSt
    ∧ ((sout_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s).ig : IG)
        = ig1of x7 x5 broadcasts_S1x2048_S1024x2048 (L0 x2 x4 x3 broadcasts_S1x2048_S1024x2048 x1 zeroSt) := by
  rw [soutA_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s]
  dsimp only
  exact ⟨valZ_state0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig hz,
   valZ_state1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig hz,
   valZ_ig c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig hz⟩

/-- A later point's case: the body continues from the state s it finds. -/
theorem soutA_later (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : ¬condB i) (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (s : St Ideal) (hz : ¬condZ i) :
    (((sout_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s).h0, (sout_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s).c0) : State)
        = L0 x2 x4 x3 broadcasts_S1x2048_S1024x2048 x1 (s.h0, s.c0) 16
    ∧ (((sout_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s).h1, (sout_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s).c1) : State)
        = L1 x6 s.ig (s.h1, s.c1) 16
    ∧ ((sout_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s).ig : IG)
        = ig1of x7 x5 broadcasts_S1x2048_S1024x2048 (L0 x2 x4 x3 broadcasts_S1x2048_S1024x2048 x1 (s.h0, s.c0)) := by
  rw [soutA_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s]
  dsimp only
  exact ⟨valA_state0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig hz,
   valA_state1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig hz,
   valA_ig c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig hz⟩

/-- The last point's two outputs, from the state s it finds. -/
theorem outB_vals (c : Dev nD) (i : grid0.Coords) (arg1 : Memref sig .tc .vmem S1024x256 .bf16) (harg1 : arg1.IsWhole) (arg2 : Memref sig .tc .vmem S256x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S1024x2048 .bf16) (harg16 : arg16.IsWhole) (hc : condB i) (x1 : Vec Ideal S1024x256 .bf16) (x2 : Vec Ideal S256x2048 .bf16) (x3 : Vec Ideal S512x2048 .bf16) (x4 : Vec Ideal S1x2048 .f32) (x5 : Vec Ideal S512x2048 .bf16) (x6 : Vec Ideal S512x2048 .bf16) (x7 : Vec Ideal S1x2048 .f32) (x8 : Vec Ideal S512x128 .bf16) (x9 : Vec Ideal S1x128 .f32) (s : St Ideal) :
    out_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s = Cert.Lstm.head x8 x9 broadcasts_S1x128_S64x128 s.h0
    ∧ out_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s = Cert.Lstm.head x8 x9 broadcasts_S1x128_S64x128 (L1 x6 s.ig (s.h1, s.c1) 16).1 := by
  rw [outB9_bridge c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s, outB10_bridge c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s]
  exact ⟨out9B_val c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig, out10B_val_L1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 s.h0 s.c0 s.h1 s.c1 s.ig⟩

/-! ## The carried state point by point -/

/-- The first point. -/
theorem point_first (t : Fin cfg0.N) (h0 : t.val = 0) :
    (((stAfter m c t.val t.isLt).h0, (stAfter m c t.val t.isLt).c0) : State)
        = L0 (aWih0 m c) (aB0 m c) (aWhh0 m c) hB2048 (Gen.iblk m c 0 t) zeroSt 16
    ∧ (((stAfter m c t.val t.isLt).h1, (stAfter m c t.val t.isLt).c1) : State) = zeroSt
    ∧ ((stAfter m c t.val t.isLt).ig : IG)
        = ig1of (aB1 m c) (aWih1 m c) hB2048 (L0 (aWih0 m c) (aB0 m c) (aWhh0 m c) hB2048 (Gen.iblk m c 0 t) zeroSt) := by
  have hcB : ¬condB (grid0.coords t) := fun h => by have := (hcondB t).mp h; omega
  have hcZ : condZ (grid0.coords t) := (hcondZ t).mpr h0
  rw [stAfter_Z m c t h0 hcB]
  have key := soutA_first c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM_0 (Memref.isWhole_whole _) scM_1 (Memref.isWhole_whole _) scM_2 (Memref.isWhole_whole _) scM_3 (Memref.isWhole_whole _) scM_4 (Memref.isWhole_whole _) hcB (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) st0 hcZ
  rw [iblk_1 m c t, iblk_2 m c t, iblk_3 m c t, iblk_4 m c t, iblk_6 m c t] at key ⊢
  exact key

/-- A later point before the last. -/
theorem point_later (t : Fin cfg0.N) (h0 : t.val ≠ 0) (h16 : ¬t.val = 16) :
    (((stAfter m c t.val t.isLt).h0, (stAfter m c t.val t.isLt).c0) : State)
        = L0 (aWih0 m c) (aB0 m c) (aWhh0 m c) hB2048 (Gen.iblk m c 0 t) ((stAfter m c (t.val - 1) (Nat.lt_of_le_of_lt (Nat.sub_le _ _) t.isLt)).h0, (stAfter m c (t.val - 1) (Nat.lt_of_le_of_lt (Nat.sub_le _ _) t.isLt)).c0) 16
    ∧ (((stAfter m c t.val t.isLt).h1, (stAfter m c t.val t.isLt).c1) : State)
        = L1 (aWhh1 m c) (stAfter m c (t.val - 1) (Nat.lt_of_le_of_lt (Nat.sub_le _ _) t.isLt)).ig ((stAfter m c (t.val - 1) (Nat.lt_of_le_of_lt (Nat.sub_le _ _) t.isLt)).h1, (stAfter m c (t.val - 1) (Nat.lt_of_le_of_lt (Nat.sub_le _ _) t.isLt)).c1) 16
    ∧ ((stAfter m c t.val t.isLt).ig : IG)
        = ig1of (aB1 m c) (aWih1 m c) hB2048 (L0 (aWih0 m c) (aB0 m c) (aWhh0 m c) hB2048 (Gen.iblk m c 0 t) ((stAfter m c (t.val - 1) (Nat.lt_of_le_of_lt (Nat.sub_le _ _) t.isLt)).h0, (stAfter m c (t.val - 1) (Nat.lt_of_le_of_lt (Nat.sub_le _ _) t.isLt)).c0)) := by
  have hcB : ¬condB (grid0.coords t) := fun h => h16 ((hcondB t).mp h)
  have hcZ : ¬condZ (grid0.coords t) := fun h => h0 ((hcondZ t).mp h)
  rw [stAfter_A m c t h0 h16 hcB]
  have key := soutA_later c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM_0 (Memref.isWhole_whole _) scM_1 (Memref.isWhole_whole _) scM_2 (Memref.isWhole_whole _) scM_3 (Memref.isWhole_whole _) scM_4 (Memref.isWhole_whole _) hcB (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (stAfter m c (t.val - 1) (Nat.lt_of_le_of_lt (Nat.sub_le _ _) t.isLt)) hcZ
  rw [iblk_1 m c t, iblk_2 m c t, iblk_3 m c t, iblk_4 m c t, iblk_5 m c t, iblk_6 m c t] at key ⊢
  exact key

/-! ## The sequences, and the pipeline -/

theorem lt17 {n : ℕ} (h : n < 16) : n < cfg0.N := by rw [N17]; omega

/-- Layer 0's carried state after point n (n ≤ 15). -/
def seq0 (n : ℕ) : State := if h : n < 16 then ((stAfter m c n (lt17 h)).h0, (stAfter m c n (lt17 h)).c0) else zeroSt
/-- Layer 1's gate inputs kept after point n (n ≤ 15). -/
def seqg (n : ℕ) : IG := if h : n < 16 then (stAfter m c n (lt17 h)).ig else fun _ => 0
/-- Layer 1's carried state after point n (n ≤ 15), and, at n = 16, the state its last 16 steps reach. -/
def seq1 (n : ℕ) : State :=
  if h : n < 16 then ((stAfter m c n (lt17 h)).h1, (stAfter m c n (lt17 h)).c1)
  else L1 (aWhh1 m c) (seqg m c 15) ((stAfter m c 15 (lt17 (by decide))).h1, (stAfter m c 15 (lt17 (by decide))).c1) 16
/-- The x rows the body sees at point n. -/
def xblk (n : ℕ) : FVec Ideal ⟨2, ![1024, 256]⟩ .f32 :=
  if h : n < cfg0.N then Gen.iblk m c 0 ⟨n, h⟩ else fun _ => 0

theorem xblk_eq (n : ℕ) (h : n < cfg0.N) : xblk m c n = Gen.iblk m c 0 ⟨n, h⟩ := by
  unfold xblk
  rw [dif_pos h]

/-- After point 15 layer 0 has run its 256 time steps; 16 more steps of layer 1 from there complete its 256. -/
theorem kernel_layers :
    seq0 m c 15 = layer (K := 256) (aX m c) (aWih0 m c) (aB0 m c) (aWhh0 m c) 256
    ∧ seq1 m c 16 = layer (K := 512) (hiddenRows (K := 256) (aX m c) (aWih0 m c) (aB0 m c) (aWhh0 m c)) (aWih1 m c) (aB1 m c) (aWhh1 m c) 256 := by
  refine pipelined (aX m c) (aWih0 m c) (aB0 m c) (aB1 m c) (aWhh0 m c) (aWhh1 m c) (aWih1 m c) hB2048 (xblk m c) (seq0 m c) (seq1 m c) (seqg m c)
    ?hx ?hZ0 ?hZ1 ?hZg ?hA0 ?hA1 ?hAg
  case hx =>
    intro n hn y q
    have hlt : n < cfg0.N := by rw [N17]; omega
    rw [xblk_eq m c n hlt]
    refine (iblk_x m c ⟨n, hlt⟩ y q).trans ?_
    rfl
  case hZ0 =>
    have h0 : (0 : ℕ) < 16 := by decide
    unfold seq0
    rw [dif_pos h0, xblk_eq m c 0 (lt17 h0)]
    exact (point_first m c ⟨0, lt17 h0⟩ rfl).1
  case hZ1 =>
    have h0 : (0 : ℕ) < 16 := by decide
    unfold seq1
    rw [dif_pos h0]
    exact (point_first m c ⟨0, lt17 h0⟩ rfl).2.1
  case hZg =>
    have h0 : (0 : ℕ) < 16 := by decide
    unfold seqg
    rw [dif_pos h0, xblk_eq m c 0 (lt17 h0)]
    exact (point_first m c ⟨0, lt17 h0⟩ rfl).2.2
  case hA0 =>
    intro n h1 h15
    have hn : n < 16 := by omega
    have hp : n - 1 < 16 := by omega
    unfold seq0
    rw [dif_pos hn, dif_pos hp, xblk_eq m c n (lt17 hn)]
    exact (point_later m c ⟨n, lt17 hn⟩ (by show n ≠ 0; omega) (by show ¬n = 16; omega)).1
  case hA1 =>
    intro n h1 h16
    by_cases hn : n < 16
    · have hp : n - 1 < 16 := by omega
      unfold seq1 seqg
      rw [dif_pos hn, dif_pos hp, dif_pos hp]
      exact (point_later m c ⟨n, lt17 hn⟩ (by show n ≠ 0; omega) (by show ¬n = 16; omega)).2.1
    · have e : n = 16 := by omega
      subst e
      have h15 : (16 : ℕ) - 1 < 16 := by decide
      unfold seq1
      rw [dif_neg hn, dif_pos h15]
  case hAg =>
    intro n h1 h15
    have hn : n < 16 := by omega
    have hp : n - 1 < 16 := by omega
    unfold seqg seq0
    rw [dif_pos hn, dif_pos hp, xblk_eq m c n (lt17 hn)]
    exact (point_later m c ⟨n, lt17 hn⟩ (by show n ≠ 0; omega) (by show ¬n = 16; omega)).2.2

/-! ## The two outputs -/

abbrev aWfc : FVec Ideal Cert.Lstm.SF .f32 := Gen.V m c main_call0_v16
abbrev aBfc : FVec Ideal Cert.Lstm.SB .f32 := Gen.V m c main_call0_v17

attribute [local irreducible] stAfter

/-- The last point's outputs over the state the point before left. -/
theorem outs_last :
    out9 m c = Cert.Lstm.head (aWfc m c) (aBfc m c) broadcasts_S1x128_S64x128 (stAfter m c 15 (lt17 (by decide))).h0
    ∧ out10 m c = Cert.Lstm.head (aWfc m c) (aBfc m c) broadcasts_S1x128_S64x128
        (L1 (aWhh1 m c) (stAfter m c 15 (lt17 (by decide))).ig ((stAfter m c 15 (lt17 (by decide))).h1, (stAfter m c 15 (lt17 (by decide))).c1) 16).1 := by
  have key := outB_vals c (grid0.coords t16) (ms_0 t16) (hs_0 t16) (ms_1 t16) (hs_1 t16) (ms_2 t16) (hs_2 t16) (ms_3 t16) (hs_3 t16) (ms_4 t16) (hs_4 t16) (ms_5 t16) (hs_5 t16) (ms_6 t16) (hs_6 t16) (ms_7 t16) (hs_7 t16) (ms_8 t16) (hs_8 t16) (ms_9 t16) (hs_9 t16) (ms_10 t16) (hs_10 t16) scM_0 (Memref.isWhole_whole _) scM_1 (Memref.isWhole_whole _) scM_2 (Memref.isWhole_whole _) scM_3 (Memref.isWhole_whole _) scM_4 (Memref.isWhole_whole _) ((hcondB t16).mpr rfl) (Gen.iblk m c 0 t16) (Gen.iblk m c 1 t16) (Gen.iblk m c 2 t16) (Gen.iblk m c 3 t16) (Gen.iblk m c 4 t16) (Gen.iblk m c 5 t16) (Gen.iblk m c 6 t16) (Gen.iblk m c 7 t16) (Gen.iblk m c 8 t16) (stAfter m c 15 (lt17 (by decide)))
  have e9 := (out9_eq m c).trans key.1
  have e10 := (out10_eq m c).trans key.2
  rw [iblk_7 m c t16, iblk_8 m c t16] at e9
  rw [iblk_5 m c t16, iblk_7 m c t16, iblk_8 m c t16] at e10
  exact ⟨e9, e10⟩

/-- Output 9 (layer 0's classifier output): the head on layer 0's state after 256 time steps. -/
theorem out9_val :
    out9 m c = Cert.Lstm.head (aWfc m c) (aBfc m c) broadcasts_S1x128_S64x128
      (layer (K := 256) (aX m c) (aWih0 m c) (aB0 m c) (aWhh0 m c) 256).1 := by
  have hl := (kernel_layers m c).1
  unfold seq0 at hl
  rw [dif_pos (by decide : (15 : ℕ) < 16)] at hl
  have hh : (stAfter m c 15 (lt17 (by decide))).h0
      = (layer (K := 256) (aX m c) (aWih0 m c) (aB0 m c) (aWhh0 m c) 256).1 := by
    rw [← hl]
  rw [(outs_last m c).1, hh]

/-- Output 10 (layer 1's classifier output): the head on layer 1's state after 256 time steps. -/
theorem out10_val :
    out10 m c = Cert.Lstm.head (aWfc m c) (aBfc m c) broadcasts_S1x128_S64x128
      (layer (K := 512) (hiddenRows (K := 256) (aX m c) (aWih0 m c) (aB0 m c) (aWhh0 m c)) (aWih1 m c) (aB1 m c) (aWhh1 m c) 256).1 := by
  have hl := (kernel_layers m c).2
  unfold seq1 seqg at hl
  rw [dif_neg (by decide : ¬(16 : ℕ) < 16), dif_pos (by decide : (15 : ℕ) < 16)] at hl
  rw [(outs_last m c).2, hl]

end Cert.KernelIdeal.Hand

end
-- ==== Proof.KI.OutArr.lean ====
import proofs.«114155_g2000202467955933_pallasbulk_1200_31_alg».proof.Proof.KI.Frame
import Idealize.ShloMosaic.Lib.Pipeline.Value

set_option maxRecDepth 65536

noncomputable section

namespace Cert.KernelIdeal.Hand

open Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ)

/-! ## The two outputs after the region: each window's block is its whole array, written back once, at the last point -/

/-- Output window 9's printed index map, decided over the grid. -/
theorem idx0_9 : ∀ t : Fin cfg0.N, win0_9.index t (0 : Fin 2) = 0 ∧ win0_9.index t (1 : Fin 2) = 0 :=
  (by decide +kernel : ∀ t : Fin grid0.N, _)

/-- Its one write-back writes `out9`. -/
theorem flushed9_eq (c : Dev nD) (t : Fin cfg0.N) (hf : (cfg0.win 9).flush t = true) :
    (dats m 0 c).flushed 9 t = ((cfg0.win 9).blk t).view.read (Elt F) (out9 m c : Buf (Elt F) ((c : Thread nD τ).loc main_call0_v18_0)) := by
  have h16 : t.val = 16 := by
    have h := (flush0_9 t).mp hf
    have hN : t.val < 17 := lt_of_lt_of_eq t.isLt N17
    omega
  obtain rfl : t = t16 := Fin.ext h16
  show (cfg0.win 9).cut (grid0.coords t16) ((dats m 0 c).after 9 t16) = _
  rw [after9_last]
  obtain ⟨e0, e1⟩ := idx0_9 t16
  have hz' : (fun a => win0_9.index t16 a * main_call0_v18_0.ty.shape.size a) = fun _ => 0 := funext fun a => by
    match a with
    | ⟨0, _⟩ => show win0_9.index t16 (0 : Fin 2) * _ = 0; rw [e0]; exact Nat.zero_mul _
    | ⟨1, _⟩ => show win0_9.index t16 (1 : Fin 2) * _ = 0; rw [e1]; exact Nat.zero_mul _
  exact (Memref.read_access_unit_zero (Elt F) main_call0_v18_0 hz' (fun a => by rw [congrFun hz' a]; simp) (out9 m c)).symm

/-- THE OUTPUT after the region. -/
theorem arrAt9 (c : Dev nD) : ((dats m 0 c).arrAt 9 cfg0.N : Vec F S64x128 .f32) = out9 m c :=
  (dats m 0 c).arrAt_eq_of_cover 9 (out9 m c) (flushed9_eq m c) fun i =>
    ⟨t16, (flush0_9 t16).mpr rfl, by
      show i ∈ ((View.whole main_call0_v18_0).slice (win0_9.rect t16)).set
      rw [View.set_slice_whole, Rect.mem_set_unit]
      obtain ⟨e0, e1⟩ := idx0_9 t16
      have h0 : (i 0 : Nat) < 64 := (i 0).isLt
      have h1 : (i 1 : Nat) < 128 := (i 1).isLt
      intro a
      match a with
      | ⟨0, _⟩ => show win0_9.index t16 (0 : Fin 2) * 64 ≤ (i 0 : Nat) ∧ (i 0 : Nat) < win0_9.index t16 (0 : Fin 2) * 64 + 64; rw [e0]; omega
      | ⟨1, _⟩ => show win0_9.index t16 (1 : Fin 2) * 128 ≤ (i 1 : Nat) ∧ (i 1 : Nat) < win0_9.index t16 (1 : Fin 2) * 128 + 128; rw [e1]; omega⟩

/-- Output window 10's printed index map, decided over the grid. -/
theorem idx0_10 : ∀ t : Fin cfg0.N, win0_10.index t (0 : Fin 2) = 0 ∧ win0_10.index t (1 : Fin 2) = 0 :=
  (by decide +kernel : ∀ t : Fin grid0.N, _)

/-- Its one write-back writes `out10`. -/
theorem flushed10_eq (c : Dev nD) (t : Fin cfg0.N) (hf : (cfg0.win 10).flush t = true) :
    (dats m 0 c).flushed 10 t = ((cfg0.win 10).blk t).view.read (Elt F) (out10 m c : Buf (Elt F) ((c : Thread nD τ).loc main_call0_v18_1)) := by
  have h16 : t.val = 16 := by
    have h := (flush0_10 t).mp hf
    have hN : t.val < 17 := lt_of_lt_of_eq t.isLt N17
    omega
  obtain rfl : t = t16 := Fin.ext h16
  show (cfg0.win 10).cut (grid0.coords t16) ((dats m 0 c).after 10 t16) = _
  rw [after10_last]
  obtain ⟨e0, e1⟩ := idx0_10 t16
  have hz' : (fun a => win0_10.index t16 a * main_call0_v18_1.ty.shape.size a) = fun _ => 0 := funext fun a => by
    match a with
    | ⟨0, _⟩ => show win0_10.index t16 (0 : Fin 2) * _ = 0; rw [e0]; exact Nat.zero_mul _
    | ⟨1, _⟩ => show win0_10.index t16 (1 : Fin 2) * _ = 0; rw [e1]; exact Nat.zero_mul _
  exact (Memref.read_access_unit_zero (Elt F) main_call0_v18_1 hz' (fun a => by rw [congrFun hz' a]; simp) (out10 m c)).symm

/-- THE OUTPUT after the region. -/
theorem arrAt10 (c : Dev nD) : ((dats m 0 c).arrAt 10 cfg0.N : Vec F S64x128 .f32) = out10 m c :=
  (dats m 0 c).arrAt_eq_of_cover 10 (out10 m c) (flushed10_eq m c) fun i =>
    ⟨t16, (flush0_10 t16).mpr rfl, by
      show i ∈ ((View.whole main_call0_v18_1).slice (win0_10.rect t16)).set
      rw [View.set_slice_whole, Rect.mem_set_unit]
      obtain ⟨e0, e1⟩ := idx0_10 t16
      have h0 : (i 0 : Nat) < 64 := (i 0).isLt
      have h1 : (i 1 : Nat) < 128 := (i 1).isLt
      intro a
      match a with
      | ⟨0, _⟩ => show win0_10.index t16 (0 : Fin 2) * 64 ≤ (i 0 : Nat) ∧ (i 0 : Nat) < win0_10.index t16 (0 : Fin 2) * 64 + 64; rw [e0]; omega
      | ⟨1, _⟩ => show win0_10.index t16 (1 : Fin 2) * 128 ≤ (i 1 : Nat) ∧ (i 1 : Nat) < win0_10.index t16 (1 : Fin 2) * 128 + 128; rw [e1]; omega⟩

end Cert.KernelIdeal.Hand

end
-- ==== Proof.KI.Tail.lean ====
/-
  The kernel program's result: the host concatenation after the call stacks the two output arrays the call left.
-/
import proofs.«114155_g2000202467955933_pallasbulk_1200_31_alg».proof.Proof.Gen.KernelIdeal.Frame
import Idealize.ShloMosaic.Lib.StableHlo.Run

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- After the host operation that follows the call, the result buffer holds output window 9's final array stacked on
    output window 10's. -/
theorem tail_v0 (dats : (p : Fin 1) → (c : Dev nD) → Dat τ (Elt F) Unit ℕ (UR sig nD τ) ℕ (cfgs p) c) (c : Dev nD) :
    (Pipeline.afterTail₀ cfgs dats 0 (Gen.V0 m) [Gen.hostOps1] c main_v0 : Vec F S128x128 .f32)
      = concatenate S128x128 0 [⟨S64x128, ((dats 0 c).arrAt 9 cfg0.N : Vec F S64x128 .f32)⟩, ⟨S64x128, ((dats 0 c).arrAt 10 cfg0.N : Vec F S64x128 .f32)⟩]
          concatenates_S64x128_S64x128_S128x128_d0 := by
  unfold Pipeline.afterTail₀
  show StableHlo.after hostOps1 _ (Proc.devRef .tc main_v0) = _
  after_results
  exact congrArg₂ (fun a b => concatenate S128x128 0 [⟨S64x128, a⟩, ⟨S64x128, b⟩] concatenates_S64x128_S64x128_S128x128_d0)
    (Pipeline.withArrays_arr spec0 launch0.win.arr_inj c (V0 m c) (fun w => (dats 0 c).arrAt w (cfgs 0).N) 9)
    (Pipeline.withArrays_arr spec0 launch0.win.arr_inj c (V0 m c) (fun w => (dats 0 c).arrAt w (cfgs 0).N) 10)

end Cert.KernelIdeal.Hand

end
-- ==== Proof.KI.RunValue.lean ====
/-
  The kernel program's run with the post the equivalence claim states, for any proof data: the result buffer at the value
  the host tail computes from the output windows' final arrays, every argument array as launched.
-/
import proofs.«114155_g2000202467955933_pallasbulk_1200_31_alg».proof.Proof.KI.Tail

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem run_with (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (Gen.V0 m) [Gen.hostOps1])))
    (v : (c : Dev nD) → Buf (Elt F) ((c.tc : Thread nD τ).loc main_v0))
    (hv : ∀ c : Dev nD, Pipeline.afterTail₀ cfgs dats 0 (Gen.V0 m) [Gen.hostOps1] c main_v0 = v c) :
    θ_run defs (onTc (τ := τ) (main (F := F))) ⟨m, fun _ => 0, ρ⟩ (fun r => ∀ c : Dev nD,
      r.2.mem ((c.tc : Thread nD τ).loc main_v0) = v c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(((h c).2 main_v0 (Pipeline.mem_restRefs_of main_v0 (by decide) (by decide))).trans (hv c)),
      (((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c))⟩) h

end Cert.KernelIdeal.Hand

end
-- ==== Proof.KI.Entry.lean ====
/-
  What the kernel's input windows stage: the argument arrays after the host operations before the call.

  The input x (batch, time, feature) is laid out time-major and flattened to rows 64·s + b; every weight matrix is
  transposed; the two bias vectors of a layer are added and laid out as one row; the matrix operands are then narrowed
  to bf16, which on the extended reals changes nothing.
-/
import proofs.«114155_g2000202467955933_pallasbulk_1200_31_alg».proof.Proof.Gen.KernelIdeal.Frame
import Idealize.ShloMosaic.Lib.StableHlo.Run

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The time-major rows of x, narrowed. -/
theorem V_v2 (c : Dev nD) : (Gen.V m c main_call0_v2 : Vec F S16384x256 .bf16) =
    truncf .bf16 (shapeCast S16384x256 (transpose S256x64x256 [1, 0, 2] (m ((c : Thread nD τ).loc main_arg0)) transposes_S64x256x256_S256x64x256_1_0_2) shapeCasts_S256x64x256_S16384x256) bitsLt_bf16_f32 := by
  show StableHlo.after hostOps0 (fun b => m (c, b)) (Proc.devRef .tc main_call0_v2) = _
  after_results
  rfl

/-- Layer 0's input weights, transposed and narrowed. -/
theorem V_v4 (c : Dev nD) : (Gen.V m c main_call0_v4 : Vec F S256x2048 .bf16) =
    truncf .bf16 (transpose S256x2048 [1, 0] (m ((c : Thread nD τ).loc main_arg1)) transposes_S2048x256_S256x2048_1_0) bitsLt_bf16_f32 := by
  show StableHlo.after hostOps0 (fun b => m (c, b)) (Proc.devRef .tc main_call0_v4) = _
  after_results
  rfl

/-- Layer 0's recurrent weights, transposed and narrowed. -/
theorem V_v6 (c : Dev nD) : (Gen.V m c main_call0_v6 : Vec F S512x2048 .bf16) =
    truncf .bf16 (transpose S512x2048 [1, 0] (m ((c : Thread nD τ).loc main_arg2)) transposes_S2048x512_S512x2048_1_0) bitsLt_bf16_f32 := by
  show StableHlo.after hostOps0 (fun b => m (c, b)) (Proc.devRef .tc main_call0_v6) = _
  after_results
  rfl

/-- Layer 0's two biases added, as one row. -/
theorem V_v8 (c : Dev nD) : (Gen.V m c main_call0_v8 : Vec F S1x2048 .f32) =
    shapeCast S1x2048 (addf (m ((c : Thread nD τ).loc main_arg3)) (m ((c : Thread nD τ).loc main_arg4))) shapeCasts_S2048_S1x2048 := by
  show StableHlo.after hostOps0 (fun b => m (c, b)) (Proc.devRef .tc main_call0_v8) = _
  after_results
  rfl

/-- Layer 1's input weights, transposed and narrowed. -/
theorem V_v10 (c : Dev nD) : (Gen.V m c main_call0_v10 : Vec F S512x2048 .bf16) =
    truncf .bf16 (transpose S512x2048 [1, 0] (m ((c : Thread nD τ).loc main_arg5)) transposes_S2048x512_S512x2048_1_0) bitsLt_bf16_f32 := by
  show StableHlo.after hostOps0 (fun b => m (c, b)) (Proc.devRef .tc main_call0_v10) = _
  after_results
  rfl

/-- Layer 1's recurrent weights, transposed and narrowed. -/
theorem V_v12 (c : Dev nD) : (Gen.V m c main_call0_v12 : Vec F S512x2048 .bf16) =
    truncf .bf16 (transpose S512x2048 [1, 0] (m ((c : Thread nD τ).loc main_arg6)) transposes_S2048x512_S512x2048_1_0) bitsLt_bf16_f32 := by
  show StableHlo.after hostOps0 (fun b => m (c, b)) (Proc.devRef .tc main_call0_v12) = _
  after_results
  rfl

/-- Layer 1's two biases added, as one row. -/
theorem V_v14 (c : Dev nD) : (Gen.V m c main_call0_v14 : Vec F S1x2048 .f32) =
    shapeCast S1x2048 (addf (m ((c : Thread nD τ).loc main_arg7)) (m ((c : Thread nD τ).loc main_arg8))) shapeCasts_S2048_S1x2048 := by
  show StableHlo.after hostOps0 (fun b => m (c, b)) (Proc.devRef .tc main_call0_v14) = _
  after_results
  rfl

/-- The head's weights, transposed and narrowed. -/
theorem V_v16 (c : Dev nD) : (Gen.V m c main_call0_v16 : Vec F S512x128 .bf16) =
    truncf .bf16 (transpose S512x128 [1, 0] (m ((c : Thread nD τ).loc main_arg9)) transposes_S128x512_S512x128_1_0) bitsLt_bf16_f32 := by
  show StableHlo.after hostOps0 (fun b => m (c, b)) (Proc.devRef .tc main_call0_v16) = _
  after_results
  rfl

/-- The head's bias as one row. -/
theorem V_v17 (c : Dev nD) : (Gen.V m c main_call0_v17 : Vec F S1x128 .f32) =
    shapeCast S1x128 (m ((c : Thread nD τ).loc main_arg10)) shapeCasts_S128_S1x128 := by
  show StableHlo.after hostOps0 (fun b => m (c, b)) (Proc.devRef .tc main_call0_v17) = _
  after_results
  rfl

end Cert.KernelIdeal.Hand

end
-- ==== Proof.Ref.Proj0.lean ====
/-
  The input projection of layer 0 (pipeline 0 of the reference): at each of the 32 grid points the body loads
  its three whole input blocks — 512 rows of the activations, the whole weight matrix, the bias row —, forms
  the product into a zero accumulator, adds the broadcast bias, and stores the whole 512 x 2048 result block once.
  Stated at ANY contents `V` of the unscoped buffers when the region is entered: the windows' blocks, the body's
  triple, the pipeline's proof data over the class invariant, its body obligation, and what the result array
  holds after the run as one function of the three input arrays.
-/
import proofs.«114155_g2000202467955933_pallasbulk_1200_31_alg».proof.Proof.Gen.ReferenceIdeal.Launch
import proofs.«114155_g2000202467955933_pallasbulk_1200_31_alg».proof.Proof.Gen.ReferenceIdeal.Skeleton
import proofs.«114155_g2000202467955933_pallasbulk_1200_31_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the unscoped buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole, through the rectangle at zero offsets of the buffer's own sizes -/

abbrev r0_0 : Rect S512x256 := Rect.unit (s := S512x256) ![0, 0] S512x256.size inb_S512x256_S512x256_0_0
abbrev r0_1 : Rect S256x2048 := Rect.unit (s := S256x2048) ![0, 0] S256x2048.size inb_S256x2048_S256x2048_0_0
abbrev r0_2 : Rect S1x2048 := Rect.unit (s := S1x2048) ![0, 0] S1x2048.size inb_S1x2048_S1x2048_0_0
abbrev r0_3 : Rect S512x2048 := Rect.unit (s := S512x2048) ![0, 0] S512x2048.size inb_S512x2048_S512x2048_0_0

theorem zero2 : (![0, 0] : Fin 2 → Nat) = fun _ => 0 := funext fun a => by fin_cases a <;> rfl

/-! ## The body's triple -/

/-- One store through the whole rectangle leaves its payload, whatever the buffer held. -/
theorem read_store0 {κ : Kind} {sp : Space} (v : View sig κ sp S512x2048 .f32) (f : v.ty.Contents (Elt F)) (w : S512x2048.Idx → Elt F .f32) :
    View.read (Elt F) v (v.writes (Elt F) f [⟨r0_3, w⟩]) = w :=
  (View.read_writes_eq_canon v f [⟨r0_3, w⟩]
      (fun y => ⟨⟨r0_3, w⟩, List.mem_singleton_self _, View.mem_set_unit_zero (S := S512x2048) zero2 inb_S512x2048_S512x2048_0_0 y⟩)).trans
    (View.canon_unit_zero (S := S512x2048) zero2 inb_S512x2048_S512x2048_0_0 w)

/-- A load through the whole rectangle reads the contents. -/
theorem load_whole0_0 {κ : Kind} {sp : Space} (v : View sig κ sp S512x256 .f32) (f : v.ty.Contents (Elt F)) :
    View.readAt (Elt F) v r0_0.toLoadRect f = View.read (Elt F) v f :=
  View.ld_unit_zero (S := S512x256) zero2 inb_S512x256_S512x256_0_0 (v.read (Elt F) f)
theorem load_whole0_1 {κ : Kind} {sp : Space} (v : View sig κ sp S256x2048 .f32) (f : v.ty.Contents (Elt F)) :
    View.readAt (Elt F) v r0_1.toLoadRect f = View.read (Elt F) v f :=
  View.ld_unit_zero (S := S256x2048) zero2 inb_S256x2048_S256x2048_0_0 (v.read (Elt F) f)
theorem load_whole0_2 {κ : Kind} {sp : Space} (v : View sig κ sp S1x2048 .f32) (f : v.ty.Contents (Elt F)) :
    View.readAt (Elt F) v r0_2.toLoadRect f = View.read (Elt F) v f :=
  View.ld_unit_zero (S := S1x2048) zero2 inb_S1x2048_S1x2048_0_0 (v.read (Elt F) f)

set_option maxHeartbeats 1000000 in
/-- The kernel body on whole staging memrefs, the inputs' at read contents `x0 x1 x2` and the output's at anything,
    runs to the continuation holding the inputs' as they were and the output's at the payload of the three:
    the loads through the whole rectangle read the contents, the one store through it leaves its payload. -/
theorem sound_kernel0 (c : Dev nD) (E : Set ℕ) (i : grid0.Coords)
    (arg1 : Memref sig .tc .vmem S512x256 .f32) (harg1 : arg1.IsWhole) (arg2 : Memref sig .tc .vmem S256x2048 .f32) (harg2 : arg2.IsWhole)
    (arg3 : Memref sig .tc .vmem S1x2048 .f32) (harg3 : arg3.IsWhole) (arg4 : Memref sig .tc .vmem S512x2048 .f32) (harg4 : arg4.IsWhole)
    (x0 : Vec F S512x256 .f32) (x1 : Vec F S256x2048 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0_input_proj_kernel i arg1 harg1 arg2 harg2 arg3 harg3 arg4 harg4) K := by
  simp only [cc0_input_proj_kernel_eq_skeleton]; unfold cc0_input_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [read_store0, load_whole0_0, load_whole0_1, load_whole0_2]

/-! ## The pipeline's proof data -/

/-- The proof data of pipeline 0 on core `c`: the arrays as the region finds them; after the body at point `t` each
    input's buffer at its block and the output's at the payload of the three input blocks; the class invariant (the
    scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_out (c : Dev nD) (t : Fin cfg0.N) :
    (dat0 V c).after 3 t = k0_pay1 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_out]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Hand

end
-- ==== Proof.Ref.Lstm1Runs.lean ====
import proofs.«114155_g2000202467955933_pallasbulk_1200_31_alg».proof.Proof.Gen.ReferenceIdeal.Launch
import proofs.«114155_g2000202467955933_pallasbulk_1200_31_alg».proof.Proof.Gen.ReferenceIdeal.Skeleton
import proofs.«114155_g2000202467955933_pallasbulk_1200_31_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the unscoped buffers' contents when the region is entered
variable (V : (c : Dev nD) → (b : Ref sig .tc) → Buf (Elt F) ((c : Thread nD τ).loc b))

/-! ## The windows' blocks of pipeline 1 (the recurrence of one layer over 16 blocks of 16 steps) -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditionals, decided over the grid -/

/-- The first conditional (the state is zeroed): the point is the first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional (the final projection is stored): the point is the last. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The staging and scratch memrefs -/

/-- One staging buffer of each output window, through which its contents are stated. -/
abbrev VO1_4 : View sig .tc .vmem S16x64x512 .f32 := (Memref.whole cc1_stg4_0 : Memref sig .tc .vmem S16x64x512 .f32).view
abbrev VO1_5 : View sig .tc .vmem S64x128 .f32 := (Memref.whole cc1_stg5_0 : Memref sig .tc .vmem S64x128 .f32).view
abbrev ms1_0 (t : Fin cfg1.N) : Memref sig .tc .vmem S16x64x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S16x64x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x128 .f32 := win1_5.stage (cfg1.slots t 5)
abbrev hs1_5 (t : Fin cfg1.N) : (ms1_5 t).IsWhole := hstage1_5 ((cfg1.slots t 5).cast nbuf1_5)
/-- The two scratch operands (the hidden and the cell state), whole scoped buffers carried between points. -/
abbrev scM1_0 : Memref sig .tc .vmem S64x512 .f32 := Memref.whole cc1_scratch0
abbrev scM1_1 : Memref sig .tc .vmem S64x512 .f32 := Memref.whole cc1_scratch1
abbrev VS1_0 : View sig .tc .vmem S64x512 .f32 := scM1_0.view
abbrev VS1_1 : View sig .tc .vmem S64x512 .f32 := scM1_1.view

/-- The scoped rest with the two scratch operands held as `P0`, `P1`, beside the generator register. -/
def PhiR1 (c : Dev nD) (P0 P1 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P0 ∗ P1 ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_stg5_0), ((c : Thread nD τ).loc cc3_stg5_0) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f)) ∗ (∃ r, prngReg c r))

/-- The region's invariant `ΦA`: every scoped buffer that is no staging buffer of this pipeline at some contents. -/
theorem PhiA1_eq (c : Dev nD) :
    (Pipeline.ΦA spec1 c : sProp 𝕄)
      = PhiR1 c (iprop(∃ d, owns (c : Thread nD τ) scM1_0 fullShare d)) (iprop(∃ d, owns (c : Thread nD τ) scM1_1 fullShare d)) := by
  unfold Pipeline.ΦA PhiR1; rw [scopedRest1_eq]; simp only [scM1_0, scM1_1, owns_whole]; try rfl

end Cert.ReferenceIdeal.Hand

end
-- ==== Proof.Ref.Lstm1RunA.lean ====
import proofs.«114155_g2000202467955933_pallasbulk_1200_31_alg».proof.Proof.Ref.Lstm1Runs

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body's triple in case A of its two conditionals (the first point: the state is zeroed, then 16 steps),
    on whole staging memrefs — the four inputs at their contents, the sequence output at anything, the projection output handed back untouched,
    the two state buffers at anything —, with the pieces each written buffer ends with as the witness the run finds. -/
noncomputable def kernelRun1_A (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond1_0 i) (hc1 : ¬cond1_1 i)
    (x0 : Vec F S16x64x2048 .f32) (x1 : Vec F S512x2048 .f32) (x2 : Vec F S512x128 .f32) (x3 : Vec F S1x128 .f32) :
    Σ' (L4 : List (View.Piece (Elt F) S16x64x512 .f32)) (LS0 : List (View.Piece (Elt F) S64x512 .f32)), { LS1 : List (View.Piece (Elt F) S64x512 .f32) //
      ∀ (xi5 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1_lstm_block_kernel i arg1 harg1 arg2 harg2 arg3 harg3 arg4 harg4 arg5 harg5 arg6 harg6 arg7 harg7 arg8 harg8) K } := by
  refine ⟨?_, ?_, ?_, fun xi5 E K => ?run⟩
  case run =>
    simp only [cc1_lstm_block_kernel_eq_skeleton]; unfold cc1_lstm_block_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    iexists _; iexact HS1

end Cert.ReferenceIdeal.Hand

end
-- ==== Proof.Ref.Lstm1RunB.lean ====
import proofs.«114155_g2000202467955933_pallasbulk_1200_31_alg».proof.Proof.Ref.Lstm1Runs

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body's triple in case B of its two conditionals (a middle point: 16 steps from the carried state),
    on whole staging memrefs — the four inputs at their contents, the sequence output at anything, the projection output handed back untouched,
    the two state buffers at what the point before left —, with the pieces each written buffer ends with as the witness the run finds. -/
noncomputable def kernelRun1_B (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : ¬cond1_1 i)
    (x0 : Vec F S16x64x2048 .f32) (x1 : Vec F S512x2048 .f32) (x2 : Vec F S512x128 .f32) (x3 : Vec F S1x128 .f32) (xs0 : Vec F S64x512 .f32) (xs1 : Vec F S64x512 .f32) :
    Σ' (L4 : List (View.Piece (Elt F) S16x64x512 .f32)) (LS0 : List (View.Piece (Elt F) S64x512 .f32)), { LS1 : List (View.Piece (Elt F) S64x512 .f32) //
      ∀ (xi5 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1_lstm_block_kernel i arg1 harg1 arg2 harg2 arg3 harg3 arg4 harg4 arg5 harg5 arg6 harg6 arg7 harg7 arg8 harg8) K } := by
  refine ⟨?_, ?_, ?_, fun xi5 E K => ?run⟩
  case run =>
    simp only [cc1_lstm_block_kernel_eq_skeleton]; unfold cc1_lstm_block_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    iexists _; iexact HS1

end Cert.ReferenceIdeal.Hand

end
-- ==== Proof.Ref.Lstm1RunC.lean ====
import proofs.«114155_g2000202467955933_pallasbulk_1200_31_alg».proof.Proof.Ref.Lstm1Runs

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body's triple in case C of its two conditionals (the last point: 16 steps from the carried state, then the final projection),
    on whole staging memrefs — the four inputs at their contents, the sequence output at anything, the projection output at anything,
    the two state buffers at what the point before left —, with the pieces each written buffer ends with as the witness the run finds. -/
noncomputable def kernelRun1_C (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : cond1_1 i)
    (x0 : Vec F S16x64x2048 .f32) (x1 : Vec F S512x2048 .f32) (x2 : Vec F S512x128 .f32) (x3 : Vec F S1x128 .f32) (xs0 : Vec F S64x512 .f32) (xs1 : Vec F S64x512 .f32) :
    Σ' (L4 : List (View.Piece (Elt F) S16x64x512 .f32)) (L5 : List (View.Piece (Elt F) S64x128 .f32)) (LS0 : List (View.Piece (Elt F) S64x512 .f32)), { LS1 : List (View.Piece (Elt F) S64x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1_lstm_block_kernel i arg1 harg1 arg2 harg2 arg3 harg3 arg4 harg4 arg5 harg5 arg6 harg6 arg7 harg7 arg8 harg8) K } := by
  refine ⟨?_, ?_, ?_, ?_, fun E K => ?run⟩
  case run =>
    simp only [cc1_lstm_block_kernel_eq_skeleton]; unfold cc1_lstm_block_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.ReferenceIdeal.Hand

end
-- ==== Proof.Ref.Lstm1.lean ====
import proofs.«114155_g2000202467955933_pallasbulk_1200_31_alg».proof.Proof.Ref.Lstm1RunA
import proofs.«114155_g2000202467955933_pallasbulk_1200_31_alg».proof.Proof.Ref.Lstm1RunB
import proofs.«114155_g2000202467955933_pallasbulk_1200_31_alg».proof.Proof.Ref.Lstm1RunC

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case of the body leaves: the covers of its pieces and the buffers read back -/

/-- Case A's pieces for output window 4 tile it, so they cover it. -/
theorem cover1_A_4 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond1_0 i) (hc1 : ¬cond1_1 i)
    (x0 : Vec F S16x64x2048 .f32) (x1 : Vec F S512x2048 .f32) (x2 : Vec F S512x128 .f32) (x3 : Vec F S1x128 .f32) (y : S16x64x512.Idx) :
    ∃ pc ∈ (kernelRun1_A c i arg1 harg1 arg2 harg2 arg3 harg3 arg4 harg4 arg5 harg5 arg6 harg6 arg7 harg7 arg8 harg8 hc0 hc1 x0 x1 x2 x3).1, y ∈ pc.1.set :=
  View.cover_of_tiledL (kernelRun1_A c i arg1 harg1 arg2 harg2 arg3 harg3 arg4 harg4 arg5 harg5 arg6 harg6 arg7 harg7 arg8 harg8 hc0 hc1 x0 x1 x2 x3).1 S16x64x512.size (by sl_kernel_rfl) y

/-- What case A leaves there: its pieces read back. -/
def out1_A_4 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond1_0 i) (hc1 : ¬cond1_1 i)
    (x0 : Vec F S16x64x2048 .f32) (x1 : Vec F S512x2048 .f32) (x2 : Vec F S512x128 .f32) (x3 : Vec F S1x128 .f32) : Vec F S16x64x512 .f32 :=
  VO1_4.read (Elt F) (VO1_4.writes (Elt F) VO1_4.junk (kernelRun1_A c i arg1 harg1 arg2 harg2 arg3 harg3 arg4 harg4 arg5 harg5 arg6 harg6 arg7 harg7 arg8 harg8 hc0 hc1 x0 x1 x2 x3).1)

/-- Case A's pieces for state buffer 0 tile it, so they cover it. -/
theorem scover1_A_0 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond1_0 i) (hc1 : ¬cond1_1 i)
    (x0 : Vec F S16x64x2048 .f32) (x1 : Vec F S512x2048 .f32) (x2 : Vec F S512x128 .f32) (x3 : Vec F S1x128 .f32) (y : S64x512.Idx) :
    ∃ pc ∈ (kernelRun1_A c i arg1 harg1 arg2 harg2 arg3 harg3 arg4 harg4 arg5 harg5 arg6 harg6 arg7 harg7 arg8 harg8 hc0 hc1 x0 x1 x2 x3).2.1, y ∈ pc.1.set :=
  View.cover_of_tiledL (kernelRun1_A c i arg1 harg1 arg2 harg2 arg3 harg3 arg4 harg4 arg5 harg5 arg6 harg6 arg7 harg7 arg8 harg8 hc0 hc1 x0 x1 x2 x3).2.1 S64x512.size (by sl_kernel_rfl) y

/-- What case A leaves there: its pieces read back. -/
def sout1_A_0 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond1_0 i) (hc1 : ¬cond1_1 i)
    (x0 : Vec F S16x64x2048 .f32) (x1 : Vec F S512x2048 .f32) (x2 : Vec F S512x128 .f32) (x3 : Vec F S1x128 .f32) : Vec F S64x512 .f32 :=
  VS1_0.read (Elt F) (VS1_0.writes (Elt F) VS1_0.junk (kernelRun1_A c i arg1 harg1 arg2 harg2 arg3 harg3 arg4 harg4 arg5 harg5 arg6 harg6 arg7 harg7 arg8 harg8 hc0 hc1 x0 x1 x2 x3).2.1)

/-- Case A's pieces for state buffer 1 tile it, so they cover it. -/
theorem scover1_A_1 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond1_0 i) (hc1 : ¬cond1_1 i)
    (x0 : Vec F S16x64x2048 .f32) (x1 : Vec F S512x2048 .f32) (x2 : Vec F S512x128 .f32) (x3 : Vec F S1x128 .f32) (y : S64x512.Idx) :
    ∃ pc ∈ (kernelRun1_A c i arg1 harg1 arg2 harg2 arg3 harg3 arg4 harg4 arg5 harg5 arg6 harg6 arg7 harg7 arg8 harg8 hc0 hc1 x0 x1 x2 x3).2.2.1, y ∈ pc.1.set :=
  View.cover_of_tiledL (kernelRun1_A c i arg1 harg1 arg2 harg2 arg3 harg3 arg4 harg4 arg5 harg5 arg6 harg6 arg7 harg7 arg8 harg8 hc0 hc1 x0 x1 x2 x3).2.2.1 S64x512.size (by sl_kernel_rfl) y

/-- What case A leaves there: its pieces read back. -/
def sout1_A_1 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond1_0 i) (hc1 : ¬cond1_1 i)
    (x0 : Vec F S16x64x2048 .f32) (x1 : Vec F S512x2048 .f32) (x2 : Vec F S512x128 .f32) (x3 : Vec F S1x128 .f32) : Vec F S64x512 .f32 :=
  VS1_1.read (Elt F) (VS1_1.writes (Elt F) VS1_1.junk (kernelRun1_A c i arg1 harg1 arg2 harg2 arg3 harg3 arg4 harg4 arg5 harg5 arg6 harg6 arg7 harg7 arg8 harg8 hc0 hc1 x0 x1 x2 x3).2.2.1)

/-- Case B's pieces for output window 4 tile it, so they cover it. -/
theorem cover1_B_4 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : ¬cond1_1 i)
    (x0 : Vec F S16x64x2048 .f32) (x1 : Vec F S512x2048 .f32) (x2 : Vec F S512x128 .f32) (x3 : Vec F S1x128 .f32) (xs0 : Vec F S64x512 .f32) (xs1 : Vec F S64x512 .f32) (y : S16x64x512.Idx) :
    ∃ pc ∈ (kernelRun1_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun1_B c i arg1 harg1 arg2 harg2 arg3 harg3 arg4 harg4 arg5 harg5 arg6 harg6 arg7 harg7 arg8 harg8 hc0 hc1 x0 x1 x2 x3 xs0 xs1).1 S16x64x512.size (by sl_kernel_rfl) y

/-- What case B leaves there: its pieces read back. -/
def out1_B_4 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : ¬cond1_1 i)
    (x0 : Vec F S16x64x2048 .f32) (x1 : Vec F S512x2048 .f32) (x2 : Vec F S512x128 .f32) (x3 : Vec F S1x128 .f32) (xs0 : Vec F S64x512 .f32) (xs1 : Vec F S64x512 .f32) : Vec F S16x64x512 .f32 :=
  VO1_4.read (Elt F) (VO1_4.writes (Elt F) VO1_4.junk (kernelRun1_B c i arg1 harg1 arg2 harg2 arg3 harg3 arg4 harg4 arg5 harg5 arg6 harg6 arg7 harg7 arg8 harg8 hc0 hc1 x0 x1 x2 x3 xs0 xs1).1)

/-- Case B's pieces for state buffer 0 tile it, so they cover it. -/
theorem scover1_B_0 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : ¬cond1_1 i)
    (x0 : Vec F S16x64x2048 .f32) (x1 : Vec F S512x2048 .f32) (x2 : Vec F S512x128 .f32) (x3 : Vec F S1x128 .f32) (xs0 : Vec F S64x512 .f32) (xs1 : Vec F S64x512 .f32) (y : S64x512.Idx) :
    ∃ pc ∈ (kernelRun1_B c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun1_B c i arg1 harg1 arg2 harg2 arg3 harg3 arg4 harg4 arg5 harg5 arg6 harg6 arg7 harg7 arg8 harg8 hc0 hc1 x0 x1 x2 x3 xs0 xs1).2.1 S64x512.size (by sl_kernel_rfl) y

/-- What case B leaves there: its pieces read back. -/
def sout1_B_0 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : ¬cond1_1 i)
    (x0 : Vec F S16x64x2048 .f32) (x1 : Vec F S512x2048 .f32) (x2 : Vec F S512x128 .f32) (x3 : Vec F S1x128 .f32) (xs0 : Vec F S64x512 .f32) (xs1 : Vec F S64x512 .f32) : Vec F S64x512 .f32 :=
  VS1_0.read (Elt F) (VS1_0.writes (Elt F) VS1_0.junk (kernelRun1_B c i arg1 harg1 arg2 harg2 arg3 harg3 arg4 harg4 arg5 harg5 arg6 harg6 arg7 harg7 arg8 harg8 hc0 hc1 x0 x1 x2 x3 xs0 xs1).2.1)

/-- Case B's pieces for state buffer 1 tile it, so they cover it. -/
theorem scover1_B_1 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : ¬cond1_1 i)
    (x0 : Vec F S16x64x2048 .f32) (x1 : Vec F S512x2048 .f32) (x2 : Vec F S512x128 .f32) (x3 : Vec F S1x128 .f32) (xs0 : Vec F S64x512 .f32) (xs1 : Vec F S64x512 .f32) (y : S64x512.Idx) :
    ∃ pc ∈ (kernelRun1_B c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun1_B c i arg1 harg1 arg2 harg2 arg3 harg3 arg4 harg4 arg5 harg5 arg6 harg6 arg7 harg7 arg8 harg8 hc0 hc1 x0 x1 x2 x3 xs0 xs1).2.2.1 S64x512.size (by sl_kernel_rfl) y

/-- What case B leaves there: its pieces read back. -/
def sout1_B_1 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : ¬cond1_1 i)
    (x0 : Vec F S16x64x2048 .f32) (x1 : Vec F S512x2048 .f32) (x2 : Vec F S512x128 .f32) (x3 : Vec F S1x128 .f32) (xs0 : Vec F S64x512 .f32) (xs1 : Vec F S64x512 .f32) : Vec F S64x512 .f32 :=
  VS1_1.read (Elt F) (VS1_1.writes (Elt F) VS1_1.junk (kernelRun1_B c i arg1 harg1 arg2 harg2 arg3 harg3 arg4 harg4 arg5 harg5 arg6 harg6 arg7 harg7 arg8 harg8 hc0 hc1 x0 x1 x2 x3 xs0 xs1).2.2.1)

/-- Case C's pieces for output window 4 tile it, so they cover it. -/
theorem cover1_C_4 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : cond1_1 i)
    (x0 : Vec F S16x64x2048 .f32) (x1 : Vec F S512x2048 .f32) (x2 : Vec F S512x128 .f32) (x3 : Vec F S1x128 .f32) (xs0 : Vec F S64x512 .f32) (xs1 : Vec F S64x512 .f32) (y : S16x64x512.Idx) :
    ∃ pc ∈ (kernelRun1_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun1_C c i arg1 harg1 arg2 harg2 arg3 harg3 arg4 harg4 arg5 harg5 arg6 harg6 arg7 harg7 arg8 harg8 hc0 hc1 x0 x1 x2 x3 xs0 xs1).1 S16x64x512.size (by sl_kernel_rfl) y

/-- What case C leaves there: its pieces read back. -/
def out1_C_4 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : cond1_1 i)
    (x0 : Vec F S16x64x2048 .f32) (x1 : Vec F S512x2048 .f32) (x2 : Vec F S512x128 .f32) (x3 : Vec F S1x128 .f32) (xs0 : Vec F S64x512 .f32) (xs1 : Vec F S64x512 .f32) : Vec F S16x64x512 .f32 :=
  VO1_4.read (Elt F) (VO1_4.writes (Elt F) VO1_4.junk (kernelRun1_C c i arg1 harg1 arg2 harg2 arg3 harg3 arg4 harg4 arg5 harg5 arg6 harg6 arg7 harg7 arg8 harg8 hc0 hc1 x0 x1 x2 x3 xs0 xs1).1)

/-- Case C's pieces for state buffer 0 tile it, so they cover it. -/
theorem scover1_C_0 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : cond1_1 i)
    (x0 : Vec F S16x64x2048 .f32) (x1 : Vec F S512x2048 .f32) (x2 : Vec F S512x128 .f32) (x3 : Vec F S1x128 .f32) (xs0 : Vec F S64x512 .f32) (xs1 : Vec F S64x512 .f32) (y : S64x512.Idx) :
    ∃ pc ∈ (kernelRun1_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun1_C c i arg1 harg1 arg2 harg2 arg3 harg3 arg4 harg4 arg5 harg5 arg6 harg6 arg7 harg7 arg8 harg8 hc0 hc1 x0 x1 x2 x3 xs0 xs1).2.2.1 S64x512.size (by sl_kernel_rfl) y

/-- What case C leaves there: its pieces read back. -/
def sout1_C_0 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : cond1_1 i)
    (x0 : Vec F S16x64x2048 .f32) (x1 : Vec F S512x2048 .f32) (x2 : Vec F S512x128 .f32) (x3 : Vec F S1x128 .f32) (xs0 : Vec F S64x512 .f32) (xs1 : Vec F S64x512 .f32) : Vec F S64x512 .f32 :=
  VS1_0.read (Elt F) (VS1_0.writes (Elt F) VS1_0.junk (kernelRun1_C c i arg1 harg1 arg2 harg2 arg3 harg3 arg4 harg4 arg5 harg5 arg6 harg6 arg7 harg7 arg8 harg8 hc0 hc1 x0 x1 x2 x3 xs0 xs1).2.2.1)

/-- Case C's pieces for state buffer 1 tile it, so they cover it. -/
theorem scover1_C_1 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : cond1_1 i)
    (x0 : Vec F S16x64x2048 .f32) (x1 : Vec F S512x2048 .f32) (x2 : Vec F S512x128 .f32) (x3 : Vec F S1x128 .f32) (xs0 : Vec F S64x512 .f32) (xs1 : Vec F S64x512 .f32) (y : S64x512.Idx) :
    ∃ pc ∈ (kernelRun1_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun1_C c i arg1 harg1 arg2 harg2 arg3 harg3 arg4 harg4 arg5 harg5 arg6 harg6 arg7 harg7 arg8 harg8 hc0 hc1 x0 x1 x2 x3 xs0 xs1).2.2.2.1 S64x512.size (by sl_kernel_rfl) y

/-- What case C leaves there: its pieces read back. -/
def sout1_C_1 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : cond1_1 i)
    (x0 : Vec F S16x64x2048 .f32) (x1 : Vec F S512x2048 .f32) (x2 : Vec F S512x128 .f32) (x3 : Vec F S1x128 .f32) (xs0 : Vec F S64x512 .f32) (xs1 : Vec F S64x512 .f32) : Vec F S64x512 .f32 :=
  VS1_1.read (Elt F) (VS1_1.writes (Elt F) VS1_1.junk (kernelRun1_C c i arg1 harg1 arg2 harg2 arg3 harg3 arg4 harg4 arg5 harg5 arg6 harg6 arg7 harg7 arg8 harg8 hc0 hc1 x0 x1 x2 x3 xs0 xs1).2.2.2.1)

/-- Case C's pieces for output window 5 tile it, so they cover it. -/
theorem cover1_C_5 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : cond1_1 i)
    (x0 : Vec F S16x64x2048 .f32) (x1 : Vec F S512x2048 .f32) (x2 : Vec F S512x128 .f32) (x3 : Vec F S1x128 .f32) (xs0 : Vec F S64x512 .f32) (xs1 : Vec F S64x512 .f32) (y : S64x128.Idx) :
    ∃ pc ∈ (kernelRun1_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun1_C c i arg1 harg1 arg2 harg2 arg3 harg3 arg4 harg4 arg5 harg5 arg6 harg6 arg7 harg7 arg8 harg8 hc0 hc1 x0 x1 x2 x3 xs0 xs1).2.1 S64x128.size (by sl_kernel_rfl) y

/-- What case C leaves there: its pieces read back. -/
def out1_C_5 (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : cond1_1 i)
    (x0 : Vec F S16x64x2048 .f32) (x1 : Vec F S512x2048 .f32) (x2 : Vec F S512x128 .f32) (x3 : Vec F S1x128 .f32) (xs0 : Vec F S64x512 .f32) (xs1 : Vec F S64x512 .f32) : Vec F S64x128 .f32 :=
  VO1_5.read (Elt F) (VO1_5.writes (Elt F) VO1_5.junk (kernelRun1_C c i arg1 harg1 arg2 harg2 arg3 harg3 arg4 harg4 arg5 harg5 arg6 harg6 arg7 harg7 arg8 harg8 hc0 hc1 x0 x1 x2 x3 xs0 xs1).2.1)

section Region1
variable (V : (c : Dev nD) → (b : Ref sig .tc) → Buf (Elt F) ((c : Thread nD τ).loc b))

/-! ## The cases at a point of the grid, over the point's blocks and the state `s` the point before left -/

/-- The state (hidden, cell) the first point leaves: 16 steps from zero over block 0. -/
def stepA1 (c : Dev nD) (t : Fin cfg1.N) (h0 : t.val % 16 = 0) (h1 : ¬t.val % 16 = 15) : Vec F S64x512 .f32 × Vec F S64x512 .f32 :=
  (sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t))
/-- The state a middle point leaves: 16 steps from `s` over the point's block. -/
def stepB1 (c : Dev nD) (t : Fin cfg1.N) (h0 : ¬t.val % 16 = 0) (h1 : ¬t.val % 16 = 15) (s : Vec F S64x512 .f32 × Vec F S64x512 .f32) : Vec F S64x512 .f32 × Vec F S64x512 .f32 :=
  (sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) s.1 s.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) s.1 s.2)
/-- The state the last point leaves. -/
def stepC1 (c : Dev nD) (t : Fin cfg1.N) (h0 : ¬t.val % 16 = 0) (h1 : t.val % 16 = 15) (s : Vec F S64x512 .f32 × Vec F S64x512 .f32) : Vec F S64x512 .f32 × Vec F S64x512 .f32 :=
  (sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) s.1 s.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) s.1 s.2)
/-- The 16 hidden states each case stores into the sequence output's block. -/
def hseqA1 (c : Dev nD) (t : Fin cfg1.N) (h0 : t.val % 16 = 0) (h1 : ¬t.val % 16 = 15) : Vec F S16x64x512 .f32 := out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)
def hseqB1 (c : Dev nD) (t : Fin cfg1.N) (h0 : ¬t.val % 16 = 0) (h1 : ¬t.val % 16 = 15) (s : Vec F S64x512 .f32 × Vec F S64x512 .f32) : Vec F S16x64x512 .f32 := out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) s.1 s.2
def hseqC1 (c : Dev nD) (t : Fin cfg1.N) (h0 : ¬t.val % 16 = 0) (h1 : t.val % 16 = 15) (s : Vec F S64x512 .f32 × Vec F S64x512 .f32) : Vec F S16x64x512 .f32 := out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) s.1 s.2
/-- The projection of the last hidden state the last point stores. -/
def fcC1 (c : Dev nD) (t : Fin cfg1.N) (h0 : ¬t.val % 16 = 0) (h1 : t.val % 16 = 15) (s : Vec F S64x512 .f32 × Vec F S64x512 .f32) : Vec F S64x128 .f32 := out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) s.1 s.2

theorem lt_N1 {n : ℕ} (hn : n < cfg1.N) : n < 16 := lt_of_lt_of_eq hn (show cfg1.N = 16 from N_1)

/-! ## The recurrence over the grid -/

/-- THE STATE after point `n`: the two state buffers' contents, by recursion on the point (beyond the grid: unchanged). -/
def st1 (c : Dev nD) : ℕ → Vec F S64x512 .f32 × Vec F S64x512 .f32
  | 0 => stepA1 V c t1_0 rfl (by decide)
  | n + 1 =>
    if hn : n + 1 < cfg1.N then
      if h1 : (n + 1) % 16 = 15 then stepC1 V c ⟨n + 1, hn⟩ (by have := lt_N1 hn; (try dsimp only); omega) h1 (st1 c n)
      else stepB1 V c ⟨n + 1, hn⟩ (by have := lt_N1 hn; (try dsimp only); omega) h1 (st1 c n)
    else st1 c n

theorem st1_zero (c : Dev nD) : st1 V c 0 = stepA1 V c t1_0 rfl (by decide) := rfl

/-- At the first point (stated at any point with `t.val % 16 = 0`). -/
theorem st1_A (c : Dev nD) (t : Fin cfg1.N) (h0 : t.val % 16 = 0) (h1 : ¬t.val % 16 = 15) :
    st1 V c t.val = stepA1 V c t h0 h1 := by
  obtain ⟨n, hn⟩ := t
  have hz : n = 0 := by have := lt_N1 hn; (try dsimp only at h0); omega
  subst hz; rfl

/-- At a middle point: a step of case B over what the point before left. -/
theorem st1_B (c : Dev nD) (t : Fin cfg1.N) (h0 : ¬t.val % 16 = 0) (h1 : ¬t.val % 16 = 15) :
    st1 V c t.val = stepB1 V c t h0 h1 (st1 V c (t.val - 1)) := by
  obtain ⟨n, hn⟩ := t
  cases n with
  | zero => exact absurd (Nat.zero_mod _) h0
  | succ n => exact (dif_pos hn).trans ((dif_neg h1).trans rfl)

/-- At the last point: a step of case C over what the point before left. -/
theorem st1_C (c : Dev nD) (t : Fin cfg1.N) (h0 : ¬t.val % 16 = 0) (h1 : t.val % 16 = 15) :
    st1 V c t.val = stepC1 V c t h0 h1 (st1 V c (t.val - 1)) := by
  obtain ⟨n, hn⟩ := t
  cases n with
  | zero => exact absurd (Nat.zero_mod _) h0
  | succ n => exact (dif_pos hn).trans ((dif_pos h1).trans rfl)

/-- What point `t` stores into the sequence output's block. -/
def hseq1 (c : Dev nD) (t : Fin cfg1.N) : Vec F S16x64x512 .f32 :=
  if h0 : t.val % 16 = 0 then hseqA1 V c t h0 (by have := lt_N1 t.isLt; omega)
  else if h1 : t.val % 16 = 15 then hseqC1 V c t h0 h1 (st1 V c (t.val - 1))
  else hseqB1 V c t h0 h1 (st1 V c (t.val - 1))

theorem hseq1_A (c : Dev nD) (t : Fin cfg1.N) (h0 : t.val % 16 = 0) (h1 : ¬t.val % 16 = 15) : hseq1 V c t = hseqA1 V c t h0 h1 := dif_pos h0
theorem hseq1_B (c : Dev nD) (t : Fin cfg1.N) (h0 : ¬t.val % 16 = 0) (h1 : ¬t.val % 16 = 15) : hseq1 V c t = hseqB1 V c t h0 h1 (st1 V c (t.val - 1)) := (dif_neg h0).trans (dif_neg h1)
theorem hseq1_C (c : Dev nD) (t : Fin cfg1.N) (h0 : ¬t.val % 16 = 0) (h1 : t.val % 16 = 15) : hseq1 V c t = hseqC1 V c t h0 h1 (st1 V c (t.val - 1)) := (dif_neg h0).trans (dif_pos h1)

/-- What the last point stores into the projection output. -/
def fc1 (c : Dev nD) : Vec F S64x128 .f32 := fcC1 V c t1_15 (by decide) (by decide) (st1 V c 14)

theorem fc1_C (c : Dev nD) (t : Fin cfg1.N) (h0 : ¬t.val % 16 = 0) (h1 : t.val % 16 = 15) : fc1 V c = fcC1 V c t h0 h1 (st1 V c (t.val - 1)) := by
  obtain ⟨n, hn⟩ := t
  have hz : n = 15 := by have := lt_N1 hn; (try dsimp only at h1); omega
  subst hz; rfl

/-! ## The invariant: the state buffers at what the point before left -/

/-- Before point `n`: at the first the region's `ΦA` (every scoped buffer at anything); afterwards the two state buffers
    at `st1` of the point before, the rest as in `ΦA`. -/
def PhiS1 (c : Dev nD) : ℕ → sProp 𝕄
  | 0 => Pipeline.ΦA spec1 c
  | n + 1 => PhiR1 c (owns (c : Thread nD τ) scM1_0 fullShare (st1 V c n).1) (owns (c : Thread nD τ) scM1_1 fullShare (st1 V c n).2)

theorem PhiS1_zero (c : Dev nD) (n : ℕ) (hz : n = 0) : PhiS1 V c n = Pipeline.ΦA spec1 c := by subst hz; rfl
theorem PhiS1_succ (c : Dev nD) (n : ℕ) :
    PhiS1 V c (n + 1) = PhiR1 c (owns (c : Thread nD τ) scM1_0 fullShare (st1 V c n).1) (owns (c : Thread nD τ) scM1_1 fullShare (st1 V c n).2) := rfl
theorem PhiS1_pos (c : Dev nD) (n : ℕ) (hz : n ≠ 0) :
    PhiS1 V c n = PhiR1 c (owns (c : Thread nD τ) scM1_0 fullShare (st1 V c (n - 1)).1) (owns (c : Thread nD τ) scM1_1 fullShare (st1 V c (n - 1)).2) := by
  cases n with
  | zero => exact absurd rfl hz
  | succ n => rfl

/-! ## The proof data -/

/-- Pipeline 1's proof data on core `c`: the arrays as the region finds them; after the body each input's buffer at its
    block, the sequence output's at `hseq1`, the projection output's at `fc1` (consulted at the last point only: the
    window is idle and not written back elsewhere); the invariant tracking the state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => hseq1 V c t
    | ⟨5, _⟩ => fc1 V c
  Φ t := PhiS1 V c t.val
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) : (dat1 V c).Φ t.castSucc = PhiS1 V c t.val := by
  dsimp only [dat1]; simp only [Fin.coe_castSucc]
theorem PhiS1_fsucc (c : Dev nD) (t : Fin cfg1.N) : (dat1 V c).Φ t.succ = PhiS1 V c (t.val + 1) := by
  dsimp only [dat1]; simp only [Fin.val_succ]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = hseq1 V c t := by dsimp only [dat1]
theorem after1_5 (c : Dev nD) (t : Fin cfg1.N) : (dat1 V c).after 5 t = fc1 V c := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms of the two conditionals select the case;
    the invariant hands the body the two state buffers at what the point before left (at anything at the first point) and
    takes them back at this point's state. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  have hN : t.val < 16 := lt_N1 t.isLt
  by_cases h0 : t.val % 16 = 0
  · have h1 : ¬t.val % 16 = 15 := by omega
    have hz : t.val = 0 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
    rw [PhiS1_castSucc V c t, PhiS1_zero V c _ hz, PhiA1_eq, PhiS1_fsucc, PhiS1_succ, st1_A V c t h0 h1, hseq1_A V c t h0 h1]
    unfold stepA1 hseqA1 sout1_A_0 sout1_A_1 out1_A_4 PhiR1
    (try dsimp only)
    iintro ⟨⟨⟨HR0, HR1, HR2, HR3, HR4, HR5, HS0, HS1, HR8, HR9, HR10, HR11, HR12, HR13, HR14, HR15, HR16, HR17, HR18, HR19, HR20, HR21, HR22, HR23⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    isplitl [HS1]; · iexact HS1
    iintro ⟨H0, H1, H2, H3, ⟨%e4, H4⟩, H5, ⟨%es0, HS0⟩, ⟨%es1, HS1⟩⟩
    isplitl [HR0 HR1 HR2 HR3 HR4 HR5 HS0 HS1 HR8 HR9 HR10 HR11 HR12 HR13 HR14 HR15 HR16 HR17 HR18 HR19 HR20 HR21 HR22 HR23 Hg]
    · isplitl [HR0 HR1 HR2 HR3 HR4 HR5 HS0 HS1 HR8 HR9 HR10 HR11 HR12 HR13 HR14 HR15 HR16 HR17 HR18 HR19 HR20 HR21 HR22 HR23]
      isplitl [HR0]; · iexact HR0
      isplitl [HR1]; · iexact HR1
      isplitl [HR2]; · iexact HR2
      isplitl [HR3]; · iexact HR3
      isplitl [HR4]; · iexact HR4
      isplitl [HR5]; · iexact HR5
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _)
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      iexact HR23
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _ _ _ _ _ _)
    iexists _; iexact H5
  · have hz : t.val ≠ 0 := by omega
    by_cases h1 : t.val % 16 = 15
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [PhiS1_castSucc V c t, PhiS1_pos V c _ hz, PhiS1_fsucc, PhiS1_succ, st1_C V c t h0 h1, hseq1_C V c t h0 h1, fc1_C V c t h0 h1]
      unfold stepC1 hseqC1 fcC1 sout1_C_0 sout1_C_1 out1_C_4 out1_C_5 PhiR1
      (try dsimp only)
      iintro ⟨⟨⟨HR0, HR1, HR2, HR3, HR4, HR5, HS0, HS1, HR8, HR9, HR10, HR11, HR12, HR13, HR14, HR15, HR16, HR17, HR18, HR19, HR20, HR21, HR22, HR23⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HR0 HR1 HR2 HR3 HR4 HR5 HS0 HS1 HR8 HR9 HR10 HR11 HR12 HR13 HR14 HR15 HR16 HR17 HR18 HR19 HR20 HR21 HR22 HR23 Hg]
      · isplitl [HR0 HR1 HR2 HR3 HR4 HR5 HS0 HS1 HR8 HR9 HR10 HR11 HR12 HR13 HR14 HR15 HR16 HR17 HR18 HR19 HR20 HR21 HR22 HR23]
        isplitl [HR0]; · iexact HR0
        isplitl [HR1]; · iexact HR1
        isplitl [HR2]; · iexact HR2
        isplitl [HR3]; · iexact HR3
        isplitl [HR4]; · iexact HR4
        isplitl [HR5]; · iexact HR5
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _)
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        isplitl [HR16]; · iexact HR16
        isplitl [HR17]; · iexact HR17
        isplitl [HR18]; · iexact HR18
        isplitl [HR19]; · iexact HR19
        isplitl [HR20]; · iexact HR20
        isplitl [HR21]; · iexact HR21
        isplitl [HR22]; · iexact HR22
        iexact HR23
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [PhiS1_castSucc V c t, PhiS1_pos V c _ hz, PhiS1_fsucc, PhiS1_succ, st1_B V c t h0 h1, hseq1_B V c t h0 h1]
      unfold stepB1 hseqB1 sout1_B_0 sout1_B_1 out1_B_4 PhiR1
      (try dsimp only)
      iintro ⟨⟨⟨HR0, HR1, HR2, HR3, HR4, HR5, HS0, HS1, HR8, HR9, HR10, HR11, HR12, HR13, HR14, HR15, HR16, HR17, HR18, HR19, HR20, HR21, HR22, HR23⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, ⟨%e4, H4⟩, H5, ⟨%es0, HS0⟩, ⟨%es1, HS1⟩⟩
      isplitl [HR0 HR1 HR2 HR3 HR4 HR5 HS0 HS1 HR8 HR9 HR10 HR11 HR12 HR13 HR14 HR15 HR16 HR17 HR18 HR19 HR20 HR21 HR22 HR23 Hg]
      · isplitl [HR0 HR1 HR2 HR3 HR4 HR5 HS0 HS1 HR8 HR9 HR10 HR11 HR12 HR13 HR14 HR15 HR16 HR17 HR18 HR19 HR20 HR21 HR22 HR23]
        isplitl [HR0]; · iexact HR0
        isplitl [HR1]; · iexact HR1
        isplitl [HR2]; · iexact HR2
        isplitl [HR3]; · iexact HR3
        isplitl [HR4]; · iexact HR4
        isplitl [HR5]; · iexact HR5
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _)
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        isplitl [HR16]; · iexact HR16
        isplitl [HR17]; · iexact HR17
        isplitl [HR18]; · iexact HR18
        isplitl [HR19]; · iexact HR19
        isplitl [HR20]; · iexact HR20
        isplitl [HR21]; · iexact HR21
        isplitl [HR22]; · iexact HR22
        iexact HR23
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _ _ _ _)
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi1_in (c : Dev nD) : Pipeline.ΦA spec1 c ⊢ (dat1 V c).Φ 0 := by
  rw [show (dat1 V c).Φ 0 = PhiS1 V c 0 from rfl, PhiS1_zero V c 0 rfl]
  try exact Idealize.SL.BI.Entails.refl _

/-- After the last point the invariant gives `ΦA` back: the state buffers' named contents are forgotten. -/
theorem Phi1_out (c : Dev nD) : (dat1 V c).Φ (Fin.last cfg1.N) ⊢ Pipeline.ΦA spec1 c := by
  rw [show (dat1 V c).Φ (Fin.last cfg1.N) = PhiS1 V c (Fin.last cfg1.N).val from rfl,
    PhiS1_pos V c _ (by rw [Fin.val_last]; have : cfg1.N = 16 := N_1; omega), PhiA1_eq]
  unfold PhiR1
  iintro ⟨⟨HR0, HR1, HR2, HR3, HR4, HR5, HS0, HS1, HR8, HR9, HR10, HR11, HR12, HR13, HR14, HR15, HR16, HR17, HR18, HR19, HR20, HR21, HR22, HR23⟩, Hg⟩
  isplitl [HR0 HR1 HR2 HR3 HR4 HR5 HS0 HS1 HR8 HR9 HR10 HR11 HR12 HR13 HR14 HR15 HR16 HR17 HR18 HR19 HR20 HR21 HR22 HR23]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists _; iexact HS0
    isplitl [HS1]; · iexists _; iexact HS1
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    isplitl [HR18]; · iexact HR18
    isplitl [HR19]; · iexact HR19
    isplitl [HR20]; · iexact HR20
    isplitl [HR21]; · iexact HR21
    isplitl [HR22]; · iexact HR22
    iexact HR23
  iexact Hg

end Region1

end Cert.ReferenceIdeal.Hand

end
-- ==== Proof.Ref.Proj2.lean ====
/-
  The input projection of layer 1 (pipeline 2 of the reference): at each of the 32 grid points the body loads
  its three whole input blocks — 512 rows of the activations, the whole weight matrix, the bias row —, forms
  the product into a zero accumulator, adds the broadcast bias, and stores the whole 512 x 2048 result block once.
  Stated at ANY contents `V` of the unscoped buffers when the region is entered: the windows' blocks, the body's
  triple, the pipeline's proof data over the class invariant, its body obligation, and what the result array
  holds after the run as one function of the three input arrays.
-/
import proofs.«114155_g2000202467955933_pallasbulk_1200_31_alg».proof.Proof.Gen.ReferenceIdeal.Launch
import proofs.«114155_g2000202467955933_pallasbulk_1200_31_alg».proof.Proof.Gen.ReferenceIdeal.Skeleton
import proofs.«114155_g2000202467955933_pallasbulk_1200_31_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

-- the unscoped buffers' contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole, through the rectangle at zero offsets of the buffer's own sizes -/

abbrev r2_0 : Rect S512x512 := Rect.unit (s := S512x512) ![0, 0] S512x512.size inb_S512x512_S512x512_0_0
abbrev r2_1 : Rect S512x2048 := Rect.unit (s := S512x2048) ![0, 0] S512x2048.size inb_S512x2048_S512x2048_0_0
abbrev r2_2 : Rect S1x2048 := Rect.unit (s := S1x2048) ![0, 0] S1x2048.size inb_S1x2048_S1x2048_0_0
abbrev r2_3 : Rect S512x2048 := Rect.unit (s := S512x2048) ![0, 0] S512x2048.size inb_S512x2048_S512x2048_0_0

theorem hz2 : (![0, 0] : Fin 2 → Nat) = fun _ => 0 := funext fun a => by fin_cases a <;> rfl

/-! ## The body's triple -/

/-- One store through the whole rectangle leaves its payload, whatever the buffer held. -/
theorem read_store2 {κ : Kind} {sp : Space} (v : View sig κ sp S512x2048 .f32) (f : v.ty.Contents (Elt F)) (w : S512x2048.Idx → Elt F .f32) :
    View.read (Elt F) v (v.writes (Elt F) f [⟨r2_3, w⟩]) = w :=
  (View.read_writes_eq_canon v f [⟨r2_3, w⟩]
      (fun y => ⟨⟨r2_3, w⟩, List.mem_singleton_self _, View.mem_set_unit_zero (S := S512x2048) hz2 inb_S512x2048_S512x2048_0_0 y⟩)).trans
    (View.canon_unit_zero (S := S512x2048) hz2 inb_S512x2048_S512x2048_0_0 w)

/-- A load through the whole rectangle reads the contents. -/
theorem load_whole2_0 {κ : Kind} {sp : Space} (v : View sig κ sp S512x512 .f32) (f : v.ty.Contents (Elt F)) :
    View.readAt (Elt F) v r2_0.toLoadRect f = View.read (Elt F) v f :=
  View.ld_unit_zero (S := S512x512) hz2 inb_S512x512_S512x512_0_0 (v.read (Elt F) f)
theorem load_whole2_1 {κ : Kind} {sp : Space} (v : View sig κ sp S512x2048 .f32) (f : v.ty.Contents (Elt F)) :
    View.readAt (Elt F) v r2_1.toLoadRect f = View.read (Elt F) v f :=
  View.ld_unit_zero (S := S512x2048) hz2 inb_S512x2048_S512x2048_0_0 (v.read (Elt F) f)
theorem load_whole2_2 {κ : Kind} {sp : Space} (v : View sig κ sp S1x2048 .f32) (f : v.ty.Contents (Elt F)) :
    View.readAt (Elt F) v r2_2.toLoadRect f = View.read (Elt F) v f :=
  View.ld_unit_zero (S := S1x2048) hz2 inb_S1x2048_S1x2048_0_0 (v.read (Elt F) f)

set_option maxHeartbeats 1000000 in
/-- The kernel body on whole staging memrefs, the inputs' at read contents `x0 x1 x2` and the output's at anything,
    runs to the continuation holding the inputs' as they were and the output's at the payload of the three:
    the loads through the whole rectangle read the contents, the one store through it leaves its payload. -/
theorem sound_kernel2 (c : Dev nD) (E : Set ℕ) (i : grid2.Coords)
    (arg1 : Memref sig .tc .vmem S512x512 .f32) (harg1 : arg1.IsWhole) (arg2 : Memref sig .tc .vmem S512x2048 .f32) (harg2 : arg2.IsWhole)
    (arg3 : Memref sig .tc .vmem S1x2048 .f32) (harg3 : arg3.IsWhole) (arg4 : Memref sig .tc .vmem S512x2048 .f32) (harg4 : arg4.IsWhole)
    (x0 : Vec F S512x512 .f32) (x1 : Vec F S512x2048 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k2_pay1 x0 x1 x2)) -∗ K ⟨⟩))
      ⊢ wp frame (wpE (defs₀ (F := F)) Variants.none c none) E (cc2_input_proj_kernel i arg1 harg1 arg2 harg2 arg3 harg3 arg4 harg4) K := by
  simp only [cc2_input_proj_kernel_eq_skeleton]; unfold cc2_input_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [read_store2, load_whole2_0, load_whole2_1, load_whole2_2]

/-! ## The pipeline's proof data -/

/-- The proof data of pipeline 2 on core `c`: the arrays as the region finds them; after the body at point `t` each
    input's buffer at its block and the output's at the payload of the three input blocks; the class invariant (the
    scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_out (c : Dev nD) (t : Fin cfg2.N) :
    (dat2 V c).after 3 t = k2_pay1 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the kernel's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_out]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.ReferenceIdeal.Hand

end
-- ==== Proof.Ref.Lstm3Runs.lean ====
import proofs.«114155_g2000202467955933_pallasbulk_1200_31_alg».proof.Proof.Gen.ReferenceIdeal.Launch
import proofs.«114155_g2000202467955933_pallasbulk_1200_31_alg».proof.Proof.Gen.ReferenceIdeal.Skeleton
import proofs.«114155_g2000202467955933_pallasbulk_1200_31_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the unscoped buffers' contents when the region is entered
variable (V : (c : Dev nD) → (b : Ref sig .tc) → Buf (Elt F) ((c : Thread nD τ).loc b))

/-! ## The windows' blocks of pipeline 3 (the recurrence of one layer over 16 blocks of 16 steps) -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

end Region3

/-! ## The body's two conditionals, decided over the grid -/

/-- The first conditional (the state is zeroed): the point is the first. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 16 = 0 :=
  (by decide +kernel : ∀ t : Fin grid3.N, cond3_0 (grid3.coords t) ↔ t.val % 16 = 0)

/-- The second conditional (the final projection is stored): the point is the last. -/
abbrev cond3_1 (i : grid3.Coords) : Prop := k3_cond2 i = 1#1
theorem hcond3_1 : ∀ t : Fin cfg3.N, cond3_1 (grid3.coords t) ↔ t.val % 16 = 15 :=
  (by decide +kernel : ∀ t : Fin grid3.N, cond3_1 (grid3.coords t) ↔ t.val % 16 = 15)

/-! ## Where the windows are idle -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem idleAt3_5_A : ∀ t : Fin cfg3.N, cond3_0 (grid3.coords t) → ¬cond3_1 (grid3.coords t) → cfg3.idle 5 (grid3.coords t) = true := by decide +kernel
theorem noFlush3_5_A : ∀ t : Fin cfg3.N, cond3_0 (grid3.coords t) → ¬cond3_1 (grid3.coords t) → (cfg3.win 5).flush t = false := by decide +kernel
theorem idleAt3_5_B : ∀ t : Fin cfg3.N, ¬cond3_0 (grid3.coords t) → ¬cond3_1 (grid3.coords t) → cfg3.idle 5 (grid3.coords t) = true := by decide +kernel
theorem noFlush3_5_B : ∀ t : Fin cfg3.N, ¬cond3_0 (grid3.coords t) → ¬cond3_1 (grid3.coords t) → (cfg3.win 5).flush t = false := by decide +kernel
theorem liveAt3_5_C : ∀ t : Fin cfg3.N, ¬cond3_0 (grid3.coords t) → cond3_1 (grid3.coords t) → cfg3.idle 5 (grid3.coords t) = false := by decide +kernel

/-! ## The staging and scratch memrefs -/

/-- One staging buffer of each output window, through which its contents are stated. -/
abbrev VO3_4 : View sig .tc .vmem S16x64x512 .f32 := (Memref.whole cc3_stg4_0 : Memref sig .tc .vmem S16x64x512 .f32).view
abbrev VO3_5 : View sig .tc .vmem S64x128 .f32 := (Memref.whole cc3_stg5_0 : Memref sig .tc .vmem S64x128 .f32).view
abbrev ms3_0 (t : Fin cfg3.N) : Memref sig .tc .vmem S16x64x2048 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x2048 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S16x64x512 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S64x128 .f32 := win3_5.stage (cfg3.slots t 5)
abbrev hs3_5 (t : Fin cfg3.N) : (ms3_5 t).IsWhole := hstage3_5 ((cfg3.slots t 5).cast nbuf3_5)
/-- The two scratch operands (the hidden and the cell state), whole scoped buffers carried between points. -/
abbrev scM3_0 : Memref sig .tc .vmem S64x512 .f32 := Memref.whole cc3_scratch0
abbrev scM3_1 : Memref sig .tc .vmem S64x512 .f32 := Memref.whole cc3_scratch1
abbrev VS3_0 : View sig .tc .vmem S64x512 .f32 := scM3_0.view
abbrev VS3_1 : View sig .tc .vmem S64x512 .f32 := scM3_1.view

/-- The scoped rest with the two scratch operands held as `P0`, `P1`, beside the generator register. -/
def PhiR3 (c : Dev nD) (P0 P1 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ P0 ∗ P1) ∗ (∃ r, prngReg c r))

/-- The region's invariant `ΦA`: every scoped buffer that is no staging buffer of this pipeline at some contents. -/
theorem PhiA3_eq (c : Dev nD) :
    (Pipeline.ΦA spec3 c : sProp 𝕄)
      = PhiR3 c (iprop(∃ d, owns (c : Thread nD τ) scM3_0 fullShare d)) (iprop(∃ d, owns (c : Thread nD τ) scM3_1 fullShare d)) := by
  unfold Pipeline.ΦA PhiR3; rw [scopedRest3_eq]; simp only [scM3_0, scM3_1, owns_whole]; try rfl

end Cert.ReferenceIdeal.Hand

end
-- ==== Proof.Ref.Lstm3RunA.lean ====
import proofs.«114155_g2000202467955933_pallasbulk_1200_31_alg».proof.Proof.Ref.Lstm3Runs

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body's triple in case A of its two conditionals (the first point: the state is zeroed, then 16 steps),
    on whole staging memrefs — the four inputs at their contents, the sequence output at anything, the projection output handed back untouched,
    the two state buffers at anything —, with the pieces each written buffer ends with as the witness the run finds. -/
noncomputable def kernelRun3_A (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond3_0 i) (hc1 : ¬cond3_1 i)
    (x0 : Vec F S16x64x2048 .f32) (x1 : Vec F S512x2048 .f32) (x2 : Vec F S512x128 .f32) (x3 : Vec F S1x128 .f32) :
    Σ' (L4 : List (View.Piece (Elt F) S16x64x512 .f32)) (LS0 : List (View.Piece (Elt F) S64x512 .f32)), { LS1 : List (View.Piece (Elt F) S64x512 .f32) //
      ∀ (xi5 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3_lstm_block_kernel i arg1 harg1 arg2 harg2 arg3 harg3 arg4 harg4 arg5 harg5 arg6 harg6 arg7 harg7 arg8 harg8) K } := by
  refine ⟨?_, ?_, ?_, fun xi5 E K => ?run⟩
  case run =>
    simp only [cc3_lstm_block_kernel_eq_skeleton]; unfold cc3_lstm_block_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    iexists _; iexact HS1

end Cert.ReferenceIdeal.Hand

end
-- ==== Proof.Ref.Lstm3RunB.lean ====
import proofs.«114155_g2000202467955933_pallasbulk_1200_31_alg».proof.Proof.Ref.Lstm3Runs

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body's triple in case B of its two conditionals (a middle point: 16 steps from the carried state),
    on whole staging memrefs — the four inputs at their contents, the sequence output at anything, the projection output handed back untouched,
    the two state buffers at what the point before left —, with the pieces each written buffer ends with as the witness the run finds. -/
noncomputable def kernelRun3_B (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : ¬cond3_1 i)
    (x0 : Vec F S16x64x2048 .f32) (x1 : Vec F S512x2048 .f32) (x2 : Vec F S512x128 .f32) (x3 : Vec F S1x128 .f32) (xs0 : Vec F S64x512 .f32) (xs1 : Vec F S64x512 .f32) :
    Σ' (L4 : List (View.Piece (Elt F) S16x64x512 .f32)) (LS0 : List (View.Piece (Elt F) S64x512 .f32)), { LS1 : List (View.Piece (Elt F) S64x512 .f32) //
      ∀ (xi5 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3_lstm_block_kernel i arg1 harg1 arg2 harg2 arg3 harg3 arg4 harg4 arg5 harg5 arg6 harg6 arg7 harg7 arg8 harg8) K } := by
  refine ⟨?_, ?_, ?_, fun xi5 E K => ?run⟩
  case run =>
    simp only [cc3_lstm_block_kernel_eq_skeleton]; unfold cc3_lstm_block_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    iexists _; iexact HS1

end Cert.ReferenceIdeal.Hand

end
-- ==== Proof.Ref.Lstm3RunC.lean ====
import proofs.«114155_g2000202467955933_pallasbulk_1200_31_alg».proof.Proof.Ref.Lstm3Runs

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body's triple in case C of its two conditionals (the last point: 16 steps from the carried state, then the final projection),
    on whole staging memrefs — the four inputs at their contents, the sequence output at anything, the projection output at anything,
    the two state buffers at what the point before left —, with the pieces each written buffer ends with as the witness the run finds. -/
noncomputable def kernelRun3_C (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : cond3_1 i)
    (x0 : Vec F S16x64x2048 .f32) (x1 : Vec F S512x2048 .f32) (x2 : Vec F S512x128 .f32) (x3 : Vec F S1x128 .f32) (xs0 : Vec F S64x512 .f32) (xs1 : Vec F S64x512 .f32) :
    Σ' (L4 : List (View.Piece (Elt F) S16x64x512 .f32)) (L5 : List (View.Piece (Elt F) S64x128 .f32)) (LS0 : List (View.Piece (Elt F) S64x512 .f32)), { LS1 : List (View.Piece (Elt F) S64x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3_lstm_block_kernel i arg1 harg1 arg2 harg2 arg3 harg3 arg4 harg4 arg5 harg5 arg6 harg6 arg7 harg7 arg8 harg8) K } := by
  refine ⟨?_, ?_, ?_, ?_, fun E K => ?run⟩
  case run =>
    simp only [cc3_lstm_block_kernel_eq_skeleton]; unfold cc3_lstm_block_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.ReferenceIdeal.Hand

end
-- ==== Proof.Ref.Lstm3.lean ====
import proofs.«114155_g2000202467955933_pallasbulk_1200_31_alg».proof.Proof.Ref.Lstm3RunA
import proofs.«114155_g2000202467955933_pallasbulk_1200_31_alg».proof.Proof.Ref.Lstm3RunB
import proofs.«114155_g2000202467955933_pallasbulk_1200_31_alg».proof.Proof.Ref.Lstm3RunC

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case of the body leaves: the covers of its pieces and the buffers read back -/

/-- Case A's pieces for output window 4 tile it, so they cover it. -/
theorem cover3_A_4 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond3_0 i) (hc1 : ¬cond3_1 i)
    (x0 : Vec F S16x64x2048 .f32) (x1 : Vec F S512x2048 .f32) (x2 : Vec F S512x128 .f32) (x3 : Vec F S1x128 .f32) (y : S16x64x512.Idx) :
    ∃ pc ∈ (kernelRun3_A c i arg1 harg1 arg2 harg2 arg3 harg3 arg4 harg4 arg5 harg5 arg6 harg6 arg7 harg7 arg8 harg8 hc0 hc1 x0 x1 x2 x3).1, y ∈ pc.1.set :=
  View.cover_of_tiledL (kernelRun3_A c i arg1 harg1 arg2 harg2 arg3 harg3 arg4 harg4 arg5 harg5 arg6 harg6 arg7 harg7 arg8 harg8 hc0 hc1 x0 x1 x2 x3).1 S16x64x512.size (by sl_kernel_rfl) y

/-- What case A leaves there: its pieces read back. -/
def out3_A_4 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond3_0 i) (hc1 : ¬cond3_1 i)
    (x0 : Vec F S16x64x2048 .f32) (x1 : Vec F S512x2048 .f32) (x2 : Vec F S512x128 .f32) (x3 : Vec F S1x128 .f32) : Vec F S16x64x512 .f32 :=
  VO3_4.read (Elt F) (VO3_4.writes (Elt F) VO3_4.junk (kernelRun3_A c i arg1 harg1 arg2 harg2 arg3 harg3 arg4 harg4 arg5 harg5 arg6 harg6 arg7 harg7 arg8 harg8 hc0 hc1 x0 x1 x2 x3).1)

/-- Case A's pieces for state buffer 0 tile it, so they cover it. -/
theorem scover3_A_0 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond3_0 i) (hc1 : ¬cond3_1 i)
    (x0 : Vec F S16x64x2048 .f32) (x1 : Vec F S512x2048 .f32) (x2 : Vec F S512x128 .f32) (x3 : Vec F S1x128 .f32) (y : S64x512.Idx) :
    ∃ pc ∈ (kernelRun3_A c i arg1 harg1 arg2 harg2 arg3 harg3 arg4 harg4 arg5 harg5 arg6 harg6 arg7 harg7 arg8 harg8 hc0 hc1 x0 x1 x2 x3).2.1, y ∈ pc.1.set :=
  View.cover_of_tiledL (kernelRun3_A c i arg1 harg1 arg2 harg2 arg3 harg3 arg4 harg4 arg5 harg5 arg6 harg6 arg7 harg7 arg8 harg8 hc0 hc1 x0 x1 x2 x3).2.1 S64x512.size (by sl_kernel_rfl) y

/-- What case A leaves there: its pieces read back. -/
def sout3_A_0 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond3_0 i) (hc1 : ¬cond3_1 i)
    (x0 : Vec F S16x64x2048 .f32) (x1 : Vec F S512x2048 .f32) (x2 : Vec F S512x128 .f32) (x3 : Vec F S1x128 .f32) : Vec F S64x512 .f32 :=
  VS3_0.read (Elt F) (VS3_0.writes (Elt F) VS3_0.junk (kernelRun3_A c i arg1 harg1 arg2 harg2 arg3 harg3 arg4 harg4 arg5 harg5 arg6 harg6 arg7 harg7 arg8 harg8 hc0 hc1 x0 x1 x2 x3).2.1)

/-- Case A's pieces for state buffer 1 tile it, so they cover it. -/
theorem scover3_A_1 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond3_0 i) (hc1 : ¬cond3_1 i)
    (x0 : Vec F S16x64x2048 .f32) (x1 : Vec F S512x2048 .f32) (x2 : Vec F S512x128 .f32) (x3 : Vec F S1x128 .f32) (y : S64x512.Idx) :
    ∃ pc ∈ (kernelRun3_A c i arg1 harg1 arg2 harg2 arg3 harg3 arg4 harg4 arg5 harg5 arg6 harg6 arg7 harg7 arg8 harg8 hc0 hc1 x0 x1 x2 x3).2.2.1, y ∈ pc.1.set :=
  View.cover_of_tiledL (kernelRun3_A c i arg1 harg1 arg2 harg2 arg3 harg3 arg4 harg4 arg5 harg5 arg6 harg6 arg7 harg7 arg8 harg8 hc0 hc1 x0 x1 x2 x3).2.2.1 S64x512.size (by sl_kernel_rfl) y

/-- What case A leaves there: its pieces read back. -/
def sout3_A_1 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond3_0 i) (hc1 : ¬cond3_1 i)
    (x0 : Vec F S16x64x2048 .f32) (x1 : Vec F S512x2048 .f32) (x2 : Vec F S512x128 .f32) (x3 : Vec F S1x128 .f32) : Vec F S64x512 .f32 :=
  VS3_1.read (Elt F) (VS3_1.writes (Elt F) VS3_1.junk (kernelRun3_A c i arg1 harg1 arg2 harg2 arg3 harg3 arg4 harg4 arg5 harg5 arg6 harg6 arg7 harg7 arg8 harg8 hc0 hc1 x0 x1 x2 x3).2.2.1)

/-- Case B's pieces for output window 4 tile it, so they cover it. -/
theorem cover3_B_4 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : ¬cond3_1 i)
    (x0 : Vec F S16x64x2048 .f32) (x1 : Vec F S512x2048 .f32) (x2 : Vec F S512x128 .f32) (x3 : Vec F S1x128 .f32) (xs0 : Vec F S64x512 .f32) (xs1 : Vec F S64x512 .f32) (y : S16x64x512.Idx) :
    ∃ pc ∈ (kernelRun3_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun3_B c i arg1 harg1 arg2 harg2 arg3 harg3 arg4 harg4 arg5 harg5 arg6 harg6 arg7 harg7 arg8 harg8 hc0 hc1 x0 x1 x2 x3 xs0 xs1).1 S16x64x512.size (by sl_kernel_rfl) y

/-- What case B leaves there: its pieces read back. -/
def out3_B_4 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : ¬cond3_1 i)
    (x0 : Vec F S16x64x2048 .f32) (x1 : Vec F S512x2048 .f32) (x2 : Vec F S512x128 .f32) (x3 : Vec F S1x128 .f32) (xs0 : Vec F S64x512 .f32) (xs1 : Vec F S64x512 .f32) : Vec F S16x64x512 .f32 :=
  VO3_4.read (Elt F) (VO3_4.writes (Elt F) VO3_4.junk (kernelRun3_B c i arg1 harg1 arg2 harg2 arg3 harg3 arg4 harg4 arg5 harg5 arg6 harg6 arg7 harg7 arg8 harg8 hc0 hc1 x0 x1 x2 x3 xs0 xs1).1)

/-- Case B's pieces for state buffer 0 tile it, so they cover it. -/
theorem scover3_B_0 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : ¬cond3_1 i)
    (x0 : Vec F S16x64x2048 .f32) (x1 : Vec F S512x2048 .f32) (x2 : Vec F S512x128 .f32) (x3 : Vec F S1x128 .f32) (xs0 : Vec F S64x512 .f32) (xs1 : Vec F S64x512 .f32) (y : S64x512.Idx) :
    ∃ pc ∈ (kernelRun3_B c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun3_B c i arg1 harg1 arg2 harg2 arg3 harg3 arg4 harg4 arg5 harg5 arg6 harg6 arg7 harg7 arg8 harg8 hc0 hc1 x0 x1 x2 x3 xs0 xs1).2.1 S64x512.size (by sl_kernel_rfl) y

/-- What case B leaves there: its pieces read back. -/
def sout3_B_0 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : ¬cond3_1 i)
    (x0 : Vec F S16x64x2048 .f32) (x1 : Vec F S512x2048 .f32) (x2 : Vec F S512x128 .f32) (x3 : Vec F S1x128 .f32) (xs0 : Vec F S64x512 .f32) (xs1 : Vec F S64x512 .f32) : Vec F S64x512 .f32 :=
  VS3_0.read (Elt F) (VS3_0.writes (Elt F) VS3_0.junk (kernelRun3_B c i arg1 harg1 arg2 harg2 arg3 harg3 arg4 harg4 arg5 harg5 arg6 harg6 arg7 harg7 arg8 harg8 hc0 hc1 x0 x1 x2 x3 xs0 xs1).2.1)

/-- Case B's pieces for state buffer 1 tile it, so they cover it. -/
theorem scover3_B_1 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : ¬cond3_1 i)
    (x0 : Vec F S16x64x2048 .f32) (x1 : Vec F S512x2048 .f32) (x2 : Vec F S512x128 .f32) (x3 : Vec F S1x128 .f32) (xs0 : Vec F S64x512 .f32) (xs1 : Vec F S64x512 .f32) (y : S64x512.Idx) :
    ∃ pc ∈ (kernelRun3_B c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun3_B c i arg1 harg1 arg2 harg2 arg3 harg3 arg4 harg4 arg5 harg5 arg6 harg6 arg7 harg7 arg8 harg8 hc0 hc1 x0 x1 x2 x3 xs0 xs1).2.2.1 S64x512.size (by sl_kernel_rfl) y

/-- What case B leaves there: its pieces read back. -/
def sout3_B_1 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : ¬cond3_1 i)
    (x0 : Vec F S16x64x2048 .f32) (x1 : Vec F S512x2048 .f32) (x2 : Vec F S512x128 .f32) (x3 : Vec F S1x128 .f32) (xs0 : Vec F S64x512 .f32) (xs1 : Vec F S64x512 .f32) : Vec F S64x512 .f32 :=
  VS3_1.read (Elt F) (VS3_1.writes (Elt F) VS3_1.junk (kernelRun3_B c i arg1 harg1 arg2 harg2 arg3 harg3 arg4 harg4 arg5 harg5 arg6 harg6 arg7 harg7 arg8 harg8 hc0 hc1 x0 x1 x2 x3 xs0 xs1).2.2.1)

/-- Case C's pieces for output window 4 tile it, so they cover it. -/
theorem cover3_C_4 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : cond3_1 i)
    (x0 : Vec F S16x64x2048 .f32) (x1 : Vec F S512x2048 .f32) (x2 : Vec F S512x128 .f32) (x3 : Vec F S1x128 .f32) (xs0 : Vec F S64x512 .f32) (xs1 : Vec F S64x512 .f32) (y : S16x64x512.Idx) :
    ∃ pc ∈ (kernelRun3_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun3_C c i arg1 harg1 arg2 harg2 arg3 harg3 arg4 harg4 arg5 harg5 arg6 harg6 arg7 harg7 arg8 harg8 hc0 hc1 x0 x1 x2 x3 xs0 xs1).1 S16x64x512.size (by sl_kernel_rfl) y

/-- What case C leaves there: its pieces read back. -/
def out3_C_4 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : cond3_1 i)
    (x0 : Vec F S16x64x2048 .f32) (x1 : Vec F S512x2048 .f32) (x2 : Vec F S512x128 .f32) (x3 : Vec F S1x128 .f32) (xs0 : Vec F S64x512 .f32) (xs1 : Vec F S64x512 .f32) : Vec F S16x64x512 .f32 :=
  VO3_4.read (Elt F) (VO3_4.writes (Elt F) VO3_4.junk (kernelRun3_C c i arg1 harg1 arg2 harg2 arg3 harg3 arg4 harg4 arg5 harg5 arg6 harg6 arg7 harg7 arg8 harg8 hc0 hc1 x0 x1 x2 x3 xs0 xs1).1)

/-- Case C's pieces for state buffer 0 tile it, so they cover it. -/
theorem scover3_C_0 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : cond3_1 i)
    (x0 : Vec F S16x64x2048 .f32) (x1 : Vec F S512x2048 .f32) (x2 : Vec F S512x128 .f32) (x3 : Vec F S1x128 .f32) (xs0 : Vec F S64x512 .f32) (xs1 : Vec F S64x512 .f32) (y : S64x512.Idx) :
    ∃ pc ∈ (kernelRun3_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun3_C c i arg1 harg1 arg2 harg2 arg3 harg3 arg4 harg4 arg5 harg5 arg6 harg6 arg7 harg7 arg8 harg8 hc0 hc1 x0 x1 x2 x3 xs0 xs1).2.2.1 S64x512.size (by sl_kernel_rfl) y

/-- What case C leaves there: its pieces read back. -/
def sout3_C_0 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : cond3_1 i)
    (x0 : Vec F S16x64x2048 .f32) (x1 : Vec F S512x2048 .f32) (x2 : Vec F S512x128 .f32) (x3 : Vec F S1x128 .f32) (xs0 : Vec F S64x512 .f32) (xs1 : Vec F S64x512 .f32) : Vec F S64x512 .f32 :=
  VS3_0.read (Elt F) (VS3_0.writes (Elt F) VS3_0.junk (kernelRun3_C c i arg1 harg1 arg2 harg2 arg3 harg3 arg4 harg4 arg5 harg5 arg6 harg6 arg7 harg7 arg8 harg8 hc0 hc1 x0 x1 x2 x3 xs0 xs1).2.2.1)

/-- Case C's pieces for state buffer 1 tile it, so they cover it. -/
theorem scover3_C_1 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : cond3_1 i)
    (x0 : Vec F S16x64x2048 .f32) (x1 : Vec F S512x2048 .f32) (x2 : Vec F S512x128 .f32) (x3 : Vec F S1x128 .f32) (xs0 : Vec F S64x512 .f32) (xs1 : Vec F S64x512 .f32) (y : S64x512.Idx) :
    ∃ pc ∈ (kernelRun3_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun3_C c i arg1 harg1 arg2 harg2 arg3 harg3 arg4 harg4 arg5 harg5 arg6 harg6 arg7 harg7 arg8 harg8 hc0 hc1 x0 x1 x2 x3 xs0 xs1).2.2.2.1 S64x512.size (by sl_kernel_rfl) y

/-- What case C leaves there: its pieces read back. -/
def sout3_C_1 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : cond3_1 i)
    (x0 : Vec F S16x64x2048 .f32) (x1 : Vec F S512x2048 .f32) (x2 : Vec F S512x128 .f32) (x3 : Vec F S1x128 .f32) (xs0 : Vec F S64x512 .f32) (xs1 : Vec F S64x512 .f32) : Vec F S64x512 .f32 :=
  VS3_1.read (Elt F) (VS3_1.writes (Elt F) VS3_1.junk (kernelRun3_C c i arg1 harg1 arg2 harg2 arg3 harg3 arg4 harg4 arg5 harg5 arg6 harg6 arg7 harg7 arg8 harg8 hc0 hc1 x0 x1 x2 x3 xs0 xs1).2.2.2.1)

/-- Case C's pieces for output window 5 tile it, so they cover it. -/
theorem cover3_C_5 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : cond3_1 i)
    (x0 : Vec F S16x64x2048 .f32) (x1 : Vec F S512x2048 .f32) (x2 : Vec F S512x128 .f32) (x3 : Vec F S1x128 .f32) (xs0 : Vec F S64x512 .f32) (xs1 : Vec F S64x512 .f32) (y : S64x128.Idx) :
    ∃ pc ∈ (kernelRun3_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun3_C c i arg1 harg1 arg2 harg2 arg3 harg3 arg4 harg4 arg5 harg5 arg6 harg6 arg7 harg7 arg8 harg8 hc0 hc1 x0 x1 x2 x3 xs0 xs1).2.1 S64x128.size (by sl_kernel_rfl) y

/-- What case C leaves there: its pieces read back. -/
def out3_C_5 (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : cond3_1 i)
    (x0 : Vec F S16x64x2048 .f32) (x1 : Vec F S512x2048 .f32) (x2 : Vec F S512x128 .f32) (x3 : Vec F S1x128 .f32) (xs0 : Vec F S64x512 .f32) (xs1 : Vec F S64x512 .f32) : Vec F S64x128 .f32 :=
  VO3_5.read (Elt F) (VO3_5.writes (Elt F) VO3_5.junk (kernelRun3_C c i arg1 harg1 arg2 harg2 arg3 harg3 arg4 harg4 arg5 harg5 arg6 harg6 arg7 harg7 arg8 harg8 hc0 hc1 x0 x1 x2 x3 xs0 xs1).2.1)

section Region3
variable (V : (c : Dev nD) → (b : Ref sig .tc) → Buf (Elt F) ((c : Thread nD τ).loc b))

/-! ## The cases at a point of the grid, over the point's blocks and the state `s` the point before left -/

/-- The state (hidden, cell) the first point leaves: 16 steps from zero over block 0. -/
def stepA3 (c : Dev nD) (t : Fin cfg3.N) (h0 : t.val % 16 = 0) (h1 : ¬t.val % 16 = 15) : Vec F S64x512 .f32 × Vec F S64x512 .f32 :=
  (sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t), sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t))
/-- The state a middle point leaves: 16 steps from `s` over the point's block. -/
def stepB3 (c : Dev nD) (t : Fin cfg3.N) (h0 : ¬t.val % 16 = 0) (h1 : ¬t.val % 16 = 15) (s : Vec F S64x512 .f32 × Vec F S64x512 .f32) : Vec F S64x512 .f32 × Vec F S64x512 .f32 :=
  (sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) s.1 s.2, sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) s.1 s.2)
/-- The state the last point leaves. -/
def stepC3 (c : Dev nD) (t : Fin cfg3.N) (h0 : ¬t.val % 16 = 0) (h1 : t.val % 16 = 15) (s : Vec F S64x512 .f32 × Vec F S64x512 .f32) : Vec F S64x512 .f32 × Vec F S64x512 .f32 :=
  (sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) s.1 s.2, sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) s.1 s.2)
/-- The 16 hidden states each case stores into the sequence output's block. -/
def hseqA3 (c : Dev nD) (t : Fin cfg3.N) (h0 : t.val % 16 = 0) (h1 : ¬t.val % 16 = 15) : Vec F S16x64x512 .f32 := out3_A_4 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t)
def hseqB3 (c : Dev nD) (t : Fin cfg3.N) (h0 : ¬t.val % 16 = 0) (h1 : ¬t.val % 16 = 15) (s : Vec F S64x512 .f32 × Vec F S64x512 .f32) : Vec F S16x64x512 .f32 := out3_B_4 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) s.1 s.2
def hseqC3 (c : Dev nD) (t : Fin cfg3.N) (h0 : ¬t.val % 16 = 0) (h1 : t.val % 16 = 15) (s : Vec F S64x512 .f32 × Vec F S64x512 .f32) : Vec F S16x64x512 .f32 := out3_C_4 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) s.1 s.2
/-- The projection of the last hidden state the last point stores. -/
def fcC3 (c : Dev nD) (t : Fin cfg3.N) (h0 : ¬t.val % 16 = 0) (h1 : t.val % 16 = 15) (s : Vec F S64x512 .f32 × Vec F S64x512 .f32) : Vec F S64x128 .f32 := out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) s.1 s.2

theorem lt_N3 {n : ℕ} (hn : n < cfg3.N) : n < 16 := lt_of_lt_of_eq hn (show cfg3.N = 16 from N_3)

/-! ## The recurrence over the grid -/

/-- THE STATE after point `n`: the two state buffers' contents, by recursion on the point (beyond the grid: unchanged). -/
def st3 (c : Dev nD) : ℕ → Vec F S64x512 .f32 × Vec F S64x512 .f32
  | 0 => stepA3 V c t3_0 rfl (by decide)
  | n + 1 =>
    if hn : n + 1 < cfg3.N then
      if h1 : (n + 1) % 16 = 15 then stepC3 V c ⟨n + 1, hn⟩ (by have := lt_N3 hn; (try dsimp only); omega) h1 (st3 c n)
      else stepB3 V c ⟨n + 1, hn⟩ (by have := lt_N3 hn; (try dsimp only); omega) h1 (st3 c n)
    else st3 c n

theorem st3_zero (c : Dev nD) : st3 V c 0 = stepA3 V c t3_0 rfl (by decide) := rfl

/-- At the first point (stated at any point with `t.val % 16 = 0`). -/
theorem st3_A (c : Dev nD) (t : Fin cfg3.N) (h0 : t.val % 16 = 0) (h1 : ¬t.val % 16 = 15) :
    st3 V c t.val = stepA3 V c t h0 h1 := by
  obtain ⟨n, hn⟩ := t
  have hz : n = 0 := by have := lt_N3 hn; (try dsimp only at h0); omega
  subst hz; rfl

/-- At a middle point: a step of case B over what the point before left. -/
theorem st3_B (c : Dev nD) (t : Fin cfg3.N) (h0 : ¬t.val % 16 = 0) (h1 : ¬t.val % 16 = 15) :
    st3 V c t.val = stepB3 V c t h0 h1 (st3 V c (t.val - 1)) := by
  obtain ⟨n, hn⟩ := t
  cases n with
  | zero => exact absurd (Nat.zero_mod _) h0
  | succ n => exact (dif_pos hn).trans ((dif_neg h1).trans rfl)

/-- At the last point: a step of case C over what the point before left. -/
theorem st3_C (c : Dev nD) (t : Fin cfg3.N) (h0 : ¬t.val % 16 = 0) (h1 : t.val % 16 = 15) :
    st3 V c t.val = stepC3 V c t h0 h1 (st3 V c (t.val - 1)) := by
  obtain ⟨n, hn⟩ := t
  cases n with
  | zero => exact absurd (Nat.zero_mod _) h0
  | succ n => exact (dif_pos hn).trans ((dif_pos h1).trans rfl)

/-- What point `t` stores into the sequence output's block. -/
def hseq3 (c : Dev nD) (t : Fin cfg3.N) : Vec F S16x64x512 .f32 :=
  if h0 : t.val % 16 = 0 then hseqA3 V c t h0 (by have := lt_N3 t.isLt; omega)
  else if h1 : t.val % 16 = 15 then hseqC3 V c t h0 h1 (st3 V c (t.val - 1))
  else hseqB3 V c t h0 h1 (st3 V c (t.val - 1))

theorem hseq3_A (c : Dev nD) (t : Fin cfg3.N) (h0 : t.val % 16 = 0) (h1 : ¬t.val % 16 = 15) : hseq3 V c t = hseqA3 V c t h0 h1 := dif_pos h0
theorem hseq3_B (c : Dev nD) (t : Fin cfg3.N) (h0 : ¬t.val % 16 = 0) (h1 : ¬t.val % 16 = 15) : hseq3 V c t = hseqB3 V c t h0 h1 (st3 V c (t.val - 1)) := (dif_neg h0).trans (dif_neg h1)
theorem hseq3_C (c : Dev nD) (t : Fin cfg3.N) (h0 : ¬t.val % 16 = 0) (h1 : t.val % 16 = 15) : hseq3 V c t = hseqC3 V c t h0 h1 (st3 V c (t.val - 1)) := (dif_neg h0).trans (dif_pos h1)

/-- What the last point stores into the projection output. -/
def fc3 (c : Dev nD) : Vec F S64x128 .f32 := fcC3 V c t3_15 (by decide) (by decide) (st3 V c 14)

theorem fc3_C (c : Dev nD) (t : Fin cfg3.N) (h0 : ¬t.val % 16 = 0) (h1 : t.val % 16 = 15) : fc3 V c = fcC3 V c t h0 h1 (st3 V c (t.val - 1)) := by
  obtain ⟨n, hn⟩ := t
  have hz : n = 15 := by have := lt_N3 hn; (try dsimp only at h1); omega
  subst hz; rfl

/-! ## The invariant: the state buffers at what the point before left -/

/-- Before point `n`: at the first the region's `ΦA` (every scoped buffer at anything); afterwards the two state buffers
    at `st3` of the point before, the rest as in `ΦA`. -/
def PhiS3 (c : Dev nD) : ℕ → sProp 𝕄
  | 0 => Pipeline.ΦA spec3 c
  | n + 1 => PhiR3 c (owns (c : Thread nD τ) scM3_0 fullShare (st3 V c n).1) (owns (c : Thread nD τ) scM3_1 fullShare (st3 V c n).2)

theorem PhiS3_zero (c : Dev nD) (n : ℕ) (hz : n = 0) : PhiS3 V c n = Pipeline.ΦA spec3 c := by subst hz; rfl
theorem PhiS3_succ (c : Dev nD) (n : ℕ) :
    PhiS3 V c (n + 1) = PhiR3 c (owns (c : Thread nD τ) scM3_0 fullShare (st3 V c n).1) (owns (c : Thread nD τ) scM3_1 fullShare (st3 V c n).2) := rfl
theorem PhiS3_pos (c : Dev nD) (n : ℕ) (hz : n ≠ 0) :
    PhiS3 V c n = PhiR3 c (owns (c : Thread nD τ) scM3_0 fullShare (st3 V c (n - 1)).1) (owns (c : Thread nD τ) scM3_1 fullShare (st3 V c (n - 1)).2) := by
  cases n with
  | zero => exact absurd rfl hz
  | succ n => rfl

/-! ## The proof data -/

/-- Pipeline 3's proof data on core `c`: the arrays as the region finds them; after the body each input's buffer at its
    block, the sequence output's at `hseq3`, the projection output's at `fc3` (consulted at the last point only: the
    window is idle and not written back elsewhere); the invariant tracking the state; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => hseq3 V c t
    | ⟨5, _⟩ => fc3 V c
  Φ t := PhiS3 V c t.val
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) : (dat3 V c).Φ t.castSucc = PhiS3 V c t.val := by
  dsimp only [dat3]; simp only [Fin.coe_castSucc]
theorem PhiS3_fsucc (c : Dev nD) (t : Fin cfg3.N) : (dat3 V c).Φ t.succ = PhiS3 V c (t.val + 1) := by
  dsimp only [dat3]; simp only [Fin.val_succ]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = hseq3 V c t := by dsimp only [dat3]
theorem after3_5 (c : Dev nD) (t : Fin cfg3.N) : (dat3 V c).after 5 t = fc3 V c := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point: the inputs' memrefs hold their blocks; the closed forms of the two conditionals select the case;
    the invariant hands the body the two state buffers at what the point before left (at anything at the first point) and
    takes them back at this point's state. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  have hN : t.val < 16 := lt_N3 t.isLt
  by_cases h0 : t.val % 16 = 0
  · have h1 : ¬t.val % 16 = 15 := by omega
    have hz : t.val = 0 := by omega
    rw [show (dat3 V c).leavesExact 0 t = owns (c : Thread nD τ) (ms3_0 t) fullShare ((dat3 V c).after 0 t) from by
      unfold Dat.leavesExact; rw [liveAt3_0 t], after3_0]
    rw [show (dat3 V c).leavesExact 1 t = owns (c : Thread nD τ) (ms3_1 t) fullShare ((dat3 V c).after 1 t) from by
      unfold Dat.leavesExact; rw [liveAt3_1 t], after3_1]
    rw [show (dat3 V c).leavesExact 2 t = owns (c : Thread nD τ) (ms3_2 t) fullShare ((dat3 V c).after 2 t) from by
      unfold Dat.leavesExact; rw [liveAt3_2 t], after3_2]
    rw [show (dat3 V c).leavesExact 3 t = owns (c : Thread nD τ) (ms3_3 t) fullShare ((dat3 V c).after 3 t) from by
      unfold Dat.leavesExact; rw [liveAt3_3 t], after3_3]
    rw [show (dat3 V c).leavesExact 4 t = owns (c : Thread nD τ) (ms3_4 t) fullShare ((dat3 V c).after 4 t) from by
      unfold Dat.leavesExact; rw [liveAt3_4 t], after3_4]
    rw [Dat.leavesExact_idle (dat3 V c) 5 t (idleAt3_5_A t ((hcond3_0 t).mpr h0) (fun h => h1 ((hcond3_1 t).mp h))) (noFlush3_5_A t ((hcond3_0 t).mpr h0) (fun h => h1 ((hcond3_1 t).mp h)))]
    rw [PhiS3_castSucc V c t, PhiS3_zero V c _ hz, PhiA3_eq, PhiS3_fsucc, PhiS3_succ, st3_A V c t h0 h1, hseq3_A V c t h0 h1]
    unfold stepA3 hseqA3 sout3_A_0 sout3_A_1 out3_A_4 PhiR3
    (try dsimp only)
    iintro ⟨⟨⟨HR0, HR1, HR2, HR3, HR4, HR5, HR6, HR7, HR8, HR9, HR10, HR11, HR12, HR13, HR14, HR15, HR16, HR17, HR18, HR19, HR20, HR21, HS0, HS1⟩, Hg⟩, Ho, ⟨%d0, H0⟩, ⟨%d1, H1⟩, ⟨%d2, H2⟩, ⟨%d3, H3⟩, ⟨%d4, H4⟩, ⟨%d5, H5⟩⟩
    iapply ((kernelRun3_A c (grid3.coords t) _ _ _ _ _ _ _ _ _ _ _ _ _ _ _ _ ((hcond3_0 t).mpr h0) (fun h => h1 ((hcond3_1 t).mp h)) (iblk3 V c 0 t) (iblk3 V c 1 t) (iblk3 V c 2 t) (iblk3 V c 3 t)).2.2.2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    isplitl [HS1]; · iexact HS1
    iintro ⟨H0, H1, H2, H3, ⟨%e4, H4⟩, H5, ⟨%es0, HS0⟩, ⟨%es1, HS1⟩⟩
    isplitl [HR0 HR1 HR2 HR3 HR4 HR5 HR6 HR7 HR8 HR9 HR10 HR11 HR12 HR13 HR14 HR15 HR16 HR17 HR18 HR19 HR20 HR21 HS0 HS1 Hg]
    · isplitl [HR0 HR1 HR2 HR3 HR4 HR5 HR6 HR7 HR8 HR9 HR10 HR11 HR12 HR13 HR14 HR15 HR16 HR17 HR18 HR19 HR20 HR21 HS0 HS1]
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HS0]
      · unfold owns; iexists _; isplitr
        swap; · iexact HS0
        ipureintro; exact View.read_writes_of_cover _ _ _ _ _ (scover3_A_0 c _ _ _ _ _ _ _ _ _ _ _ _ _ _ _ _ _ _ _ _ _ _ _)
      unfold owns; iexists _; isplitr
      swap; · iexact HS1
      ipureintro; exact View.read_writes_of_cover _ _ _ _ _ (scover3_A_1 c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover3_A_4 c _ _ _ _ _ _ _ _ _ _ _ _ _ _ _ _ _ _ _ _ _ _ _)
    iexists _; iexact H5
  · have hz : t.val ≠ 0 := by omega
    by_cases h1 : t.val % 16 = 15
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5_C t (fun h => h0 ((hcond3_0 t).mp h)) ((hcond3_1 t).mpr h1)], after3_5]
      rw [PhiS3_castSucc V c t, PhiS3_pos V c _ hz, PhiS3_fsucc, PhiS3_succ, st3_C V c t h0 h1, hseq3_C V c t h0 h1, fc3_C V c t h0 h1]
      unfold stepC3 hseqC3 fcC3 sout3_C_0 sout3_C_1 out3_C_4 out3_C_5 PhiR3
      (try dsimp only)
      iintro ⟨⟨⟨HR0, HR1, HR2, HR3, HR4, HR5, HR6, HR7, HR8, HR9, HR10, HR11, HR12, HR13, HR14, HR15, HR16, HR17, HR18, HR19, HR20, HR21, HS0, HS1⟩, Hg⟩, Ho, ⟨%d0, H0⟩, ⟨%d1, H1⟩, ⟨%d2, H2⟩, ⟨%d3, H3⟩, ⟨%d4, H4⟩, ⟨%d5, H5⟩⟩
      iapply ((kernelRun3_C c (grid3.coords t) _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HR0 HR1 HR2 HR3 HR4 HR5 HR6 HR7 HR8 HR9 HR10 HR11 HR12 HR13 HR14 HR15 HR16 HR17 HR18 HR19 HR20 HR21 HS0 HS1 Hg]
      · isplitl [HR0 HR1 HR2 HR3 HR4 HR5 HR6 HR7 HR8 HR9 HR10 HR11 HR12 HR13 HR14 HR15 HR16 HR17 HR18 HR19 HR20 HR21 HS0 HS1]
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        isplitl [HR16]; · iexact HR16
        isplitl [HR17]; · iexact HR17
        isplitl [HR18]; · iexact HR18
        isplitl [HR19]; · iexact HR19
        isplitl [HR20]; · iexact HR20
        isplitl [HR21]; · iexact HR21
        isplitl [HS0]
        · unfold owns; iexists _; isplitr
          swap; · iexact HS0
          ipureintro; exact View.read_writes_of_cover _ _ _ _ _ (scover3_C_0 c _ _ _ _ _ _ _ _ _ _ _ _ _ _ _ _ _ _ _ _ _ _ _ _ _)
        unfold owns; iexists _; isplitr
        swap; · iexact HS1
        ipureintro; exact View.read_writes_of_cover _ _ _ _ _ (scover3_C_1 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_C_4 c _ _ _ _ _ _ _ _ _ _ _ _ _ _ _ _ _ _ _ _ _ _ _ _ _)
      unfold owns; iexists _; isplitr
      swap; · iexact H5
      ipureintro; exact View.read_writes_of_cover _ _ _ _ _ (cover3_C_5 c _ _ _ _ _ _ _ _ _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [Dat.leavesExact_idle (dat3 V c) 5 t (idleAt3_5_B t (fun h => h0 ((hcond3_0 t).mp h)) (fun h => h1 ((hcond3_1 t).mp h))) (noFlush3_5_B t (fun h => h0 ((hcond3_0 t).mp h)) (fun h => h1 ((hcond3_1 t).mp h)))]
      rw [PhiS3_castSucc V c t, PhiS3_pos V c _ hz, PhiS3_fsucc, PhiS3_succ, st3_B V c t h0 h1, hseq3_B V c t h0 h1]
      unfold stepB3 hseqB3 sout3_B_0 sout3_B_1 out3_B_4 PhiR3
      (try dsimp only)
      iintro ⟨⟨⟨HR0, HR1, HR2, HR3, HR4, HR5, HR6, HR7, HR8, HR9, HR10, HR11, HR12, HR13, HR14, HR15, HR16, HR17, HR18, HR19, HR20, HR21, HS0, HS1⟩, Hg⟩, Ho, ⟨%d0, H0⟩, ⟨%d1, H1⟩, ⟨%d2, H2⟩, ⟨%d3, H3⟩, ⟨%d4, H4⟩, ⟨%d5, H5⟩⟩
      iapply ((kernelRun3_B c (grid3.coords t) _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) _ _).2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, ⟨%e4, H4⟩, H5, ⟨%es0, HS0⟩, ⟨%es1, HS1⟩⟩
      isplitl [HR0 HR1 HR2 HR3 HR4 HR5 HR6 HR7 HR8 HR9 HR10 HR11 HR12 HR13 HR14 HR15 HR16 HR17 HR18 HR19 HR20 HR21 HS0 HS1 Hg]
      · isplitl [HR0 HR1 HR2 HR3 HR4 HR5 HR6 HR7 HR8 HR9 HR10 HR11 HR12 HR13 HR14 HR15 HR16 HR17 HR18 HR19 HR20 HR21 HS0 HS1]
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        isplitl [HR16]; · iexact HR16
        isplitl [HR17]; · iexact HR17
        isplitl [HR18]; · iexact HR18
        isplitl [HR19]; · iexact HR19
        isplitl [HR20]; · iexact HR20
        isplitl [HR21]; · iexact HR21
        isplitl [HS0]
        · unfold owns; iexists _; isplitr
          swap; · iexact HS0
          ipureintro; exact View.read_writes_of_cover _ _ _ _ _ (scover3_B_0 c _ _ _ _ _ _ _ _ _ _ _ _ _ _ _ _ _ _ _ _ _ _ _ _ _)
        unfold owns; iexists _; isplitr
        swap; · iexact HS1
        ipureintro; exact View.read_writes_of_cover _ _ _ _ _ (scover3_B_1 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_B_4 c _ _ _ _ _ _ _ _ _ _ _ _ _ _ _ _ _ _ _ _ _ _ _ _ _)
      iexists _; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem Phi3_in (c : Dev nD) : Pipeline.ΦA spec3 c ⊢ (dat3 V c).Φ 0 := by
  rw [show (dat3 V c).Φ 0 = PhiS3 V c 0 from rfl, PhiS3_zero V c 0 rfl]
  try exact Idealize.SL.BI.Entails.refl _

/-- After the last point the invariant gives `ΦA` back: the state buffers' named contents are forgotten. -/
theorem Phi3_out (c : Dev nD) : (dat3 V c).Φ (Fin.last cfg3.N) ⊢ Pipeline.ΦA spec3 c := by
  rw [show (dat3 V c).Φ (Fin.last cfg3.N) = PhiS3 V c (Fin.last cfg3.N).val from rfl,
    PhiS3_pos V c _ (by rw [Fin.val_last]; have : cfg3.N = 16 := N_3; omega), PhiA3_eq]
  unfold PhiR3
  iintro ⟨⟨HR0, HR1, HR2, HR3, HR4, HR5, HR6, HR7, HR8, HR9, HR10, HR11, HR12, HR13, HR14, HR15, HR16, HR17, HR18, HR19, HR20, HR21, HS0, HS1⟩, Hg⟩
  isplitl [HR0 HR1 HR2 HR3 HR4 HR5 HR6 HR7 HR8 HR9 HR10 HR11 HR12 HR13 HR14 HR15 HR16 HR17 HR18 HR19 HR20 HR21 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    isplitl [HR18]; · iexact HR18
    isplitl [HR19]; · iexact HR19
    isplitl [HR20]; · iexact HR20
    isplitl [HR21]; · iexact HR21
    isplitl [HS0]; · iexists _; iexact HS0
    iexists _; iexact HS1
  iexact Hg

end Region3

end Cert.ReferenceIdeal.Hand

end
-- ==== Proof.Ref.Run.lean ====
/-
  The reference program's run with every buffer's final contents named.

  @main of the reference is five stretches of host operations around four kernel regions (an input projection and an
  LSTM recurrence per layer).  Each region is entered with the unscoped buffers at the contents the fold through @main
  has reached, and left with its arrays at what its pipeline wrote back; the regions' own proof data say what that is.
  The result is one run whose final state has every unscoped buffer at the last contents of the fold — the arguments,
  which nothing writes, and the returned array among them.
-/
import proofs.«114155_g2000202467955933_pallasbulk_1200_31_alg».proof.Proof.Gen.ReferenceIdeal.Launch
import proofs.«114155_g2000202467955933_pallasbulk_1200_31_alg».proof.Proof.Gen.ReferenceIdeal.Skeleton
import proofs.«114155_g2000202467955933_pallasbulk_1200_31_alg».proof.Proof.Gen.ReferenceIdeal.Points
import proofs.«114155_g2000202467955933_pallasbulk_1200_31_alg».proof.Proof.Gen.ReferenceIdeal.Regions
import proofs.«114155_g2000202467955933_pallasbulk_1200_31_alg».proof.Proof.Ref.Proj0
import proofs.«114155_g2000202467955933_pallasbulk_1200_31_alg».proof.Proof.Ref.Lstm1
import proofs.«114155_g2000202467955933_pallasbulk_1200_31_alg».proof.Proof.Ref.Proj2
import proofs.«114155_g2000202467955933_pallasbulk_1200_31_alg».proof.Proof.Ref.Lstm3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! The projection regions keep the class invariant at every point. -/
section ProjInvariant
variable (V : (c : Dev nD) → (b : Ref sig .tc) → Buf (Elt F) ((c : Thread nD τ).loc b))
theorem Phi0_in (c : Dev nD) : Pipeline.ΦA spec0 c ⊢ ((dat0 (F := F) V c).Φ 0 : sProp 𝕄) := .rfl
theorem Phi0_out (c : Dev nD) : ((dat0 (F := F) V c).Φ (Fin.last cfg0.N) : sProp 𝕄) ⊢ Pipeline.ΦA spec0 c := .rfl
theorem Phi2_in (c : Dev nD) : Pipeline.ΦA spec2 c ⊢ ((dat2 (F := F) V c).Φ 0 : sProp 𝕄) := .rfl
theorem Phi2_out (c : Dev nD) : ((dat2 (F := F) V c).Φ (Fin.last cfg2.N) : sProp 𝕄) ⊢ Pipeline.ΦA spec2 c := .rfl
end ProjInvariant

variable (m : (ℓ : Loc nD τ sig) → Buf (Elt F) ℓ) (ρ : Dev nD → PrngReg)

/-! # The reference's run, segment by segment

@main is five stretches of host operations around four kernel regions. The buffers' contents at each boundary are a fold
through @main: a host stretch applies its operations, a region leaves its arrays at what its pipeline wrote back and
everything else as entered. -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

/-- After region 0: its arrays at what the pipeline leaves (an input as entered, an output's write-backs folded),
    every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) :
    (dat0 (U1 m ρ) c).arrAt w cfg0.N = W2 m ρ c (Proc.devRef .tc (Pipeline.arrRef spec0 w)) :=
  (W2_arr m ρ c w).symm
theorem hrest0 (c : Dev nD) : ∀ b, b ∉ Finset.univ.image (Pipeline.arrRef spec0) →
    W2 m ρ c (Proc.devRef .tc b) = U1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b

/-- After region 1: its arrays at what the pipeline leaves (an input as entered, an output's write-backs folded),
    every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem hF1 (c : Dev nD) (w : Fin cfg1.W) :
    (dat1 (U3 m ρ) c).arrAt w cfg1.N = W4 m ρ c (Proc.devRef .tc (Pipeline.arrRef spec1 w)) :=
  (W4_arr m ρ c w).symm
theorem hrest1 (c : Dev nD) : ∀ b, b ∉ Finset.univ.image (Pipeline.arrRef spec1) →
    W4 m ρ c (Proc.devRef .tc b) = U3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b

/-- After region 2: its arrays at what the pipeline leaves (an input as entered, an output's write-backs folded),
    every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem hF2 (c : Dev nD) (w : Fin cfg2.W) :
    (dat2 (U5 m ρ) c).arrAt w cfg2.N = W6 m ρ c (Proc.devRef .tc (Pipeline.arrRef spec2 w)) :=
  (W6_arr m ρ c w).symm
theorem hrest2 (c : Dev nD) : ∀ b, b ∉ Finset.univ.image (Pipeline.arrRef spec2) →
    W6 m ρ c (Proc.devRef .tc b) = U5 m ρ c b :=
  fun b hb => W6_of_ne m ρ c b fun w e => hb (Finset.mem_image.mpr ⟨w, Finset.mem_univ _, e⟩)

/-- After the fourth host stretch (region 3's entry). -/
abbrev W7 : Dev nD → Valuation τ sig (Elt F) := fun c => StableHlo.after hostOps3 (W6 m ρ c)
abbrev U7 : (c : Dev nD) → (b : Ref sig .tc) → Buf (Elt F) ((c : Thread nD τ).loc b) := fun c b => W7 m ρ c b

/-- After region 3: its arrays at what the pipeline leaves (an input as entered, an output's write-backs folded),
    every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
theorem hF3 (c : Dev nD) (w : Fin cfg3.W) :
    (dat3 (U7 m ρ) c).arrAt w cfg3.N = W8 m ρ c (Proc.devRef .tc (Pipeline.arrRef spec3 w)) :=
  (W8_arr m ρ c w).symm
theorem hrest3 (c : Dev nD) : ∀ b, b ∉ Finset.univ.image (Pipeline.arrRef spec3) →
    W8 m ρ c (Proc.devRef .tc b) = U7 m ρ c b :=
  fun b hb => W8_of_ne m ρ c b fun w e => hb (Finset.mem_image.mpr ⟨w, Finset.mem_univ _, e⟩)

/-- After the last host stretch: the contents @main returns with. -/
abbrev W9 : Dev nD → Valuation τ sig (Elt F) := fun c => StableHlo.after hostOps4 (W8 m ρ c)

/-! ## The proof data family and the thread state -/

/-- No pipeline has a prefetched table. -/
abbrev admH : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) admH p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the returned contents, the generator register. -/
abbrev Tₙ (c : Dev nD) : sProp 𝕄 := iprop(StableHlo.held (c : Thread nD τ) (Pipeline.ucRefs τ sig) (W9 m ρ c) ∗ ∃ r, prngReg c r)

/-! ## The regions as segments -/

-- a library lemma stated over the pinned configuration unifies only when unification may unfold plain definitions
set_option backward.isDefEq.respectTransparency.types false in
/-- Region 0 over the thread state: entered with every unscoped buffer at `W1`, left with them at `W2`. Its
    arrays are split out of the unscoped buffers and put back at their exit contents; the generator register enters the
    region's invariant and comes back; nothing is owed; the kernel has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi0_in (U1 m ρ) c)
    unfold Pipeline.ΦA
    iintro ⟨Hp, -, Hr⟩
    isplitl [Hr]; · iexact Hr
    iexact Hp
  hout c := by
    rw [Pipeline.ownSems0_none]
    refine (Phi0_out (U1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (U1 m ρ c) (fun b => W2 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions
set_option backward.isDefEq.respectTransparency.types false in
/-- Region 1 over the thread state: entered with every unscoped buffer at `W3`, left with them at `W4`. Its
    arrays are split out of the unscoped buffers and put back at their exit contents; the generator register enters the
    region's invariant and comes back; nothing is owed; the kernel has no semaphore of its own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi1_in (U3 m ρ) c)
    unfold Pipeline.ΦA
    iintro ⟨Hp, -, Hr⟩
    isplitl [Hr]; · iexact Hr
    iexact Hp
  hout c := by
    rw [Pipeline.ownSems0_none]
    refine (Phi1_out (U3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (U3 m ρ c) (fun b => W4 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions
set_option backward.isDefEq.respectTransparency.types false in
/-- Region 2 over the thread state: entered with every unscoped buffer at `W5`, left with them at `W6`. Its
    arrays are split out of the unscoped buffers and put back at their exit contents; the generator register enters the
    region's invariant and comes back; nothing is owed; the kernel has no semaphore of its own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi2_in (U5 m ρ) c)
    unfold Pipeline.ΦA
    iintro ⟨Hp, -, Hr⟩
    isplitl [Hr]; · iexact Hr
    iexact Hp
  hout c := by
    rw [Pipeline.ownSems0_none]
    refine (Phi2_out (U5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (U5 m ρ c) (fun b => W6 m ρ c b) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions
set_option backward.isDefEq.respectTransparency.types false in
/-- Region 3 over the thread state: entered with every unscoped buffer at `W7`, left with them at `W8`. Its
    arrays are split out of the unscoped buffers and put back at their exit contents; the generator register enters the
    region's invariant and comes back; nothing is owed; the kernel has no semaphore of its own. -/
def reg3 : Pipeline.RegionSeg (pcfgs (F := F)) admH (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) admH (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi3_in (U7 m ρ) c)
    unfold Pipeline.ΦA
    iintro ⟨Hp, -, Hr⟩
    isplitl [Hr]; · iexact Hr
    iexact Hp
  hout c := by
    rw [Pipeline.ownSems0_none]
    refine (Phi3_out (U7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m ρ) ((pdats m ρ 3 c).share_full fun _ => rfl)
      (U7 m ρ c) (fun b => W8 m ρ c b) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's nine segments in order. -/
abbrev segsH : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main IS the run of the segments. -/
theorem main_run (c : Dev nD) : main (F := F) c = Pipeline.Seg.run (segsH m ρ) := (main_chain c).trans (by chain_rfl)

-- the launch theorem's implicit arguments are found by unifying its conclusion with this one
set_option backward.isDefEq.respectTransparency.types false in
/-- THE RUN: from any memory with zero counters every weakly fair execution of @main terminates, nothing faulting, and
    in every final state each unscoped buffer holds the fold's last contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun c => by
        show iprop(StableHlo.held (c : Thread nD τ) (Pipeline.ucRefs τ sig) (W9 m ρ c) ∗ R c) ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-! ## What the fold leaves -/

/-- A buffer that no host operation writes and no region stages ends as launched. -/
theorem W9_kept (c : Dev nD) (b : Ref sig .tc) (h0 : b ∉ hostOps0_W) (h1 : b ∉ hostOps1_W) (h2 : b ∉ hostOps2_W)
    (h3 : b ∉ hostOps3_W) (h4 : b ∉ hostOps4_W) (r0 : ∀ w, Pipeline.arrRef spec0 w ≠ b) (r1 : ∀ w, Pipeline.arrRef spec1 w ≠ b)
    (r2 : ∀ w, Pipeline.arrRef spec2 w ≠ b) (r3 : ∀ w, Pipeline.arrRef spec3 w ≠ b) :
    W9 m ρ c (Proc.devRef .tc b) = m ((c : Thread nD τ).loc b) :=
  calc W9 m ρ c (Proc.devRef .tc b)
    _ = W8 m ρ c (Proc.devRef .tc b) := StableHlo.after_of_writes_sub hostOps4 _ hostOps4_writes h4
    _ = W7 m ρ c (Proc.devRef .tc b) := W8_of_ne m ρ c b r3
    _ = W6 m ρ c (Proc.devRef .tc b) := StableHlo.after_of_writes_sub hostOps3 _ hostOps3_writes h3
    _ = W5 m ρ c (Proc.devRef .tc b) := W6_of_ne m ρ c b r2
    _ = W4 m ρ c (Proc.devRef .tc b) := StableHlo.after_of_writes_sub hostOps2 _ hostOps2_writes h2
    _ = W3 m ρ c (Proc.devRef .tc b) := W4_of_ne m ρ c b r1
    _ = W2 m ρ c (Proc.devRef .tc b) := StableHlo.after_of_writes_sub hostOps1 _ hostOps1_writes h1
    _ = W1 m ρ c (Proc.devRef .tc b) := W2_of_ne m ρ c b r0
    _ = W0 m ρ c (Proc.devRef .tc b) := StableHlo.after_of_writes_sub hostOps0 _ hostOps0_writes h0
    _ = m ((c : Thread nD τ).loc b) := rfl

/-- THE FRAME of the reference at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W9_kept m ρ c main_arg0 (by decide) (by decide) (by decide) (by decide) (by decide) (by decide) (by decide) (by decide) (by decide)),
     (h c _ (mem_uc main_arg1 (by decide))).trans (W9_kept m ρ c main_arg1 (by decide) (by decide) (by decide) (by decide) (by decide) (by decide) (by decide) (by decide) (by decide)),
     (h c _ (mem_uc main_arg2 (by decide))).trans (W9_kept m ρ c main_arg2 (by decide) (by decide) (by decide) (by decide) (by decide) (by decide) (by decide) (by decide) (by decide)),
     (h c _ (mem_uc main_arg3 (by decide))).trans (W9_kept m ρ c main_arg3 (by decide) (by decide) (by decide) (by decide) (by decide) (by decide) (by decide) (by decide) (by decide)),
     (h c _ (mem_uc main_arg4 (by decide))).trans (W9_kept m ρ c main_arg4 (by decide) (by decide) (by decide) (by decide) (by decide) (by decide) (by decide) (by decide) (by decide)),
     (h c _ (mem_uc main_arg5 (by decide))).trans (W9_kept m ρ c main_arg5 (by decide) (by decide) (by decide) (by decide) (by decide) (by decide) (by decide) (by decide) (by decide)),
     (h c _ (mem_uc main_arg6 (by decide))).trans (W9_kept m ρ c main_arg6 (by decide) (by decide) (by decide) (by decide) (by decide) (by decide) (by decide) (by decide) (by decide)),
     (h c _ (mem_uc main_arg7 (by decide))).trans (W9_kept m ρ c main_arg7 (by decide) (by decide) (by decide) (by decide) (by decide) (by decide) (by decide) (by decide) (by decide)),
     (h c _ (mem_uc main_arg8 (by decide))).trans (W9_kept m ρ c main_arg8 (by decide) (by decide) (by decide) (by decide) (by decide) (by decide) (by decide) (by decide) (by decide)),
     (h c _ (mem_uc main_arg9 (by decide))).trans (W9_kept m ρ c main_arg9 (by decide) (by decide) (by decide) (by decide) (by decide) (by decide) (by decide) (by decide) (by decide)),
     (h c _ (mem_uc main_arg10 (by decide))).trans (W9_kept m ρ c main_arg10 (by decide) (by decide) (by decide) (by decide) (by decide) (by decide) (by decide) (by decide) (by decide))⟩)
    (run_all m ρ)

end Cert.ReferenceIdeal.Hand

end
-- ==== Proof.Ref.Proj0Arr.lean ====
/-
  What the input projection of layer 0 (pipeline 0 of the reference) leaves in its result array: ONE function of the three
  input arrays, index by index. Row r = 512 t + y of the result is row y of the body's payload at rows
  512 t … 512 t + 511 of the activations, the whole weight matrix and the bias row: every grid point writes its
  512-row block back, the 32 blocks tile the 16384 rows, and what point t writes is the block of that one function.
  The input arrays are never written.
-/
import proofs.«114155_g2000202467955933_pallasbulk_1200_31_alg».proof.Proof.Ref.Proj0
import Idealize.ShloMosaic.Lib.Pipeline.Value
import Idealize.ShloMosaic.Lib.Pipeline.Cells
import Idealize.ShloMosaic.Lib.ValueIdx

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat)
open Cert.ReferenceIdeal.Gen

variable {F : FTy → Type} [FloatOps F]

variable (V : (c : Dev nD) → (b : Ref sig .tc) → Buf (Elt F) ((c : Thread nD τ).loc b))

/-! ## The inputs -/

/-- An input window's array is never written: after the run it holds what the region found. -/
theorem arrAt0_in (c : Dev nD) (w : Fin cfg0.W) (hw : (cfg0.win w).isOut = false) :
    (dat0 V c).arrAt w cfg0.N = V c (Pipeline.arrRef spec0 w) :=
  ((dat0 V c).arrAt_in w hw _).trans (A_eq0 V c w)

/-! ## The result as one function of the inputs -/

/-- Rows `512 t … 512 t + 511` of a 16384-row array. -/
def rows0 (X : S16384x256.Idx → Elt F .f32) (t : Nat) (ht : t < 32) : S512x256.Idx → Elt F .f32 :=
  fun y => X (ix2 ⟨512 * t + (y 0).val, by have := idx2_lt0 y; omega⟩ (y 1))

/-- The result array of the three input arrays: at row `r`, row `r % 512` of the payload of the activations' rows of
    the block `r / 512`, the weights and the bias. -/
def proj0 (X : S16384x256.Idx → Elt F .f32) (W : S256x2048.Idx → Elt F .f32) (B : S1x2048.Idx → Elt F .f32) : S16384x2048.Idx → Elt F .f32 :=
  fun i => k0_pay1 (rows0 X ((i 0).val / 512) (by have := idx2_lt0 i; omega)) W B (ix2 ⟨(i 0).val % 512, Nat.mod_lt _ (by decide)⟩ (i 1))

/-- The printed index maps over the grid: the activations' and the result's blocks move with the point along the rows,
    the weights' and the bias's block is the whole array at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The activations' block at point `t` is rows `512 t …` of the array. -/
theorem iblk0_0_eq (c : Dev nD) (t : Fin cfg0.N) (ht : t.val < 32) :
    iblk0 V c 0 t = rows0 (V c (Pipeline.arrRef spec0 0)) t.val ht := by
  obtain ⟨a0, a1, -⟩ := idx_facts0 t
  funext y
  show V c (Pipeline.arrRef spec0 0) (((cfg0.win 0).blk t).view.emb y) = V c (Pipeline.arrRef spec0 0) _
  congr 1
  funext a; apply Fin.ext
  match a with
  | ⟨0, _⟩ => show win0_0.index t (0 : Fin 2) * 512 + 1 * (y 0).val = 512 * t.val + (y 0).val; omega
  | ⟨1, _⟩ => show win0_0.index t (1 : Fin 2) * 256 + 1 * (y 1).val = (y 1).val; omega

/-- The weights' block at every point is the whole array. -/
theorem iblk0_1_eq (c : Dev nD) (t : Fin cfg0.N) : iblk0 V c 1 t = V c (Pipeline.arrRef spec0 1) := by
  obtain ⟨-, -, b0, b1, -⟩ := idx_facts0 t
  funext y
  show V c (Pipeline.arrRef spec0 1) (((cfg0.win 1).blk t).view.emb y) = V c (Pipeline.arrRef spec0 1) y
  congr 1
  funext a; apply Fin.ext
  match a with
  | ⟨0, _⟩ => show win0_1.index t (0 : Fin 2) * 256 + 1 * (y 0).val = (y 0).val; omega
  | ⟨1, _⟩ => show win0_1.index t (1 : Fin 2) * 2048 + 1 * (y 1).val = (y 1).val; omega

/-- The bias's block at every point is the whole row. -/
theorem iblk0_2_eq (c : Dev nD) (t : Fin cfg0.N) : iblk0 V c 2 t = V c (Pipeline.arrRef spec0 2) := by
  obtain ⟨-, -, -, -, c0, c1, -⟩ := idx_facts0 t
  funext y
  show V c (Pipeline.arrRef spec0 2) (((cfg0.win 2).blk t).view.emb y) = V c (Pipeline.arrRef spec0 2) y
  congr 1
  funext a; apply Fin.ext
  match a with
  | ⟨0, _⟩ => show win0_2.index t (0 : Fin 2) * 1 + 1 * (y 0).val = (y 0).val; omega
  | ⟨1, _⟩ => show win0_2.index t (1 : Fin 2) * 2048 + 1 * (y 1).val = (y 1).val; omega

/-- What point `t` writes back is block `t` of the one function of the input arrays. -/
theorem flushed0_eq (c : Dev nD) (t : Fin cfg0.N) :
    (dat0 V c).flushed 3 t = ((cfg0.win 3).blk t).view.read (Elt F)
      (proj0 (V c (Pipeline.arrRef spec0 0)) (V c (Pipeline.arrRef spec0 1)) (V c (Pipeline.arrRef spec0 2))) := by
  show (cfg0.win 3).cut (grid0.coords t) ((dat0 V c).after 3 t) = _
  rw [after0_out]
  have ht : t.val < 32 := by have h := t.isLt; have e : cfg0.N = 32 := N_0; omega
  rw [iblk0_0_eq V c t ht, iblk0_1_eq, iblk0_2_eq]
  obtain ⟨-, -, -, -, -, -, d0, d1⟩ := idx_facts0 t
  funext j
  have hj0 : (j 0).val < 512 := (j 0).isLt
  have hj1 : (j 1).val < 2048 := (j 1).isLt
  have e0 : ((((cfg0.win 3).blk t).view.emb j) 0).val = win0_3.index t (0 : Fin 2) * 512 + 1 * (j 0).val := rfl
  have e1 : ((((cfg0.win 3).blk t).view.emb j) 1).val = win0_3.index t (1 : Fin 2) * 2048 + 1 * (j 1).val := rfl
  show k0_pay1 _ _ _ j = proj0 _ _ _ (((cfg0.win 3).blk t).view.emb j)
  unfold proj0
  have hq : ((((cfg0.win 3).blk t).view.emb j) 0).val / 512 = t.val := by rw [e0]; omega
  congr 1
  · congr 1
    exact hq.symm
  · funext a; apply Fin.ext
    match a with
    | ⟨0, _⟩ => show (j 0).val = ((((cfg0.win 3).blk t).view.emb j) 0).val % 512; rw [e0]; omega
    | ⟨1, _⟩ => show (j 1).val = ((((cfg0.win 3).blk t).view.emb j) 1).val; rw [e1]; omega

/-- An index of the result array is in point `t`'s block iff each coordinate is in the block's range on its axis. -/
theorem mem_blk0 (t : Fin cfg0.N) (i : S16384x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_call0_v8).slice (win0_3.rect t)).set ↔ _
  rw [View.set_slice_whole, Rect.mem_set_unit]
  exact Iff.rfl

/-- Every index of the result array is in the block of the point `row / 512`, which writes back. -/
theorem cover0 (i : S16384x2048.Idx) : ∃ t : Fin cfg0.N, (cfg0.win 3).flush t = true ∧ i ∈ ((cfg0.win 3).blk t).view.set := by
  have hi0 : (i 0).val < 16384 := idx2_lt0 i
  have hi1 : (i 1).val < 2048 := idx2_lt1 i
  have hN : (i 0).val / 512 < cfg0.N := by rw [show cfg0.N = grid0.N from rfl, N_0]; omega
  refine ⟨⟨(i 0).val / 512, hN⟩, flush0_3 _, ?_⟩
  rw [mem_blk0]
  obtain ⟨-, -, -, -, -, -, d0, d1⟩ := idx_facts0 ⟨(i 0).val / 512, hN⟩
  have d0' : win0_3.index ⟨(i 0).val / 512, hN⟩ (0 : Fin 2) = (i 0).val / 512 := d0
  intro a
  match a with
  | ⟨0, _⟩ => show win0_3.index ⟨(i 0).val / 512, hN⟩ (0 : Fin 2) * 512 ≤ (i 0).val ∧ (i 0).val < win0_3.index ⟨(i 0).val / 512, hN⟩ (0 : Fin 2) * 512 + 512; omega
  | ⟨1, _⟩ => show win0_3.index ⟨(i 0).val / 512, hN⟩ (1 : Fin 2) * 2048 ≤ (i 1).val ∧ (i 1).val < win0_3.index ⟨(i 0).val / 512, hN⟩ (1 : Fin 2) * 2048 + 2048; omega

/-- THE RESULT ARRAY after the run: the one function of the input arrays as the region found them. -/
theorem arrAt0_out (c : Dev nD) :
    (dat0 V c).arrAt 3 cfg0.N
      = proj0 (V c (Pipeline.arrRef spec0 0)) (V c (Pipeline.arrRef spec0 1)) (V c (Pipeline.arrRef spec0 2)) :=
  (dat0 V c).arrAt_eq_of_cover 3 _ (fun t _ => flushed0_eq V c t) cover0

end Cert.ReferenceIdeal.Hand

end
-- ==== Proof.Ref.Proj0Ideal.lean ====
/-
  The input projection of layer 0 at the ideal values, index by index: the result array is the product of the WHOLE
  activations array by the weight matrix plus the bias row,
      result (r, q) = (∑ k, x (r, k) * w (k, q)) + b (0, q),
  with no rounding and no blocking left in it: a block's row of the product only reads that row of the activations.
-/
import proofs.«114155_g2000202467955933_pallasbulk_1200_31_alg».proof.Proof.Ref.Proj0Arr
import Idealize.ShloMosaic.Lib.ValueIdx
import Idealize.ShloMosaic.Lib.Pipeline.Value
import Idealize.ShloMosaic.PureOps.Ideal.Laws

set_option maxRecDepth 16384

noncomputable section

namespace Cert.ReferenceIdeal.Hand

open Idealize.ShloMosaic Idealize.ShloMosaic.TcCoe Idealize.ShloMosaic.ValueIdx
open Idealize.SL Idealize.SL.Sem
open Cert.ReferenceIdeal.Gen
open scoped BigOperators

/-- The product's left operand index at output `(p, q)` and contraction position `k` is `(p, k)`. -/
theorem lhsIdx0 (p : Fin 512) (q : Fin 2048) (k : Fin 256) :
    dot_S512x256_S256x2048_S512x2048_1_0_0_1_n_n.lhsIdx (ix2 p q) ((contrEquiv1 dot_S512x256_S256x2048_S512x2048_1_0_0_1_n_n 256 rfl rfl).symm k) = ix2 p k := by
  have ck := contrEquiv1_symm_val dot_S512x256_S256x2048_S512x2048_1_0_0_1_n_n 256 rfl rfl k
  funext ax; apply Fin.ext
  match ax with
  | ⟨0, _⟩ => simp [DotDims.lhsIdx, dot_S512x256_S256x2048_S512x2048_1_0_0_1_n_n]; rfl
  | ⟨1, _⟩ => simp [DotDims.lhsIdx, dot_S512x256_S256x2048_S512x2048_1_0_0_1_n_n]; exact ck

/-- The right operand's is `(k, q)`. -/
theorem rhsIdx0 (p : Fin 512) (q : Fin 2048) (k : Fin 256) :
    dot_S512x256_S256x2048_S512x2048_1_0_0_1_n_n.rhsIdx (ix2 p q) ((contrEquiv1 dot_S512x256_S256x2048_S512x2048_1_0_0_1_n_n 256 rfl rfl).symm k) = ix2 k q := by
  have ck := contrEquiv1_symm_val dot_S512x256_S256x2048_S512x2048_1_0_0_1_n_n 256 rfl rfl k
  funext ax; apply Fin.ext
  match ax with
  | ⟨0, _⟩ => simp [DotDims.rhsIdx, dot_S512x256_S256x2048_S512x2048_1_0_0_1_n_n]; exact ck
  | ⟨1, _⟩ => simp [DotDims.rhsIdx, dot_S512x256_S256x2048_S512x2048_1_0_0_1_n_n]; rfl

/-- The body's payload at an index, at the ideal values: the row of the block by the column of the weights, plus the bias. -/
theorem pay0_apply (x : Vec Ideal S512x256 .f32) (w : Vec Ideal S256x2048 .f32) (b : Vec Ideal S1x2048 .f32) (p : Fin 512) (q : Fin 2048) :
    k0_pay1 (F := Ideal) x w b (ix2 p q) = (∑ k : Fin 256, x (ix2 p k) * w (ix2 k q)) + b (ix2 0 q) := by
  unfold k0_pay1
  rw [addf_apply, shapeCast_self, shapeCast_self, shapeCast_self]
  rw [broadcastTo_apply b broadcasts_S1x2048_S512x2048 (ix2 p q) (ix2 0 q) (fun a => by
    match a with
    | ⟨0, _⟩ => rfl
    | ⟨1, _⟩ => rfl)]
  simp only [matmul]
  rw [Ideal.matmul_constant_zero_apply, ← Equiv.sum_comp (contrEquiv1 dot_S512x256_S256x2048_S512x2048_1_0_0_1_n_n 256 rfl rfl).symm]
  congr 1
  refine Finset.sum_congr rfl fun k _ => ?_
  rw [lhsIdx0, rhsIdx0]

/-- THE RESULT ARRAY at the ideal values, index by index: the whole activations array times the weights, plus the bias. -/
theorem proj0_ideal (X : S16384x256.Idx → Elt Ideal .f32) (W : S256x2048.Idx → Elt Ideal .f32) (B : S1x2048.Idx → Elt Ideal .f32) (i : S16384x2048.Idx) :
    proj0 (F := Ideal) X W B i = (∑ k : Fin 256, X (ix2 (i 0) k) * W (ix2 k (i 1))) + B (ix2 0 (i 1)) := by
  unfold proj0
  refine (pay0_apply _ _ _ _ _).trans ?_
  congr 1
  refine Finset.sum_congr rfl fun k _ => ?_
  congr 1
  unfold rows0
  congr 1
  funext a; apply Fin.ext
  match a with
  | ⟨0, _⟩ => show 512 * ((i 0).val / 512) + (i 0).val % 512 = (i 0).val; omega
  | ⟨1, _⟩ => rfl

end Cert.ReferenceIdeal.Hand

end
-- ==== Proof.Ref.Proj2Arr.lean ====
/-
  What the input projection of layer 1 (pipeline 2 of the reference) leaves in its result array: ONE function of the three
  input arrays, index by index. Row r = 512 t + y of the result is row y of the body's payload at rows
  512 t … 512 t + 511 of the activations, the whole weight matrix and the bias row: every grid point writes its
  512-row block back, the 32 blocks tile the 16384 rows, and what point t writes is the block of that one function.
  The input arrays are never written.
-/
import proofs.«114155_g2000202467955933_pallasbulk_1200_31_alg».proof.Proof.Ref.Proj2
import Idealize.ShloMosaic.Lib.Pipeline.Value
import Idealize.ShloMosaic.Lib.Pipeline.Cells
import Idealize.ShloMosaic.Lib.ValueIdx

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat)
open Cert.ReferenceIdeal.Gen

variable {F : FTy → Type} [FloatOps F]

variable (V : (c : Dev nD) → (b : Ref sig .tc) → Buf (Elt F) ((c : Thread nD τ).loc b))

/-! ## The inputs -/

/-- An input window's array is never written: after the run it holds what the region found. -/
theorem arrAt2_in (c : Dev nD) (w : Fin cfg2.W) (hw : (cfg2.win w).isOut = false) :
    (dat2 V c).arrAt w cfg2.N = V c (Pipeline.arrRef spec2 w) :=
  ((dat2 V c).arrAt_in w hw _).trans (A_eq2 V c w)

/-! ## The result as one function of the inputs -/

/-- Rows `512 t … 512 t + 511` of a 16384-row array. -/
def rows2 (X : S16384x512.Idx → Elt F .f32) (t : Nat) (ht : t < 32) : S512x512.Idx → Elt F .f32 :=
  fun y => X (ix2 ⟨512 * t + (y 0).val, by have := idx2_lt0 y; omega⟩ (y 1))

/-- The result array of the three input arrays: at row `r`, row `r % 512` of the payload of the activations' rows of
    the block `r / 512`, the weights and the bias. -/
def proj2 (X : S16384x512.Idx → Elt F .f32) (W : S512x2048.Idx → Elt F .f32) (B : S1x2048.Idx → Elt F .f32) : S16384x2048.Idx → Elt F .f32 :=
  fun i => k2_pay1 (rows2 X ((i 0).val / 512) (by have := idx2_lt0 i; omega)) W B (ix2 ⟨(i 0).val % 512, Nat.mod_lt _ (by decide)⟩ (i 1))

/-- The printed index maps over the grid: the activations' and the result's blocks move with the point along the rows,
    the weights' and the bias's block is the whole array at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The activations' block at point `t` is rows `512 t …` of the array. -/
theorem iblk2_0_eq (c : Dev nD) (t : Fin cfg2.N) (ht : t.val < 32) :
    iblk2 V c 0 t = rows2 (V c (Pipeline.arrRef spec2 0)) t.val ht := by
  obtain ⟨a0, a1, -⟩ := idx_facts2 t
  funext y
  show V c (Pipeline.arrRef spec2 0) (((cfg2.win 0).blk t).view.emb y) = V c (Pipeline.arrRef spec2 0) _
  congr 1
  funext a; apply Fin.ext
  match a with
  | ⟨0, _⟩ => show win2_0.index t (0 : Fin 2) * 512 + 1 * (y 0).val = 512 * t.val + (y 0).val; omega
  | ⟨1, _⟩ => show win2_0.index t (1 : Fin 2) * 512 + 1 * (y 1).val = (y 1).val; omega

/-- The weights' block at every point is the whole array. -/
theorem iblk2_1_eq (c : Dev nD) (t : Fin cfg2.N) : iblk2 V c 1 t = V c (Pipeline.arrRef spec2 1) := by
  obtain ⟨-, -, b0, b1, -⟩ := idx_facts2 t
  funext y
  show V c (Pipeline.arrRef spec2 1) (((cfg2.win 1).blk t).view.emb y) = V c (Pipeline.arrRef spec2 1) y
  congr 1
  funext a; apply Fin.ext
  match a with
  | ⟨0, _⟩ => show win2_1.index t (0 : Fin 2) * 512 + 1 * (y 0).val = (y 0).val; omega
  | ⟨1, _⟩ => show win2_1.index t (1 : Fin 2) * 2048 + 1 * (y 1).val = (y 1).val; omega

/-- The bias's block at every point is the whole row. -/
theorem iblk2_2_eq (c : Dev nD) (t : Fin cfg2.N) : iblk2 V c 2 t = V c (Pipeline.arrRef spec2 2) := by
  obtain ⟨-, -, -, -, c0, c1, -⟩ := idx_facts2 t
  funext y
  show V c (Pipeline.arrRef spec2 2) (((cfg2.win 2).blk t).view.emb y) = V c (Pipeline.arrRef spec2 2) y
  congr 1
  funext a; apply Fin.ext
  match a with
  | ⟨0, _⟩ => show win2_2.index t (0 : Fin 2) * 1 + 1 * (y 0).val = (y 0).val; omega
  | ⟨1, _⟩ => show win2_2.index t (1 : Fin 2) * 2048 + 1 * (y 1).val = (y 1).val; omega

/-- What point `t` writes back is block `t` of the one function of the input arrays. -/
theorem flushed2_eq (c : Dev nD) (t : Fin cfg2.N) :
    (dat2 V c).flushed 3 t = ((cfg2.win 3).blk t).view.read (Elt F)
      (proj2 (V c (Pipeline.arrRef spec2 0)) (V c (Pipeline.arrRef spec2 1)) (V c (Pipeline.arrRef spec2 2))) := by
  show (cfg2.win 3).cut (grid2.coords t) ((dat2 V c).after 3 t) = _
  rw [after2_out]
  have ht : t.val < 32 := by have h := t.isLt; have e : cfg2.N = 32 := N_2; omega
  rw [iblk2_0_eq V c t ht, iblk2_1_eq, iblk2_2_eq]
  obtain ⟨-, -, -, -, -, -, d0, d1⟩ := idx_facts2 t
  funext j
  have hj0 : (j 0).val < 512 := (j 0).isLt
  have hj1 : (j 1).val < 2048 := (j 1).isLt
  have e0 : ((((cfg2.win 3).blk t).view.emb j) 0).val = win2_3.index t (0 : Fin 2) * 512 + 1 * (j 0).val := rfl
  have e1 : ((((cfg2.win 3).blk t).view.emb j) 1).val = win2_3.index t (1 : Fin 2) * 2048 + 1 * (j 1).val := rfl
  show k2_pay1 _ _ _ j = proj2 _ _ _ (((cfg2.win 3).blk t).view.emb j)
  unfold proj2
  have hq : ((((cfg2.win 3).blk t).view.emb j) 0).val / 512 = t.val := by rw [e0]; omega
  congr 1
  · congr 1
    exact hq.symm
  · funext a; apply Fin.ext
    match a with
    | ⟨0, _⟩ => show (j 0).val = ((((cfg2.win 3).blk t).view.emb j) 0).val % 512; rw [e0]; omega
    | ⟨1, _⟩ => show (j 1).val = ((((cfg2.win 3).blk t).view.emb j) 1).val; rw [e1]; omega

/-- An index of the result array is in point `t`'s block iff each coordinate is in the block's range on its axis. -/
theorem mem_blk2 (t : Fin cfg2.N) (i : S16384x2048.Idx) :
    i ∈ ((cfg2.win 3).blk t).view.set ↔ ∀ a : Fin 2, win2_3.index t a * S512x2048.size a ≤ (i a).val ∧ (i a).val < win2_3.index t a * S512x2048.size a + S512x2048.size a := by
  show i ∈ ((View.whole main_call0_v16).slice (win2_3.rect t)).set ↔ _
  rw [View.set_slice_whole, Rect.mem_set_unit]
  exact Iff.rfl

/-- Every index of the result array is in the block of the point `row / 512`, which writes back. -/
theorem cover2 (i : S16384x2048.Idx) : ∃ t : Fin cfg2.N, (cfg2.win 3).flush t = true ∧ i ∈ ((cfg2.win 3).blk t).view.set := by
  have hi0 : (i 0).val < 16384 := idx2_lt0 i
  have hi1 : (i 1).val < 2048 := idx2_lt1 i
  have hN : (i 0).val / 512 < cfg2.N := by rw [show cfg2.N = grid2.N from rfl, N_2]; omega
  refine ⟨⟨(i 0).val / 512, hN⟩, flush2_3 _, ?_⟩
  rw [mem_blk2]
  obtain ⟨-, -, -, -, -, -, d0, d1⟩ := idx_facts2 ⟨(i 0).val / 512, hN⟩
  have d0' : win2_3.index ⟨(i 0).val / 512, hN⟩ (0 : Fin 2) = (i 0).val / 512 := d0
  intro a
  match a with
  | ⟨0, _⟩ => show win2_3.index ⟨(i 0).val / 512, hN⟩ (0 : Fin 2) * 512 ≤ (i 0).val ∧ (i 0).val < win2_3.index ⟨(i 0).val / 512, hN⟩ (0 : Fin 2) * 512 + 512; omega
  | ⟨1, _⟩ => show win2_3.index ⟨(i 0).val / 512, hN⟩ (1 : Fin 2) * 2048 ≤ (i 1).val ∧ (i 1).val < win2_3.index ⟨(i 0).val / 512, hN⟩ (1 : Fin 2) * 2048 + 2048; omega

/-- THE RESULT ARRAY after the run: the one function of the input arrays as the region found them. -/
theorem arrAt2_out (c : Dev nD) :
    (dat2 V c).arrAt 3 cfg2.N
      = proj2 (V c (Pipeline.arrRef spec2 0)) (V c (Pipeline.arrRef spec2 1)) (V c (Pipeline.arrRef spec2 2)) :=
  (dat2 V c).arrAt_eq_of_cover 3 _ (fun t _ => flushed2_eq V c t) cover2

end Cert.ReferenceIdeal.Hand

end
-- ==== Proof.Ref.Proj2Ideal.lean ====
/-
  The input projection of layer 1 at the ideal values, index by index: the result array is the product of the WHOLE
  activations array by the weight matrix plus the bias row,
      result (r, q) = (∑ k, x (r, k) * w (k, q)) + b (0, q),
  with no rounding and no blocking left in it: a block's row of the product only reads that row of the activations.
-/
import proofs.«114155_g2000202467955933_pallasbulk_1200_31_alg».proof.Proof.Ref.Proj2Arr
import Idealize.ShloMosaic.Lib.ValueIdx
import Idealize.ShloMosaic.Lib.Pipeline.Value
import Idealize.ShloMosaic.PureOps.Ideal.Laws

set_option maxRecDepth 16384

noncomputable section

namespace Cert.ReferenceIdeal.Hand

open Idealize.ShloMosaic Idealize.ShloMosaic.TcCoe Idealize.ShloMosaic.ValueIdx
open Idealize.SL Idealize.SL.Sem
open Cert.ReferenceIdeal.Gen
open scoped BigOperators

/-- The product's left operand index at output `(p, q)` and contraction position `k` is `(p, k)`. -/
theorem lhsIdx2 (p : Fin 512) (q : Fin 2048) (k : Fin 512) :
    dot_S512x512_S512x2048_S512x2048_1_0_0_1_n_n.lhsIdx (ix2 p q) ((contrEquiv1 dot_S512x512_S512x2048_S512x2048_1_0_0_1_n_n 512 rfl rfl).symm k) = ix2 p k := by
  have ck := contrEquiv1_symm_val dot_S512x512_S512x2048_S512x2048_1_0_0_1_n_n 512 rfl rfl k
  funext ax; apply Fin.ext
  match ax with
  | ⟨0, _⟩ => simp [DotDims.lhsIdx, dot_S512x512_S512x2048_S512x2048_1_0_0_1_n_n]; rfl
  | ⟨1, _⟩ => simp [DotDims.lhsIdx, dot_S512x512_S512x2048_S512x2048_1_0_0_1_n_n]; exact ck

/-- The right operand's is `(k, q)`. -/
theorem rhsIdx2 (p : Fin 512) (q : Fin 2048) (k : Fin 512) :
    dot_S512x512_S512x2048_S512x2048_1_0_0_1_n_n.rhsIdx (ix2 p q) ((contrEquiv1 dot_S512x512_S512x2048_S512x2048_1_0_0_1_n_n 512 rfl rfl).symm k) = ix2 k q := by
  have ck := contrEquiv1_symm_val dot_S512x512_S512x2048_S512x2048_1_0_0_1_n_n 512 rfl rfl k
  funext ax; apply Fin.ext
  match ax with
  | ⟨0, _⟩ => simp [DotDims.rhsIdx, dot_S512x512_S512x2048_S512x2048_1_0_0_1_n_n]; exact ck
  | ⟨1, _⟩ => simp [DotDims.rhsIdx, dot_S512x512_S512x2048_S512x2048_1_0_0_1_n_n]; rfl

/-- The body's payload at an index, at the ideal values: the row of the block by the column of the weights, plus the bias. -/
theorem pay2_apply (x : Vec Ideal S512x512 .f32) (w : Vec Ideal S512x2048 .f32) (b : Vec Ideal S1x2048 .f32) (p : Fin 512) (q : Fin 2048) :
    k2_pay1 (F := Ideal) x w b (ix2 p q) = (∑ k : Fin 512, x (ix2 p k) * w (ix2 k q)) + b (ix2 0 q) := by
  unfold k2_pay1
  rw [addf_apply, shapeCast_self, shapeCast_self, shapeCast_self]
  rw [broadcastTo_apply b broadcasts_S1x2048_S512x2048 (ix2 p q) (ix2 0 q) (fun a => by
    match a with
    | ⟨0, _⟩ => rfl
    | ⟨1, _⟩ => rfl)]
  simp only [matmul]
  rw [Ideal.matmul_constant_zero_apply, ← Equiv.sum_comp (contrEquiv1 dot_S512x512_S512x2048_S512x2048_1_0_0_1_n_n 512 rfl rfl).symm]
  congr 1
  refine Finset.sum_congr rfl fun k _ => ?_
  rw [lhsIdx2, rhsIdx2]

/-- THE RESULT ARRAY at the ideal values, index by index: the whole activations array times the weights, plus the bias. -/
theorem proj2_ideal (X : S16384x512.Idx → Elt Ideal .f32) (W : S512x2048.Idx → Elt Ideal .f32) (B : S1x2048.Idx → Elt Ideal .f32) (i : S16384x2048.Idx) :
    proj2 (F := Ideal) X W B i = (∑ k : Fin 512, X (ix2 (i 0) k) * W (ix2 k (i 1))) + B (ix2 0 (i 1)) := by
  unfold proj2
  refine (pay2_apply _ _ _ _ _).trans ?_
  congr 1
  refine Finset.sum_congr rfl fun k _ => ?_
  congr 1
  unfold rows2
  congr 1
  funext a; apply Fin.ext
  match a with
  | ⟨0, _⟩ => show 512 * ((i 0).val / 512) + (i 0).val % 512 = (i 0).val; omega
  | ⟨1, _⟩ => rfl

end Cert.ReferenceIdeal.Hand

end
-- ==== Proof.Ref.Lstm1Arr.lean ====
import proofs.«114155_g2000202467955933_pallasbulk_1200_31_alg».proof.Proof.Ref.Lstm1
import Idealize.ShloMosaic.Lib.Pipeline.Value
import Idealize.ShloMosaic.Lib.ValueIdx

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## From the blocks to the arrays: what pipeline 1's write-backs leave -/

/-- The block (of 16 time steps) a time step of the 256 lies in, -/
def blkOf1 (i : S256x64x512.Idx) : Fin cfg1.N :=
  ⟨(i 0).val / 16, by rw [show cfg1.N = 16 from N_1]; have h : (i 0).val < 256 := (i 0).isLt; omega⟩
/-- and its index inside that block. -/
def inBlk1 (i : S256x64x512.Idx) : S16x64x512.Idx :=
  ValueIdx.ix3 (n0 := 16) (n1 := 64) (n2 := 512) ⟨(i 0).val % 16, Nat.mod_lt _ (by decide)⟩ ⟨(i 1).val, (i 1).isLt⟩ ⟨(i 2).val, (i 2).isLt⟩

/-- THE SEQUENCE OUTPUT as one array: time step `s` is row `s % 16` of what point `s / 16` stores. -/
def hseqArr1 (c : Dev nD) : Buf (Elt F) ((c : Thread nD τ).loc main_call0_v10_0) :=
  fun i => hseq1 V c (blkOf1 i) (inBlk1 i)

/-- It is `hseq1` of point `t` at `j` on row `16 t + j₀`. -/
theorem hseqArr1_apply (c : Dev nD) (t : Fin cfg1.N) (j : S16x64x512.Idx) (i : S256x64x512.Idx)
    (h0 : (i 0).val = t.val * 16 + (j 0).val) (h1 : (i 1).val = (j 1).val) (h2 : (i 2).val = (j 2).val) :
    hseqArr1 V c i = hseq1 V c t j := by
  have hj0 : (j 0).val < 16 := (j 0).isLt
  have ht : blkOf1 i = t := Fin.ext (by show (i 0).val / 16 = t.val; omega)
  have hj : inBlk1 i = j := by
    funext a
    match a with
    | ⟨0, _⟩ => exact Fin.ext (by show (i 0).val % 16 = (j 0).val; omega)
    | ⟨1, _⟩ => exact Fin.ext h1
    | ⟨2, _⟩ => exact Fin.ext h2
  show hseq1 V c (blkOf1 i) (inBlk1 i) = _
  rw [ht, hj]

/-- The printed index maps of the two output windows, decided over the grid. -/
theorem idx1_4 : ∀ t : Fin cfg1.N, win1_4.index t (0 : Fin 3) = t.val ∧ win1_4.index t (1 : Fin 3) = 0 ∧ win1_4.index t (2 : Fin 3) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)

/-- What point `t` writes back of the sequence output is block `t` of `hseqArr1`. -/
theorem flushed1_4_eq (c : Dev nD) (t : Fin cfg1.N) :
    (dat1 V c).flushed 4 t = ((cfg1.win 4).blk t).view.read (Elt F) (hseqArr1 V c) := by
  show (cfg1.win 4).cut (grid1.coords t) ((dat1 V c).after 4 t) = _
  rw [after1_4]
  obtain ⟨e0, e1, e2⟩ := idx1_4 t
  funext j
  show hseq1 V c t j = hseqArr1 V c (((cfg1.win 4).blk t).view.emb j)
  refine (hseqArr1_apply V c t j _ ?_ ?_ ?_).symm
  · show win1_4.index t (0 : Fin 3) * 16 + 1 * (j 0).val = t.val * 16 + (j 0).val; rw [e0]; omega
  · show win1_4.index t (1 : Fin 3) * 64 + 1 * (j 1).val = (j 1).val; rw [e1]; omega
  · show win1_4.index t (2 : Fin 3) * 512 + 1 * (j 2).val = (j 2).val; rw [e2]; omega

/-- THE SEQUENCE OUTPUT after the region: the 16 blocks tile the array. -/
theorem arrAt1_hseq (c : Dev nD) : (dat1 V c).arrAt 4 cfg1.N = hseqArr1 V c :=
  (dat1 V c).arrAt_eq_of_cover 4 (hseqArr1 V c) (fun t _ => flushed1_4_eq V c t) fun i =>
    ⟨blkOf1 i, flush1_4 _, by
      show i ∈ ((View.whole main_call0_v10_0).slice (win1_4.rect (blkOf1 i))).set
      rw [View.set_slice_whole, Rect.mem_set_unit]
      obtain ⟨e0, e1, e2⟩ := idx1_4 (blkOf1 i)
      have hb : (blkOf1 i).val = (i 0).val / 16 := rfl
      have h0 : (i 0 : Nat) < 256 := (i 0).isLt
      have h1 : (i 1 : Nat) < 64 := (i 1).isLt
      have h2 : (i 2 : Nat) < 512 := (i 2).isLt
      intro a
      match a with
      | ⟨0, _⟩ => show win1_4.index (blkOf1 i) (0 : Fin 3) * 16 ≤ (i 0 : Nat) ∧ (i 0 : Nat) < win1_4.index (blkOf1 i) (0 : Fin 3) * 16 + 16; rw [e0, hb]; omega
      | ⟨1, _⟩ => show win1_4.index (blkOf1 i) (1 : Fin 3) * 64 ≤ (i 1 : Nat) ∧ (i 1 : Nat) < win1_4.index (blkOf1 i) (1 : Fin 3) * 64 + 64; rw [e1]; omega
      | ⟨2, _⟩ => show win1_4.index (blkOf1 i) (2 : Fin 3) * 512 ≤ (i 2 : Nat) ∧ (i 2 : Nat) < win1_4.index (blkOf1 i) (2 : Fin 3) * 512 + 512; rw [e2]; omega⟩

/-- The projection output's one write-back (at the last point) writes `fc1`: its block is the whole array. -/
theorem flushed1_5_eq (c : Dev nD) (t : Fin cfg1.N) (hf : (cfg1.win 5).flush t = true) :
    (dat1 V c).flushed 5 t = ((cfg1.win 5).blk t).view.read (Elt F) (fc1 V c : Buf (Elt F) ((c : Thread nD τ).loc main_call0_v10_1)) := by
  show (cfg1.win 5).cut (grid1.coords t) ((dat1 V c).after 5 t) = _
  rw [after1_5]
  obtain ⟨e0, e1⟩ := idx1_5 t
  have hz' : (fun a => win1_5.index t a * main_call0_v10_1.ty.shape.size a) = fun _ => 0 := funext fun a => by
    match a with
    | ⟨0, _⟩ => show win1_5.index t (0 : Fin 2) * _ = 0; rw [e0]; exact Nat.zero_mul _
    | ⟨1, _⟩ => show win1_5.index t (1 : Fin 2) * _ = 0; rw [e1]; exact Nat.zero_mul _
  exact (Memref.read_access_unit_zero (Elt F) main_call0_v10_1 hz' (fun a => by rw [congrFun hz' a]; simp) (fc1 V c)).symm

/-- THE PROJECTION OUTPUT after the region. -/
theorem arrAt1_fc (c : Dev nD) : (dat1 V c).arrAt 5 cfg1.N = (fc1 V c : Buf (Elt F) ((c : Thread nD τ).loc main_call0_v10_1)) :=
  (dat1 V c).arrAt_eq_of_cover 5 (fc1 V c) (flushed1_5_eq V c) fun i =>
    ⟨t1_15, (flush1_5 t1_15).mpr rfl, by
      show i ∈ ((View.whole main_call0_v10_1).slice (win1_5.rect t1_15)).set
      rw [View.set_slice_whole, Rect.mem_set_unit]
      obtain ⟨e0, e1⟩ := idx1_5 t1_15
      have h0 : (i 0 : Nat) < 64 := (i 0).isLt
      have h1 : (i 1 : Nat) < 128 := (i 1).isLt
      intro a
      match a with
      | ⟨0, _⟩ => show win1_5.index t1_15 (0 : Fin 2) * 64 ≤ (i 0 : Nat) ∧ (i 0 : Nat) < win1_5.index t1_15 (0 : Fin 2) * 64 + 64; rw [e0]; omega
      | ⟨1, _⟩ => show win1_5.index t1_15 (1 : Fin 2) * 128 ≤ (i 1 : Nat) ∧ (i 1 : Nat) < win1_5.index t1_15 (1 : Fin 2) * 128 + 128; rw [e1]; omega⟩

/-- An input window's array is never written: it ends as the region found it. -/
theorem arrAt1_in (c : Dev nD) (w : Fin cfg1.W) (hw : w.val < 4) : (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨4, _⟩, h => exact absurd h (Nat.lt_irrefl 4)
    | ⟨5, _⟩, h => exact absurd h (by show ¬(5 < 4); decide)
  exact ((dat1 V c).arrAt_in w hin cfg1.N).trans (A_eq1 V c w)

end Region1

end Cert.ReferenceIdeal.Hand

end
-- ==== Proof.Ref.Lstm3Arr.lean ====
import proofs.«114155_g2000202467955933_pallasbulk_1200_31_alg».proof.Proof.Ref.Lstm3
import Idealize.ShloMosaic.Lib.Pipeline.Value
import Idealize.ShloMosaic.Lib.ValueIdx

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-! ## From the blocks to the arrays: what pipeline 3's write-backs leave -/

/-- The block (of 16 time steps) a time step of the 256 lies in, -/
def blkOf3 (i : S256x64x512.Idx) : Fin cfg3.N :=
  ⟨(i 0).val / 16, by rw [show cfg3.N = 16 from N_3]; have h : (i 0).val < 256 := (i 0).isLt; omega⟩
/-- and its index inside that block. -/
def inBlk3 (i : S256x64x512.Idx) : S16x64x512.Idx :=
  ValueIdx.ix3 (n0 := 16) (n1 := 64) (n2 := 512) ⟨(i 0).val % 16, Nat.mod_lt _ (by decide)⟩ ⟨(i 1).val, (i 1).isLt⟩ ⟨(i 2).val, (i 2).isLt⟩

/-- THE SEQUENCE OUTPUT as one array: time step `s` is row `s % 16` of what point `s / 16` stores. -/
def hseqArr3 (c : Dev nD) : Buf (Elt F) ((c : Thread nD τ).loc main_call0_v18_0) :=
  fun i => hseq3 V c (blkOf3 i) (inBlk3 i)

/-- It is `hseq3` of point `t` at `j` on row `16 t + j₀`. -/
theorem hseqArr3_apply (c : Dev nD) (t : Fin cfg3.N) (j : S16x64x512.Idx) (i : S256x64x512.Idx)
    (h0 : (i 0).val = t.val * 16 + (j 0).val) (h1 : (i 1).val = (j 1).val) (h2 : (i 2).val = (j 2).val) :
    hseqArr3 V c i = hseq3 V c t j := by
  have hj0 : (j 0).val < 16 := (j 0).isLt
  have ht : blkOf3 i = t := Fin.ext (by show (i 0).val / 16 = t.val; omega)
  have hj : inBlk3 i = j := by
    funext a
    match a with
    | ⟨0, _⟩ => exact Fin.ext (by show (i 0).val % 16 = (j 0).val; omega)
    | ⟨1, _⟩ => exact Fin.ext h1
    | ⟨2, _⟩ => exact Fin.ext h2
  show hseq3 V c (blkOf3 i) (inBlk3 i) = _
  rw [ht, hj]

/-- The printed index maps of the two output windows, decided over the grid. -/
theorem idx3_4 : ∀ t : Fin cfg3.N, win3_4.index t (0 : Fin 3) = t.val ∧ win3_4.index t (1 : Fin 3) = 0 ∧ win3_4.index t (2 : Fin 3) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)

/-- What point `t` writes back of the sequence output is block `t` of `hseqArr3`. -/
theorem flushed3_4_eq (c : Dev nD) (t : Fin cfg3.N) :
    (dat3 V c).flushed 4 t = ((cfg3.win 4).blk t).view.read (Elt F) (hseqArr3 V c) := by
  show (cfg3.win 4).cut (grid3.coords t) ((dat3 V c).after 4 t) = _
  rw [after3_4]
  obtain ⟨e0, e1, e2⟩ := idx3_4 t
  funext j
  show hseq3 V c t j = hseqArr3 V c (((cfg3.win 4).blk t).view.emb j)
  refine (hseqArr3_apply V c t j _ ?_ ?_ ?_).symm
  · show win3_4.index t (0 : Fin 3) * 16 + 1 * (j 0).val = t.val * 16 + (j 0).val; rw [e0]; omega
  · show win3_4.index t (1 : Fin 3) * 64 + 1 * (j 1).val = (j 1).val; rw [e1]; omega
  · show win3_4.index t (2 : Fin 3) * 512 + 1 * (j 2).val = (j 2).val; rw [e2]; omega

/-- THE SEQUENCE OUTPUT after the region: the 16 blocks tile the array. -/
theorem arrAt3_hseq (c : Dev nD) : (dat3 V c).arrAt 4 cfg3.N = hseqArr3 V c :=
  (dat3 V c).arrAt_eq_of_cover 4 (hseqArr3 V c) (fun t _ => flushed3_4_eq V c t) fun i =>
    ⟨blkOf3 i, flush3_4 _, by
      show i ∈ ((View.whole main_call0_v18_0).slice (win3_4.rect (blkOf3 i))).set
      rw [View.set_slice_whole, Rect.mem_set_unit]
      obtain ⟨e0, e1, e2⟩ := idx3_4 (blkOf3 i)
      have hb : (blkOf3 i).val = (i 0).val / 16 := rfl
      have h0 : (i 0 : Nat) < 256 := (i 0).isLt
      have h1 : (i 1 : Nat) < 64 := (i 1).isLt
      have h2 : (i 2 : Nat) < 512 := (i 2).isLt
      intro a
      match a with
      | ⟨0, _⟩ => show win3_4.index (blkOf3 i) (0 : Fin 3) * 16 ≤ (i 0 : Nat) ∧ (i 0 : Nat) < win3_4.index (blkOf3 i) (0 : Fin 3) * 16 + 16; rw [e0, hb]; omega
      | ⟨1, _⟩ => show win3_4.index (blkOf3 i) (1 : Fin 3) * 64 ≤ (i 1 : Nat) ∧ (i 1 : Nat) < win3_4.index (blkOf3 i) (1 : Fin 3) * 64 + 64; rw [e1]; omega
      | ⟨2, _⟩ => show win3_4.index (blkOf3 i) (2 : Fin 3) * 512 ≤ (i 2 : Nat) ∧ (i 2 : Nat) < win3_4.index (blkOf3 i) (2 : Fin 3) * 512 + 512; rw [e2]; omega⟩

/-- The projection output's one write-back (at the last point) writes `fc3`: its block is the whole array. -/
theorem flushed3_5_eq (c : Dev nD) (t : Fin cfg3.N) (hf : (cfg3.win 5).flush t = true) :
    (dat3 V c).flushed 5 t = ((cfg3.win 5).blk t).view.read (Elt F) (fc3 V c : Buf (Elt F) ((c : Thread nD τ).loc main_call0_v18_1)) := by
  show (cfg3.win 5).cut (grid3.coords t) ((dat3 V c).after 5 t) = _
  rw [after3_5]
  obtain ⟨e0, e1⟩ := idx3_5 t
  have hz' : (fun a => win3_5.index t a * main_call0_v18_1.ty.shape.size a) = fun _ => 0 := funext fun a => by
    match a with
    | ⟨0, _⟩ => show win3_5.index t (0 : Fin 2) * _ = 0; rw [e0]; exact Nat.zero_mul _
    | ⟨1, _⟩ => show win3_5.index t (1 : Fin 2) * _ = 0; rw [e1]; exact Nat.zero_mul _
  exact (Memref.read_access_unit_zero (Elt F) main_call0_v18_1 hz' (fun a => by rw [congrFun hz' a]; simp) (fc3 V c)).symm

/-- THE PROJECTION OUTPUT after the region. -/
theorem arrAt3_fc (c : Dev nD) : (dat3 V c).arrAt 5 cfg3.N = (fc3 V c : Buf (Elt F) ((c : Thread nD τ).loc main_call0_v18_1)) :=
  (dat3 V c).arrAt_eq_of_cover 5 (fc3 V c) (flushed3_5_eq V c) fun i =>
    ⟨t3_15, (flush3_5 t3_15).mpr rfl, by
      show i ∈ ((View.whole main_call0_v18_1).slice (win3_5.rect t3_15)).set
      rw [View.set_slice_whole, Rect.mem_set_unit]
      obtain ⟨e0, e1⟩ := idx3_5 t3_15
      have h0 : (i 0 : Nat) < 64 := (i 0).isLt
      have h1 : (i 1 : Nat) < 128 := (i 1).isLt
      intro a
      match a with
      | ⟨0, _⟩ => show win3_5.index t3_15 (0 : Fin 2) * 64 ≤ (i 0 : Nat) ∧ (i 0 : Nat) < win3_5.index t3_15 (0 : Fin 2) * 64 + 64; rw [e0]; omega
      | ⟨1, _⟩ => show win3_5.index t3_15 (1 : Fin 2) * 128 ≤ (i 1 : Nat) ∧ (i 1 : Nat) < win3_5.index t3_15 (1 : Fin 2) * 128 + 128; rw [e1]; omega⟩

/-- An input window's array is never written: it ends as the region found it. -/
theorem arrAt3_in (c : Dev nD) (w : Fin cfg3.W) (hw : w.val < 4) : (dat3 V c).arrAt w cfg3.N = V c (Pipeline.arrRef spec3 w) := by
  have hin : (cfg3.win w).isOut = false := by
    match w, hw with
    | ⟨0, _⟩, _ => rfl
    | ⟨1, _⟩, _ => rfl
    | ⟨2, _⟩, _ => rfl
    | ⟨3, _⟩, _ => rfl
    | ⟨4, _⟩, h => exact absurd h (Nat.lt_irrefl 4)
    | ⟨5, _⟩, h => exact absurd h (by show ¬(5 < 4); decide)
  exact ((dat3 V c).arrAt_in w hin cfg3.N).trans (A_eq3 V c w)

end Region3

end Cert.ReferenceIdeal.Hand

end
-- ==== Proof.Ref.GateInputs.lean ====
/-
  The reference's gate inputs are the specification's projection.

  Read off the fold of the buffers' contents through @main: the arrays the host operations write (transposed weights,
  summed biases, the activations and hidden states laid time-major as 16384 rows, the projections laid as 256 time
  steps of 64 rows), what persists from one region's entry to a later one's, and then the two facts the recurrences
  rest on: block t of a layer's reshaped projection, at time step r of the block, batch row b and column j, is row
  64·(16 t + r) + b of (activations · weights + bias) — the gate inputs of time step 16 t + r; and the recurrences'
  other windows are whole arrays at every point.
-/
import proofs.«114155_g2000202467955933_pallasbulk_1200_31_alg».proof.Proof.Ref.Run
import proofs.«114155_g2000202467955933_pallasbulk_1200_31_alg».proof.Proof.Ref.Proj0Ideal
import proofs.«114155_g2000202467955933_pallasbulk_1200_31_alg».proof.Proof.Ref.Proj2Ideal
import proofs.«114155_g2000202467955933_pallasbulk_1200_31_alg».proof.Proof.Ref.Lstm1Arr
import proofs.«114155_g2000202467955933_pallasbulk_1200_31_alg».proof.Proof.Ref.Lstm3Arr
import proofs.«114155_g2000202467955933_pallasbulk_1200_31_alg».proof.Proof.LstmSpec
import Idealize.ShloMosaic.Lib.StableHlo.Run
import Idealize.ShloMosaic.Lib.Pipeline.Value
import Idealize.ShloMosaic.Lib.ValueIdx

set_option maxRecDepth 16384

noncomputable section

namespace Cert.ReferenceIdeal.Hand

open Idealize.ShloMosaic Idealize.ShloMosaic.TcCoe Idealize.ShloMosaic.ValueIdx Idealize.ShloMosaic.StableHlo
open Idealize.SL Idealize.SL.Sem
open Idealize.ShloMosaic.Pipeline (Dat)
open Cert.ReferenceIdeal Cert.ReferenceIdeal.Gen
open scoped BigOperators

section AnyFloat

variable {F : FTy → Type} [FloatOps F]
variable (m : (ℓ : Loc nD τ sig) → Buf (Elt F) ℓ) (ρ : Dev nD → PrngReg)

/-! ## What the host operations write, as terms of the launch memory -/

theorem U1_v0 (c : Dev nD) :
    (U1 m ρ c main_call0_v0 : S512x128.Idx → Elt F .f32) = transpose S512x128 [1, 0] (m ((c : Thread nD τ).loc main_arg9)) transposes_S128x512_S512x128_1_0 := by
  show StableHlo.after hostOps0 (fun b => m (c, b)) (Proc.devRef .tc main_call0_v0) = _
  after_results
  rfl

theorem U1_v1 (c : Dev nD) :
    (U1 m ρ c main_call0_v1 : S1x128.Idx → Elt F .f32) = shapeCast S1x128 (m ((c : Thread nD τ).loc main_arg10)) shapeCasts_S128_S1x128 := by
  show StableHlo.after hostOps0 (fun b => m (c, b)) (Proc.devRef .tc main_call0_v1) = _
  after_results
  rfl

theorem U1_v3 (c : Dev nD) :
    (U1 m ρ c main_call0_v3 : S256x2048.Idx → Elt F .f32) = transpose S256x2048 [1, 0] (m ((c : Thread nD τ).loc main_arg1)) transposes_S2048x256_S256x2048_1_0 := by
  show StableHlo.after hostOps0 (fun b => m (c, b)) (Proc.devRef .tc main_call0_v3) = _
  after_results
  rfl

theorem U1_v4 (c : Dev nD) :
    (U1 m ρ c main_call0_v4 : S512x2048.Idx → Elt F .f32) = transpose S512x2048 [1, 0] (m ((c : Thread nD τ).loc main_arg2)) transposes_S2048x512_S512x2048_1_0 := by
  show StableHlo.after hostOps0 (fun b => m (c, b)) (Proc.devRef .tc main_call0_v4) = _
  after_results
  rfl

theorem U1_v6 (c : Dev nD) :
    (U1 m ρ c main_call0_v6 : S1x2048.Idx → Elt F .f32) = shapeCast S1x2048 (addf (m ((c : Thread nD τ).loc main_arg3)) (m ((c : Thread nD τ).loc main_arg4))) shapeCasts_S2048_S1x2048 := by
  show StableHlo.after hostOps0 (fun b => m (c, b)) (Proc.devRef .tc main_call0_v6) = _
  after_results
  rfl

theorem U1_v7 (c : Dev nD) :
    (U1 m ρ c main_call0_v7 : S16384x256.Idx → Elt F .f32) = shapeCast S16384x256 (transpose S256x64x256 [1, 0, 2] (m ((c : Thread nD τ).loc main_arg0)) transposes_S64x256x256_S256x64x256_1_0_2) shapeCasts_S256x64x256_S16384x256 := by
  show StableHlo.after hostOps0 (fun b => m (c, b)) (Proc.devRef .tc main_call0_v7) = _
  after_results
  rfl

theorem U3_v9 (c : Dev nD) :
    (U3 m ρ c main_call0_v9 : S256x64x2048.Idx → Elt F .f32) = shapeCast S256x64x2048 (W2 m ρ c (Proc.devRef .tc main_call0_v8)) shapeCasts_S16384x2048_S256x64x2048 := by
  show StableHlo.after hostOps1 (W2 m ρ c) (Proc.devRef .tc main_call0_v9) = _
  after_results
  rfl

theorem U5_v11 (c : Dev nD) :
    (U5 m ρ c main_call0_v11 : S512x2048.Idx → Elt F .f32) = transpose S512x2048 [1, 0] (W4 m ρ c (Proc.devRef .tc main_arg5)) transposes_S2048x512_S512x2048_1_0 := by
  show StableHlo.after hostOps2 (W4 m ρ c) (Proc.devRef .tc main_call0_v11) = _
  after_results
  rfl

theorem U5_v12 (c : Dev nD) :
    (U5 m ρ c main_call0_v12 : S512x2048.Idx → Elt F .f32) = transpose S512x2048 [1, 0] (W4 m ρ c (Proc.devRef .tc main_arg6)) transposes_S2048x512_S512x2048_1_0 := by
  show StableHlo.after hostOps2 (W4 m ρ c) (Proc.devRef .tc main_call0_v12) = _
  after_results
  rfl

theorem U5_v14 (c : Dev nD) :
    (U5 m ρ c main_call0_v14 : S1x2048.Idx → Elt F .f32) = shapeCast S1x2048 (addf (W4 m ρ c (Proc.devRef .tc main_arg7)) (W4 m ρ c (Proc.devRef .tc main_arg8))) shapeCasts_S2048_S1x2048 := by
  show StableHlo.after hostOps2 (W4 m ρ c) (Proc.devRef .tc main_call0_v14) = _
  after_results
  rfl

theorem U5_v15 (c : Dev nD) :
    (U5 m ρ c main_call0_v15 : S16384x512.Idx → Elt F .f32) = shapeCast S16384x512 (W4 m ρ c (Proc.devRef .tc main_call0_v10_0)) shapeCasts_S256x64x512_S16384x512 := by
  show StableHlo.after hostOps2 (W4 m ρ c) (Proc.devRef .tc main_call0_v15) = _
  after_results
  rfl

theorem U7_v17 (c : Dev nD) :
    (U7 m ρ c main_call0_v17 : S256x64x2048.Idx → Elt F .f32) = shapeCast S256x64x2048 (W6 m ρ c (Proc.devRef .tc main_call0_v16)) shapeCasts_S16384x2048_S256x64x2048 := by
  show StableHlo.after hostOps3 (W6 m ρ c) (Proc.devRef .tc main_call0_v17) = _
  after_results
  rfl

/-! ## What persists from one region's entry to a later one's -/

/-- A buffer the second host stretch does not write and region 0 does not stage is at region 1's entry as at region 0's. -/
theorem U3_of_U1 (c : Dev nD) (b : Ref sig .tc) (h1 : b ∉ hostOps1_W) (r0 : ∀ w, Pipeline.arrRef spec0 w ≠ b) :
    U3 m ρ c b = U1 m ρ c b :=
  (StableHlo.after_of_writes_sub hostOps1 _ hostOps1_writes h1).trans (W2_of_ne m ρ c b r0)
/-- Region 1's entry to region 2's, for a buffer neither the third host stretch writes nor region 1 stages. -/
theorem U5_of_U3 (c : Dev nD) (b : Ref sig .tc) (h2 : b ∉ hostOps2_W) (r1 : ∀ w, Pipeline.arrRef spec1 w ≠ b) :
    U5 m ρ c b = U3 m ρ c b :=
  (StableHlo.after_of_writes_sub hostOps2 _ hostOps2_writes h2).trans (W4_of_ne m ρ c b r1)
/-- Region 2's entry to region 3's. -/
theorem U7_of_U5 (c : Dev nD) (b : Ref sig .tc) (h3 : b ∉ hostOps3_W) (r2 : ∀ w, Pipeline.arrRef spec2 w ≠ b) :
    U7 m ρ c b = U5 m ρ c b :=
  (StableHlo.after_of_writes_sub hostOps3 _ hostOps3_writes h3).trans (W6_of_ne m ρ c b r2)
/-- An INPUT array of region 1 leaves the region as it entered it, and so reaches region 2's entry when the third host
    stretch does not write it. -/
theorem U5_of_U3_in (c : Dev nD) (w : Fin cfg1.W) (hw : w.val < 4) (h2 : Pipeline.arrRef spec1 w ∉ hostOps2_W) :
    U5 m ρ c (Pipeline.arrRef spec1 w) = U3 m ρ c (Pipeline.arrRef spec1 w) :=
  (StableHlo.after_of_writes_sub hostOps2 _ hostOps2_writes h2).trans ((W4_arr m ρ c w).trans (arrAt1_in (U3 m ρ) c w hw))
/-- An argument array reaches region 2's entry as launched. -/
theorem W4_arg (c : Dev nD) (b : Ref sig .tc) (h0 : b ∉ hostOps0_W) (h1 : b ∉ hostOps1_W)
    (r0 : ∀ w, Pipeline.arrRef spec0 w ≠ b) (r1 : ∀ w, Pipeline.arrRef spec1 w ≠ b) :
    W4 m ρ c (Proc.devRef .tc b) = m ((c : Thread nD τ).loc b) :=
  calc W4 m ρ c (Proc.devRef .tc b)
    _ = W3 m ρ c (Proc.devRef .tc b) := W4_of_ne m ρ c b r1
    _ = W2 m ρ c (Proc.devRef .tc b) := StableHlo.after_of_writes_sub hostOps1 _ hostOps1_writes h1
    _ = W1 m ρ c (Proc.devRef .tc b) := W2_of_ne m ρ c b r0
    _ = W0 m ρ c (Proc.devRef .tc b) := StableHlo.after_of_writes_sub hostOps0 _ hostOps0_writes h0
    _ = m ((c : Thread nD τ).loc b) := rfl

theorem U3_v4 (c : Dev nD) : U3 m ρ c main_call0_v4 = U1 m ρ c main_call0_v4 := U3_of_U1 m ρ c _ (by decide) (by decide)
theorem U3_v0 (c : Dev nD) : U3 m ρ c main_call0_v0 = U1 m ρ c main_call0_v0 := U3_of_U1 m ρ c _ (by decide) (by decide)
theorem U3_v1 (c : Dev nD) : U3 m ρ c main_call0_v1 = U1 m ρ c main_call0_v1 := U3_of_U1 m ρ c _ (by decide) (by decide)
theorem U7_v12 (c : Dev nD) : U7 m ρ c main_call0_v12 = U5 m ρ c main_call0_v12 := U7_of_U5 m ρ c _ (by decide) (by decide)
theorem U7_v0 (c : Dev nD) : U7 m ρ c main_call0_v0 = U1 m ρ c main_call0_v0 :=
  (U7_of_U5 m ρ c _ (by decide) (by decide)).trans ((U5_of_U3_in m ρ c 2 (by decide) (by decide)).trans (U3_v0 m ρ c))
theorem U7_v1 (c : Dev nD) : U7 m ρ c main_call0_v1 = U1 m ρ c main_call0_v1 :=
  (U7_of_U5 m ρ c _ (by decide) (by decide)).trans ((U5_of_U3_in m ρ c 3 (by decide) (by decide)).trans (U3_v1 m ρ c))

/-- Layer 1's weights and bias, off the launch memory. -/
theorem U5_v11' (c : Dev nD) : (U5 m ρ c main_call0_v11 : S512x2048.Idx → Elt F .f32)
    = transpose S512x2048 [1, 0] (m ((c : Thread nD τ).loc main_arg5)) transposes_S2048x512_S512x2048_1_0 := by
  rw [U5_v11, W4_arg m ρ c main_arg5 (by decide) (by decide) (by decide) (by decide)]
theorem U5_v12' (c : Dev nD) : (U5 m ρ c main_call0_v12 : S512x2048.Idx → Elt F .f32)
    = transpose S512x2048 [1, 0] (m ((c : Thread nD τ).loc main_arg6)) transposes_S2048x512_S512x2048_1_0 := by
  rw [U5_v12, W4_arg m ρ c main_arg6 (by decide) (by decide) (by decide) (by decide)]
theorem U5_v14' (c : Dev nD) : (U5 m ρ c main_call0_v14 : S1x2048.Idx → Elt F .f32)
    = shapeCast S1x2048 (addf (m ((c : Thread nD τ).loc main_arg7)) (m ((c : Thread nD τ).loc main_arg8))) shapeCasts_S2048_S1x2048 := by
  rw [U5_v14, W4_arg m ρ c main_arg7 (by decide) (by decide) (by decide) (by decide),
    W4_arg m ρ c main_arg8 (by decide) (by decide) (by decide) (by decide)]
/-- Layer 1's activations are layer 0's hidden states, laid time-major as 16384 rows. -/
theorem U5_v15' (c : Dev nD) : (U5 m ρ c main_call0_v15 : S16384x512.Idx → Elt F .f32)
    = shapeCast S16384x512 (hseqArr1 (U3 m ρ) c) shapeCasts_S256x64x512_S16384x512 := by
  rw [U5_v15, show W4 m ρ c (Proc.devRef .tc main_call0_v10_0) = hseqArr1 (U3 m ρ) c from
    (W4_arr m ρ c 4).trans (arrAt1_hseq (U3 m ρ) c)]

/-! ## The recurrences' weight windows are whole arrays at every point -/

section Windows
variable (V : (c : Dev nD) → (b : Ref sig .tc) → Buf (Elt F) ((c : Thread nD τ).loc b))

/-- The printed index maps of pipeline 1's input windows over the grid: the gate inputs' block moves with the point along
    the time steps, the three weight windows' block is the whole array at every point. -/
theorem idx1_in : ∀ t : Fin cfg1.N, win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The printed index maps of pipeline 3's input windows over the grid: the gate inputs' block moves with the point along
    the time steps, the three weight windows' block is the whole array at every point. -/
theorem idx3_in : ∀ t : Fin cfg3.N, win3_0.index t (0 : Fin 3) = t.val ∧ win3_0.index t (1 : Fin 3) = 0 ∧ win3_0.index t (2 : Fin 3) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

theorem iblk1_1_eq (c : Dev nD) (t : Fin cfg1.N) : iblk1 V c 1 t = V c (Pipeline.arrRef spec1 1) := by
  have e := idx1_in t
  funext y
  show V c (Pipeline.arrRef spec1 1) (((cfg1.win 1).blk t).view.emb y) = V c (Pipeline.arrRef spec1 1) y
  congr 1
  funext a; apply Fin.ext
  match a with
  | ⟨0, _⟩ => show win1_1.index t (0 : Fin 2) * 512 + 1 * (y 0).val = (y 0).val; omega
  | ⟨1, _⟩ => show win1_1.index t (1 : Fin 2) * 2048 + 1 * (y 1).val = (y 1).val; omega

theorem iblk1_2_eq (c : Dev nD) (t : Fin cfg1.N) : iblk1 V c 2 t = V c (Pipeline.arrRef spec1 2) := by
  have e := idx1_in t
  funext y
  show V c (Pipeline.arrRef spec1 2) (((cfg1.win 2).blk t).view.emb y) = V c (Pipeline.arrRef spec1 2) y
  congr 1
  funext a; apply Fin.ext
  match a with
  | ⟨0, _⟩ => show win1_2.index t (0 : Fin 2) * 512 + 1 * (y 0).val = (y 0).val; omega
  | ⟨1, _⟩ => show win1_2.index t (1 : Fin 2) * 128 + 1 * (y 1).val = (y 1).val; omega

theorem iblk1_3_eq (c : Dev nD) (t : Fin cfg1.N) : iblk1 V c 3 t = V c (Pipeline.arrRef spec1 3) := by
  have e := idx1_in t
  funext y
  show V c (Pipeline.arrRef spec1 3) (((cfg1.win 3).blk t).view.emb y) = V c (Pipeline.arrRef spec1 3) y
  congr 1
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem iblk3_1_eq (c : Dev nD) (t : Fin cfg3.N) : iblk3 V c 1 t = V c (Pipeline.arrRef spec3 1) := by
  have e := idx3_in t
  funext y
  show V c (Pipeline.arrRef spec3 1) (((cfg3.win 1).blk t).view.emb y) = V c (Pipeline.arrRef spec3 1) y
  congr 1
  funext a; apply Fin.ext
  match a with
  | ⟨0, _⟩ => show win3_1.index t (0 : Fin 2) * 512 + 1 * (y 0).val = (y 0).val; omega
  | ⟨1, _⟩ => show win3_1.index t (1 : Fin 2) * 2048 + 1 * (y 1).val = (y 1).val; omega

theorem iblk3_2_eq (c : Dev nD) (t : Fin cfg3.N) : iblk3 V c 2 t = V c (Pipeline.arrRef spec3 2) := by
  have e := idx3_in t
  funext y
  show V c (Pipeline.arrRef spec3 2) (((cfg3.win 2).blk t).view.emb y) = V c (Pipeline.arrRef spec3 2) y
  congr 1
  funext a; apply Fin.ext
  match a with
  | ⟨0, _⟩ => show win3_2.index t (0 : Fin 2) * 512 + 1 * (y 0).val = (y 0).val; omega
  | ⟨1, _⟩ => show win3_2.index t (1 : Fin 2) * 128 + 1 * (y 1).val = (y 1).val; omega

theorem iblk3_3_eq (c : Dev nD) (t : Fin cfg3.N) : iblk3 V c 3 t = V c (Pipeline.arrRef spec3 3) := by
  have e := idx3_in t
  funext y
  show V c (Pipeline.arrRef spec3 3) (((cfg3.win 3).blk t).view.emb y) = V c (Pipeline.arrRef spec3 3) y
  congr 1
  funext a; apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

end Windows

/-- Region 1's recurrent weights, head weights and head bias windows, off region 0's entry contents. -/
theorem iblk1_whh (c : Dev nD) (t : Fin cfg1.N) : iblk1 (U3 m ρ) c 1 t = U1 m ρ c main_call0_v4 :=
  (iblk1_1_eq (U3 m ρ) c t).trans (U3_v4 m ρ c)
theorem iblk1_wfc (c : Dev nD) (t : Fin cfg1.N) : iblk1 (U3 m ρ) c 2 t = U1 m ρ c main_call0_v0 :=
  (iblk1_2_eq (U3 m ρ) c t).trans (U3_v0 m ρ c)
theorem iblk1_bfc (c : Dev nD) (t : Fin cfg1.N) : iblk1 (U3 m ρ) c 3 t = U1 m ρ c main_call0_v1 :=
  (iblk1_3_eq (U3 m ρ) c t).trans (U3_v1 m ρ c)
/-- Region 3's. -/
theorem iblk3_whh (c : Dev nD) (t : Fin cfg3.N) : iblk3 (U7 m ρ) c 1 t = U5 m ρ c main_call0_v12 :=
  (iblk3_1_eq (U7 m ρ) c t).trans (U7_v12 m ρ c)
theorem iblk3_wfc (c : Dev nD) (t : Fin cfg3.N) : iblk3 (U7 m ρ) c 2 t = U1 m ρ c main_call0_v0 :=
  (iblk3_2_eq (U7 m ρ) c t).trans (U7_v0 m ρ c)
theorem iblk3_bfc (c : Dev nD) (t : Fin cfg3.N) : iblk3 (U7 m ρ) c 3 t = U1 m ρ c main_call0_v1 :=
  (iblk3_3_eq (U7 m ρ) c t).trans (U7_v1 m ρ c)

end AnyFloat

/-! ## The gate inputs, at the ideal values -/

section AtIdeal

/-- Row `64 s + a` of layer 0's projection is row `a` of the gate inputs of time step `s`. -/
theorem proj0_row (X : S16384x256.Idx → Elt Ideal .f32) (W : S256x2048.Idx → Elt Ideal .f32) (B : S1x2048.Idx → Elt Ideal .f32)
    (s : ℕ) (a : Fin 64) (b : Fin 2048) (hr : 64 * s + a.val < 16384) :
    proj0 (F := Ideal) X W B (ix2 ⟨64 * s + a.val, hr⟩ b) = Cert.Lstm.proj (K := 256) X W B s (ix2 a b) := by
  refine (proj0_ideal _ _ _ _).trans ?_
  unfold Cert.Lstm.proj
  congr 1
  refine Finset.sum_congr rfl fun k' _ => ?_
  congr 2
  funext ax; apply Fin.ext
  match ax with
  | ⟨0, _⟩ => exact (Nat.mod_eq_of_lt hr).symm
  | ⟨1, _⟩ => rfl

/-- Row `64 s + a` of layer 1's projection is row `a` of the gate inputs of time step `s`. -/
theorem proj2_row (X : S16384x512.Idx → Elt Ideal .f32) (W : S512x2048.Idx → Elt Ideal .f32) (B : S1x2048.Idx → Elt Ideal .f32)
    (s : ℕ) (a : Fin 64) (b : Fin 2048) (hr : 64 * s + a.val < 16384) :
    proj2 (F := Ideal) X W B (ix2 ⟨64 * s + a.val, hr⟩ b) = Cert.Lstm.proj (K := 512) X W B s (ix2 a b) := by
  refine (proj2_ideal _ _ _ _).trans ?_
  unfold Cert.Lstm.proj
  congr 1
  refine Finset.sum_congr rfl fun k' _ => ?_
  congr 2
  funext ax; apply Fin.ext
  match ax with
  | ⟨0, _⟩ => exact (Nat.mod_eq_of_lt hr).symm
  | ⟨1, _⟩ => rfl

variable (m : (ℓ : Loc nD τ sig) → Buf (Elt Ideal) ℓ) (ρ : Dev nD → PrngReg)

/-- Block `t` of layer 0's projection laid as 256 time steps, at time step `k` of the block: the gate inputs of time step `16 t + k`. -/
theorem gate_inputs1 (c : Dev nD) (t : Fin cfg1.N) (k : ℕ) (hk : k < 16) :
    Cert.Lstm.slab (iblk1 (U3 m ρ) c 0 t) k
      = Cert.Lstm.proj (K := 256) (U1 m ρ c main_call0_v7) (U1 m ρ c main_call0_v3) (U1 m ρ c main_call0_v6) (16 * t.val + k) := by
  have ht : t.val < 16 := by have h := t.isLt; have e : cfg1.N = 16 := N_1; omega
  obtain ⟨e0, e1, e2, -⟩ := idx1_in t
  funext i
  obtain ⟨a, b, rfl⟩ : ∃ (a : Fin 64) (b : Fin 2048), i = ix2 a b := ⟨i 0, i 1, eq_ix2 i⟩
  have ha : a.val < 64 := a.isLt
  have hr : 64 * (16 * t.val + k) + a.val < 16384 := by omega
  have hW : (W2 m ρ c (Proc.devRef .tc main_call0_v8) : S16384x2048.Idx → Elt Ideal .f32)
      = proj0 (U1 m ρ c main_call0_v7) (U1 m ρ c main_call0_v3) (U1 m ρ c main_call0_v6) :=
    (W2_arr m ρ c 3).trans (arrAt0_out (U1 m ρ) c)
  unfold Cert.Lstm.slab
  show U3 m ρ c main_call0_v9 (((cfg1.win 0).blk t).view.emb (ix3 ⟨k % 16, Nat.mod_lt _ (by decide)⟩ a b)) = _
  rw [U3_v9, hW]
  refine (shapeCast_apply _ shapeCasts_S16384x2048_S256x64x2048 _ (ix2 ⟨64 * (16 * t.val + k) + a.val, hr⟩ b) ?_).trans ?_
  · rw [Shape.rowMajor_val_two, Shape.rowMajor_val_three]
    show (64 * (16 * t.val + k) + a.val) * 2048 + b.val
      = ((win1_0.index t (0 : Fin 3) * 16 + 1 * (k % 16)) * 64 + (win1_0.index t (1 : Fin 3) * 64 + 1 * a.val)) * 2048
        + (win1_0.index t (2 : Fin 3) * 2048 + 1 * b.val)
    rw [e0, e1, e2]; omega
  · exact proj0_row _ _ _ (16 * t.val + k) a b hr

/-- Block `t` of layer 1's projection laid as 256 time steps, at time step `k` of the block: the gate inputs of time step `16 t + k`. -/
theorem gate_inputs3 (c : Dev nD) (t : Fin cfg3.N) (k : ℕ) (hk : k < 16) :
    Cert.Lstm.slab (iblk3 (U7 m ρ) c 0 t) k
      = Cert.Lstm.proj (K := 512) (U5 m ρ c main_call0_v15) (U5 m ρ c main_call0_v11) (U5 m ρ c main_call0_v14) (16 * t.val + k) := by
  have ht : t.val < 16 := by have h := t.isLt; have e : cfg3.N = 16 := N_3; omega
  obtain ⟨e0, e1, e2, -⟩ := idx3_in t
  funext i
  obtain ⟨a, b, rfl⟩ : ∃ (a : Fin 64) (b : Fin 2048), i = ix2 a b := ⟨i 0, i 1, eq_ix2 i⟩
  have ha : a.val < 64 := a.isLt
  have hr : 64 * (16 * t.val + k) + a.val < 16384 := by omega
  have hW : (W6 m ρ c (Proc.devRef .tc main_call0_v16) : S16384x2048.Idx → Elt Ideal .f32)
      = proj2 (U5 m ρ c main_call0_v15) (U5 m ρ c main_call0_v11) (U5 m ρ c main_call0_v14) :=
    (W6_arr m ρ c 3).trans (arrAt2_out (U5 m ρ) c)
  unfold Cert.Lstm.slab
  show U7 m ρ c main_call0_v17 (((cfg3.win 0).blk t).view.emb (ix3 ⟨k % 16, Nat.mod_lt _ (by decide)⟩ a b)) = _
  rw [U7_v17, hW]
  refine (shapeCast_apply _ shapeCasts_S16384x2048_S256x64x2048 _ (ix2 ⟨64 * (16 * t.val + k) + a.val, hr⟩ b) ?_).trans ?_
  · rw [Shape.rowMajor_val_two, Shape.rowMajor_val_three]
    show (64 * (16 * t.val + k) + a.val) * 2048 + b.val
      = ((win3_0.index t (0 : Fin 3) * 16 + 1 * (k % 16)) * 64 + (win3_0.index t (1 : Fin 3) * 64 + 1 * a.val)) * 2048
        + (win3_0.index t (2 : Fin 3) * 2048 + 1 * b.val)
    rw [e0, e1, e2]; omega
  · exact proj2_row _ _ _ (16 * t.val + k) a b hr

end AtIdeal

end Cert.ReferenceIdeal.Hand

end
-- ==== Proof.Bridge.Entry.lean ====
/-
  The two programs stage the same arrays.

  From launch memories that agree on the eleven arguments, what the kernel's host operations hand its windows and what
  the reference's host operations hand its regions are the same functions on the extended reals: the input laid
  time-major as 16384 rows, each weight matrix transposed, each layer's two biases added into one row, the head's
  weights and bias — the kernel's narrowing of its matrix operands to bf16 changes nothing there.
-/
import proofs.«114155_g2000202467955933_pallasbulk_1200_31_alg».proof.Proof.KI.Entry
import proofs.«114155_g2000202467955933_pallasbulk_1200_31_alg».proof.Proof.Ref.GateInputs

set_option maxRecDepth 16384

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (ρ' : Dev Cert.ReferenceIdeal.nD → PrngReg)

/-- The two launch memories hold the same arguments, position by position. -/
def Agree : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

/-- The input's time-major rows. -/
theorem xtm_eq (hag : Agree m m') (c : Dev Cert.KernelIdeal.nD) :
    (Cert.KernelIdeal.Gen.V m c Cert.KernelIdeal.main_call0_v2 : FVec Ideal ⟨2, ![16384, 256]⟩ .f32)
      = Cert.ReferenceIdeal.Hand.U1 m' ρ' c Cert.ReferenceIdeal.main_call0_v7 := by
  obtain ⟨h0, h1, h2, h3, h4, h5, h6, h7, h8, h9, h10⟩ := hag c
  refine (Cert.KernelIdeal.Hand.V_v2 m c).trans ?_
  refine Eq.trans ?_ (Cert.ReferenceIdeal.Hand.U1_v7 m' ρ' c).symm
  rw [h0]
  rfl

/-- Layer 0's input weights, transposed. -/
theorem wih0_eq (hag : Agree m m') (c : Dev Cert.KernelIdeal.nD) :
    (Cert.KernelIdeal.Gen.V m c Cert.KernelIdeal.main_call0_v4 : FVec Ideal ⟨2, ![256, 2048]⟩ .f32)
      = Cert.ReferenceIdeal.Hand.U1 m' ρ' c Cert.ReferenceIdeal.main_call0_v3 := by
  obtain ⟨h0, h1, h2, h3, h4, h5, h6, h7, h8, h9, h10⟩ := hag c
  refine (Cert.KernelIdeal.Hand.V_v4 m c).trans ?_
  refine Eq.trans ?_ (Cert.ReferenceIdeal.Hand.U1_v3 m' ρ' c).symm
  rw [h1]
  rfl

/-- Layer 0's recurrent weights, transposed. -/
theorem whh0_eq (hag : Agree m m') (c : Dev Cert.KernelIdeal.nD) :
    (Cert.KernelIdeal.Gen.V m c Cert.KernelIdeal.main_call0_v6 : FVec Ideal ⟨2, ![512, 2048]⟩ .f32)
      = Cert.ReferenceIdeal.Hand.U1 m' ρ' c Cert.ReferenceIdeal.main_call0_v4 := by
  obtain ⟨h0, h1, h2, h3, h4, h5, h6, h7, h8, h9, h10⟩ := hag c
  refine (Cert.KernelIdeal.Hand.V_v6 m c).trans ?_
  refine Eq.trans ?_ (Cert.ReferenceIdeal.Hand.U1_v4 m' ρ' c).symm
  rw [h2]
  rfl

/-- Layer 0's bias row. -/
theorem b0_eq (hag : Agree m m') (c : Dev Cert.KernelIdeal.nD) :
    (Cert.KernelIdeal.Gen.V m c Cert.KernelIdeal.main_call0_v8 : FVec Ideal ⟨2, ![1, 2048]⟩ .f32)
      = Cert.ReferenceIdeal.Hand.U1 m' ρ' c Cert.ReferenceIdeal.main_call0_v6 := by
  obtain ⟨h0, h1, h2, h3, h4, h5, h6, h7, h8, h9, h10⟩ := hag c
  refine (Cert.KernelIdeal.Hand.V_v8 m c).trans ?_
  refine Eq.trans ?_ (Cert.ReferenceIdeal.Hand.U1_v6 m' ρ' c).symm
  rw [h3, h4]

/-- Layer 1's input weights, transposed. -/
theorem wih1_eq (hag : Agree m m') (c : Dev Cert.KernelIdeal.nD) :
    (Cert.KernelIdeal.Gen.V m c Cert.KernelIdeal.main_call0_v10 : FVec Ideal ⟨2, ![512, 2048]⟩ .f32)
      = Cert.ReferenceIdeal.Hand.U5 m' ρ' c Cert.ReferenceIdeal.main_call0_v11 := by
  obtain ⟨h0, h1, h2, h3, h4, h5, h6, h7, h8, h9, h10⟩ := hag c
  refine (Cert.KernelIdeal.Hand.V_v10 m c).trans ?_
  refine Eq.trans ?_ (Cert.ReferenceIdeal.Hand.U5_v11' m' ρ' c).symm
  rw [h5]
  rfl

/-- Layer 1's recurrent weights, transposed. -/
theorem whh1_eq (hag : Agree m m') (c : Dev Cert.KernelIdeal.nD) :
    (Cert.KernelIdeal.Gen.V m c Cert.KernelIdeal.main_call0_v12 : FVec Ideal ⟨2, ![512, 2048]⟩ .f32)
      = Cert.ReferenceIdeal.Hand.U5 m' ρ' c Cert.ReferenceIdeal.main_call0_v12 := by
  obtain ⟨h0, h1, h2, h3, h4, h5, h6, h7, h8, h9, h10⟩ := hag c
  refine (Cert.KernelIdeal.Hand.V_v12 m c).trans ?_
  refine Eq.trans ?_ (Cert.ReferenceIdeal.Hand.U5_v12' m' ρ' c).symm
  rw [h6]
  rfl

/-- Layer 1's bias row. -/
theorem b1_eq (hag : Agree m m') (c : Dev Cert.KernelIdeal.nD) :
    (Cert.KernelIdeal.Gen.V m c Cert.KernelIdeal.main_call0_v14 : FVec Ideal ⟨2, ![1, 2048]⟩ .f32)
      = Cert.ReferenceIdeal.Hand.U5 m' ρ' c Cert.ReferenceIdeal.main_call0_v14 := by
  obtain ⟨h0, h1, h2, h3, h4, h5, h6, h7, h8, h9, h10⟩ := hag c
  refine (Cert.KernelIdeal.Hand.V_v14 m c).trans ?_
  refine Eq.trans ?_ (Cert.ReferenceIdeal.Hand.U5_v14' m' ρ' c).symm
  rw [h7, h8]

/-- The head's weights, transposed. -/
theorem wfc_eq (hag : Agree m m') (c : Dev Cert.KernelIdeal.nD) :
    (Cert.KernelIdeal.Gen.V m c Cert.KernelIdeal.main_call0_v16 : FVec Ideal ⟨2, ![512, 128]⟩ .f32)
      = Cert.ReferenceIdeal.Hand.U1 m' ρ' c Cert.ReferenceIdeal.main_call0_v0 := by
  obtain ⟨h0, h1, h2, h3, h4, h5, h6, h7, h8, h9, h10⟩ := hag c
  refine (Cert.KernelIdeal.Hand.V_v16 m c).trans ?_
  refine Eq.trans ?_ (Cert.ReferenceIdeal.Hand.U1_v0 m' ρ' c).symm
  rw [h9]
  rfl

/-- The head's bias row. -/
theorem bfc_eq (hag : Agree m m') (c : Dev Cert.KernelIdeal.nD) :
    (Cert.KernelIdeal.Gen.V m c Cert.KernelIdeal.main_call0_v17 : FVec Ideal ⟨2, ![1, 128]⟩ .f32)
      = Cert.ReferenceIdeal.Hand.U1 m' ρ' c Cert.ReferenceIdeal.main_call0_v1 := by
  obtain ⟨h0, h1, h2, h3, h4, h5, h6, h7, h8, h9, h10⟩ := hag c
  refine (Cert.KernelIdeal.Hand.V_v17 m c).trans ?_
  refine Eq.trans ?_ (Cert.ReferenceIdeal.Hand.U1_v1 m' ρ' c).symm
  rw [h10]

end Cert.Bridge

end
-- ==== Proof.Ref.Full.lean ====
/-
  The reference's run with the post the equivalence claim states: the returned array at the fold's last contents, every
  argument array as launched.
-/
import proofs.«114155_g2000202467955933_pallasbulk_1200_31_alg».proof.Proof.Ref.Run

set_option maxRecDepth 16384

noncomputable section

namespace Cert.ReferenceIdeal.Hand

open Idealize.ShloMosaic Idealize.ShloMosaic.TcCoe Idealize.SL.Sem
open Cert.ReferenceIdeal Cert.ReferenceIdeal.Gen

variable {F : FTy → Type} [FloatOps F]
variable (m : (ℓ : Loc nD τ sig) → Buf (Elt F) ℓ) (ρ : Dev nD → PrngReg)

theorem run_full : θ_run defs (onTc (τ := τ) (main (F := F))) ⟨m, fun _ => 0, ρ⟩ (fun r => ∀ c : Dev nD,
      r.2.mem ((c.tc : Thread nD τ).loc main_v0) = W9 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨h c _ (mem_uc main_v0 (by decide)),
     (h c _ (mem_uc main_arg0 (by decide))).trans (W9_kept m ρ c main_arg0 (by decide) (by decide) (by decide) (by decide) (by decide) (by decide) (by decide) (by decide) (by decide)),
     (h c _ (mem_uc main_arg1 (by decide))).trans (W9_kept m ρ c main_arg1 (by decide) (by decide) (by decide) (by decide) (by decide) (by decide) (by decide) (by decide) (by decide)),
     (h c _ (mem_uc main_arg2 (by decide))).trans (W9_kept m ρ c main_arg2 (by decide) (by decide) (by decide) (by decide) (by decide) (by decide) (by decide) (by decide) (by decide)),
     (h c _ (mem_uc main_arg3 (by decide))).trans (W9_kept m ρ c main_arg3 (by decide) (by decide) (by decide) (by decide) (by decide) (by decide) (by decide) (by decide) (by decide)),
     (h c _ (mem_uc main_arg4 (by decide))).trans (W9_kept m ρ c main_arg4 (by decide) (by decide) (by decide) (by decide) (by decide) (by decide) (by decide) (by decide) (by decide)),
     (h c _ (mem_uc main_arg5 (by decide))).trans (W9_kept m ρ c main_arg5 (by decide) (by decide) (by decide) (by decide) (by decide) (by decide) (by decide) (by decide) (by decide)),
     (h c _ (mem_uc main_arg6 (by decide))).trans (W9_kept m ρ c main_arg6 (by decide) (by decide) (by decide) (by decide) (by decide) (by decide) (by decide) (by decide) (by decide)),
     (h c _ (mem_uc main_arg7 (by decide))).trans (W9_kept m ρ c main_arg7 (by decide) (by decide) (by decide) (by decide) (by decide) (by decide) (by decide) (by decide) (by decide)),
     (h c _ (mem_uc main_arg8 (by decide))).trans (W9_kept m ρ c main_arg8 (by decide) (by decide) (by decide) (by decide) (by decide) (by decide) (by decide) (by decide) (by decide)),
     (h c _ (mem_uc main_arg9 (by decide))).trans (W9_kept m ρ c main_arg9 (by decide) (by decide) (by decide) (by decide) (by decide) (by decide) (by decide) (by decide) (by decide)),
     (h c _ (mem_uc main_arg10 (by decide))).trans (W9_kept m ρ c main_arg10 (by decide) (by decide) (by decide) (by decide) (by decide) (by decide) (by decide) (by decide) (by decide))⟩)
    (run_all m ρ)

end Cert.ReferenceIdeal.Hand

end
-- ==== Proof.Ref.Tail.lean ====
/-
  The reference program's result: the last host operation stacks layer 0's classifier output (left by the second
  region and untouched since) on layer 1's (left by the fourth region).
-/
import proofs.«114155_g2000202467955933_pallasbulk_1200_31_alg».proof.Proof.Ref.Run
import proofs.«114155_g2000202467955933_pallasbulk_1200_31_alg».proof.Proof.Ref.Lstm1Arr
import proofs.«114155_g2000202467955933_pallasbulk_1200_31_alg».proof.Proof.Ref.Lstm3Arr
import Idealize.ShloMosaic.Lib.StableHlo.Run

set_option maxRecDepth 16384

noncomputable section

namespace Cert.ReferenceIdeal.Hand

open Idealize.ShloMosaic Idealize.ShloMosaic.TcCoe Idealize.SL.Sem
open Cert.ReferenceIdeal Cert.ReferenceIdeal.Gen

variable {F : FTy → Type} [FloatOps F]
variable (m : (ℓ : Loc nD τ sig) → Buf (Elt F) ℓ) (ρ : Dev nD → PrngReg)

/-- The returned array is the two classifier outputs stacked. -/
theorem W9_v0 (c : Dev nD) :
    (W9 m ρ c (Proc.devRef .tc main_v0) : Vec F S128x128 .f32)
      = concatenate S128x128 0 [⟨S64x128, (W8 m ρ c (Proc.devRef .tc main_call0_v10_1) : Vec F S64x128 .f32)⟩,
          ⟨S64x128, (W8 m ρ c (Proc.devRef .tc main_call0_v18_1) : Vec F S64x128 .f32)⟩] concatenates_S64x128_S64x128_S128x128_d0 := by
  show StableHlo.after hostOps4 (W8 m ρ c) (Proc.devRef .tc main_v0) = _
  after_results
  rfl

/-- Layer 1's classifier output is what the fourth region's last point stored. -/
theorem W8_fc3 (c : Dev nD) : (W8 m ρ c (Proc.devRef .tc main_call0_v18_1) : Vec F S64x128 .f32) = fc3 (U7 m ρ) c :=
  (W8_arr m ρ c 5).trans (arrAt3_fc (U7 m ρ) c)

/-- Layer 0's classifier output is what the second region's last point stored; nothing later writes it. -/
theorem W8_fc1 (c : Dev nD) : (W8 m ρ c (Proc.devRef .tc main_call0_v10_1) : Vec F S64x128 .f32) = fc1 (U3 m ρ) c :=
  calc (W8 m ρ c (Proc.devRef .tc main_call0_v10_1) : Vec F S64x128 .f32)
    _ = W7 m ρ c (Proc.devRef .tc main_call0_v10_1) := W8_of_ne m ρ c main_call0_v10_1 (by decide)
    _ = W6 m ρ c (Proc.devRef .tc main_call0_v10_1) := StableHlo.after_of_writes_sub hostOps3 _ hostOps3_writes (by decide)
    _ = W5 m ρ c (Proc.devRef .tc main_call0_v10_1) := W6_of_ne m ρ c main_call0_v10_1 (by decide)
    _ = W4 m ρ c (Proc.devRef .tc main_call0_v10_1) := StableHlo.after_of_writes_sub hostOps2 _ hostOps2_writes (by decide)
    _ = fc1 (U3 m ρ) c := (W4_arr m ρ c 5).trans (arrAt1_fc (U3 m ρ) c)

end Cert.ReferenceIdeal.Hand

end
-- ==== Proof.Ref.LstmVal0.lean ====
import proofs.«114155_g2000202467955933_pallasbulk_1200_31_alg».proof.ReferenceIdeal
import proofs.«114155_g2000202467955933_pallasbulk_1200_31_alg».proof.Proof.Gen.ReferenceIdeal
import proofs.«114155_g2000202467955933_pallasbulk_1200_31_alg».proof.Proof.LstmBlock
import Idealize.ShloMosaic.Lib.Pipeline.FrameBody
import Idealize.ShloMosaic.Lib.Pipeline.Value
import Idealize.ShloMosaic.Lib.ValueIdx

set_option maxRecDepth 65536

noncomputable section

namespace Cert.ReferenceIdeal.Hand

open Cert.ReferenceIdeal.Gen
open Idealize.ShloMosaic Idealize.ShloMosaic.TcCoe

theorem hz2 : (![0, 0] : Fin 2 → Nat) = fun _ => 0 := funext fun a => by fin_cases a <;> rfl

/-- A row of a block of gate inputs with its unit axis dropped is that time step's slab. -/
theorem row_slab (x0 : Vec Ideal S16x64x2048 .f32) (r : ℕ) (inb : ∀ a, (![r, 0, 0] : Fin 3 → ℕ) a + S1x64x2048.size a ≤ S16x64x2048.size a)
    (h : S1x64x2048.ShapeCasts S64x2048) :
    shapeCast S64x2048 (View.ld x0 (Rect.unit (s := S16x64x2048) ![r, 0, 0] S1x64x2048.size inb)) h = Cert.Lstm.slab x0 r := by
  have hr : r < 16 := by have := inb 0; simp only [Matrix.cons_val_zero] at this; exact Nat.lt_of_succ_le (by simpa using this)
  funext j
  rw [shapeCast_dropUnit_apply ![64, 2048] _ h j]
  unfold Cert.Lstm.slab View.ld
  refine congrArg x0 (funext fun a => Fin.ext ?_)
  match a with
  | ⟨0, _⟩ => show r + 1 * 0 = r % 16; omega
  | ⟨1, _⟩ => show 0 + 1 * (j 0).val = (j 0).val; omega
  | ⟨2, _⟩ => show 0 + 1 * (j 1).val = (j 1).val; omega

/-- The printed new hidden state and memory of one time step are a step of the recurrence. -/
theorem fold_c (W : FVec Ideal S512x2048 .f32) (ig : FVec Ideal S64x2048 .f32) (h c : FVec Ideal S64x512 .f32) :
    addf (mulf (extractStridedSlice S64x512 ![0, 512] (logistic (addf ig (matmul dot_S64x512_S512x2048_S64x2048_1_0_0_1_n_n none h W (constant S64x2048 .f32 0x00000000#32)))) slices_S64x2048_o0_512_S64x512) c)
      (mulf (extractStridedSlice S64x512 ![0, 0] (logistic (addf ig (matmul dot_S64x512_S512x2048_S64x2048_1_0_0_1_n_n none h W (constant S64x2048 .f32 0x00000000#32)))) slices_S64x2048_o0_0_S64x512)
        (extractStridedSlice S64x512 ![0, 1024] (tanh (addf ig (matmul dot_S64x512_S512x2048_S64x2048_1_0_0_1_n_n none h W (constant S64x2048 .f32 0x00000000#32)))) slices_S64x2048_o0_1024_S64x512))
    = (Cert.Lstm.step W ig (h, c)).2 := rfl

theorem fold_h (W : FVec Ideal S512x2048 .f32) (ig : FVec Ideal S64x2048 .f32) (h c : FVec Ideal S64x512 .f32) :
    mulf (extractStridedSlice S64x512 ![0, 1536] (logistic (addf ig (matmul dot_S64x512_S512x2048_S64x2048_1_0_0_1_n_n none h W (constant S64x2048 .f32 0x00000000#32)))) slices_S64x2048_o0_1536_S64x512)
      (tanh (Cert.Lstm.step W ig (h, c)).2)
    = (Cert.Lstm.step W ig (h, c)).1 := rfl

/-- The state both layers start from: zero hidden state, zero memory. -/
def zeroH : FVec Ideal S64x512 .f32 := broadcast S64x512 (Scalar.ofBits (F := Ideal) .f32 0x00000000#32)

/-- The printed final projection is the classifier head. -/
theorem fold_head (h : FVec Ideal S64x512 .f32) (wfc : FVec Ideal S512x128 .f32) (bfc : FVec Ideal S1x128 .f32) :
    addf (matmul dot_S64x512_S512x128_S64x128_1_0_0_1_n_n none h wfc (constant S64x128 .f32 0x00000000#32)) (broadcastTo S64x128 bfc broadcasts_S1x128_S64x128)
      = Cert.Lstm.head wfc bfc broadcasts_S1x128_S64x128 h := rfl

/-- Sixteen hidden states stacked along a new leading axis (the block of the sequence output a point stores). -/
def hcat16 (h0 h1 h2 h3 h4 h5 h6 h7 h8 h9 h10 h11 h12 h13 h14 h15 : FVec Ideal S64x512 .f32) : FVec Ideal S16x64x512 .f32 :=
  concatenate S16x64x512 0 [⟨S1x64x512, shapeCast S1x64x512 (h0) shapeCasts_S64x512_S1x64x512⟩, ⟨S1x64x512, shapeCast S1x64x512 (h1) shapeCasts_S64x512_S1x64x512⟩, ⟨S1x64x512, shapeCast S1x64x512 (h2) shapeCasts_S64x512_S1x64x512⟩, ⟨S1x64x512, shapeCast S1x64x512 (h3) shapeCasts_S64x512_S1x64x512⟩, ⟨S1x64x512, shapeCast S1x64x512 (h4) shapeCasts_S64x512_S1x64x512⟩, ⟨S1x64x512, shapeCast S1x64x512 (h5) shapeCasts_S64x512_S1x64x512⟩, ⟨S1x64x512, shapeCast S1x64x512 (h6) shapeCasts_S64x512_S1x64x512⟩, ⟨S1x64x512, shapeCast S1x64x512 (h7) shapeCasts_S64x512_S1x64x512⟩, ⟨S1x64x512, shapeCast S1x64x512 (h8) shapeCasts_S64x512_S1x64x512⟩, ⟨S1x64x512, shapeCast S1x64x512 (h9) shapeCasts_S64x512_S1x64x512⟩, ⟨S1x64x512, shapeCast S1x64x512 (h10) shapeCasts_S64x512_S1x64x512⟩, ⟨S1x64x512, shapeCast S1x64x512 (h11) shapeCasts_S64x512_S1x64x512⟩, ⟨S1x64x512, shapeCast S1x64x512 (h12) shapeCasts_S64x512_S1x64x512⟩, ⟨S1x64x512, shapeCast S1x64x512 (h13) shapeCasts_S64x512_S1x64x512⟩, ⟨S1x64x512, shapeCast S1x64x512 (h14) shapeCasts_S64x512_S1x64x512⟩, ⟨S1x64x512, shapeCast S1x64x512 (h15) shapeCasts_S64x512_S1x64x512⟩] concatenates_S1x64x512_S1x64x512_S1x64x512_S1x64x512_S1x64x512_S1x64x512_S1x64x512_S1x64x512_S1x64x512_S1x64x512_S1x64x512_S1x64x512_S1x64x512_S1x64x512_S1x64x512_S1x64x512_S16x64x512_d0

/-- The sixteen pieces of the stack. -/
abbrev hcatL (H : ℕ → FVec Ideal S64x512 .f32) : List ((s : Shape) × (s.Idx → Ideal .f32)) :=
  [⟨S1x64x512, shapeCast S1x64x512 (H 0) shapeCasts_S64x512_S1x64x512⟩, ⟨S1x64x512, shapeCast S1x64x512 (H 1) shapeCasts_S64x512_S1x64x512⟩, ⟨S1x64x512, shapeCast S1x64x512 (H 2) shapeCasts_S64x512_S1x64x512⟩, ⟨S1x64x512, shapeCast S1x64x512 (H 3) shapeCasts_S64x512_S1x64x512⟩, ⟨S1x64x512, shapeCast S1x64x512 (H 4) shapeCasts_S64x512_S1x64x512⟩, ⟨S1x64x512, shapeCast S1x64x512 (H 5) shapeCasts_S64x512_S1x64x512⟩, ⟨S1x64x512, shapeCast S1x64x512 (H 6) shapeCasts_S64x512_S1x64x512⟩, ⟨S1x64x512, shapeCast S1x64x512 (H 7) shapeCasts_S64x512_S1x64x512⟩, ⟨S1x64x512, shapeCast S1x64x512 (H 8) shapeCasts_S64x512_S1x64x512⟩, ⟨S1x64x512, shapeCast S1x64x512 (H 9) shapeCasts_S64x512_S1x64x512⟩, ⟨S1x64x512, shapeCast S1x64x512 (H 10) shapeCasts_S64x512_S1x64x512⟩, ⟨S1x64x512, shapeCast S1x64x512 (H 11) shapeCasts_S64x512_S1x64x512⟩, ⟨S1x64x512, shapeCast S1x64x512 (H 12) shapeCasts_S64x512_S1x64x512⟩, ⟨S1x64x512, shapeCast S1x64x512 (H 13) shapeCasts_S64x512_S1x64x512⟩, ⟨S1x64x512, shapeCast S1x64x512 (H 14) shapeCasts_S64x512_S1x64x512⟩, ⟨S1x64x512, shapeCast S1x64x512 (H 15) shapeCasts_S64x512_S1x64x512⟩]

set_option maxHeartbeats 4000000 in
/-- Sixteen hidden states stacked along a new leading axis, read at (r, b, j): state r at (b, j). -/
theorem hcat_apply (H : ℕ → FVec Ideal S64x512 .f32) (r : Fin 16) (b : Fin 64) (j : Fin 512) :
    concatenate S16x64x512 0 [⟨S1x64x512, shapeCast S1x64x512 (H 0) shapeCasts_S64x512_S1x64x512⟩, ⟨S1x64x512, shapeCast S1x64x512 (H 1) shapeCasts_S64x512_S1x64x512⟩, ⟨S1x64x512, shapeCast S1x64x512 (H 2) shapeCasts_S64x512_S1x64x512⟩, ⟨S1x64x512, shapeCast S1x64x512 (H 3) shapeCasts_S64x512_S1x64x512⟩, ⟨S1x64x512, shapeCast S1x64x512 (H 4) shapeCasts_S64x512_S1x64x512⟩, ⟨S1x64x512, shapeCast S1x64x512 (H 5) shapeCasts_S64x512_S1x64x512⟩, ⟨S1x64x512, shapeCast S1x64x512 (H 6) shapeCasts_S64x512_S1x64x512⟩, ⟨S1x64x512, shapeCast S1x64x512 (H 7) shapeCasts_S64x512_S1x64x512⟩, ⟨S1x64x512, shapeCast S1x64x512 (H 8) shapeCasts_S64x512_S1x64x512⟩, ⟨S1x64x512, shapeCast S1x64x512 (H 9) shapeCasts_S64x512_S1x64x512⟩, ⟨S1x64x512, shapeCast S1x64x512 (H 10) shapeCasts_S64x512_S1x64x512⟩, ⟨S1x64x512, shapeCast S1x64x512 (H 11) shapeCasts_S64x512_S1x64x512⟩, ⟨S1x64x512, shapeCast S1x64x512 (H 12) shapeCasts_S64x512_S1x64x512⟩, ⟨S1x64x512, shapeCast S1x64x512 (H 13) shapeCasts_S64x512_S1x64x512⟩, ⟨S1x64x512, shapeCast S1x64x512 (H 14) shapeCasts_S64x512_S1x64x512⟩, ⟨S1x64x512, shapeCast S1x64x512 (H 15) shapeCasts_S64x512_S1x64x512⟩] concatenates_S1x64x512_S1x64x512_S1x64x512_S1x64x512_S1x64x512_S1x64x512_S1x64x512_S1x64x512_S1x64x512_S1x64x512_S1x64x512_S1x64x512_S1x64x512_S1x64x512_S1x64x512_S1x64x512_S16x64x512_d0 (ValueIdx.ix3 r b j) = H r.val (ValueIdx.ix2 b j) := by
  have tail : ∀ (k : ℕ) (hs : S64x512.ShapeCasts S1x64x512), shapeCast S1x64x512 (H k) hs (ValueIdx.ix3 (0 : Fin 1) b j) = H k (ValueIdx.ix2 b j) := fun k hs => by
    rw [shapeCast_addUnit_apply ![64, 512] (H k) hs _]
    exact congrArg (H k) (funext fun a => by match a with | ⟨0, _⟩ => rfl | ⟨1, _⟩ => rfl)
  have hi : ∀ b' : Fin S1x64x512.rank, b'.cast (rfl : S1x64x512.rank = S16x64x512.rank) ≠ (0 : Fin 3) → ∀ r : Fin 16, ((ValueIdx.ix3 (0 : Fin 1) b j : S1x64x512.Idx) b').val = ((ValueIdx.ix3 r b j : S16x64x512.Idx) (b'.cast rfl)).val := fun b' hb' r => by
    match b' with
    | ⟨0, _⟩ => exact absurd rfl hb'
    | ⟨1, _⟩ => rfl
    | ⟨2, _⟩ => rfl
  fin_cases r
  · exact (concatenate_apply_piece (t := S16x64x512) (0 : Fin 3) (hcatL H) concatenates_S1x64x512_S1x64x512_S1x64x512_S1x64x512_S1x64x512_S1x64x512_S1x64x512_S1x64x512_S1x64x512_S1x64x512_S1x64x512_S1x64x512_S1x64x512_S1x64x512_S1x64x512_S1x64x512_S16x64x512_d0 _ 0 (by show 0 < 16; decide) S1x64x512 _ rfl rfl 0 (by rfl) (ValueIdx.ix3 (0 : Fin 1) b j) (fun b' hb' => hi b' hb' _) (by rfl)).trans (tail 0 _)
  · exact (concatenate_apply_piece (t := S16x64x512) (0 : Fin 3) (hcatL H) concatenates_S1x64x512_S1x64x512_S1x64x512_S1x64x512_S1x64x512_S1x64x512_S1x64x512_S1x64x512_S1x64x512_S1x64x512_S1x64x512_S1x64x512_S1x64x512_S1x64x512_S1x64x512_S1x64x512_S16x64x512_d0 _ 1 (by show 1 < 16; decide) S1x64x512 _ rfl rfl 1 (by rfl) (ValueIdx.ix3 (0 : Fin 1) b j) (fun b' hb' => hi b' hb' _) (by rfl)).trans (tail 1 _)
  · exact (concatenate_apply_piece (t := S16x64x512) (0 : Fin 3) (hcatL H) concatenates_S1x64x512_S1x64x512_S1x64x512_S1x64x512_S1x64x512_S1x64x512_S1x64x512_S1x64x512_S1x64x512_S1x64x512_S1x64x512_S1x64x512_S1x64x512_S1x64x512_S1x64x512_S1x64x512_S16x64x512_d0 _ 2 (by show 2 < 16; decide) S1x64x512 _ rfl rfl 2 (by rfl) (ValueIdx.ix3 (0 : Fin 1) b j) (fun b' hb' => hi b' hb' _) (by rfl)).trans (tail 2 _)
  · exact (concatenate_apply_piece (t := S16x64x512) (0 : Fin 3) (hcatL H) concatenates_S1x64x512_S1x64x512_S1x64x512_S1x64x512_S1x64x512_S1x64x512_S1x64x512_S1x64x512_S1x64x512_S1x64x512_S1x64x512_S1x64x512_S1x64x512_S1x64x512_S1x64x512_S1x64x512_S16x64x512_d0 _ 3 (by show 3 < 16; decide) S1x64x512 _ rfl rfl 3 (by rfl) (ValueIdx.ix3 (0 : Fin 1) b j) (fun b' hb' => hi b' hb' _) (by rfl)).trans (tail 3 _)
  · exact (concatenate_apply_piece (t := S16x64x512) (0 : Fin 3) (hcatL H) concatenates_S1x64x512_S1x64x512_S1x64x512_S1x64x512_S1x64x512_S1x64x512_S1x64x512_S1x64x512_S1x64x512_S1x64x512_S1x64x512_S1x64x512_S1x64x512_S1x64x512_S1x64x512_S1x64x512_S16x64x512_d0 _ 4 (by show 4 < 16; decide) S1x64x512 _ rfl rfl 4 (by rfl) (ValueIdx.ix3 (0 : Fin 1) b j) (fun b' hb' => hi b' hb' _) (by rfl)).trans (tail 4 _)
  · exact (concatenate_apply_piece (t := S16x64x512) (0 : Fin 3) (hcatL H) concatenates_S1x64x512_S1x64x512_S1x64x512_S1x64x512_S1x64x512_S1x64x512_S1x64x512_S1x64x512_S1x64x512_S1x64x512_S1x64x512_S1x64x512_S1x64x512_S1x64x512_S1x64x512_S1x64x512_S16x64x512_d0 _ 5 (by show 5 < 16; decide) S1x64x512 _ rfl rfl 5 (by rfl) (ValueIdx.ix3 (0 : Fin 1) b j) (fun b' hb' => hi b' hb' _) (by rfl)).trans (tail 5 _)
  · exact (concatenate_apply_piece (t := S16x64x512) (0 : Fin 3) (hcatL H) concatenates_S1x64x512_S1x64x512_S1x64x512_S1x64x512_S1x64x512_S1x64x512_S1x64x512_S1x64x512_S1x64x512_S1x64x512_S1x64x512_S1x64x512_S1x64x512_S1x64x512_S1x64x512_S1x64x512_S16x64x512_d0 _ 6 (by show 6 < 16; decide) S1x64x512 _ rfl rfl 6 (by rfl) (ValueIdx.ix3 (0 : Fin 1) b j) (fun b' hb' => hi b' hb' _) (by rfl)).trans (tail 6 _)
  · exact (concatenate_apply_piece (t := S16x64x512) (0 : Fin 3) (hcatL H) concatenates_S1x64x512_S1x64x512_S1x64x512_S1x64x512_S1x64x512_S1x64x512_S1x64x512_S1x64x512_S1x64x512_S1x64x512_S1x64x512_S1x64x512_S1x64x512_S1x64x512_S1x64x512_S1x64x512_S16x64x512_d0 _ 7 (by show 7 < 16; decide) S1x64x512 _ rfl rfl 7 (by rfl) (ValueIdx.ix3 (0 : Fin 1) b j) (fun b' hb' => hi b' hb' _) (by rfl)).trans (tail 7 _)
  · exact (concatenate_apply_piece (t := S16x64x512) (0 : Fin 3) (hcatL H) concatenates_S1x64x512_S1x64x512_S1x64x512_S1x64x512_S1x64x512_S1x64x512_S1x64x512_S1x64x512_S1x64x512_S1x64x512_S1x64x512_S1x64x512_S1x64x512_S1x64x512_S1x64x512_S1x64x512_S16x64x512_d0 _ 8 (by show 8 < 16; decide) S1x64x512 _ rfl rfl 8 (by rfl) (ValueIdx.ix3 (0 : Fin 1) b j) (fun b' hb' => hi b' hb' _) (by rfl)).trans (tail 8 _)
  · exact (concatenate_apply_piece (t := S16x64x512) (0 : Fin 3) (hcatL H) concatenates_S1x64x512_S1x64x512_S1x64x512_S1x64x512_S1x64x512_S1x64x512_S1x64x512_S1x64x512_S1x64x512_S1x64x512_S1x64x512_S1x64x512_S1x64x512_S1x64x512_S1x64x512_S1x64x512_S16x64x512_d0 _ 9 (by show 9 < 16; decide) S1x64x512 _ rfl rfl 9 (by rfl) (ValueIdx.ix3 (0 : Fin 1) b j) (fun b' hb' => hi b' hb' _) (by rfl)).trans (tail 9 _)
  · exact (concatenate_apply_piece (t := S16x64x512) (0 : Fin 3) (hcatL H) concatenates_S1x64x512_S1x64x512_S1x64x512_S1x64x512_S1x64x512_S1x64x512_S1x64x512_S1x64x512_S1x64x512_S1x64x512_S1x64x512_S1x64x512_S1x64x512_S1x64x512_S1x64x512_S1x64x512_S16x64x512_d0 _ 10 (by show 10 < 16; decide) S1x64x512 _ rfl rfl 10 (by rfl) (ValueIdx.ix3 (0 : Fin 1) b j) (fun b' hb' => hi b' hb' _) (by rfl)).trans (tail 10 _)
  · exact (concatenate_apply_piece (t := S16x64x512) (0 : Fin 3) (hcatL H) concatenates_S1x64x512_S1x64x512_S1x64x512_S1x64x512_S1x64x512_S1x64x512_S1x64x512_S1x64x512_S1x64x512_S1x64x512_S1x64x512_S1x64x512_S1x64x512_S1x64x512_S1x64x512_S1x64x512_S16x64x512_d0 _ 11 (by show 11 < 16; decide) S1x64x512 _ rfl rfl 11 (by rfl) (ValueIdx.ix3 (0 : Fin 1) b j) (fun b' hb' => hi b' hb' _) (by rfl)).trans (tail 11 _)
  · exact (concatenate_apply_piece (t := S16x64x512) (0 : Fin 3) (hcatL H) concatenates_S1x64x512_S1x64x512_S1x64x512_S1x64x512_S1x64x512_S1x64x512_S1x64x512_S1x64x512_S1x64x512_S1x64x512_S1x64x512_S1x64x512_S1x64x512_S1x64x512_S1x64x512_S1x64x512_S16x64x512_d0 _ 12 (by show 12 < 16; decide) S1x64x512 _ rfl rfl 12 (by rfl) (ValueIdx.ix3 (0 : Fin 1) b j) (fun b' hb' => hi b' hb' _) (by rfl)).trans (tail 12 _)
  · exact (concatenate_apply_piece (t := S16x64x512) (0 : Fin 3) (hcatL H) concatenates_S1x64x512_S1x64x512_S1x64x512_S1x64x512_S1x64x512_S1x64x512_S1x64x512_S1x64x512_S1x64x512_S1x64x512_S1x64x512_S1x64x512_S1x64x512_S1x64x512_S1x64x512_S1x64x512_S16x64x512_d0 _ 13 (by show 13 < 16; decide) S1x64x512 _ rfl rfl 13 (by rfl) (ValueIdx.ix3 (0 : Fin 1) b j) (fun b' hb' => hi b' hb' _) (by rfl)).trans (tail 13 _)
  · exact (concatenate_apply_piece (t := S16x64x512) (0 : Fin 3) (hcatL H) concatenates_S1x64x512_S1x64x512_S1x64x512_S1x64x512_S1x64x512_S1x64x512_S1x64x512_S1x64x512_S1x64x512_S1x64x512_S1x64x512_S1x64x512_S1x64x512_S1x64x512_S1x64x512_S1x64x512_S16x64x512_d0 _ 14 (by show 14 < 16; decide) S1x64x512 _ rfl rfl 14 (by rfl) (ValueIdx.ix3 (0 : Fin 1) b j) (fun b' hb' => hi b' hb' _) (by rfl)).trans (tail 14 _)
  · exact (concatenate_apply_piece (t := S16x64x512) (0 : Fin 3) (hcatL H) concatenates_S1x64x512_S1x64x512_S1x64x512_S1x64x512_S1x64x512_S1x64x512_S1x64x512_S1x64x512_S1x64x512_S1x64x512_S1x64x512_S1x64x512_S1x64x512_S1x64x512_S1x64x512_S1x64x512_S16x64x512_d0 _ 15 (by show 15 < 16; decide) S1x64x512 _ rfl rfl 15 (by rfl) (ValueIdx.ix3 (0 : Fin 1) b j) (fun b' hb' => hi b' hb' _) (by rfl)).trans (tail 15 _)

/-- The same through `hcat16`. -/
theorem hcat16_apply (H : ℕ → FVec Ideal S64x512 .f32) (r : Fin 16) (b : Fin 64) (j : Fin 512) :
    hcat16 (H 0) (H 1) (H 2) (H 3) (H 4) (H 5) (H 6) (H 7) (H 8) (H 9) (H 10) (H 11) (H 12) (H 13) (H 14) (H 15) (ValueIdx.ix3 r b j) = H r.val (ValueIdx.ix2 b j) :=
  hcat_apply H r b j

end Cert.ReferenceIdeal.Hand

end
-- ==== Proof.Ref.Lstm1Val.lean ====
import proofs.«114155_g2000202467955933_pallasbulk_1200_31_alg».proof.Proof.Ref.Lstm1
import proofs.«114155_g2000202467955933_pallasbulk_1200_31_alg».proof.Proof.Ref.LstmVal0

set_option maxRecDepth 65536

noncomputable section

namespace Cert.ReferenceIdeal.Hand

open Cert.ReferenceIdeal.Gen
open Idealize.ShloMosaic Idealize.ShloMosaic.TcCoe Idealize.ShloMosaic.Tactic
open Idealize.SL Idealize.SL.Sem
open Idealize.ShloMosaic.Pipeline (Dat)

theorem hz3 : (![0, 0, 0] : Fin 3 → Nat) = fun _ => 0 := funext fun a => by fin_cases a <;> rfl

/-- The block of hidden states the body stores is the stack of the sixteen hidden states. -/
theorem k1_pay77_hcat (v6 : FVec Ideal S512x2048 .f32) (v21 v36 v51 v66 v81 v96 v111 v126 v141 v156 v171 v186 v201 v216 v226 v229 : FVec Ideal S64x512 .f32) (v232 : Vec Ideal S1x64x2048 .f32) :
    k1_pay77 (F := Ideal) v6 v21 v36 v51 v66 v81 v96 v111 v126 v141 v156 v171 v186 v201 v216 v226 v229 v232
      = hcat16 v21 v36 v51 v66 v81 v96 v111 v126 v141 v156 v171 v186 v201 v216 (k1_pay72 v226 v229) (k1_pay76 v6 v226 v229 v232) := rfl

/-! ## What each case of pipeline 1's body computes, on the extended reals: the recurrence over the block's 16 time steps -/

set_option maxHeartbeats 2000000 in
theorem sout1_A_0_val (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond1_0 i) (hc1 : ¬cond1_1 i)
    (x0 : Vec Ideal S16x64x2048 .f32) (x1 : Vec Ideal S512x2048 .f32) (x2 : Vec Ideal S512x128 .f32) (x3 : Vec Ideal S1x128 .f32) :
    sout1_A_0 (F := Ideal) c i arg1 harg1 arg2 harg2 arg3 harg3 arg4 harg4 arg5 harg5 arg6 harg6 arg7 harg7 arg8 harg8 hc0 hc1 x0 x1 x2 x3 = (Cert.Lstm.run x1 (fun k => Cert.Lstm.slab x0 k) (zeroH, zeroH) 16).1 := by
  unfold sout1_A_0
  rw [View.read_writes_eq_canon _ _ _ (scover1_A_0 c i arg1 harg1 arg2 harg2 arg3 harg3 arg4 harg4 arg5 harg5 arg6 harg6 arg7 harg7 arg8 harg8 hc0 hc1 x0 x1 x2 x3)]
  unfold kernelRun1_A
  dsimp only
  first | sl_unfold_run_names | fail "names"
  first | rw [View.canon_cons_unit_zero hz2] | fail "canon"
  first | simp only [View.readAt_eq_ld, harg1.read_unread, harg2.read_unread, harg3.read_unread, harg4.read_unread, View.readCov_unit_zero (S := S64x512) _ hz2, View.ld_unit_zero (S := S64x512) hz2, View.ld_unit_zero (S := S512x2048) hz2, View.ld_unit_zero (S := S512x128) hz2, View.ld_unit_zero (S := S1x128) hz2] | fail "loads"
  first | simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77_hcat, k1_pay78, k1_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h] | fail "fold"
  first | simp only [Prod.mk.eta] | skip
  first | rfl | fail "rfl"

set_option maxHeartbeats 2000000 in
theorem sout1_A_1_val (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond1_0 i) (hc1 : ¬cond1_1 i)
    (x0 : Vec Ideal S16x64x2048 .f32) (x1 : Vec Ideal S512x2048 .f32) (x2 : Vec Ideal S512x128 .f32) (x3 : Vec Ideal S1x128 .f32) :
    sout1_A_1 (F := Ideal) c i arg1 harg1 arg2 harg2 arg3 harg3 arg4 harg4 arg5 harg5 arg6 harg6 arg7 harg7 arg8 harg8 hc0 hc1 x0 x1 x2 x3 = (Cert.Lstm.run x1 (fun k => Cert.Lstm.slab x0 k) (zeroH, zeroH) 16).2 := by
  unfold sout1_A_1
  rw [View.read_writes_eq_canon _ _ _ (scover1_A_1 c i arg1 harg1 arg2 harg2 arg3 harg3 arg4 harg4 arg5 harg5 arg6 harg6 arg7 harg7 arg8 harg8 hc0 hc1 x0 x1 x2 x3)]
  unfold kernelRun1_A
  dsimp only
  first | sl_unfold_run_names | fail "names"
  first | rw [View.canon_cons_unit_zero hz2] | fail "canon"
  first | simp only [View.readAt_eq_ld, harg1.read_unread, harg2.read_unread, harg3.read_unread, harg4.read_unread, View.readCov_unit_zero (S := S64x512) _ hz2, View.ld_unit_zero (S := S64x512) hz2, View.ld_unit_zero (S := S512x2048) hz2, View.ld_unit_zero (S := S512x128) hz2, View.ld_unit_zero (S := S1x128) hz2] | fail "loads"
  first | simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77_hcat, k1_pay78, k1_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h] | fail "fold"
  first | simp only [Prod.mk.eta] | skip
  first | rfl | fail "rfl"

set_option maxHeartbeats 2000000 in
theorem sout1_B_0_val (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : ¬cond1_1 i)
    (x0 : Vec Ideal S16x64x2048 .f32) (x1 : Vec Ideal S512x2048 .f32) (x2 : Vec Ideal S512x128 .f32) (x3 : Vec Ideal S1x128 .f32) (xs0 xs1 : Vec Ideal S64x512 .f32) :
    sout1_B_0 (F := Ideal) c i arg1 harg1 arg2 harg2 arg3 harg3 arg4 harg4 arg5 harg5 arg6 harg6 arg7 harg7 arg8 harg8 hc0 hc1 x0 x1 x2 x3 xs0 xs1 = (Cert.Lstm.run x1 (fun k => Cert.Lstm.slab x0 k) (xs0, xs1) 16).1 := by
  unfold sout1_B_0
  rw [View.read_writes_eq_canon _ _ _ (scover1_B_0 c i arg1 harg1 arg2 harg2 arg3 harg3 arg4 harg4 arg5 harg5 arg6 harg6 arg7 harg7 arg8 harg8 hc0 hc1 x0 x1 x2 x3 xs0 xs1)]
  unfold kernelRun1_B
  dsimp only
  first | sl_unfold_run_names | fail "names"
  first | rw [View.canon_unit_zero hz2] | fail "canon"
  first | simp only [View.readAt_eq_ld, harg1.read_unread, harg2.read_unread, harg3.read_unread, harg4.read_unread, harg7.read_unread, harg8.read_unread, View.ld_unit_zero (S := S64x512) hz2, View.ld_unit_zero (S := S512x2048) hz2, View.ld_unit_zero (S := S512x128) hz2, View.ld_unit_zero (S := S1x128) hz2] | fail "loads"
  first | simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77_hcat, k1_pay78, k1_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h] | fail "fold"
  first | simp only [Prod.mk.eta] | skip
  first | rfl | fail "rfl"

set_option maxHeartbeats 2000000 in
theorem sout1_B_1_val (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : ¬cond1_1 i)
    (x0 : Vec Ideal S16x64x2048 .f32) (x1 : Vec Ideal S512x2048 .f32) (x2 : Vec Ideal S512x128 .f32) (x3 : Vec Ideal S1x128 .f32) (xs0 xs1 : Vec Ideal S64x512 .f32) :
    sout1_B_1 (F := Ideal) c i arg1 harg1 arg2 harg2 arg3 harg3 arg4 harg4 arg5 harg5 arg6 harg6 arg7 harg7 arg8 harg8 hc0 hc1 x0 x1 x2 x3 xs0 xs1 = (Cert.Lstm.run x1 (fun k => Cert.Lstm.slab x0 k) (xs0, xs1) 16).2 := by
  unfold sout1_B_1
  rw [View.read_writes_eq_canon _ _ _ (scover1_B_1 c i arg1 harg1 arg2 harg2 arg3 harg3 arg4 harg4 arg5 harg5 arg6 harg6 arg7 harg7 arg8 harg8 hc0 hc1 x0 x1 x2 x3 xs0 xs1)]
  unfold kernelRun1_B
  dsimp only
  first | sl_unfold_run_names | fail "names"
  first | rw [View.canon_unit_zero hz2] | fail "canon"
  first | simp only [View.readAt_eq_ld, harg1.read_unread, harg2.read_unread, harg3.read_unread, harg4.read_unread, harg7.read_unread, harg8.read_unread, View.ld_unit_zero (S := S64x512) hz2, View.ld_unit_zero (S := S512x2048) hz2, View.ld_unit_zero (S := S512x128) hz2, View.ld_unit_zero (S := S1x128) hz2] | fail "loads"
  first | simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77_hcat, k1_pay78, k1_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h] | fail "fold"
  first | simp only [Prod.mk.eta] | skip
  first | rfl | fail "rfl"

set_option maxHeartbeats 2000000 in
theorem sout1_C_0_val (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : cond1_1 i)
    (x0 : Vec Ideal S16x64x2048 .f32) (x1 : Vec Ideal S512x2048 .f32) (x2 : Vec Ideal S512x128 .f32) (x3 : Vec Ideal S1x128 .f32) (xs0 xs1 : Vec Ideal S64x512 .f32) :
    sout1_C_0 (F := Ideal) c i arg1 harg1 arg2 harg2 arg3 harg3 arg4 harg4 arg5 harg5 arg6 harg6 arg7 harg7 arg8 harg8 hc0 hc1 x0 x1 x2 x3 xs0 xs1 = (Cert.Lstm.run x1 (fun k => Cert.Lstm.slab x0 k) (xs0, xs1) 16).1 := by
  unfold sout1_C_0
  rw [View.read_writes_eq_canon _ _ _ (scover1_C_0 c i arg1 harg1 arg2 harg2 arg3 harg3 arg4 harg4 arg5 harg5 arg6 harg6 arg7 harg7 arg8 harg8 hc0 hc1 x0 x1 x2 x3 xs0 xs1)]
  unfold kernelRun1_C
  dsimp only
  first | sl_unfold_run_names | fail "names"
  first | rw [View.canon_unit_zero hz2] | fail "canon"
  first | simp only [View.readAt_eq_ld, harg1.read_unread, harg2.read_unread, harg3.read_unread, harg4.read_unread, harg7.read_unread, harg8.read_unread, View.ld_unit_zero (S := S64x512) hz2, View.ld_unit_zero (S := S512x2048) hz2, View.ld_unit_zero (S := S512x128) hz2, View.ld_unit_zero (S := S1x128) hz2] | fail "loads"
  first | simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77_hcat, k1_pay78, k1_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h] | fail "fold"
  first | simp only [Prod.mk.eta] | skip
  first | rfl | fail "rfl"

set_option maxHeartbeats 2000000 in
theorem sout1_C_1_val (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : cond1_1 i)
    (x0 : Vec Ideal S16x64x2048 .f32) (x1 : Vec Ideal S512x2048 .f32) (x2 : Vec Ideal S512x128 .f32) (x3 : Vec Ideal S1x128 .f32) (xs0 xs1 : Vec Ideal S64x512 .f32) :
    sout1_C_1 (F := Ideal) c i arg1 harg1 arg2 harg2 arg3 harg3 arg4 harg4 arg5 harg5 arg6 harg6 arg7 harg7 arg8 harg8 hc0 hc1 x0 x1 x2 x3 xs0 xs1 = (Cert.Lstm.run x1 (fun k => Cert.Lstm.slab x0 k) (xs0, xs1) 16).2 := by
  unfold sout1_C_1
  rw [View.read_writes_eq_canon _ _ _ (scover1_C_1 c i arg1 harg1 arg2 harg2 arg3 harg3 arg4 harg4 arg5 harg5 arg6 harg6 arg7 harg7 arg8 harg8 hc0 hc1 x0 x1 x2 x3 xs0 xs1)]
  unfold kernelRun1_C
  dsimp only
  first | sl_unfold_run_names | fail "names"
  first | rw [View.canon_unit_zero hz2] | fail "canon"
  first | simp only [View.readAt_eq_ld, harg1.read_unread, harg2.read_unread, harg3.read_unread, harg4.read_unread, harg7.read_unread, harg8.read_unread, View.ld_unit_zero (S := S64x512) hz2, View.ld_unit_zero (S := S512x2048) hz2, View.ld_unit_zero (S := S512x128) hz2, View.ld_unit_zero (S := S1x128) hz2] | fail "loads"
  first | simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77_hcat, k1_pay78, k1_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h] | fail "fold"
  first | simp only [Prod.mk.eta] | skip
  first | rfl | fail "rfl"

set_option maxHeartbeats 2000000 in
theorem out1_C_5_val (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : cond1_1 i)
    (x0 : Vec Ideal S16x64x2048 .f32) (x1 : Vec Ideal S512x2048 .f32) (x2 : Vec Ideal S512x128 .f32) (x3 : Vec Ideal S1x128 .f32) (xs0 xs1 : Vec Ideal S64x512 .f32) :
    out1_C_5 (F := Ideal) c i arg1 harg1 arg2 harg2 arg3 harg3 arg4 harg4 arg5 harg5 arg6 harg6 arg7 harg7 arg8 harg8 hc0 hc1 x0 x1 x2 x3 xs0 xs1 = Cert.Lstm.head x2 x3 broadcasts_S1x128_S64x128 (Cert.Lstm.run x1 (fun k => Cert.Lstm.slab x0 k) (xs0, xs1) 16).1 := by
  unfold out1_C_5
  rw [View.read_writes_eq_canon _ _ _ (cover1_C_5 c i arg1 harg1 arg2 harg2 arg3 harg3 arg4 harg4 arg5 harg5 arg6 harg6 arg7 harg7 arg8 harg8 hc0 hc1 x0 x1 x2 x3 xs0 xs1)]
  unfold kernelRun1_C
  dsimp only
  first | sl_unfold_run_names | fail "names"
  first | rw [View.canon_unit_zero hz2] | fail "canon"
  first | simp only [View.readAt_eq_ld, harg1.read_unread, harg2.read_unread, harg3.read_unread, harg4.read_unread, harg7.read_unread, harg8.read_unread, View.ld_unit_zero (S := S64x512) hz2, View.ld_unit_zero (S := S512x2048) hz2, View.ld_unit_zero (S := S512x128) hz2, View.ld_unit_zero (S := S1x128) hz2] | fail "loads"
  first | simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77_hcat, k1_pay78, k1_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h, fold_head] | fail "fold"
  first | simp only [Prod.mk.eta] | skip
  first | rfl | fail "rfl"

set_option maxHeartbeats 2000000 in
theorem out1_A_4_val (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond1_0 i) (hc1 : ¬cond1_1 i)
    (x0 : Vec Ideal S16x64x2048 .f32) (x1 : Vec Ideal S512x2048 .f32) (x2 : Vec Ideal S512x128 .f32) (x3 : Vec Ideal S1x128 .f32) :
    out1_A_4 (F := Ideal) c i arg1 harg1 arg2 harg2 arg3 harg3 arg4 harg4 arg5 harg5 arg6 harg6 arg7 harg7 arg8 harg8 hc0 hc1 x0 x1 x2 x3 = hcat16 ((Cert.Lstm.run x1 (fun k => Cert.Lstm.slab x0 k) (zeroH, zeroH) 1).1) ((Cert.Lstm.run x1 (fun k => Cert.Lstm.slab x0 k) (zeroH, zeroH) 2).1) ((Cert.Lstm.run x1 (fun k => Cert.Lstm.slab x0 k) (zeroH, zeroH) 3).1) ((Cert.Lstm.run x1 (fun k => Cert.Lstm.slab x0 k) (zeroH, zeroH) 4).1) ((Cert.Lstm.run x1 (fun k => Cert.Lstm.slab x0 k) (zeroH, zeroH) 5).1) ((Cert.Lstm.run x1 (fun k => Cert.Lstm.slab x0 k) (zeroH, zeroH) 6).1) ((Cert.Lstm.run x1 (fun k => Cert.Lstm.slab x0 k) (zeroH, zeroH) 7).1) ((Cert.Lstm.run x1 (fun k => Cert.Lstm.slab x0 k) (zeroH, zeroH) 8).1) ((Cert.Lstm.run x1 (fun k => Cert.Lstm.slab x0 k) (zeroH, zeroH) 9).1) ((Cert.Lstm.run x1 (fun k => Cert.Lstm.slab x0 k) (zeroH, zeroH) 10).1) ((Cert.Lstm.run x1 (fun k => Cert.Lstm.slab x0 k) (zeroH, zeroH) 11).1) ((Cert.Lstm.run x1 (fun k => Cert.Lstm.slab x0 k) (zeroH, zeroH) 12).1) ((Cert.Lstm.run x1 (fun k => Cert.Lstm.slab x0 k) (zeroH, zeroH) 13).1) ((Cert.Lstm.run x1 (fun k => Cert.Lstm.slab x0 k) (zeroH, zeroH) 14).1) ((Cert.Lstm.run x1 (fun k => Cert.Lstm.slab x0 k) (zeroH, zeroH) 15).1) ((Cert.Lstm.run x1 (fun k => Cert.Lstm.slab x0 k) (zeroH, zeroH) 16).1) := by
  unfold out1_A_4
  rw [View.read_writes_eq_canon _ _ _ (cover1_A_4 c i arg1 harg1 arg2 harg2 arg3 harg3 arg4 harg4 arg5 harg5 arg6 harg6 arg7 harg7 arg8 harg8 hc0 hc1 x0 x1 x2 x3)]
  unfold kernelRun1_A
  dsimp only
  first | sl_unfold_run_names | fail "names"
  first | rw [View.canon_unit_zero hz3] | fail "canon"
  first | simp only [View.readAt_eq_ld, harg1.read_unread, harg2.read_unread, harg3.read_unread, harg4.read_unread, View.readCov_unit_zero (S := S64x512) _ hz2, View.ld_unit_zero (S := S64x512) hz2, View.ld_unit_zero (S := S512x2048) hz2, View.ld_unit_zero (S := S512x128) hz2, View.ld_unit_zero (S := S1x128) hz2] | fail "loads"
  first | simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77_hcat, k1_pay78, k1_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h] | fail "fold"
  first | simp only [Prod.mk.eta] | skip
  first | rfl | fail "rfl"

set_option maxHeartbeats 2000000 in
theorem out1_B_4_val (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : ¬cond1_1 i)
    (x0 : Vec Ideal S16x64x2048 .f32) (x1 : Vec Ideal S512x2048 .f32) (x2 : Vec Ideal S512x128 .f32) (x3 : Vec Ideal S1x128 .f32) (xs0 xs1 : Vec Ideal S64x512 .f32) :
    out1_B_4 (F := Ideal) c i arg1 harg1 arg2 harg2 arg3 harg3 arg4 harg4 arg5 harg5 arg6 harg6 arg7 harg7 arg8 harg8 hc0 hc1 x0 x1 x2 x3 xs0 xs1 = hcat16 ((Cert.Lstm.run x1 (fun k => Cert.Lstm.slab x0 k) (xs0, xs1) 1).1) ((Cert.Lstm.run x1 (fun k => Cert.Lstm.slab x0 k) (xs0, xs1) 2).1) ((Cert.Lstm.run x1 (fun k => Cert.Lstm.slab x0 k) (xs0, xs1) 3).1) ((Cert.Lstm.run x1 (fun k => Cert.Lstm.slab x0 k) (xs0, xs1) 4).1) ((Cert.Lstm.run x1 (fun k => Cert.Lstm.slab x0 k) (xs0, xs1) 5).1) ((Cert.Lstm.run x1 (fun k => Cert.Lstm.slab x0 k) (xs0, xs1) 6).1) ((Cert.Lstm.run x1 (fun k => Cert.Lstm.slab x0 k) (xs0, xs1) 7).1) ((Cert.Lstm.run x1 (fun k => Cert.Lstm.slab x0 k) (xs0, xs1) 8).1) ((Cert.Lstm.run x1 (fun k => Cert.Lstm.slab x0 k) (xs0, xs1) 9).1) ((Cert.Lstm.run x1 (fun k => Cert.Lstm.slab x0 k) (xs0, xs1) 10).1) ((Cert.Lstm.run x1 (fun k => Cert.Lstm.slab x0 k) (xs0, xs1) 11).1) ((Cert.Lstm.run x1 (fun k => Cert.Lstm.slab x0 k) (xs0, xs1) 12).1) ((Cert.Lstm.run x1 (fun k => Cert.Lstm.slab x0 k) (xs0, xs1) 13).1) ((Cert.Lstm.run x1 (fun k => Cert.Lstm.slab x0 k) (xs0, xs1) 14).1) ((Cert.Lstm.run x1 (fun k => Cert.Lstm.slab x0 k) (xs0, xs1) 15).1) ((Cert.Lstm.run x1 (fun k => Cert.Lstm.slab x0 k) (xs0, xs1) 16).1) := by
  unfold out1_B_4
  rw [View.read_writes_eq_canon _ _ _ (cover1_B_4 c i arg1 harg1 arg2 harg2 arg3 harg3 arg4 harg4 arg5 harg5 arg6 harg6 arg7 harg7 arg8 harg8 hc0 hc1 x0 x1 x2 x3 xs0 xs1)]
  unfold kernelRun1_B
  dsimp only
  first | sl_unfold_run_names | fail "names"
  first | rw [View.canon_unit_zero hz3] | fail "canon"
  first | simp only [View.readAt_eq_ld, harg1.read_unread, harg2.read_unread, harg3.read_unread, harg4.read_unread, harg7.read_unread, harg8.read_unread, View.ld_unit_zero (S := S64x512) hz2, View.ld_unit_zero (S := S512x2048) hz2, View.ld_unit_zero (S := S512x128) hz2, View.ld_unit_zero (S := S1x128) hz2] | fail "loads"
  first | simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77_hcat, k1_pay78, k1_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h] | fail "fold"
  first | simp only [Prod.mk.eta] | skip
  first | rfl | fail "rfl"

set_option maxHeartbeats 2000000 in
theorem out1_C_4_val (c : Dev nD) (i : grid1.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond1_0 i) (hc1 : cond1_1 i)
    (x0 : Vec Ideal S16x64x2048 .f32) (x1 : Vec Ideal S512x2048 .f32) (x2 : Vec Ideal S512x128 .f32) (x3 : Vec Ideal S1x128 .f32) (xs0 xs1 : Vec Ideal S64x512 .f32) :
    out1_C_4 (F := Ideal) c i arg1 harg1 arg2 harg2 arg3 harg3 arg4 harg4 arg5 harg5 arg6 harg6 arg7 harg7 arg8 harg8 hc0 hc1 x0 x1 x2 x3 xs0 xs1 = hcat16 ((Cert.Lstm.run x1 (fun k => Cert.Lstm.slab x0 k) (xs0, xs1) 1).1) ((Cert.Lstm.run x1 (fun k => Cert.Lstm.slab x0 k) (xs0, xs1) 2).1) ((Cert.Lstm.run x1 (fun k => Cert.Lstm.slab x0 k) (xs0, xs1) 3).1) ((Cert.Lstm.run x1 (fun k => Cert.Lstm.slab x0 k) (xs0, xs1) 4).1) ((Cert.Lstm.run x1 (fun k => Cert.Lstm.slab x0 k) (xs0, xs1) 5).1) ((Cert.Lstm.run x1 (fun k => Cert.Lstm.slab x0 k) (xs0, xs1) 6).1) ((Cert.Lstm.run x1 (fun k => Cert.Lstm.slab x0 k) (xs0, xs1) 7).1) ((Cert.Lstm.run x1 (fun k => Cert.Lstm.slab x0 k) (xs0, xs1) 8).1) ((Cert.Lstm.run x1 (fun k => Cert.Lstm.slab x0 k) (xs0, xs1) 9).1) ((Cert.Lstm.run x1 (fun k => Cert.Lstm.slab x0 k) (xs0, xs1) 10).1) ((Cert.Lstm.run x1 (fun k => Cert.Lstm.slab x0 k) (xs0, xs1) 11).1) ((Cert.Lstm.run x1 (fun k => Cert.Lstm.slab x0 k) (xs0, xs1) 12).1) ((Cert.Lstm.run x1 (fun k => Cert.Lstm.slab x0 k) (xs0, xs1) 13).1) ((Cert.Lstm.run x1 (fun k => Cert.Lstm.slab x0 k) (xs0, xs1) 14).1) ((Cert.Lstm.run x1 (fun k => Cert.Lstm.slab x0 k) (xs0, xs1) 15).1) ((Cert.Lstm.run x1 (fun k => Cert.Lstm.slab x0 k) (xs0, xs1) 16).1) := by
  unfold out1_C_4
  rw [View.read_writes_eq_canon _ _ _ (cover1_C_4 c i arg1 harg1 arg2 harg2 arg3 harg3 arg4 harg4 arg5 harg5 arg6 harg6 arg7 harg7 arg8 harg8 hc0 hc1 x0 x1 x2 x3 xs0 xs1)]
  unfold kernelRun1_C
  dsimp only
  first | sl_unfold_run_names | fail "names"
  first | rw [View.canon_unit_zero hz3] | fail "canon"
  first | simp only [View.readAt_eq_ld, harg1.read_unread, harg2.read_unread, harg3.read_unread, harg4.read_unread, harg7.read_unread, harg8.read_unread, View.ld_unit_zero (S := S64x512) hz2, View.ld_unit_zero (S := S512x2048) hz2, View.ld_unit_zero (S := S512x128) hz2, View.ld_unit_zero (S := S1x128) hz2] | fail "loads"
  first | simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77_hcat, k1_pay78, k1_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h] | fail "fold"
  first | simp only [Prod.mk.eta] | skip
  first | rfl | fail "rfl"

end Cert.ReferenceIdeal.Hand

end
-- ==== Proof.Ref.Lstm1ValV.lean ====
import proofs.«114155_g2000202467955933_pallasbulk_1200_31_alg».proof.Proof.Ref.Lstm1Val

set_option maxRecDepth 65536

noncomputable section

namespace Cert.ReferenceIdeal.Hand

open Cert.ReferenceIdeal.Gen
open Idealize.ShloMosaic Idealize.ShloMosaic.TcCoe Idealize.ShloMosaic.Tactic
open Idealize.SL Idealize.SL.Sem
open Idealize.ShloMosaic.Pipeline (Dat)

section Region1
variable (V : (c : Dev nD) → (b : Ref sig .tc) → Buf (Elt Ideal) ((c : Thread nD τ).loc b))

/-! ## Pipeline 1 on the extended reals: each point runs the recurrence over its block's 16 time steps -/

/-- The first point: 16 steps from the zero state. -/
theorem stepA1_val (c : Dev nD) (t : Fin cfg1.N) (h0 : t.val % 16 = 0) (h1 : ¬t.val % 16 = 15) :
    stepA1 (F := Ideal) V c t h0 h1 = Cert.Lstm.run (iblk1 V c 1 t) (fun n => Cert.Lstm.slab (iblk1 V c 0 t) n) (zeroH, zeroH) 16 := by
  unfold stepA1
  have e0 := sout1_A_0_val c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)
  have e1 := sout1_A_1_val c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)
  rw [e0, e1]

/-- A middle point: 16 steps from the state `s` the point before left. -/
theorem stepB1_val (c : Dev nD) (t : Fin cfg1.N) (h0 : ¬t.val % 16 = 0) (h1 : ¬t.val % 16 = 15) (s : FVec Ideal S64x512 .f32 × FVec Ideal S64x512 .f32) :
    stepB1 (F := Ideal) V c t h0 h1 s = Cert.Lstm.run (iblk1 V c 1 t) (fun n => Cert.Lstm.slab (iblk1 V c 0 t) n) s 16 := by
  unfold stepB1
  have e0 := sout1_B_0_val c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) s.1 s.2
  have e1 := sout1_B_1_val c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) s.1 s.2
  rw [e0, e1]

/-- The last point: the same. -/
theorem stepC1_val (c : Dev nD) (t : Fin cfg1.N) (h0 : ¬t.val % 16 = 0) (h1 : t.val % 16 = 15) (s : FVec Ideal S64x512 .f32 × FVec Ideal S64x512 .f32) :
    stepC1 (F := Ideal) V c t h0 h1 s = Cert.Lstm.run (iblk1 V c 1 t) (fun n => Cert.Lstm.slab (iblk1 V c 0 t) n) s 16 := by
  unfold stepC1
  have e0 := sout1_C_0_val c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) s.1 s.2
  have e1 := sout1_C_1_val c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) s.1 s.2
  rw [e0, e1]

/-- The block of hidden states a point stores: row `r` is the hidden state after `r + 1` steps. -/
theorem hseqA1_val (c : Dev nD) (t : Fin cfg1.N) (h0 : t.val % 16 = 0) (h1 : ¬t.val % 16 = 15) (r : Fin 16) (b : Fin 64) (j : Fin 512) :
    hseqA1 (F := Ideal) V c t h0 h1 (ValueIdx.ix3 r b j) = (Cert.Lstm.run (iblk1 V c 1 t) (fun n => Cert.Lstm.slab (iblk1 V c 0 t) n) (zeroH, zeroH) (r.val + 1)).1 (ValueIdx.ix2 b j) := by
  unfold hseqA1
  exact (congrFun (out1_A_4_val c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)) _).trans (hcat16_apply (fun n => (Cert.Lstm.run (iblk1 V c 1 t) (fun n => Cert.Lstm.slab (iblk1 V c 0 t) n) (zeroH, zeroH) (n + 1)).1) r b j)
theorem hseqB1_val (c : Dev nD) (t : Fin cfg1.N) (h0 : ¬t.val % 16 = 0) (h1 : ¬t.val % 16 = 15) (s : FVec Ideal S64x512 .f32 × FVec Ideal S64x512 .f32) (r : Fin 16) (b : Fin 64) (j : Fin 512) :
    hseqB1 (F := Ideal) V c t h0 h1 s (ValueIdx.ix3 r b j) = (Cert.Lstm.run (iblk1 V c 1 t) (fun n => Cert.Lstm.slab (iblk1 V c 0 t) n) s (r.val + 1)).1 (ValueIdx.ix2 b j) := by
  unfold hseqB1
  exact (congrFun (out1_B_4_val c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) s.1 s.2) _).trans (hcat16_apply (fun n => (Cert.Lstm.run (iblk1 V c 1 t) (fun n => Cert.Lstm.slab (iblk1 V c 0 t) n) s (n + 1)).1) r b j)
theorem hseqC1_val (c : Dev nD) (t : Fin cfg1.N) (h0 : ¬t.val % 16 = 0) (h1 : t.val % 16 = 15) (s : FVec Ideal S64x512 .f32 × FVec Ideal S64x512 .f32) (r : Fin 16) (b : Fin 64) (j : Fin 512) :
    hseqC1 (F := Ideal) V c t h0 h1 s (ValueIdx.ix3 r b j) = (Cert.Lstm.run (iblk1 V c 1 t) (fun n => Cert.Lstm.slab (iblk1 V c 0 t) n) s (r.val + 1)).1 (ValueIdx.ix2 b j) := by
  unfold hseqC1
  exact (congrFun (out1_C_4_val c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) s.1 s.2) _).trans (hcat16_apply (fun n => (Cert.Lstm.run (iblk1 V c 1 t) (fun n => Cert.Lstm.slab (iblk1 V c 0 t) n) s (n + 1)).1) r b j)

/-- The projection the last point stores: the classifier head on the hidden state after its 16 steps. -/
theorem fcC1_val (c : Dev nD) (t : Fin cfg1.N) (h0 : ¬t.val % 16 = 0) (h1 : t.val % 16 = 15) (s : FVec Ideal S64x512 .f32 × FVec Ideal S64x512 .f32) :
    fcC1 (F := Ideal) V c t h0 h1 s = Cert.Lstm.head (iblk1 V c 2 t) (iblk1 V c 3 t) broadcasts_S1x128_S64x128 (Cert.Lstm.run (iblk1 V c 1 t) (fun n => Cert.Lstm.slab (iblk1 V c 0 t) n) s 16).1 := by
  unfold fcC1
  exact out1_C_5_val c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) s.1 s.2

/-! ## The same, point by point over the grid -/

/-- After the first point. -/
theorem st1_val_zero (c : Dev nD) :
    st1 (F := Ideal) V c 0 = Cert.Lstm.run (iblk1 V c 1 t1_0) (fun n => Cert.Lstm.slab (iblk1 V c 0 t1_0) n) (zeroH, zeroH) 16 :=
  (st1_zero V c).trans (stepA1_val V c t1_0 rfl (by decide))

/-- After a later point `t`: 16 steps over block `t` from what the point before left. -/
theorem st1_val_pos (c : Dev nD) (t : Fin cfg1.N) (h0 : ¬t.val % 16 = 0) :
    st1 (F := Ideal) V c t.val = Cert.Lstm.run (iblk1 V c 1 t) (fun n => Cert.Lstm.slab (iblk1 V c 0 t) n) (st1 V c (t.val - 1)) 16 := by
  by_cases h1 : t.val % 16 = 15
  · exact (st1_C V c t h0 h1).trans (stepC1_val V c t h0 h1 _)
  · exact (st1_B V c t h0 h1).trans (stepB1_val V c t h0 h1 _)

/-- The hidden states the first point stores. -/
theorem hseq1_val_zero (c : Dev nD) (t : Fin cfg1.N) (h0 : t.val % 16 = 0) (r : Fin 16) (b : Fin 64) (j : Fin 512) :
    hseq1 (F := Ideal) V c t (ValueIdx.ix3 r b j) = (Cert.Lstm.run (iblk1 V c 1 t) (fun n => Cert.Lstm.slab (iblk1 V c 0 t) n) (zeroH, zeroH) (r.val + 1)).1 (ValueIdx.ix2 b j) := by
  have h1 : ¬t.val % 16 = 15 := by omega
  rw [hseq1_A V c t h0 h1]
  exact hseqA1_val V c t h0 h1 r b j

/-- The hidden states a later point stores. -/
theorem hseq1_val_pos (c : Dev nD) (t : Fin cfg1.N) (h0 : ¬t.val % 16 = 0) (r : Fin 16) (b : Fin 64) (j : Fin 512) :
    hseq1 (F := Ideal) V c t (ValueIdx.ix3 r b j) = (Cert.Lstm.run (iblk1 V c 1 t) (fun n => Cert.Lstm.slab (iblk1 V c 0 t) n) (st1 V c (t.val - 1)) (r.val + 1)).1 (ValueIdx.ix2 b j) := by
  by_cases h1 : t.val % 16 = 15
  · rw [hseq1_C V c t h0 h1]; exact hseqC1_val V c t h0 h1 _ r b j
  · rw [hseq1_B V c t h0 h1]; exact hseqB1_val V c t h0 h1 _ r b j

/-- The projection output: the head on the last hidden state. -/
theorem fc1_val (c : Dev nD) :
    fc1 (F := Ideal) V c = Cert.Lstm.head (iblk1 V c 2 t1_15) (iblk1 V c 3 t1_15) broadcasts_S1x128_S64x128 (st1 V c 15).1 := by
  have e : st1 (F := Ideal) V c 15 = _ := st1_val_pos V c t1_15 (by decide)
  rw [e]
  exact fcC1_val V c t1_15 (by decide) (by decide) _

/-! ## The windows whose block is their whole array -/

theorem idx1_in1 : ∀ t : Fin cfg1.N, win1_1.index t (0 : Fin 2) = 0 ∧ win1_1.index t (1 : Fin 2) = 0 :=
  (by decide +kernel : ∀ t : Fin grid1.N, _)

/-- Window 1's block is its whole array at every point. -/
theorem iblk1_whole_1 (c : Dev nD) (t : Fin cfg1.N) : (iblk1 V c 1 t : Vec Ideal S512x2048 .f32) = V c main_call0_v4 := by
  obtain ⟨e0, e1⟩ := idx1_in1 t
  have hz' : (fun a => win1_1.index t a * main_call0_v4.ty.shape.size a) = fun _ => 0 := funext fun a => by
    match a with
    | ⟨0, _⟩ => show win1_1.index t (0 : Fin 2) * _ = 0; rw [e0]; exact Nat.zero_mul _
    | ⟨1, _⟩ => show win1_1.index t (1 : Fin 2) * _ = 0; rw [e1]; exact Nat.zero_mul _
  exact Memref.read_access_unit_zero (Elt Ideal) main_call0_v4 hz' (fun a => by rw [congrFun hz' a]; simp) (V c main_call0_v4)

theorem idx1_in2 : ∀ t : Fin cfg1.N, win1_2.index t (0 : Fin 2) = 0 ∧ win1_2.index t (1 : Fin 2) = 0 :=
  (by decide +kernel : ∀ t : Fin grid1.N, _)

/-- Window 2's block is its whole array at every point. -/
theorem iblk1_whole_2 (c : Dev nD) (t : Fin cfg1.N) : (iblk1 V c 2 t : Vec Ideal S512x128 .f32) = V c main_call0_v0 := by
  obtain ⟨e0, e1⟩ := idx1_in2 t
  have hz' : (fun a => win1_2.index t a * main_call0_v0.ty.shape.size a) = fun _ => 0 := funext fun a => by
    match a with
    | ⟨0, _⟩ => show win1_2.index t (0 : Fin 2) * _ = 0; rw [e0]; exact Nat.zero_mul _
    | ⟨1, _⟩ => show win1_2.index t (1 : Fin 2) * _ = 0; rw [e1]; exact Nat.zero_mul _
  exact Memref.read_access_unit_zero (Elt Ideal) main_call0_v0 hz' (fun a => by rw [congrFun hz' a]; simp) (V c main_call0_v0)

theorem idx1_in3 : ∀ t : Fin cfg1.N, win1_3.index t (0 : Fin 2) = 0 ∧ win1_3.index t (1 : Fin 2) = 0 :=
  (by decide +kernel : ∀ t : Fin grid1.N, _)

/-- Window 3's block is its whole array at every point. -/
theorem iblk1_whole_3 (c : Dev nD) (t : Fin cfg1.N) : (iblk1 V c 3 t : Vec Ideal S1x128 .f32) = V c main_call0_v1 := by
  obtain ⟨e0, e1⟩ := idx1_in3 t
  have hz' : (fun a => win1_3.index t a * main_call0_v1.ty.shape.size a) = fun _ => 0 := funext fun a => by
    match a with
    | ⟨0, _⟩ => show win1_3.index t (0 : Fin 2) * _ = 0; rw [e0]; exact Nat.zero_mul _
    | ⟨1, _⟩ => show win1_3.index t (1 : Fin 2) * _ = 0; rw [e1]; exact Nat.zero_mul _
  exact Memref.read_access_unit_zero (Elt Ideal) main_call0_v1 hz' (fun a => by rw [congrFun hz' a]; simp) (V c main_call0_v1)

/-- A time step of the gate-input window's block at point `t` is that time step of the array: row `16 t + r`. -/
theorem slab_iblk1 (c : Dev nD) (t : Fin cfg1.N) (r : ℕ) (hr : r < 16) (i : Cert.Lstm.SG.Idx) (kk : S256x64x2048.Idx)
    (hk0 : (kk 0).val = 16 * t.val + r) (hk1 : (kk 1).val = (i 0).val) (hk2 : (kk 2).val = (i 1).val) :
    Cert.Lstm.slab (iblk1 V c 0 t) r i = (V c main_call0_v9 : S256x64x2048.Idx → Ideal .f32) kk := by
  have hi : win1_0.index t (0 : Fin 3) = t.val ∧ win1_0.index t (1 : Fin 3) = 0 ∧ win1_0.index t (2 : Fin 3) = 0 :=
    (by decide +kernel : ∀ t : Fin grid1.N, win1_0.index t (0 : Fin 3) = t.val ∧ win1_0.index t (1 : Fin 3) = 0 ∧ win1_0.index t (2 : Fin 3) = 0) t
  unfold Cert.Lstm.slab iblk1
  rw [View.read_apply]
  show V c main_call0_v9 _ = V c main_call0_v9 _
  congr 1
  funext a
  apply Fin.ext
  match a with
  | ⟨0, _⟩ => show win1_0.index t (0 : Fin 3) * 16 + 1 * (r % 16) = (kk 0).val; rw [hi.1, hk0, Nat.mod_eq_of_lt hr]; omega
  | ⟨1, _⟩ => show win1_0.index t (1 : Fin 3) * 64 + 1 * (i 0).val = (kk 1).val; rw [hi.2.1, hk1]; omega
  | ⟨2, _⟩ => show win1_0.index t (2 : Fin 3) * 2048 + 1 * (i 1).val = (kk 2).val; rw [hi.2.2, hk2]; omega

end Region1

end Cert.ReferenceIdeal.Hand

end
-- ==== Proof.Ref.Layer0.lean ====
/-
  Layer 0's recurrence in the reference is the specification's layer.

  The region keeps the LSTM state between its 16 grid points; each point runs 16 time steps over its block of gate
  inputs, and those are the projection's rows of time steps 16 t … 16 t + 15. So the state after point n is the layer's
  run after 16 (n + 1) time steps, and the hidden states the region writes — handed to layer 1 as its 16384 input
  rows — are the layer's hidden states stacked time-major.
-/
import proofs.«114155_g2000202467955933_pallasbulk_1200_31_alg».proof.Proof.Ref.GateInputs
import proofs.«114155_g2000202467955933_pallasbulk_1200_31_alg».proof.Proof.Ref.Lstm1ValV
import proofs.«114155_g2000202467955933_pallasbulk_1200_31_alg».proof.Proof.LstmBlocks

set_option maxRecDepth 16384

noncomputable section

namespace Cert.ReferenceIdeal.Hand

open Idealize.ShloMosaic Idealize.ShloMosaic.TcCoe Idealize.ShloMosaic.ValueIdx
open Idealize.SL Idealize.SL.Sem
open Cert.ReferenceIdeal Cert.ReferenceIdeal.Gen

/-- The program's zero state is the specification's. -/
theorem zeroH_pair : ((zeroH, zeroH) : FVec Ideal Cert.Lstm.SH .f32 × FVec Ideal Cert.Lstm.SH .f32) = Cert.Lstm.zeroSt := by
  have h : (zeroH : FVec Ideal Cert.Lstm.SH .f32) = fun _ => 0 := by
    funext i
    show Ideal.ofBits .f32 0x00000000#32 = 0
    exact Ideal.ofBits_zero_f32
  unfold Cert.Lstm.zeroSt
  rw [h]

/-- States kept point by point over a grid of 16 blocks, each 16 steps from the one before over its block's gate inputs,
    are the layer's run sampled every 16 steps — for any arrays and any blocks whose time steps are the projection's. -/
theorem states_are_layer {K N' : ℕ} (hN : N' = 16) (X : FVec Ideal ⟨2, ![16384, K]⟩ .f32) (wih : FVec Ideal ⟨2, ![K, 2048]⟩ .f32)
    (b : FVec Ideal ⟨2, ![1, 2048]⟩ .f32) (whh : FVec Ideal Cert.Lstm.SW .f32)
    (st : ℕ → FVec Ideal Cert.Lstm.SH .f32 × FVec Ideal Cert.Lstm.SH .f32) (blk : Fin N' → FVec Ideal ⟨3, ![16, 64, 2048]⟩ .f32)
    (h0 : ∀ t : Fin N', t.val = 0 → st 0 = Cert.Lstm.run whh (fun n => Cert.Lstm.slab (blk t) n) Cert.Lstm.zeroSt 16)
    (hs : ∀ t : Fin N', t.val ≠ 0 → st t.val = Cert.Lstm.run whh (fun n => Cert.Lstm.slab (blk t) n) (st (t.val - 1)) 16)
    (hig : ∀ (t : Fin N') (k : ℕ), k < 16 → Cert.Lstm.slab (blk t) k = Cert.Lstm.proj X wih b (16 * t.val + k)) :
    ∀ n, n < 16 → st n = Cert.Lstm.layer X wih b whh (16 * (n + 1)) := by
  have hlt : ∀ t : ℕ, t % 16 < N' := fun t => by rw [hN]; exact Nat.mod_lt _ (by decide)
  refine Cert.Lstm.layer_of_blocks X wih b whh st (fun t k => Cert.Lstm.slab (blk ⟨t % 16, hlt t⟩) k) 16 ?_ ?_ ?_
  · exact h0 ⟨0 % 16, hlt 0⟩ rfl
  · intro n hn
    have e : (⟨(n + 1) % 16, hlt (n + 1)⟩ : Fin N') = ⟨n + 1, by rw [hN]; exact hn⟩ := Fin.ext (Nat.mod_eq_of_lt hn)
    have h := hs ⟨n + 1, by rw [hN]; exact hn⟩ (Nat.succ_ne_zero n)
    show st (n + 1) = Cert.Lstm.run whh (fun k => Cert.Lstm.slab (blk ⟨(n + 1) % 16, hlt (n + 1)⟩) k) (st n) 16
    rw [e]
    exact h
  · intro t k ht hk
    have e : (⟨t % 16, hlt t⟩ : Fin N') = ⟨t, by rw [hN]; exact ht⟩ := Fin.ext (Nat.mod_eq_of_lt ht)
    show Cert.Lstm.slab (blk ⟨t % 16, hlt t⟩) k = _
    rw [e]
    exact hig ⟨t, by rw [hN]; exact ht⟩ k hk

variable (m : (ℓ : Loc nD τ sig) → Buf (Elt Ideal) ℓ) (ρ : Dev nD → PrngReg)

/-- THE STATE after point `n` of region 1: layer 0's run after `16 (n + 1)` time steps. -/
theorem st1_layer (c : Dev nD) (n : ℕ) (hn : n < 16) :
    st1 (U3 m ρ) c n = Cert.Lstm.layer (K := 256) (U1 m ρ c main_call0_v7) (U1 m ρ c main_call0_v3) (U1 m ρ c main_call0_v6) (U1 m ρ c main_call0_v4) (16 * (n + 1)) := by
  refine states_are_layer (N' := cfg1.N) N_1 _ _ _ _ (fun n => st1 (U3 m ρ) c n) (fun t => iblk1 (U3 m ρ) c 0 t) ?_ ?_ ?_ n hn
  · intro t ht
    obtain rfl : t = t1_0 := Fin.ext ht
    show st1 (U3 m ρ) c 0 = _
    rw [st1_val_zero (U3 m ρ) c, iblk1_whh, zeroH_pair]
  · intro t ht
    have hlt : t.val < 16 := by have h := t.isLt; have e : cfg1.N = 16 := N_1; omega
    show st1 (U3 m ρ) c t.val = _
    rw [st1_val_pos (U3 m ρ) c t (by omega), iblk1_whh]
  · intro t k hk
    exact gate_inputs1 m ρ c t k hk

/-- THE HIDDEN STATES layer 0 hands layer 1, laid time-major as 16384 rows: the specification's stacked hidden states. -/
theorem hidden_rows (c : Dev nD) :
    (U5 m ρ c main_call0_v15 : FVec Ideal ⟨2, ![16384, 512]⟩ .f32)
      = Cert.Lstm.hiddenRows (K := 256) (U1 m ρ c main_call0_v7) (U1 m ρ c main_call0_v3) (U1 m ρ c main_call0_v6) (U1 m ρ c main_call0_v4) := by
  rw [U5_v15']
  funext i
  obtain ⟨p, j, rfl⟩ : ∃ (p : Fin 16384) (j : Fin 512), i = ix2 p j := ⟨i 0, i 1, eq_ix2 i⟩
  obtain ⟨t, r, bb, ht, hr, hp⟩ : ∃ (t r : ℕ) (bb : Fin 64), t < 16 ∧ r < 16 ∧ p.val = 64 * (16 * t + r) + bb.val :=
    ⟨p.val / 1024, (p.val / 64) % 16, ⟨p.val % 64, Nat.mod_lt _ (by decide)⟩, by have := p.isLt; omega, Nat.mod_lt _ (by decide),
      by show p.val = 64 * (16 * (p.val / 1024) + (p.val / 64) % 16) + p.val % 64; omega⟩
  have hbb : bb.val < 64 := bb.isLt
  have hpl : 64 * (16 * t + r) + bb.val < 16384 := by omega
  obtain rfl : p = ⟨64 * (16 * t + r) + bb.val, hpl⟩ := Fin.ext hp
  have htN : t < cfg1.N := by have e : cfg1.N = 16 := N_1; omega
  have hig : ∀ k, k < 16 → (fun n => Cert.Lstm.slab (iblk1 (U3 m ρ) c 0 ⟨t, htN⟩) n) k
      = Cert.Lstm.proj (K := 256) (U1 m ρ c main_call0_v7) (U1 m ρ c main_call0_v3) (U1 m ρ c main_call0_v6) (16 * t + k) :=
    fun k hk => gate_inputs1 m ρ c ⟨t, htN⟩ k hk
  refine (shapeCast_apply _ shapeCasts_S256x64x512_S16384x512 _ (ix3 ⟨16 * t + r, by omega⟩ bb j) ?_).trans ?_
  · rw [Shape.rowMajor_val_three, Shape.rowMajor_val_two]
    show ((16 * t + r) * 64 + bb.val) * 512 + j.val = (64 * (16 * t + r) + bb.val) * 512 + j.val
    omega
  · rw [hseqArr1_apply (U3 m ρ) c ⟨t, htN⟩ (ix3 ⟨r, hr⟩ bb j) _ (by show 16 * t + r = t * 16 + r; omega) rfl rfl]
    by_cases ht0 : t % 16 = 0
    · have ht0' : t = 0 := by omega
      rw [hseq1_val_zero (U3 m ρ) c ⟨t, htN⟩ ht0 ⟨r, hr⟩ bb j, iblk1_whh, zeroH_pair]
      exact Cert.Lstm.hidden_in_block _ _ _ _ _ _ t r (by rw [ht0']; rfl) hr ht hig bb j
    · have hst : st1 (U3 m ρ) c (t - 1) = Cert.Lstm.layer (K := 256) (U1 m ρ c main_call0_v7) (U1 m ρ c main_call0_v3) (U1 m ρ c main_call0_v6) (U1 m ρ c main_call0_v4) (16 * t) := by
        rw [st1_layer m ρ c (t - 1) (by omega), show t - 1 + 1 = t from by omega]
      rw [hseq1_val_pos (U3 m ρ) c ⟨t, htN⟩ ht0 ⟨r, hr⟩ bb j, iblk1_whh]
      exact Cert.Lstm.hidden_in_block _ _ _ _ _ _ t r hst hr ht hig bb j

end Cert.ReferenceIdeal.Hand

end
-- ==== Proof.Ref.Lstm3Val.lean ====
import proofs.«114155_g2000202467955933_pallasbulk_1200_31_alg».proof.Proof.Ref.Lstm3
import proofs.«114155_g2000202467955933_pallasbulk_1200_31_alg».proof.Proof.Ref.LstmVal0

set_option maxRecDepth 65536

noncomputable section

namespace Cert.ReferenceIdeal.Hand

open Cert.ReferenceIdeal.Gen
open Idealize.ShloMosaic Idealize.ShloMosaic.TcCoe Idealize.ShloMosaic.Tactic
open Idealize.SL Idealize.SL.Sem
open Idealize.ShloMosaic.Pipeline (Dat)

theorem hz3 : (![0, 0, 0] : Fin 3 → Nat) = fun _ => 0 := funext fun a => by fin_cases a <;> rfl

/-- The block of hidden states the body stores is the stack of the sixteen hidden states. -/
theorem k3_pay77_hcat (v6 : FVec Ideal S512x2048 .f32) (v21 v36 v51 v66 v81 v96 v111 v126 v141 v156 v171 v186 v201 v216 v226 v229 : FVec Ideal S64x512 .f32) (v232 : Vec Ideal S1x64x2048 .f32) :
    k3_pay77 (F := Ideal) v6 v21 v36 v51 v66 v81 v96 v111 v126 v141 v156 v171 v186 v201 v216 v226 v229 v232
      = hcat16 v21 v36 v51 v66 v81 v96 v111 v126 v141 v156 v171 v186 v201 v216 (k3_pay72 v226 v229) (k3_pay76 v6 v226 v229 v232) := rfl

/-! ## What each case of pipeline 3's body computes, on the extended reals: the recurrence over the block's 16 time steps -/

set_option maxHeartbeats 2000000 in
theorem sout3_A_0_val (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond3_0 i) (hc1 : ¬cond3_1 i)
    (x0 : Vec Ideal S16x64x2048 .f32) (x1 : Vec Ideal S512x2048 .f32) (x2 : Vec Ideal S512x128 .f32) (x3 : Vec Ideal S1x128 .f32) :
    sout3_A_0 (F := Ideal) c i arg1 harg1 arg2 harg2 arg3 harg3 arg4 harg4 arg5 harg5 arg6 harg6 arg7 harg7 arg8 harg8 hc0 hc1 x0 x1 x2 x3 = (Cert.Lstm.run x1 (fun k => Cert.Lstm.slab x0 k) (zeroH, zeroH) 16).1 := by
  unfold sout3_A_0
  rw [View.read_writes_eq_canon _ _ _ (scover3_A_0 c i arg1 harg1 arg2 harg2 arg3 harg3 arg4 harg4 arg5 harg5 arg6 harg6 arg7 harg7 arg8 harg8 hc0 hc1 x0 x1 x2 x3)]
  unfold kernelRun3_A
  dsimp only
  first | sl_unfold_run_names | fail "names"
  first | rw [View.canon_cons_unit_zero hz2] | fail "canon"
  first | simp only [View.readAt_eq_ld, harg1.read_unread, harg2.read_unread, harg3.read_unread, harg4.read_unread, View.readCov_unit_zero (S := S64x512) _ hz2, View.ld_unit_zero (S := S64x512) hz2, View.ld_unit_zero (S := S512x2048) hz2, View.ld_unit_zero (S := S512x128) hz2, View.ld_unit_zero (S := S1x128) hz2] | fail "loads"
  first | simp only [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77_hcat, k3_pay78, k3_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h] | fail "fold"
  first | simp only [Prod.mk.eta] | skip
  first | rfl | fail "rfl"

set_option maxHeartbeats 2000000 in
theorem sout3_A_1_val (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond3_0 i) (hc1 : ¬cond3_1 i)
    (x0 : Vec Ideal S16x64x2048 .f32) (x1 : Vec Ideal S512x2048 .f32) (x2 : Vec Ideal S512x128 .f32) (x3 : Vec Ideal S1x128 .f32) :
    sout3_A_1 (F := Ideal) c i arg1 harg1 arg2 harg2 arg3 harg3 arg4 harg4 arg5 harg5 arg6 harg6 arg7 harg7 arg8 harg8 hc0 hc1 x0 x1 x2 x3 = (Cert.Lstm.run x1 (fun k => Cert.Lstm.slab x0 k) (zeroH, zeroH) 16).2 := by
  unfold sout3_A_1
  rw [View.read_writes_eq_canon _ _ _ (scover3_A_1 c i arg1 harg1 arg2 harg2 arg3 harg3 arg4 harg4 arg5 harg5 arg6 harg6 arg7 harg7 arg8 harg8 hc0 hc1 x0 x1 x2 x3)]
  unfold kernelRun3_A
  dsimp only
  first | sl_unfold_run_names | fail "names"
  first | rw [View.canon_cons_unit_zero hz2] | fail "canon"
  first | simp only [View.readAt_eq_ld, harg1.read_unread, harg2.read_unread, harg3.read_unread, harg4.read_unread, View.readCov_unit_zero (S := S64x512) _ hz2, View.ld_unit_zero (S := S64x512) hz2, View.ld_unit_zero (S := S512x2048) hz2, View.ld_unit_zero (S := S512x128) hz2, View.ld_unit_zero (S := S1x128) hz2] | fail "loads"
  first | simp only [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77_hcat, k3_pay78, k3_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h] | fail "fold"
  first | simp only [Prod.mk.eta] | skip
  first | rfl | fail "rfl"

set_option maxHeartbeats 2000000 in
theorem sout3_B_0_val (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : ¬cond3_1 i)
    (x0 : Vec Ideal S16x64x2048 .f32) (x1 : Vec Ideal S512x2048 .f32) (x2 : Vec Ideal S512x128 .f32) (x3 : Vec Ideal S1x128 .f32) (xs0 xs1 : Vec Ideal S64x512 .f32) :
    sout3_B_0 (F := Ideal) c i arg1 harg1 arg2 harg2 arg3 harg3 arg4 harg4 arg5 harg5 arg6 harg6 arg7 harg7 arg8 harg8 hc0 hc1 x0 x1 x2 x3 xs0 xs1 = (Cert.Lstm.run x1 (fun k => Cert.Lstm.slab x0 k) (xs0, xs1) 16).1 := by
  unfold sout3_B_0
  rw [View.read_writes_eq_canon _ _ _ (scover3_B_0 c i arg1 harg1 arg2 harg2 arg3 harg3 arg4 harg4 arg5 harg5 arg6 harg6 arg7 harg7 arg8 harg8 hc0 hc1 x0 x1 x2 x3 xs0 xs1)]
  unfold kernelRun3_B
  dsimp only
  first | sl_unfold_run_names | fail "names"
  first | rw [View.canon_unit_zero hz2] | fail "canon"
  first | simp only [View.readAt_eq_ld, harg1.read_unread, harg2.read_unread, harg3.read_unread, harg4.read_unread, harg7.read_unread, harg8.read_unread, View.ld_unit_zero (S := S64x512) hz2, View.ld_unit_zero (S := S512x2048) hz2, View.ld_unit_zero (S := S512x128) hz2, View.ld_unit_zero (S := S1x128) hz2] | fail "loads"
  first | simp only [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77_hcat, k3_pay78, k3_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h] | fail "fold"
  first | simp only [Prod.mk.eta] | skip
  first | rfl | fail "rfl"

set_option maxHeartbeats 2000000 in
theorem sout3_B_1_val (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : ¬cond3_1 i)
    (x0 : Vec Ideal S16x64x2048 .f32) (x1 : Vec Ideal S512x2048 .f32) (x2 : Vec Ideal S512x128 .f32) (x3 : Vec Ideal S1x128 .f32) (xs0 xs1 : Vec Ideal S64x512 .f32) :
    sout3_B_1 (F := Ideal) c i arg1 harg1 arg2 harg2 arg3 harg3 arg4 harg4 arg5 harg5 arg6 harg6 arg7 harg7 arg8 harg8 hc0 hc1 x0 x1 x2 x3 xs0 xs1 = (Cert.Lstm.run x1 (fun k => Cert.Lstm.slab x0 k) (xs0, xs1) 16).2 := by
  unfold sout3_B_1
  rw [View.read_writes_eq_canon _ _ _ (scover3_B_1 c i arg1 harg1 arg2 harg2 arg3 harg3 arg4 harg4 arg5 harg5 arg6 harg6 arg7 harg7 arg8 harg8 hc0 hc1 x0 x1 x2 x3 xs0 xs1)]
  unfold kernelRun3_B
  dsimp only
  first | sl_unfold_run_names | fail "names"
  first | rw [View.canon_unit_zero hz2] | fail "canon"
  first | simp only [View.readAt_eq_ld, harg1.read_unread, harg2.read_unread, harg3.read_unread, harg4.read_unread, harg7.read_unread, harg8.read_unread, View.ld_unit_zero (S := S64x512) hz2, View.ld_unit_zero (S := S512x2048) hz2, View.ld_unit_zero (S := S512x128) hz2, View.ld_unit_zero (S := S1x128) hz2] | fail "loads"
  first | simp only [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77_hcat, k3_pay78, k3_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h] | fail "fold"
  first | simp only [Prod.mk.eta] | skip
  first | rfl | fail "rfl"

set_option maxHeartbeats 2000000 in
theorem sout3_C_0_val (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : cond3_1 i)
    (x0 : Vec Ideal S16x64x2048 .f32) (x1 : Vec Ideal S512x2048 .f32) (x2 : Vec Ideal S512x128 .f32) (x3 : Vec Ideal S1x128 .f32) (xs0 xs1 : Vec Ideal S64x512 .f32) :
    sout3_C_0 (F := Ideal) c i arg1 harg1 arg2 harg2 arg3 harg3 arg4 harg4 arg5 harg5 arg6 harg6 arg7 harg7 arg8 harg8 hc0 hc1 x0 x1 x2 x3 xs0 xs1 = (Cert.Lstm.run x1 (fun k => Cert.Lstm.slab x0 k) (xs0, xs1) 16).1 := by
  unfold sout3_C_0
  rw [View.read_writes_eq_canon _ _ _ (scover3_C_0 c i arg1 harg1 arg2 harg2 arg3 harg3 arg4 harg4 arg5 harg5 arg6 harg6 arg7 harg7 arg8 harg8 hc0 hc1 x0 x1 x2 x3 xs0 xs1)]
  unfold kernelRun3_C
  dsimp only
  first | sl_unfold_run_names | fail "names"
  first | rw [View.canon_unit_zero hz2] | fail "canon"
  first | simp only [View.readAt_eq_ld, harg1.read_unread, harg2.read_unread, harg3.read_unread, harg4.read_unread, harg7.read_unread, harg8.read_unread, View.ld_unit_zero (S := S64x512) hz2, View.ld_unit_zero (S := S512x2048) hz2, View.ld_unit_zero (S := S512x128) hz2, View.ld_unit_zero (S := S1x128) hz2] | fail "loads"
  first | simp only [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77_hcat, k3_pay78, k3_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h] | fail "fold"
  first | simp only [Prod.mk.eta] | skip
  first | rfl | fail "rfl"

set_option maxHeartbeats 2000000 in
theorem sout3_C_1_val (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : cond3_1 i)
    (x0 : Vec Ideal S16x64x2048 .f32) (x1 : Vec Ideal S512x2048 .f32) (x2 : Vec Ideal S512x128 .f32) (x3 : Vec Ideal S1x128 .f32) (xs0 xs1 : Vec Ideal S64x512 .f32) :
    sout3_C_1 (F := Ideal) c i arg1 harg1 arg2 harg2 arg3 harg3 arg4 harg4 arg5 harg5 arg6 harg6 arg7 harg7 arg8 harg8 hc0 hc1 x0 x1 x2 x3 xs0 xs1 = (Cert.Lstm.run x1 (fun k => Cert.Lstm.slab x0 k) (xs0, xs1) 16).2 := by
  unfold sout3_C_1
  rw [View.read_writes_eq_canon _ _ _ (scover3_C_1 c i arg1 harg1 arg2 harg2 arg3 harg3 arg4 harg4 arg5 harg5 arg6 harg6 arg7 harg7 arg8 harg8 hc0 hc1 x0 x1 x2 x3 xs0 xs1)]
  unfold kernelRun3_C
  dsimp only
  first | sl_unfold_run_names | fail "names"
  first | rw [View.canon_unit_zero hz2] | fail "canon"
  first | simp only [View.readAt_eq_ld, harg1.read_unread, harg2.read_unread, harg3.read_unread, harg4.read_unread, harg7.read_unread, harg8.read_unread, View.ld_unit_zero (S := S64x512) hz2, View.ld_unit_zero (S := S512x2048) hz2, View.ld_unit_zero (S := S512x128) hz2, View.ld_unit_zero (S := S1x128) hz2] | fail "loads"
  first | simp only [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77_hcat, k3_pay78, k3_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h] | fail "fold"
  first | simp only [Prod.mk.eta] | skip
  first | rfl | fail "rfl"

set_option maxHeartbeats 2000000 in
theorem out3_C_5_val (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : cond3_1 i)
    (x0 : Vec Ideal S16x64x2048 .f32) (x1 : Vec Ideal S512x2048 .f32) (x2 : Vec Ideal S512x128 .f32) (x3 : Vec Ideal S1x128 .f32) (xs0 xs1 : Vec Ideal S64x512 .f32) :
    out3_C_5 (F := Ideal) c i arg1 harg1 arg2 harg2 arg3 harg3 arg4 harg4 arg5 harg5 arg6 harg6 arg7 harg7 arg8 harg8 hc0 hc1 x0 x1 x2 x3 xs0 xs1 = Cert.Lstm.head x2 x3 broadcasts_S1x128_S64x128 (Cert.Lstm.run x1 (fun k => Cert.Lstm.slab x0 k) (xs0, xs1) 16).1 := by
  unfold out3_C_5
  rw [View.read_writes_eq_canon _ _ _ (cover3_C_5 c i arg1 harg1 arg2 harg2 arg3 harg3 arg4 harg4 arg5 harg5 arg6 harg6 arg7 harg7 arg8 harg8 hc0 hc1 x0 x1 x2 x3 xs0 xs1)]
  unfold kernelRun3_C
  dsimp only
  first | sl_unfold_run_names | fail "names"
  first | rw [View.canon_unit_zero hz2] | fail "canon"
  first | simp only [View.readAt_eq_ld, harg1.read_unread, harg2.read_unread, harg3.read_unread, harg4.read_unread, harg7.read_unread, harg8.read_unread, View.ld_unit_zero (S := S64x512) hz2, View.ld_unit_zero (S := S512x2048) hz2, View.ld_unit_zero (S := S512x128) hz2, View.ld_unit_zero (S := S1x128) hz2] | fail "loads"
  first | simp only [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77_hcat, k3_pay78, k3_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h, fold_head] | fail "fold"
  first | simp only [Prod.mk.eta] | skip
  first | rfl | fail "rfl"

set_option maxHeartbeats 2000000 in
theorem out3_A_4_val (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : cond3_0 i) (hc1 : ¬cond3_1 i)
    (x0 : Vec Ideal S16x64x2048 .f32) (x1 : Vec Ideal S512x2048 .f32) (x2 : Vec Ideal S512x128 .f32) (x3 : Vec Ideal S1x128 .f32) :
    out3_A_4 (F := Ideal) c i arg1 harg1 arg2 harg2 arg3 harg3 arg4 harg4 arg5 harg5 arg6 harg6 arg7 harg7 arg8 harg8 hc0 hc1 x0 x1 x2 x3 = hcat16 ((Cert.Lstm.run x1 (fun k => Cert.Lstm.slab x0 k) (zeroH, zeroH) 1).1) ((Cert.Lstm.run x1 (fun k => Cert.Lstm.slab x0 k) (zeroH, zeroH) 2).1) ((Cert.Lstm.run x1 (fun k => Cert.Lstm.slab x0 k) (zeroH, zeroH) 3).1) ((Cert.Lstm.run x1 (fun k => Cert.Lstm.slab x0 k) (zeroH, zeroH) 4).1) ((Cert.Lstm.run x1 (fun k => Cert.Lstm.slab x0 k) (zeroH, zeroH) 5).1) ((Cert.Lstm.run x1 (fun k => Cert.Lstm.slab x0 k) (zeroH, zeroH) 6).1) ((Cert.Lstm.run x1 (fun k => Cert.Lstm.slab x0 k) (zeroH, zeroH) 7).1) ((Cert.Lstm.run x1 (fun k => Cert.Lstm.slab x0 k) (zeroH, zeroH) 8).1) ((Cert.Lstm.run x1 (fun k => Cert.Lstm.slab x0 k) (zeroH, zeroH) 9).1) ((Cert.Lstm.run x1 (fun k => Cert.Lstm.slab x0 k) (zeroH, zeroH) 10).1) ((Cert.Lstm.run x1 (fun k => Cert.Lstm.slab x0 k) (zeroH, zeroH) 11).1) ((Cert.Lstm.run x1 (fun k => Cert.Lstm.slab x0 k) (zeroH, zeroH) 12).1) ((Cert.Lstm.run x1 (fun k => Cert.Lstm.slab x0 k) (zeroH, zeroH) 13).1) ((Cert.Lstm.run x1 (fun k => Cert.Lstm.slab x0 k) (zeroH, zeroH) 14).1) ((Cert.Lstm.run x1 (fun k => Cert.Lstm.slab x0 k) (zeroH, zeroH) 15).1) ((Cert.Lstm.run x1 (fun k => Cert.Lstm.slab x0 k) (zeroH, zeroH) 16).1) := by
  unfold out3_A_4
  rw [View.read_writes_eq_canon _ _ _ (cover3_A_4 c i arg1 harg1 arg2 harg2 arg3 harg3 arg4 harg4 arg5 harg5 arg6 harg6 arg7 harg7 arg8 harg8 hc0 hc1 x0 x1 x2 x3)]
  unfold kernelRun3_A
  dsimp only
  first | sl_unfold_run_names | fail "names"
  first | rw [View.canon_unit_zero hz3] | fail "canon"
  first | simp only [View.readAt_eq_ld, harg1.read_unread, harg2.read_unread, harg3.read_unread, harg4.read_unread, View.readCov_unit_zero (S := S64x512) _ hz2, View.ld_unit_zero (S := S64x512) hz2, View.ld_unit_zero (S := S512x2048) hz2, View.ld_unit_zero (S := S512x128) hz2, View.ld_unit_zero (S := S1x128) hz2] | fail "loads"
  first | simp only [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77_hcat, k3_pay78, k3_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h] | fail "fold"
  first | simp only [Prod.mk.eta] | skip
  first | rfl | fail "rfl"

set_option maxHeartbeats 2000000 in
theorem out3_B_4_val (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : ¬cond3_1 i)
    (x0 : Vec Ideal S16x64x2048 .f32) (x1 : Vec Ideal S512x2048 .f32) (x2 : Vec Ideal S512x128 .f32) (x3 : Vec Ideal S1x128 .f32) (xs0 xs1 : Vec Ideal S64x512 .f32) :
    out3_B_4 (F := Ideal) c i arg1 harg1 arg2 harg2 arg3 harg3 arg4 harg4 arg5 harg5 arg6 harg6 arg7 harg7 arg8 harg8 hc0 hc1 x0 x1 x2 x3 xs0 xs1 = hcat16 ((Cert.Lstm.run x1 (fun k => Cert.Lstm.slab x0 k) (xs0, xs1) 1).1) ((Cert.Lstm.run x1 (fun k => Cert.Lstm.slab x0 k) (xs0, xs1) 2).1) ((Cert.Lstm.run x1 (fun k => Cert.Lstm.slab x0 k) (xs0, xs1) 3).1) ((Cert.Lstm.run x1 (fun k => Cert.Lstm.slab x0 k) (xs0, xs1) 4).1) ((Cert.Lstm.run x1 (fun k => Cert.Lstm.slab x0 k) (xs0, xs1) 5).1) ((Cert.Lstm.run x1 (fun k => Cert.Lstm.slab x0 k) (xs0, xs1) 6).1) ((Cert.Lstm.run x1 (fun k => Cert.Lstm.slab x0 k) (xs0, xs1) 7).1) ((Cert.Lstm.run x1 (fun k => Cert.Lstm.slab x0 k) (xs0, xs1) 8).1) ((Cert.Lstm.run x1 (fun k => Cert.Lstm.slab x0 k) (xs0, xs1) 9).1) ((Cert.Lstm.run x1 (fun k => Cert.Lstm.slab x0 k) (xs0, xs1) 10).1) ((Cert.Lstm.run x1 (fun k => Cert.Lstm.slab x0 k) (xs0, xs1) 11).1) ((Cert.Lstm.run x1 (fun k => Cert.Lstm.slab x0 k) (xs0, xs1) 12).1) ((Cert.Lstm.run x1 (fun k => Cert.Lstm.slab x0 k) (xs0, xs1) 13).1) ((Cert.Lstm.run x1 (fun k => Cert.Lstm.slab x0 k) (xs0, xs1) 14).1) ((Cert.Lstm.run x1 (fun k => Cert.Lstm.slab x0 k) (xs0, xs1) 15).1) ((Cert.Lstm.run x1 (fun k => Cert.Lstm.slab x0 k) (xs0, xs1) 16).1) := by
  unfold out3_B_4
  rw [View.read_writes_eq_canon _ _ _ (cover3_B_4 c i arg1 harg1 arg2 harg2 arg3 harg3 arg4 harg4 arg5 harg5 arg6 harg6 arg7 harg7 arg8 harg8 hc0 hc1 x0 x1 x2 x3 xs0 xs1)]
  unfold kernelRun3_B
  dsimp only
  first | sl_unfold_run_names | fail "names"
  first | rw [View.canon_unit_zero hz3] | fail "canon"
  first | simp only [View.readAt_eq_ld, harg1.read_unread, harg2.read_unread, harg3.read_unread, harg4.read_unread, harg7.read_unread, harg8.read_unread, View.ld_unit_zero (S := S64x512) hz2, View.ld_unit_zero (S := S512x2048) hz2, View.ld_unit_zero (S := S512x128) hz2, View.ld_unit_zero (S := S1x128) hz2] | fail "loads"
  first | simp only [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77_hcat, k3_pay78, k3_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h] | fail "fold"
  first | simp only [Prod.mk.eta] | skip
  first | rfl | fail "rfl"

set_option maxHeartbeats 2000000 in
theorem out3_C_4_val (c : Dev nD) (i : grid3.Coords) (arg1 : Memref sig .tc .vmem S16x64x2048 .f32) (harg1 : arg1.IsWhole) (arg2 : Memref sig .tc .vmem S512x2048 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S16x64x512 .f32) (harg5 : arg5.IsWhole) (arg6 : Memref sig .tc .vmem S64x128 .f32) (harg6 : arg6.IsWhole) (arg7 : Memref sig .tc .vmem S64x512 .f32) (harg7 : arg7.IsWhole) (arg8 : Memref sig .tc .vmem S64x512 .f32) (harg8 : arg8.IsWhole) (hc0 : ¬cond3_0 i) (hc1 : cond3_1 i)
    (x0 : Vec Ideal S16x64x2048 .f32) (x1 : Vec Ideal S512x2048 .f32) (x2 : Vec Ideal S512x128 .f32) (x3 : Vec Ideal S1x128 .f32) (xs0 xs1 : Vec Ideal S64x512 .f32) :
    out3_C_4 (F := Ideal) c i arg1 harg1 arg2 harg2 arg3 harg3 arg4 harg4 arg5 harg5 arg6 harg6 arg7 harg7 arg8 harg8 hc0 hc1 x0 x1 x2 x3 xs0 xs1 = hcat16 ((Cert.Lstm.run x1 (fun k => Cert.Lstm.slab x0 k) (xs0, xs1) 1).1) ((Cert.Lstm.run x1 (fun k => Cert.Lstm.slab x0 k) (xs0, xs1) 2).1) ((Cert.Lstm.run x1 (fun k => Cert.Lstm.slab x0 k) (xs0, xs1) 3).1) ((Cert.Lstm.run x1 (fun k => Cert.Lstm.slab x0 k) (xs0, xs1) 4).1) ((Cert.Lstm.run x1 (fun k => Cert.Lstm.slab x0 k) (xs0, xs1) 5).1) ((Cert.Lstm.run x1 (fun k => Cert.Lstm.slab x0 k) (xs0, xs1) 6).1) ((Cert.Lstm.run x1 (fun k => Cert.Lstm.slab x0 k) (xs0, xs1) 7).1) ((Cert.Lstm.run x1 (fun k => Cert.Lstm.slab x0 k) (xs0, xs1) 8).1) ((Cert.Lstm.run x1 (fun k => Cert.Lstm.slab x0 k) (xs0, xs1) 9).1) ((Cert.Lstm.run x1 (fun k => Cert.Lstm.slab x0 k) (xs0, xs1) 10).1) ((Cert.Lstm.run x1 (fun k => Cert.Lstm.slab x0 k) (xs0, xs1) 11).1) ((Cert.Lstm.run x1 (fun k => Cert.Lstm.slab x0 k) (xs0, xs1) 12).1) ((Cert.Lstm.run x1 (fun k => Cert.Lstm.slab x0 k) (xs0, xs1) 13).1) ((Cert.Lstm.run x1 (fun k => Cert.Lstm.slab x0 k) (xs0, xs1) 14).1) ((Cert.Lstm.run x1 (fun k => Cert.Lstm.slab x0 k) (xs0, xs1) 15).1) ((Cert.Lstm.run x1 (fun k => Cert.Lstm.slab x0 k) (xs0, xs1) 16).1) := by
  unfold out3_C_4
  rw [View.read_writes_eq_canon _ _ _ (cover3_C_4 c i arg1 harg1 arg2 harg2 arg3 harg3 arg4 harg4 arg5 harg5 arg6 harg6 arg7 harg7 arg8 harg8 hc0 hc1 x0 x1 x2 x3 xs0 xs1)]
  unfold kernelRun3_C
  dsimp only
  first | sl_unfold_run_names | fail "names"
  first | rw [View.canon_unit_zero hz3] | fail "canon"
  first | simp only [View.readAt_eq_ld, harg1.read_unread, harg2.read_unread, harg3.read_unread, harg4.read_unread, harg7.read_unread, harg8.read_unread, View.ld_unit_zero (S := S64x512) hz2, View.ld_unit_zero (S := S512x2048) hz2, View.ld_unit_zero (S := S512x128) hz2, View.ld_unit_zero (S := S1x128) hz2] | fail "loads"
  first | simp only [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77_hcat, k3_pay78, k3_pay79] | fail "unfold payloads"
  first | simp only [shapeCast_self, row_slab x0 0 inb_S16x64x2048_S1x64x2048_0_0_0 shapeCasts_S1x64x2048_S64x2048, row_slab x0 1 inb_S16x64x2048_S1x64x2048_1_0_0 shapeCasts_S1x64x2048_S64x2048, row_slab x0 2 inb_S16x64x2048_S1x64x2048_2_0_0 shapeCasts_S1x64x2048_S64x2048, row_slab x0 3 inb_S16x64x2048_S1x64x2048_3_0_0 shapeCasts_S1x64x2048_S64x2048, row_slab x0 4 inb_S16x64x2048_S1x64x2048_4_0_0 shapeCasts_S1x64x2048_S64x2048, row_slab x0 5 inb_S16x64x2048_S1x64x2048_5_0_0 shapeCasts_S1x64x2048_S64x2048, row_slab x0 6 inb_S16x64x2048_S1x64x2048_6_0_0 shapeCasts_S1x64x2048_S64x2048, row_slab x0 7 inb_S16x64x2048_S1x64x2048_7_0_0 shapeCasts_S1x64x2048_S64x2048, row_slab x0 8 inb_S16x64x2048_S1x64x2048_8_0_0 shapeCasts_S1x64x2048_S64x2048, row_slab x0 9 inb_S16x64x2048_S1x64x2048_9_0_0 shapeCasts_S1x64x2048_S64x2048, row_slab x0 10 inb_S16x64x2048_S1x64x2048_10_0_0 shapeCasts_S1x64x2048_S64x2048, row_slab x0 11 inb_S16x64x2048_S1x64x2048_11_0_0 shapeCasts_S1x64x2048_S64x2048, row_slab x0 12 inb_S16x64x2048_S1x64x2048_12_0_0 shapeCasts_S1x64x2048_S64x2048, row_slab x0 13 inb_S16x64x2048_S1x64x2048_13_0_0 shapeCasts_S1x64x2048_S64x2048, row_slab x0 14 inb_S16x64x2048_S1x64x2048_14_0_0 shapeCasts_S1x64x2048_S64x2048, row_slab x0 15 inb_S16x64x2048_S1x64x2048_15_0_0 shapeCasts_S1x64x2048_S64x2048] | fail "rows"
  first | simp only [fold_c, fold_h] | fail "fold"
  first | simp only [Prod.mk.eta] | skip
  first | rfl | fail "rfl"

end Cert.ReferenceIdeal.Hand

end
-- ==== Proof.Ref.Lstm3ValV.lean ====
import proofs.«114155_g2000202467955933_pallasbulk_1200_31_alg».proof.Proof.Ref.Lstm3Val

set_option maxRecDepth 65536

noncomputable section

namespace Cert.ReferenceIdeal.Hand

open Cert.ReferenceIdeal.Gen
open Idealize.ShloMosaic Idealize.ShloMosaic.TcCoe Idealize.ShloMosaic.Tactic
open Idealize.SL Idealize.SL.Sem
open Idealize.ShloMosaic.Pipeline (Dat)

section Region3
variable (V : (c : Dev nD) → (b : Ref sig .tc) → Buf (Elt Ideal) ((c : Thread nD τ).loc b))

/-! ## Pipeline 3 on the extended reals: each point runs the recurrence over its block's 16 time steps -/

/-- The first point: 16 steps from the zero state. -/
theorem stepA3_val (c : Dev nD) (t : Fin cfg3.N) (h0 : t.val % 16 = 0) (h1 : ¬t.val % 16 = 15) :
    stepA3 (F := Ideal) V c t h0 h1 = Cert.Lstm.run (iblk3 V c 1 t) (fun n => Cert.Lstm.slab (iblk3 V c 0 t) n) (zeroH, zeroH) 16 := by
  unfold stepA3
  have e0 := sout3_A_0_val c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t)
  have e1 := sout3_A_1_val c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t)
  rw [e0, e1]

/-- A middle point: 16 steps from the state `s` the point before left. -/
theorem stepB3_val (c : Dev nD) (t : Fin cfg3.N) (h0 : ¬t.val % 16 = 0) (h1 : ¬t.val % 16 = 15) (s : FVec Ideal S64x512 .f32 × FVec Ideal S64x512 .f32) :
    stepB3 (F := Ideal) V c t h0 h1 s = Cert.Lstm.run (iblk3 V c 1 t) (fun n => Cert.Lstm.slab (iblk3 V c 0 t) n) s 16 := by
  unfold stepB3
  have e0 := sout3_B_0_val c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) s.1 s.2
  have e1 := sout3_B_1_val c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) s.1 s.2
  rw [e0, e1]

/-- The last point: the same. -/
theorem stepC3_val (c : Dev nD) (t : Fin cfg3.N) (h0 : ¬t.val % 16 = 0) (h1 : t.val % 16 = 15) (s : FVec Ideal S64x512 .f32 × FVec Ideal S64x512 .f32) :
    stepC3 (F := Ideal) V c t h0 h1 s = Cert.Lstm.run (iblk3 V c 1 t) (fun n => Cert.Lstm.slab (iblk3 V c 0 t) n) s 16 := by
  unfold stepC3
  have e0 := sout3_C_0_val c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) s.1 s.2
  have e1 := sout3_C_1_val c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) s.1 s.2
  rw [e0, e1]

/-- The block of hidden states a point stores: row `r` is the hidden state after `r + 1` steps. -/
theorem hseqA3_val (c : Dev nD) (t : Fin cfg3.N) (h0 : t.val % 16 = 0) (h1 : ¬t.val % 16 = 15) (r : Fin 16) (b : Fin 64) (j : Fin 512) :
    hseqA3 (F := Ideal) V c t h0 h1 (ValueIdx.ix3 r b j) = (Cert.Lstm.run (iblk3 V c 1 t) (fun n => Cert.Lstm.slab (iblk3 V c 0 t) n) (zeroH, zeroH) (r.val + 1)).1 (ValueIdx.ix2 b j) := by
  unfold hseqA3
  exact (congrFun (out3_A_4_val c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t)) _).trans (hcat16_apply (fun n => (Cert.Lstm.run (iblk3 V c 1 t) (fun n => Cert.Lstm.slab (iblk3 V c 0 t) n) (zeroH, zeroH) (n + 1)).1) r b j)
theorem hseqB3_val (c : Dev nD) (t : Fin cfg3.N) (h0 : ¬t.val % 16 = 0) (h1 : ¬t.val % 16 = 15) (s : FVec Ideal S64x512 .f32 × FVec Ideal S64x512 .f32) (r : Fin 16) (b : Fin 64) (j : Fin 512) :
    hseqB3 (F := Ideal) V c t h0 h1 s (ValueIdx.ix3 r b j) = (Cert.Lstm.run (iblk3 V c 1 t) (fun n => Cert.Lstm.slab (iblk3 V c 0 t) n) s (r.val + 1)).1 (ValueIdx.ix2 b j) := by
  unfold hseqB3
  exact (congrFun (out3_B_4_val c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) s.1 s.2) _).trans (hcat16_apply (fun n => (Cert.Lstm.run (iblk3 V c 1 t) (fun n => Cert.Lstm.slab (iblk3 V c 0 t) n) s (n + 1)).1) r b j)
theorem hseqC3_val (c : Dev nD) (t : Fin cfg3.N) (h0 : ¬t.val % 16 = 0) (h1 : t.val % 16 = 15) (s : FVec Ideal S64x512 .f32 × FVec Ideal S64x512 .f32) (r : Fin 16) (b : Fin 64) (j : Fin 512) :
    hseqC3 (F := Ideal) V c t h0 h1 s (ValueIdx.ix3 r b j) = (Cert.Lstm.run (iblk3 V c 1 t) (fun n => Cert.Lstm.slab (iblk3 V c 0 t) n) s (r.val + 1)).1 (ValueIdx.ix2 b j) := by
  unfold hseqC3
  exact (congrFun (out3_C_4_val c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) s.1 s.2) _).trans (hcat16_apply (fun n => (Cert.Lstm.run (iblk3 V c 1 t) (fun n => Cert.Lstm.slab (iblk3 V c 0 t) n) s (n + 1)).1) r b j)

/-- The projection the last point stores: the classifier head on the hidden state after its 16 steps. -/
theorem fcC3_val (c : Dev nD) (t : Fin cfg3.N) (h0 : ¬t.val % 16 = 0) (h1 : t.val % 16 = 15) (s : FVec Ideal S64x512 .f32 × FVec Ideal S64x512 .f32) :
    fcC3 (F := Ideal) V c t h0 h1 s = Cert.Lstm.head (iblk3 V c 2 t) (iblk3 V c 3 t) broadcasts_S1x128_S64x128 (Cert.Lstm.run (iblk3 V c 1 t) (fun n => Cert.Lstm.slab (iblk3 V c 0 t) n) s 16).1 := by
  unfold fcC3
  exact out3_C_5_val c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) s.1 s.2

/-! ## The same, point by point over the grid -/

/-- After the first point. -/
theorem st3_val_zero (c : Dev nD) :
    st3 (F := Ideal) V c 0 = Cert.Lstm.run (iblk3 V c 1 t3_0) (fun n => Cert.Lstm.slab (iblk3 V c 0 t3_0) n) (zeroH, zeroH) 16 :=
  (st3_zero V c).trans (stepA3_val V c t3_0 rfl (by decide))

/-- After a later point `t`: 16 steps over block `t` from what the point before left. -/
theorem st3_val_pos (c : Dev nD) (t : Fin cfg3.N) (h0 : ¬t.val % 16 = 0) :
    st3 (F := Ideal) V c t.val = Cert.Lstm.run (iblk3 V c 1 t) (fun n => Cert.Lstm.slab (iblk3 V c 0 t) n) (st3 V c (t.val - 1)) 16 := by
  by_cases h1 : t.val % 16 = 15
  · exact (st3_C V c t h0 h1).trans (stepC3_val V c t h0 h1 _)
  · exact (st3_B V c t h0 h1).trans (stepB3_val V c t h0 h1 _)

/-- The hidden states the first point stores. -/
theorem hseq3_val_zero (c : Dev nD) (t : Fin cfg3.N) (h0 : t.val % 16 = 0) (r : Fin 16) (b : Fin 64) (j : Fin 512) :
    hseq3 (F := Ideal) V c t (ValueIdx.ix3 r b j) = (Cert.Lstm.run (iblk3 V c 1 t) (fun n => Cert.Lstm.slab (iblk3 V c 0 t) n) (zeroH, zeroH) (r.val + 1)).1 (ValueIdx.ix2 b j) := by
  have h1 : ¬t.val % 16 = 15 := by omega
  rw [hseq3_A V c t h0 h1]
  exact hseqA3_val V c t h0 h1 r b j

/-- The hidden states a later point stores. -/
theorem hseq3_val_pos (c : Dev nD) (t : Fin cfg3.N) (h0 : ¬t.val % 16 = 0) (r : Fin 16) (b : Fin 64) (j : Fin 512) :
    hseq3 (F := Ideal) V c t (ValueIdx.ix3 r b j) = (Cert.Lstm.run (iblk3 V c 1 t) (fun n => Cert.Lstm.slab (iblk3 V c 0 t) n) (st3 V c (t.val - 1)) (r.val + 1)).1 (ValueIdx.ix2 b j) := by
  by_cases h1 : t.val % 16 = 15
  · rw [hseq3_C V c t h0 h1]; exact hseqC3_val V c t h0 h1 _ r b j
  · rw [hseq3_B V c t h0 h1]; exact hseqB3_val V c t h0 h1 _ r b j

/-- The projection output: the head on the last hidden state. -/
theorem fc3_val (c : Dev nD) :
    fc3 (F := Ideal) V c = Cert.Lstm.head (iblk3 V c 2 t3_15) (iblk3 V c 3 t3_15) broadcasts_S1x128_S64x128 (st3 V c 15).1 := by
  have e : st3 (F := Ideal) V c 15 = _ := st3_val_pos V c t3_15 (by decide)
  rw [e]
  exact fcC3_val V c t3_15 (by decide) (by decide) _

/-! ## The windows whose block is their whole array -/

theorem idx3_in1 : ∀ t : Fin cfg3.N, win3_1.index t (0 : Fin 2) = 0 ∧ win3_1.index t (1 : Fin 2) = 0 :=
  (by decide +kernel : ∀ t : Fin grid3.N, _)

/-- Window 1's block is its whole array at every point. -/
theorem iblk3_whole_1 (c : Dev nD) (t : Fin cfg3.N) : (iblk3 V c 1 t : Vec Ideal S512x2048 .f32) = V c main_call0_v12 := by
  obtain ⟨e0, e1⟩ := idx3_in1 t
  have hz' : (fun a => win3_1.index t a * main_call0_v12.ty.shape.size a) = fun _ => 0 := funext fun a => by
    match a with
    | ⟨0, _⟩ => show win3_1.index t (0 : Fin 2) * _ = 0; rw [e0]; exact Nat.zero_mul _
    | ⟨1, _⟩ => show win3_1.index t (1 : Fin 2) * _ = 0; rw [e1]; exact Nat.zero_mul _
  exact Memref.read_access_unit_zero (Elt Ideal) main_call0_v12 hz' (fun a => by rw [congrFun hz' a]; simp) (V c main_call0_v12)

theorem idx3_in2 : ∀ t : Fin cfg3.N, win3_2.index t (0 : Fin 2) = 0 ∧ win3_2.index t (1 : Fin 2) = 0 :=
  (by decide +kernel : ∀ t : Fin grid3.N, _)

/-- Window 2's block is its whole array at every point. -/
theorem iblk3_whole_2 (c : Dev nD) (t : Fin cfg3.N) : (iblk3 V c 2 t : Vec Ideal S512x128 .f32) = V c main_call0_v0 := by
  obtain ⟨e0, e1⟩ := idx3_in2 t
  have hz' : (fun a => win3_2.index t a * main_call0_v0.ty.shape.size a) = fun _ => 0 := funext fun a => by
    match a with
    | ⟨0, _⟩ => show win3_2.index t (0 : Fin 2) * _ = 0; rw [e0]; exact Nat.zero_mul _
    | ⟨1, _⟩ => show win3_2.index t (1 : Fin 2) * _ = 0; rw [e1]; exact Nat.zero_mul _
  exact Memref.read_access_unit_zero (Elt Ideal) main_call0_v0 hz' (fun a => by rw [congrFun hz' a]; simp) (V c main_call0_v0)

theorem idx3_in3 : ∀ t : Fin cfg3.N, win3_3.index t (0 : Fin 2) = 0 ∧ win3_3.index t (1 : Fin 2) = 0 :=
  (by decide +kernel : ∀ t : Fin grid3.N, _)

/-- Window 3's block is its whole array at every point. -/
theorem iblk3_whole_3 (c : Dev nD) (t : Fin cfg3.N) : (iblk3 V c 3 t : Vec Ideal S1x128 .f32) = V c main_call0_v1 := by
  obtain ⟨e0, e1⟩ := idx3_in3 t
  have hz' : (fun a => win3_3.index t a * main_call0_v1.ty.shape.size a) = fun _ => 0 := funext fun a => by
    match a with
    | ⟨0, _⟩ => show win3_3.index t (0 : Fin 2) * _ = 0; rw [e0]; exact Nat.zero_mul _
    | ⟨1, _⟩ => show win3_3.index t (1 : Fin 2) * _ = 0; rw [e1]; exact Nat.zero_mul _
  exact Memref.read_access_unit_zero (Elt Ideal) main_call0_v1 hz' (fun a => by rw [congrFun hz' a]; simp) (V c main_call0_v1)

/-- A time step of the gate-input window's block at point `t` is that time step of the array: row `16 t + r`. -/
theorem slab_iblk3 (c : Dev nD) (t : Fin cfg3.N) (r : ℕ) (hr : r < 16) (i : Cert.Lstm.SG.Idx) (kk : S256x64x2048.Idx)
    (hk0 : (kk 0).val = 16 * t.val + r) (hk1 : (kk 1).val = (i 0).val) (hk2 : (kk 2).val = (i 1).val) :
    Cert.Lstm.slab (iblk3 V c 0 t) r i = (V c main_call0_v17 : S256x64x2048.Idx → Ideal .f32) kk := by
  have hi : win3_0.index t (0 : Fin 3) = t.val ∧ win3_0.index t (1 : Fin 3) = 0 ∧ win3_0.index t (2 : Fin 3) = 0 :=
    (by decide +kernel : ∀ t : Fin grid3.N, win3_0.index t (0 : Fin 3) = t.val ∧ win3_0.index t (1 : Fin 3) = 0 ∧ win3_0.index t (2 : Fin 3) = 0) t
  unfold Cert.Lstm.slab iblk3
  rw [View.read_apply]
  show V c main_call0_v17 _ = V c main_call0_v17 _
  congr 1
  funext a
  apply Fin.ext
  match a with
  | ⟨0, _⟩ => show win3_0.index t (0 : Fin 3) * 16 + 1 * (r % 16) = (kk 0).val; rw [hi.1, hk0, Nat.mod_eq_of_lt hr]; omega
  | ⟨1, _⟩ => show win3_0.index t (1 : Fin 3) * 64 + 1 * (i 0).val = (kk 1).val; rw [hi.2.1, hk1]; omega
  | ⟨2, _⟩ => show win3_0.index t (2 : Fin 3) * 2048 + 1 * (i 1).val = (kk 2).val; rw [hi.2.2, hk2]; omega

end Region3

end Cert.ReferenceIdeal.Hand

end
-- ==== Proof.Ref.Layer1.lean ====
/-
  Layer 1's recurrence in the reference is the specification's layer.

  The region keeps the LSTM state between its 16 grid points; each point runs 16 time steps over its block of gate
  inputs, and those are the projection's rows of time steps 16 t … 16 t + 15. So the state after point n is the layer's
  run after 16 (n + 1) time steps.
-/
import proofs.«114155_g2000202467955933_pallasbulk_1200_31_alg».proof.Proof.Ref.Layer0
import proofs.«114155_g2000202467955933_pallasbulk_1200_31_alg».proof.Proof.Ref.Lstm3ValV

set_option maxRecDepth 16384

noncomputable section

namespace Cert.ReferenceIdeal.Hand

open Idealize.ShloMosaic Idealize.ShloMosaic.TcCoe Idealize.ShloMosaic.ValueIdx
open Idealize.SL Idealize.SL.Sem
open Cert.ReferenceIdeal Cert.ReferenceIdeal.Gen

variable (m : (ℓ : Loc nD τ sig) → Buf (Elt Ideal) ℓ) (ρ : Dev nD → PrngReg)

/-- THE STATE after point `n` of region 3: layer 1's run after `16 (n + 1)` time steps. -/
theorem st3_layer (c : Dev nD) (n : ℕ) (hn : n < 16) :
    st3 (U7 m ρ) c n = Cert.Lstm.layer (K := 512) (U5 m ρ c main_call0_v15) (U5 m ρ c main_call0_v11) (U5 m ρ c main_call0_v14) (U5 m ρ c main_call0_v12) (16 * (n + 1)) := by
  refine states_are_layer (N' := cfg3.N) N_3 _ _ _ _ (fun n => st3 (U7 m ρ) c n) (fun t => iblk3 (U7 m ρ) c 0 t) ?_ ?_ ?_ n hn
  · intro t ht
    obtain rfl : t = t3_0 := Fin.ext ht
    show st3 (U7 m ρ) c 0 = _
    rw [st3_val_zero (U7 m ρ) c, iblk3_whh, zeroH_pair]
  · intro t ht
    have hlt : t.val < 16 := by have h := t.isLt; have e : cfg3.N = 16 := N_3; omega
    show st3 (U7 m ρ) c t.val = _
    rw [st3_val_pos (U7 m ρ) c t (by omega), iblk3_whh]
  · intro t k hk
    exact gate_inputs3 m ρ c t k hk

end Cert.ReferenceIdeal.Hand

end
-- ==== Proof.Ref.Value.lean ====
/-
  The reference's result is the specification's: each layer's classifier head on the state after all 256 time steps,
  layer 1 fed by layer 0's stacked hidden states, the two outputs stacked.
-/
import proofs.«114155_g2000202467955933_pallasbulk_1200_31_alg».proof.Proof.Ref.Full
import proofs.«114155_g2000202467955933_pallasbulk_1200_31_alg».proof.Proof.Ref.Tail
import proofs.«114155_g2000202467955933_pallasbulk_1200_31_alg».proof.Proof.Ref.Layer1
import proofs.«114155_g2000202467955933_pallasbulk_1200_31_alg».proof.Proof.Ref.Lstm3ValV

set_option maxRecDepth 16384

noncomputable section

namespace Cert.ReferenceIdeal.Hand

open Idealize.ShloMosaic Idealize.ShloMosaic.TcCoe Idealize.SL.Sem
open Cert.ReferenceIdeal Cert.ReferenceIdeal.Gen

variable (m : (ℓ : Loc nD τ sig) → Buf (Elt Ideal) ℓ) (ρ : Dev nD → PrngReg)

/-- Layer 0's classifier output: the head on layer 0's state after 256 time steps. -/
theorem ref_fc1 (c : Dev nD) :
    fc1 (U3 m ρ) c = Cert.Lstm.head (U1 m ρ c main_call0_v0) (U1 m ρ c main_call0_v1) broadcasts_S1x128_S64x128
      (Cert.Lstm.layer (K := 256) (U1 m ρ c main_call0_v7) (U1 m ρ c main_call0_v3) (U1 m ρ c main_call0_v6) (U1 m ρ c main_call0_v4) 256).1 := by
  rw [fc1_val, iblk1_wfc, iblk1_bfc, st1_layer m ρ c 15 (by decide)]

/-- Layer 1's classifier output: the head on layer 1's state after 256 time steps, its input rows layer 0's hidden states. -/
theorem ref_fc3 (c : Dev nD) :
    fc3 (U7 m ρ) c = Cert.Lstm.head (U1 m ρ c main_call0_v0) (U1 m ρ c main_call0_v1) broadcasts_S1x128_S64x128
      (Cert.Lstm.layer (K := 512)
        (Cert.Lstm.hiddenRows (K := 256) (U1 m ρ c main_call0_v7) (U1 m ρ c main_call0_v3) (U1 m ρ c main_call0_v6) (U1 m ρ c main_call0_v4))
        (U5 m ρ c main_call0_v11) (U5 m ρ c main_call0_v14) (U5 m ρ c main_call0_v12) 256).1 := by
  rw [fc3_val, iblk3_wfc, iblk3_bfc, st3_layer m ρ c 15 (by decide), hidden_rows]

/-- The returned array. -/
theorem ref_result (c : Dev nD) :
    (W9 m ρ c (Proc.devRef .tc main_v0) : Vec Ideal S128x128 .f32)
      = concatenate S128x128 0
          [⟨S64x128, Cert.Lstm.head (U1 m ρ c main_call0_v0) (U1 m ρ c main_call0_v1) broadcasts_S1x128_S64x128
              (Cert.Lstm.layer (K := 256) (U1 m ρ c main_call0_v7) (U1 m ρ c main_call0_v3) (U1 m ρ c main_call0_v6) (U1 m ρ c main_call0_v4) 256).1⟩,
           ⟨S64x128, Cert.Lstm.head (U1 m ρ c main_call0_v0) (U1 m ρ c main_call0_v1) broadcasts_S1x128_S64x128
              (Cert.Lstm.layer (K := 512)
                (Cert.Lstm.hiddenRows (K := 256) (U1 m ρ c main_call0_v7) (U1 m ρ c main_call0_v3) (U1 m ρ c main_call0_v6) (U1 m ρ c main_call0_v4))
                (U5 m ρ c main_call0_v11) (U5 m ρ c main_call0_v14) (U5 m ρ c main_call0_v12) 256).1⟩]
          concatenates_S64x128_S64x128_S128x128_d0 := by
  rw [W9_v0, W8_fc1, W8_fc3, ref_fc1, ref_fc3]

end Cert.ReferenceIdeal.Hand

end
-- ==== Proof.Bridge.Result.lean ====
/-
  The common value of the two programs' results: the specification's two classifier outputs stacked, over the kernel
  program's entry arrays — which are the reference's when the two launch memories agree on the arguments.
-/
import proofs.«114155_g2000202467955933_pallasbulk_1200_31_alg».proof.Proof.Bridge.Entry
import proofs.«114155_g2000202467955933_pallasbulk_1200_31_alg».proof.Proof.Ref.Value

set_option maxRecDepth 16384

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (ρ' : Dev Cert.ReferenceIdeal.nD → PrngReg)

/-- The specification's result over the kernel program's entry arrays. -/
def result (c : Dev Cert.KernelIdeal.nD) : Vec Ideal Cert.KernelIdeal.S128x128 .f32 :=
  concatenate Cert.KernelIdeal.S128x128 0
    [⟨Cert.KernelIdeal.S64x128, Cert.Lstm.head (Cert.KernelIdeal.Gen.V m c Cert.KernelIdeal.main_call0_v16 : FVec Ideal ⟨2, ![512, 128]⟩ .f32) (Cert.KernelIdeal.Gen.V m c Cert.KernelIdeal.main_call0_v17 : FVec Ideal ⟨2, ![1, 128]⟩ .f32) Cert.KernelIdeal.Facts₀.broadcasts_S1x128_S64x128
        (Cert.Lstm.layer (K := 256) (Cert.KernelIdeal.Gen.V m c Cert.KernelIdeal.main_call0_v2 : FVec Ideal ⟨2, ![16384, 256]⟩ .f32) (Cert.KernelIdeal.Gen.V m c Cert.KernelIdeal.main_call0_v4 : FVec Ideal ⟨2, ![256, 2048]⟩ .f32) (Cert.KernelIdeal.Gen.V m c Cert.KernelIdeal.main_call0_v8 : FVec Ideal ⟨2, ![1, 2048]⟩ .f32) (Cert.KernelIdeal.Gen.V m c Cert.KernelIdeal.main_call0_v6 : FVec Ideal ⟨2, ![512, 2048]⟩ .f32) 256).1⟩,
     ⟨Cert.KernelIdeal.S64x128, Cert.Lstm.head (Cert.KernelIdeal.Gen.V m c Cert.KernelIdeal.main_call0_v16 : FVec Ideal ⟨2, ![512, 128]⟩ .f32) (Cert.KernelIdeal.Gen.V m c Cert.KernelIdeal.main_call0_v17 : FVec Ideal ⟨2, ![1, 128]⟩ .f32) Cert.KernelIdeal.Facts₀.broadcasts_S1x128_S64x128
        (Cert.Lstm.layer (K := 512) (Cert.Lstm.hiddenRows (K := 256) (Cert.KernelIdeal.Gen.V m c Cert.KernelIdeal.main_call0_v2 : FVec Ideal ⟨2, ![16384, 256]⟩ .f32) (Cert.KernelIdeal.Gen.V m c Cert.KernelIdeal.main_call0_v4 : FVec Ideal ⟨2, ![256, 2048]⟩ .f32) (Cert.KernelIdeal.Gen.V m c Cert.KernelIdeal.main_call0_v8 : FVec Ideal ⟨2, ![1, 2048]⟩ .f32) (Cert.KernelIdeal.Gen.V m c Cert.KernelIdeal.main_call0_v6 : FVec Ideal ⟨2, ![512, 2048]⟩ .f32)) (Cert.KernelIdeal.Gen.V m c Cert.KernelIdeal.main_call0_v10 : FVec Ideal ⟨2, ![512, 2048]⟩ .f32) (Cert.KernelIdeal.Gen.V m c Cert.KernelIdeal.main_call0_v14 : FVec Ideal ⟨2, ![1, 2048]⟩ .f32) (Cert.KernelIdeal.Gen.V m c Cert.KernelIdeal.main_call0_v12 : FVec Ideal ⟨2, ![512, 2048]⟩ .f32) 256).1⟩]
    Cert.KernelIdeal.Facts₀.concatenates_S64x128_S64x128_S128x128_d0

/-- The reference returns it, when its launch memory agrees with the kernel program's on the arguments. -/
theorem ref_returns (hag : Agree m m') (c : Dev Cert.KernelIdeal.nD) :
    (Cert.ReferenceIdeal.Hand.W9 m' ρ' c (Proc.devRef .tc Cert.ReferenceIdeal.main_v0) : Vec Ideal Cert.ReferenceIdeal.S128x128 .f32)
      = result m c := by
  rw [Cert.ReferenceIdeal.Hand.ref_result]
  unfold result
  rw [xtm_eq m m' ρ' hag c, wih0_eq m m' ρ' hag c, whh0_eq m m' ρ' hag c, b0_eq m m' ρ' hag c, wih1_eq m m' ρ' hag c,
    whh1_eq m m' ρ' hag c, b1_eq m m' ρ' hag c, wfc_eq m m' ρ' hag c, bfc_eq m m' ρ' hag c]

end Cert.Bridge

end
-- ==== Proof.Bridge.Kernel.lean ====
/-
  The kernel program returns the specification's result: its host tail stacks the two output arrays, and those are the
  two classifier outputs of the specification over the kernel program's own entry arrays.
-/
import proofs.«114155_g2000202467955933_pallasbulk_1200_31_alg».proof.Proof.KI.Result
import proofs.«114155_g2000202467955933_pallasbulk_1200_31_alg».proof.Proof.KI.OutArr
import proofs.«114155_g2000202467955933_pallasbulk_1200_31_alg».proof.Proof.KI.RunValue
import proofs.«114155_g2000202467955933_pallasbulk_1200_31_alg».proof.Proof.Bridge.Result

set_option maxRecDepth 16384

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ)

theorem kernel_returns (c : Dev Cert.KernelIdeal.nD) :
    Pipeline.afterTail₀ Cert.KernelIdeal.cfgs (Cert.KernelIdeal.Hand.dats m) 0 (Cert.KernelIdeal.Gen.V0 m) [Cert.KernelIdeal.Gen.hostOps1] c Cert.KernelIdeal.main_v0
      = result m c := by
  refine (Cert.KernelIdeal.Hand.tail_v0 m (Cert.KernelIdeal.Hand.dats m) c).trans ?_
  rw [Cert.KernelIdeal.Hand.arrAt9 m c, Cert.KernelIdeal.Hand.arrAt10 m c, Cert.KernelIdeal.Hand.out9_val m c, Cert.KernelIdeal.Hand.out10_val m c]
  rfl

end Cert.Bridge

end
-- ==== Proof.lean ====
/-
  A software-pipelined two-layer LSTM classifier against its layer-by-layer reference, on the extended reals.

  The specification (Proof/LstmSpec.lean): time-major rows X (row 64·s + b = batch element b at time step s); a layer
  runs the recurrence  g = (X·W_ih + b)[time step] + h·W_hh,  c' = f·c + i·g̃,  h' = o·tanh c'  from the zero state; layer 1's
  input rows are layer 0's hidden states; each layer's state after all 256 time steps goes through one classifier head;
  the two head outputs are stacked.

  The reference computes exactly this in four kernel regions (an input projection and a block-wise recurrence per layer,
  the recurrence's state carried between blocks of 16 time steps).  The kernel computes it in ONE region of 17 grid
  points: point n runs layer 0 on block min(n, 15) and layer 1 on block n − 1, whose gate inputs the point before left in
  scratch; what the scratch holds before the first point is masked, so nothing depends on it.  Three facts join the two:
    · the logistic function is 1/2 + (1/2)·tanh(x/2) at every extended real (Proof/SigmoidLaw.lean), and cutting gate
      columns commutes with the pointwise operations (Proof/LstmCell.lean);
    · rows of a matrix product depend only on the same rows of the left operand, so gate inputs formed on a whole block
      at once, or on 512 rows at a time, are the specification's (Proof/MatmulPlain.lean, Proof/KernelGates.lean);
    · a run of 16·(n+1) steps is a run of 16·n steps followed by 16 more, so states kept block by block — started with
      the first block or one block late — are the layer's run sampled every 16 steps (Proof/LstmBlocks.lean).
  Narrowing a matrix operand to bf16 is the identity on the extended reals, so the kernel's narrowed operands are the
  reference's.  No finiteness of the inputs is used: every law above holds at the infinities too.

  The three frames: each program's run, region by region and grid point by grid point, with every buffer's contents named
  (Proof/K, Proof/KI for the kernel at its two instances; Proof/Ref for the reference); the arguments are never written.
-/
import proofs.«114155_g2000202467955933_pallasbulk_1200_31_alg».proof.Defs
import proofs.«114155_g2000202467955933_pallasbulk_1200_31_alg».proof.Proof.Gen.Kernel
import proofs.«114155_g2000202467955933_pallasbulk_1200_31_alg».proof.Proof.Gen.KernelIdeal
import proofs.«114155_g2000202467955933_pallasbulk_1200_31_alg».proof.Proof.Gen.ReferenceIdeal
import proofs.«114155_g2000202467955933_pallasbulk_1200_31_alg».proof.Proof.Gen.Pre_finite_inputs
import proofs.«114155_g2000202467955933_pallasbulk_1200_31_alg».proof.Proof.K.Frame
import proofs.«114155_g2000202467955933_pallasbulk_1200_31_alg».proof.Proof.KI.Frame
import proofs.«114155_g2000202467955933_pallasbulk_1200_31_alg».proof.Proof.Bridge.Kernel
import proofs.«114155_g2000202467955933_pallasbulk_1200_31_alg».proof.Proof.Ref.Full

set_option maxRecDepth 16384

noncomputable section

namespace Cert.Proof

open Idealize.ShloMosaic Idealize.SL.Sem

/-- The kernel program as printed runs, and leaves its arguments unchanged. -/
theorem frame_k : @Cert.frame_Kernel Cert.Kernel.Gen.facts Cert.Pre_finite_inputs.Gen.facts :=
  fun m ρ _ => Cert.Kernel.Hand.frame (F := Bits) m ρ

/-- So does its reading on the extended reals. -/
theorem frame_ki : @Cert.frame_KernelIdeal Cert.KernelIdeal.Gen.facts Cert.Pre_finite_inputs.Gen.facts :=
  fun m ρ _ => Cert.KernelIdeal.Hand.frame (F := Ideal) m ρ

/-- And the reference. -/
theorem frame_ri : @Cert.frame_ReferenceIdeal Cert.ReferenceIdeal.Gen.facts Cert.Pre_finite_inputs.Gen.facts :=
  fun m ρ _ => Cert.ReferenceIdeal.Hand.frame (F := Ideal) m ρ

/-- From memories that agree on the arguments both programs return the specification's result. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Bridge.result m c, ?_, ?_⟩
  · exact Cert.KernelIdeal.Hand.run_with (F := Ideal) m ρ (Cert.KernelIdeal.Hand.dats m) (Cert.KernelIdeal.Hand.run_main m ρ)
      (fun c => Cert.Bridge.result m c) (fun c => Cert.Bridge.kernel_returns m c)
  · exact (θ_run (Cert.ReferenceIdeal.defs (F := Ideal)) _ _).mono
      (fun _ h c => ⟨(h c).1.trans (Cert.Bridge.ref_returns m m' ρ' hagree c), (h c).2⟩)
      (Cert.ReferenceIdeal.Hand.run_full (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
